-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S10000 : Shape := ⟨1, ![10000]⟩
abbrev S96x96 : Shape := ⟨2, ![96, 96]⟩
abbrev S96 : Shape := ⟨1, ![96]⟩
abbrev S288x96 : Shape := ⟨2, ![288, 96]⟩
abbrev S288x32 : Shape := ⟨2, ![288, 32]⟩
abbrev S32 : Shape := ⟨1, ![32]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S288x96 : S_.BroadcastsInDim S288x96 (![] : Fin 0 → Fin S288x96.rank)
  reducesTo_S288x96_S_d0_1 : S288x96.ReducesTo [0, 1] S_
  bcast_S_S288x32 : S_.BroadcastsInDim S288x32 (![] : Fin 0 → Fin S288x32.rank)
  reducesTo_S288x32_S_d0_1 : S288x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_arg21 : FVec F S32 .f32) (main_arg22 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg22
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  main_v98

def fn_part4 {F : FTy → Type} [FloatOps F] (main_arg17 : FVec F S96 .f32) (main_arg18 : FVec F S96 .f32) (main_arg19 : FVec F S288x32 .f32) (main_arg20 : FVec F S32 .f32) (main_arg21 : FVec F S32 .f32) (main_arg22 : FVec F S32 .f32) (main_v63 : IVec S_ 1) (main_v67 : IVec S_ 1) : IVec S_ 1 :=
  let main_v68 : IVec S_ 1 := andi main_v63 main_v67
  let main_v69 : FVec F S96 .f32 := Host.absf main_arg17
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  let main_v74 : FVec F S96 .f32 := Host.absf main_arg18
  let main_cst_28 : FVec F S_ .f32 := constant S_ .f32 0x7F800000#32
  let main_v75 : FVec F S96 .f32 := broadcastInDim S96 ![] bcast_S_S96 main_cst_28
  let main_v76 : IVec S96 1 := cmpf .olt main_v74 main_v75
  let main_c_29 : IVec S_ 1 := constantI S_ 1 1#1
  let main_v77 : IVec S_ 1 := (fun x v => Host.reduce IntOp.andi x v reducesTo_S96_S_d0 h_S_) main_v76 main_c_29
  let main_v78 : IVec S_ 1 := andi main_v73 main_v77
  let main_v79 : FVec F S288x32 .f32 := Host.absf main_arg19
  let main_cst_30 : FVec F S_ .f32 := constant S_ .f32 0x7F800000#32
  let main_v80 : FVec F S288x32 .f32 := broadcastInDim S288x32 ![] bcast_S_S288x32 main_cst_30
  let main_v81 : IVec S288x32 1 := cmpf .olt main_v79 main_v80
  let main_c_31 : IVec S_ 1 := constantI S_ 1 1#1
  let main_v82 : IVec S_ 1 := (fun x v => Host.reduce IntOp.andi x v reducesTo_S288x32_S_d0_1 h_S_) main_v81 main_c_31
  let main_v83 : IVec S_ 1 := andi main_v78 main_v82
  let main_v84 : FVec F S32 .f32 := Host.absf main_arg20
  let main_cst_32 : FVec F S_ .f32 := constant S_ .f32 0x7F800000#32
  fn_part5 (F := F) main_arg21 main_arg22 main_v83 main_v84 main_cst_32

def fn_part3 {F : FTy → Type} [FloatOps F] (main_arg14 : FVec F S96 .f32) (main_arg15 : FVec F S288x96 .f32) (main_arg16 : FVec F S96 .f32) (main_arg17 : FVec F S96 .f32) (main_arg18 : FVec F S96 .f32) (main_arg19 : FVec F S288x32 .f32) (main_arg20 : FVec F S32 .f32) (main_arg21 : FVec F S32 .f32) (main_arg22 : FVec F S32 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96 .f32 := Host.absf main_arg14
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S288x96 .f32 := Host.absf main_arg15
  let main_cst_22 : FVec F S_ .f32 := constant S_ .f32 0x7F800000#32
  let main_v60 : FVec F S288x96 .f32 := broadcastInDim S288x96 ![] bcast_S_S288x96 main_cst_22
  let main_v61 : IVec S288x96 1 := cmpf .olt main_v59 main_v60
  let main_c_23 : IVec S_ 1 := constantI S_ 1 1#1
  let main_v62 : IVec S_ 1 := (fun x v => Host.reduce IntOp.andi x v reducesTo_S288x96_S_d0_1 h_S_) main_v61 main_c_23
  let main_v63 : IVec S_ 1 := andi main_v58 main_v62
  let main_v64 : FVec F S96 .f32 := Host.absf main_arg16
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg17 main_arg18 main_arg19 main_arg20 main_arg21 main_arg22 main_v63 main_v67

def fn_part2 {F : FTy → Type} [FloatOps F] (main_arg10 : FVec F S96 .f32) (main_arg11 : FVec F S288x96 .f32) (main_arg12 : FVec F S96 .f32) (main_arg13 : FVec F S96 .f32) (main_arg14 : FVec F S96 .f32) (main_arg15 : FVec F S288x96 .f32) (main_arg16 : FVec F S96 .f32) (main_arg17 : FVec F S96 .f32) (main_arg18 : FVec F S96 .f32) (main_arg19 : FVec F S288x32 .f32) (main_arg20 : FVec F S32 .f32) (main_arg21 : FVec F S32 .f32) (main_arg22 : FVec F S32 .f32) (main_v33 : IVec S_ 1) : IVec S_ 1 :=
  let main_v34 : FVec F S96 .f32 := Host.absf main_arg10
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S288x96 .f32 := Host.absf main_arg11
  let main_cst_14 : FVec F S_ .f32 := constant S_ .f32 0x7F800000#32
  let main_v40 : FVec F S288x96 .f32 := broadcastInDim S288x96 ![] bcast_S_S288x96 main_cst_14
  let main_v41 : IVec S288x96 1 := cmpf .olt main_v39 main_v40
  let main_c_15 : IVec S_ 1 := constantI S_ 1 1#1
  let main_v42 : IVec S_ 1 := (fun x v => Host.reduce IntOp.andi x v reducesTo_S288x96_S_d0_1 h_S_) main_v41 main_c_15
  let main_v43 : IVec S_ 1 := andi main_v38 main_v42
  let main_v44 : FVec F S96 .f32 := Host.absf main_arg12
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96 .f32 := Host.absf main_arg13
  let main_cst_18 : FVec F S_ .f32 := constant S_ .f32 0x7F800000#32
  let main_v50 : FVec F S96 .f32 := broadcastInDim S96 ![] bcast_S_S96 main_cst_18
  fn_part3 (F := F) main_arg14 main_arg15 main_arg16 main_arg17 main_arg18 main_arg19 main_arg20 main_arg21 main_arg22 main_v48 main_v49 main_v50

def fn_part1 {F : FTy → Type} [FloatOps F] (main_arg7 : FVec F S96x96 .f32) (main_arg8 : FVec F S96 .f32) (main_arg9 : FVec F S96 .f32) (main_arg10 : FVec F S96 .f32) (main_arg11 : FVec F S288x96 .f32) (main_arg12 : FVec F S96 .f32) (main_arg13 : FVec F S96 .f32) (main_arg14 : FVec F S96 .f32) (main_arg15 : FVec F S288x96 .f32) (main_arg16 : FVec F S96 .f32) (main_arg17 : FVec F S96 .f32) (main_arg18 : FVec F S96 .f32) (main_arg19 : FVec F S288x32 .f32) (main_arg20 : FVec F S32 .f32) (main_arg21 : FVec F S32 .f32) (main_arg22 : FVec F S32 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg7
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg8
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg9
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_v33

def fn {F : FTy → Type} [FloatOps F] (main_arg0 : FVec F S50000x96 .f32) (main_arg1 : IVec S800000 32) (main_arg2 : IVec S800000 32) (main_arg3 : FVec F S800000 .f32) (main_arg4 : IVec S10000 32) (main_arg5 : FVec F S96x96 .f32) (main_arg6 : FVec F S96 .f32) (main_arg7 : FVec F S96x96 .f32) (main_arg8 : FVec F S96 .f32) (main_arg9 : FVec F S96 .f32) (main_arg10 : FVec F S96 .f32) (main_arg11 : FVec F S288x96 .f32) (main_arg12 : FVec F S96 .f32) (main_arg13 : FVec F S96 .f32) (main_arg14 : FVec F S96 .f32) (main_arg15 : FVec F S288x96 .f32) (main_arg16 : FVec F S96 .f32) (main_arg17 : FVec F S96 .f32) (main_arg18 : FVec F S96 .f32) (main_arg19 : FVec F S288x32 .f32) (main_arg20 : FVec F S32 .f32) (main_arg21 : FVec F S32 .f32) (main_arg22 : FVec F S32 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg5
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg6
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x96 : Shape := ⟨2, ![50000, 96]⟩
abbrev S800000 : Shape := ⟨1, ![800000]⟩
abbrev S10000 : Shape := ⟨1, ![10000]⟩
abbrev S96x96 : Shape := ⟨2, ![96, 96]⟩
abbrev S96 : Shape := ⟨1, ![96]⟩
abbrev S288x96 : Shape := ⟨2, ![288, 96]⟩
abbrev S288x32 : Shape := ⟨2, ![288, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x96 : Shape := ⟨2, ![1, 96]⟩
abbrev S5000x96 : Shape := ⟨2, ![5000, 96]⟩
abbrev S5000 : Shape := ⟨1, ![5000]⟩
abbrev S5000x1 : Shape := ⟨2, ![5000, 1]⟩
abbrev S800000x96 : Shape := ⟨2, ![800000, 96]⟩
abbrev S50000x288 : Shape := ⟨2, ![50000, 288]⟩
abbrev S5000x288 : Shape := ⟨2, ![5000, 288]⟩
abbrev S1x32 : Shape := ⟨2, ![1, 32]⟩
abbrev S50000x32 : Shape := ⟨2, ![50000, 32]⟩
abbrev S5000x32 : Shape := ⟨2, ![5000, 32]⟩
abbrev S10000x1 : Shape := ⟨2, ![10000, 1]⟩
abbrev S10000x32 : Shape := ⟨2, ![10000, 32]⟩

abbrev nBuf : Space → Nat
  | .hbm => 200
  | .vmem => 34
  | .smem => 0
  | _ => 0

abbrev hbmTy0_0 (i : Nat) : BufTy := match i % 128 with
  | 0 => ⟨S50000x96, .f32⟩
  | 1 => ⟨S800000, .i32⟩
  | 2 => ⟨S800000, .i32⟩
  | 3 => ⟨S800000, .f32⟩
  | 4 => ⟨S10000, .i32⟩
  | 5 => ⟨S96x96, .f32⟩
  | 6 => ⟨S96, .f32⟩
  | 7 => ⟨S96x96, .f32⟩
  | 8 => ⟨S96, .f32⟩
  | 9 => ⟨S96, .f32⟩
  | 10 => ⟨S96, .f32⟩
  | 11 => ⟨S288x96, .f32⟩
  | 12 => ⟨S96, .f32⟩
  | 13 => ⟨S96, .f32⟩
  | 14 => ⟨S96, .f32⟩
  | 15 => ⟨S288x96, .f32⟩
  | 16 => ⟨S96, .f32⟩
  | 17 => ⟨S96, .f32⟩
  | 18 => ⟨S96, .f32⟩
  | 19 => ⟨S288x32, .f32⟩
  | 20 => ⟨S32, .f32⟩
  | 21 => ⟨S32, .f32⟩
  | 22 => ⟨S32, .f32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S1x96, .f32⟩
  | 37 => ⟨S1x96, .f32⟩
  | 38 => ⟨S1x96, .f32⟩
  | 39 => ⟨S1x96, .f32⟩
  | 40 => ⟨S50000x96, .f32⟩
  | 41 => ⟨S50000x96, .f32⟩
  | 42 => ⟨S50000x96, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x96, .f32⟩
  | 52 => ⟨S800000x1, .f32⟩
  | 53 => ⟨S800000x96, .f32⟩
  | 54 => ⟨S800000x96, .f32⟩
  | 55 => ⟨S_, .f32⟩
  | 56 => ⟨S50000x96, .f32⟩
  | 57 => ⟨S800000x1, .i32⟩
  | 58 => ⟨S50000x96, .f32⟩
  | 59 => ⟨S50000x96, .f32⟩
  | 60 => ⟨S50000x96, .f32⟩
  | 61 => ⟨S50000x96, .f32⟩
  | 62 => ⟨S50000x96, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x96, .f32⟩
  | 72 => ⟨S800000x1, .f32⟩
  | 73 => ⟨S800000x96, .f32⟩
  | 74 => ⟨S800000x96, .f32⟩
  | 75 => ⟨S_, .f32⟩
  | 76 => ⟨S50000x96, .f32⟩
  | 77 => ⟨S800000x1, .i32⟩
  | 78 => ⟨S50000x96, .f32⟩
  | 79 => ⟨S50000x96, .f32⟩
  | 80 => ⟨S50000x96, .f32⟩
  | 81 => ⟨S50000x288, .f32⟩
  | 82 => ⟨S1x96, .f32⟩
  | 83 => ⟨S1x96, .f32⟩
  | 84 => ⟨S1x96, .f32⟩
  | 85 => ⟨S50000x96, .f32⟩
  | 86 => ⟨S50000x96, .f32⟩
  | 87 => ⟨S50000x96, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x96, .f32⟩
  | 97 => ⟨S800000x1, .f32⟩
  | 98 => ⟨S800000x96, .f32⟩
  | 99 => ⟨S800000x96, .f32⟩
  | 100 => ⟨S_, .f32⟩
  | 101 => ⟨S50000x96, .f32⟩
  | 102 => ⟨S800000x1, .i32⟩
  | 103 => ⟨S50000x96, .f32⟩
  | 104 => ⟨S50000x96, .f32⟩
  | 105 => ⟨S50000x96, .f32⟩
  | 106 => ⟨S50000x96, .f32⟩
  | 107 => ⟨S50000x96, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x96, .f32⟩
  | 117 => ⟨S800000x1, .f32⟩
  | 118 => ⟨S800000x96, .f32⟩
  | 119 => ⟨S800000x96, .f32⟩
  | 120 => ⟨S_, .f32⟩
  | 121 => ⟨S50000x96, .f32⟩
  | 122 => ⟨S800000x1, .i32⟩
  | 123 => ⟨S50000x96, .f32⟩
  | 124 => ⟨S50000x96, .f32⟩
  | 125 => ⟨S50000x96, .f32⟩
  | 126 => ⟨S50000x288, .f32⟩
  | 127 => ⟨S1x96, .f32⟩
  | _ => ⟨S50000x96, .f32⟩

abbrev hbmTy0_1 (i : Nat) : BufTy := match i % 128 with
  | 0 => ⟨S1x96, .f32⟩
  | 1 => ⟨S1x96, .f32⟩
  | 2 => ⟨S50000x96, .f32⟩
  | 3 => ⟨S50000x96, .f32⟩
  | 4 => ⟨S50000x96, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x96, .f32⟩
  | 14 => ⟨S800000x1, .f32⟩
  | 15 => ⟨S800000x96, .f32⟩
  | 16 => ⟨S800000x96, .f32⟩
  | 17 => ⟨S_, .f32⟩
  | 18 => ⟨S50000x96, .f32⟩
  | 19 => ⟨S800000x1, .i32⟩
  | 20 => ⟨S50000x96, .f32⟩
  | 21 => ⟨S50000x96, .f32⟩
  | 22 => ⟨S50000x96, .f32⟩
  | 23 => ⟨S50000x96, .f32⟩
  | 24 => ⟨S50000x96, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x96, .f32⟩
  | 34 => ⟨S800000x1, .f32⟩
  | 35 => ⟨S800000x96, .f32⟩
  | 36 => ⟨S800000x96, .f32⟩
  | 37 => ⟨S_, .f32⟩
  | 38 => ⟨S50000x96, .f32⟩
  | 39 => ⟨S800000x1, .i32⟩
  | 40 => ⟨S50000x96, .f32⟩
  | 41 => ⟨S50000x96, .f32⟩
  | 42 => ⟨S50000x96, .f32⟩
  | 43 => ⟨S50000x288, .f32⟩
  | 44 => ⟨S1x32, .f32⟩
  | 45 => ⟨S1x32, .f32⟩
  | 46 => ⟨S1x32, .f32⟩
  | 47 => ⟨S50000x32, .f32⟩
  | 48 => ⟨S_, .i32⟩
  | 49 => ⟨S10000, .i32⟩
  | 50 => ⟨S10000, .i1⟩
  | 51 => ⟨S_, .i32⟩
  | 52 => ⟨S10000, .i32⟩
  | 53 => ⟨S10000, .i32⟩
  | 54 => ⟨S10000, .i32⟩
  | 55 => ⟨S10000x1, .i32⟩
  | 56 => ⟨S10000x32, .f32⟩
  | 57 => ⟨S_, .f32⟩
  | 58 => ⟨S10000, .f32⟩
  | 59 => ⟨S_, .f32⟩
  | 60 => ⟨S10000, .f32⟩
  | 61 => ⟨S10000, .f32⟩
  | 62 => ⟨S10000x1, .f32⟩
  | 63 => ⟨S10000x32, .f32⟩
  | 64 => ⟨S10000x32, .f32⟩
  | 65 => ⟨S10000x32, .f32⟩
  | 66 => ⟨S_, .f32⟩
  | 67 => ⟨S10000, .f32⟩
  | 68 => ⟨S10000x1, .f32⟩
  | 69 => ⟨S10000x1, .f32⟩
  | 70 => ⟨S10000x32, .f32⟩
  | 71 => ⟨S10000x32, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S1x96, .f32⟩
  | .local _ .vmem, ⟨4, _⟩ => ⟨S96x96, .f32⟩
  | .local _ .vmem, ⟨5, _⟩ => ⟨S1x96, .f32⟩
  | .local _ .vmem, ⟨6, _⟩ => ⟨S1x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x288, .f32⟩
  | .local _ .vmem, ⟨11, _⟩ => ⟨S5000x288, .f32⟩
  | .local _ .vmem, ⟨12, _⟩ => ⟨S288x96, .f32⟩
  | .local _ .vmem, ⟨13, _⟩ => ⟨S1x96, .f32⟩
  | .local _ .vmem, ⟨14, _⟩ => ⟨S1x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x288, .f32⟩
  | .local _ .vmem, ⟨19, _⟩ => ⟨S5000x288, .f32⟩
  | .local _ .vmem, ⟨20, _⟩ => ⟨S288x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S5000x96, .f32⟩
  | .local _ .vmem, ⟨25, _⟩ => ⟨S5000x96, .f32⟩
  | .local _ .vmem, ⟨26, _⟩ => ⟨S5000x288, .f32⟩
  | .local _ .vmem, ⟨27, _⟩ => ⟨S5000x288, .f32⟩
  | .local _ .vmem, ⟨28, _⟩ => ⟨S288x32, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S5000x32, .f32⟩
  | .local _ .vmem, ⟨33, _⟩ => ⟨S5000x32, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_1 : Ref sig .tc := ⟨.hbm, 29, rfl⟩
abbrev main_v4 : Ref sig .tc := ⟨.hbm, 30, rfl⟩
abbrev main_v5 : Ref sig .tc := ⟨.hbm, 31, rfl⟩
abbrev main_cst_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_8 : Ref sig .tc := ⟨.hbm, 88, rfl⟩
abbrev main_v55 : Ref sig .tc := ⟨.hbm, 89, rfl⟩
abbrev main_v56 : Ref sig .tc := ⟨.hbm, 90, rfl⟩
abbrev main_c_9 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_10 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_11 : Ref sig .tc := ⟨.hbm, 108, rfl⟩
abbrev main_v72 : Ref sig .tc := ⟨.hbm, 109, rfl⟩
abbrev main_v73 : Ref sig .tc := ⟨.hbm, 110, rfl⟩
abbrev main_c_12 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_14 : Ref sig .tc := ⟨.hbm, 133, rfl⟩
abbrev main_v94 : Ref sig .tc := ⟨.hbm, 134, rfl⟩
abbrev main_v95 : Ref sig .tc := ⟨.hbm, 135, rfl⟩
abbrev main_c_15 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_16 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_17 : Ref sig .tc := ⟨.hbm, 153, rfl⟩
abbrev main_v111 : Ref sig .tc := ⟨.hbm, 154, rfl⟩
abbrev main_v112 : Ref sig .tc := ⟨.hbm, 155, rfl⟩
abbrev main_c_18 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_19 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_c_20 : Ref sig .tc := ⟨.hbm, 176, rfl⟩
abbrev main_v131 : Ref sig .tc := ⟨.hbm, 177, rfl⟩
abbrev main_v132 : Ref sig .tc := ⟨.hbm, 178, rfl⟩
abbrev main_c_21 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_call0_cst : Ref sig .tc := ⟨.hbm, 185, rfl⟩
abbrev main_call0_v0 : Ref sig .tc := ⟨.hbm, 186, rfl⟩
abbrev main_call0_cst_0 : Ref sig .tc := ⟨.hbm, 187, rfl⟩
abbrev main_call0_v1 : Ref sig .tc := ⟨.hbm, 188, rfl⟩
abbrev main_call0_v2 : Ref sig .tc := ⟨.hbm, 189, rfl⟩
abbrev main_call0_v3 : Ref sig .tc := ⟨.hbm, 190, rfl⟩
abbrev main_call0_v4 : Ref sig .tc := ⟨.hbm, 191, rfl⟩
abbrev main_call0_v5 : Ref sig .tc := ⟨.hbm, 192, rfl⟩
abbrev main_call0_v6 : Ref sig .tc := ⟨.hbm, 193, rfl⟩
abbrev main_call0_cst_1 : Ref sig .tc := ⟨.hbm, 194, rfl⟩
abbrev main_call0_v7 : Ref sig .tc := ⟨.hbm, 195, rfl⟩
abbrev main_call0_v8 : Ref sig .tc := ⟨.hbm, 196, rfl⟩
abbrev main_call0_v9 : Ref sig .tc := ⟨.hbm, 197, rfl⟩
abbrev main_call0_v10 : Ref sig .tc := ⟨.hbm, 198, rfl⟩
abbrev main_v138 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S288x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S288x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x288 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S288x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  reduces_S5000x96_S5000 : S5000x96.Reduces [1] S5000
  shapeCasts_S5000_S5000x1 : S5000.ShapeCasts S5000x1
  broadcasts_S5000x1_S5000x96 : S5000x1.Broadcasts S5000x96
  bcast_S50000x1_S50000x96_0_1 : S50000x1.BroadcastsInDim S50000x96 (![0, 1] : Fin 2 → Fin S50000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  concatenates_S50000x96_S50000x96_S50000x96_S50000x288_d1 : Shape.Concatenates [S50000x96, S50000x96, S50000x96] S50000x288 1
  inb_S5000x288_S5000x288_0_0 : ∀ a, (![0, 0] : Fin 2 → Nat) a + S5000x288.size a ≤ S5000x288.size a
  h_S5000x288 : 0 < S5000x288.numel
  shapeCasts_S5000x288_S5000x288 : S5000x288.ShapeCasts S5000x288
  inb_S288x96_S288x96_0_0 : ∀ a, (![0, 0] : Fin 2 → Nat) a + S288x96.size a ≤ S288x96.size a
  h_S288x96 : 0 < S288x96.numel
  shapeCasts_S32_S1x32 : S32.ShapeCasts S1x32
  inb_S288x32_S288x32_0_0 : ∀ a, (![0, 0] : Fin 2 → Nat) a + S288x32.size a ≤ S288x32.size a
  h_S288x32 : 0 < S288x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S10000 : S_.BroadcastsInDim S10000 (![] : Fin 0 → Fin S10000.rank)
  bcast_S10000_S10000x1_0 : S10000.BroadcastsInDim S10000x1 (![0] : Fin 1 → Fin S10000x1.rank)
  reducesTo_S10000x32_S10000_d1 : S10000x32.ReducesTo [1] S10000
  h_S_ : 0 < S_.numel
  bcast_S10000x1_S10000x32_0_1 : S10000x1.BroadcastsInDim S10000x32 (![0, 1] : Fin 2 → Fin S10000x32.rank)
  scatter_S50000_S800000x1_S800000_n_0_0_1_wf : ScatterDims.WF S50000 S800000x1 S800000 [] [0] [0] 1
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x288_S288x96_S5000x96_1_0_0_1_n_n_wf : DotDims.WF S5000x288 S288x96 S5000x96 [1] [0] [0] [1] [] []
  dot_S5000x288_S288x32_S5000x32_1_0_0_1_n_n_wf : DotDims.WF S5000x288 S288x32 S5000x32 [1] [0] [0] [1] [] []
  gather_S50000x32_S10000x1_S10000x32_1_0_n_n_0_1_132_wf : GatherDims.WF S50000x32 S10000x1 S10000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x96.size a ≤ S50000x96.size a
  hwx0_7 : ∀ i : grid0.Coords, EltTy.bits .f32 = 32 ∨ (Rect.block (s := S50000x96) S5000x96.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x288.size a ≤ S50000x288.size a
  hwx1_0 : ∀ i : grid1.Coords, EltTy.bits .f32 = 32 ∨ (Rect.block (s := S50000x288) S5000x288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S288x96.size a ≤ S288x96.size a
  hwx1_1 : ∀ i : grid1.Coords, EltTy.bits .f32 = 32 ∨ (Rect.block (s := S288x96) S288x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x288.size a ≤ S50000x288.size a
  hwx2_0 : ∀ i : grid2.Coords, EltTy.bits .f32 = 32 ∨ (Rect.block (s := S50000x288) S5000x288.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S288x96.size a ≤ S288x96.size a
  hwx2_1 : ∀ i : grid2.Coords, EltTy.bits .f32 = 32 ∨ (Rect.block (s := S288x96) S288x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x288.size a ≤ S50000x288.size a
  hwx3_0 : ∀ i : grid3.Coords, EltTy.bits .f32 = 32 ∨ (Rect.block (s := S50000x288) S5000x288.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S288x32.size a ≤ S288x32.size a
  hwx3_1 : ∀ i : grid3.Coords, EltTy.bits .f32 = 32 ∨ (Rect.block (s := S288x32) S288x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S50000x32.size a
  hwx3_5 : ∀ i : grid3.Coords, EltTy.bits .f32 = 32 ∨ (Rect.block (s := S50000x32) S5000x32.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x288_S288x96_S5000x96_1_0_0_1_n_n : DotDims S5000x288 S288x96 S5000x96 where
  lhsContracting := [1]
  rhsContracting := [0]
  lhsNonContracting := [0]
  rhsNonContracting := [1]
  lhsBatch := []
  rhsBatch := []
  wf := dot_S5000x288_S288x96_S5000x96_1_0_0_1_n_n_wf
def dot_S5000x288_S288x32_S5000x32_1_0_0_1_n_n : DotDims S5000x288 S288x32 S5000x32 where
  lhsContracting := [1]
  rhsContracting := [0]
  lhsNonContracting := [0]
  rhsNonContracting := [1]
  lhsBatch := []
  rhsBatch := []
  wf := dot_S5000x288_S288x32_S5000x32_1_0_0_1_n_n_wf
def gather_S50000x32_S10000x1_S10000x32_1_0_n_n_0_1_132 : GatherDims S50000x32 S10000x1 S10000x32 where
  offsetDims := [1]
  collapsedSliceDims := [0]
  operandBatchingDims := []
  startIndicesBatchingDims := []
  startIndexMap := [0]
  indexVectorDim := 1
  sliceSizes := ![1, 32]
  wf := gather_S50000x32_S10000x1_S10000x32_1_0_n_n_0_1_132_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S5000x96.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v48) S5000x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S288x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v87) S5000x288.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S288x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v126) S5000x288.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S288x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v127) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v128) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v129) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v130) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x96 : Shape := ⟨2, ![50000, 96]⟩
abbrev S800000 : Shape := ⟨1, ![800000]⟩
abbrev S10000 : Shape := ⟨1, ![10000]⟩
abbrev S96x96 : Shape := ⟨2, ![96, 96]⟩
abbrev S96 : Shape := ⟨1, ![96]⟩
abbrev S288x96 : Shape := ⟨2, ![288, 96]⟩
abbrev S288x32 : Shape := ⟨2, ![288, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x96 : Shape := ⟨2, ![1, 96]⟩
abbrev S800000x96 : Shape := ⟨2, ![800000, 96]⟩
abbrev S50000x288 : Shape := ⟨2, ![50000, 288]⟩
abbrev S50000x32 : Shape := ⟨2, ![50000, 32]⟩
abbrev S1x32 : Shape := ⟨2, ![1, 32]⟩
abbrev S10000x1 : Shape := ⟨2, ![10000, 1]⟩
abbrev S10000x32 : Shape := ⟨2, ![10000, 32]⟩

abbrev nBuf : Space → Nat
  | .hbm => 328
  | .vmem => 0
  | .smem => 0
  | _ => 0

abbrev hbmTy0_0 (i : Nat) : BufTy := match i % 128 with
  | 0 => ⟨S50000x96, .f32⟩
  | 1 => ⟨S800000, .i32⟩
  | 2 => ⟨S800000, .i32⟩
  | 3 => ⟨S800000, .f32⟩
  | 4 => ⟨S10000, .i32⟩
  | 5 => ⟨S96x96, .f32⟩
  | 6 => ⟨S96, .f32⟩
  | 7 => ⟨S96x96, .f32⟩
  | 8 => ⟨S96, .f32⟩
  | 9 => ⟨S96, .f32⟩
  | 10 => ⟨S96, .f32⟩
  | 11 => ⟨S288x96, .f32⟩
  | 12 => ⟨S96, .f32⟩
  | 13 => ⟨S96, .f32⟩
  | 14 => ⟨S96, .f32⟩
  | 15 => ⟨S288x96, .f32⟩
  | 16 => ⟨S96, .f32⟩
  | 17 => ⟨S96, .f32⟩
  | 18 => ⟨S96, .f32⟩
  | 19 => ⟨S288x32, .f32⟩
  | 20 => ⟨S32, .f32⟩
  | 21 => ⟨S32, .f32⟩
  | 22 => ⟨S32, .f32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x96, .f32⟩
  | 37 => ⟨S1x96, .f32⟩
  | 38 => ⟨S50000x96, .f32⟩
  | 39 => ⟨S50000x96, .f32⟩
  | 40 => ⟨S_, .f32⟩
  | 41 => ⟨S50000x96, .f32⟩
  | 42 => ⟨S50000x96, .f32⟩
  | 43 => ⟨S50000x96, .f32⟩
  | 44 => ⟨S1x96, .f32⟩
  | 45 => ⟨S50000x96, .f32⟩
  | 46 => ⟨S50000x96, .f32⟩
  | 47 => ⟨S_, .f32⟩
  | 48 => ⟨S50000, .f32⟩
  | 49 => ⟨S50000x1, .f32⟩
  | 50 => ⟨S_, .f32⟩
  | 51 => ⟨S50000x1, .f32⟩
  | 52 => ⟨S50000x1, .f32⟩
  | 53 => ⟨S50000x96, .f32⟩
  | 54 => ⟨S50000x96, .f32⟩
  | 55 => ⟨S50000x96, .f32⟩
  | 56 => ⟨S_, .f32⟩
  | 57 => ⟨S50000, .f32⟩
  | 58 => ⟨S50000x1, .f32⟩
  | 59 => ⟨S_, .f32⟩
  | 60 => ⟨S50000x1, .f32⟩
  | 61 => ⟨S50000x1, .f32⟩
  | 62 => ⟨S50000x96, .f32⟩
  | 63 => ⟨S50000x96, .f32⟩
  | 64 => ⟨S_, .f32⟩
  | 65 => ⟨S50000x1, .f32⟩
  | 66 => ⟨S50000x1, .f32⟩
  | 67 => ⟨S50000x1, .f32⟩
  | 68 => ⟨S50000x96, .f32⟩
  | 69 => ⟨S50000x96, .f32⟩
  | 70 => ⟨S1x96, .f32⟩
  | 71 => ⟨S50000x96, .f32⟩
  | 72 => ⟨S50000x96, .f32⟩
  | 73 => ⟨S1x96, .f32⟩
  | 74 => ⟨S50000x96, .f32⟩
  | 75 => ⟨S50000x96, .f32⟩
  | 76 => ⟨S50000x96, .f32⟩
  | 77 => ⟨S50000x96, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x96, .f32⟩
  | 87 => ⟨S800000x1, .f32⟩
  | 88 => ⟨S800000x96, .f32⟩
  | 89 => ⟨S800000x96, .f32⟩
  | 90 => ⟨S_, .f32⟩
  | 91 => ⟨S50000x96, .f32⟩
  | 92 => ⟨S800000x1, .i32⟩
  | 93 => ⟨S50000x96, .f32⟩
  | 94 => ⟨S50000x96, .f32⟩
  | 95 => ⟨S50000x96, .f32⟩
  | 96 => ⟨S50000x96, .f32⟩
  | 97 => ⟨S50000x96, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x96, .f32⟩
  | 107 => ⟨S800000x1, .f32⟩
  | 108 => ⟨S800000x96, .f32⟩
  | 109 => ⟨S800000x96, .f32⟩
  | 110 => ⟨S_, .f32⟩
  | 111 => ⟨S50000x96, .f32⟩
  | 112 => ⟨S800000x1, .i32⟩
  | 113 => ⟨S50000x96, .f32⟩
  | 114 => ⟨S50000x96, .f32⟩
  | 115 => ⟨S50000x96, .f32⟩
  | 116 => ⟨S50000x288, .f32⟩
  | 117 => ⟨S50000x96, .f32⟩
  | 118 => ⟨S1x96, .f32⟩
  | 119 => ⟨S50000x96, .f32⟩
  | 120 => ⟨S50000x96, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x96, .f32⟩
  | _ => ⟨S50000x96, .f32⟩

abbrev hbmTy0_1 (i : Nat) : BufTy := match i % 128 with
  | 0 => ⟨S50000x96, .f32⟩
  | 1 => ⟨S50000x96, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S50000x96, .f32⟩
  | 9 => ⟨S50000x96, .f32⟩
  | 10 => ⟨S_, .f32⟩
  | 11 => ⟨S50000x1, .f32⟩
  | 12 => ⟨S50000x1, .f32⟩
  | 13 => ⟨S50000x1, .f32⟩
  | 14 => ⟨S50000x96, .f32⟩
  | 15 => ⟨S50000x96, .f32⟩
  | 16 => ⟨S1x96, .f32⟩
  | 17 => ⟨S50000x96, .f32⟩
  | 18 => ⟨S50000x96, .f32⟩
  | 19 => ⟨S1x96, .f32⟩
  | 20 => ⟨S50000x96, .f32⟩
  | 21 => ⟨S50000x96, .f32⟩
  | 22 => ⟨S_, .f32⟩
  | 23 => ⟨S50000x96, .f32⟩
  | 24 => ⟨S50000x96, .f32⟩
  | 25 => ⟨S50000x96, .f32⟩
  | 26 => ⟨S50000x96, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x96, .f32⟩
  | 36 => ⟨S800000x1, .f32⟩
  | 37 => ⟨S800000x96, .f32⟩
  | 38 => ⟨S800000x96, .f32⟩
  | 39 => ⟨S_, .f32⟩
  | 40 => ⟨S50000x96, .f32⟩
  | 41 => ⟨S800000x1, .i32⟩
  | 42 => ⟨S50000x96, .f32⟩
  | 43 => ⟨S50000x96, .f32⟩
  | 44 => ⟨S50000x96, .f32⟩
  | 45 => ⟨S50000x96, .f32⟩
  | 46 => ⟨S50000x96, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x96, .f32⟩
  | 56 => ⟨S800000x1, .f32⟩
  | 57 => ⟨S800000x96, .f32⟩
  | 58 => ⟨S800000x96, .f32⟩
  | 59 => ⟨S_, .f32⟩
  | 60 => ⟨S50000x96, .f32⟩
  | 61 => ⟨S800000x1, .i32⟩
  | 62 => ⟨S50000x96, .f32⟩
  | 63 => ⟨S50000x96, .f32⟩
  | 64 => ⟨S50000x96, .f32⟩
  | 65 => ⟨S50000x288, .f32⟩
  | 66 => ⟨S50000x96, .f32⟩
  | 67 => ⟨S1x96, .f32⟩
  | 68 => ⟨S50000x96, .f32⟩
  | 69 => ⟨S50000x96, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x96, .f32⟩
  | 77 => ⟨S50000x96, .f32⟩
  | 78 => ⟨S50000x96, .f32⟩
  | 79 => ⟨S_, .f32⟩
  | 80 => ⟨S50000, .f32⟩
  | 81 => ⟨S50000x1, .f32⟩
  | 82 => ⟨S_, .f32⟩
  | 83 => ⟨S50000x1, .f32⟩
  | 84 => ⟨S50000x1, .f32⟩
  | 85 => ⟨S50000x96, .f32⟩
  | 86 => ⟨S50000x96, .f32⟩
  | 87 => ⟨S_, .f32⟩
  | 88 => ⟨S50000x1, .f32⟩
  | 89 => ⟨S50000x1, .f32⟩
  | 90 => ⟨S50000x1, .f32⟩
  | 91 => ⟨S50000x96, .f32⟩
  | 92 => ⟨S50000x96, .f32⟩
  | 93 => ⟨S1x96, .f32⟩
  | 94 => ⟨S50000x96, .f32⟩
  | 95 => ⟨S50000x96, .f32⟩
  | 96 => ⟨S1x96, .f32⟩
  | 97 => ⟨S50000x96, .f32⟩
  | 98 => ⟨S50000x96, .f32⟩
  | 99 => ⟨S_, .f32⟩
  | 100 => ⟨S50000x96, .f32⟩
  | 101 => ⟨S50000x96, .f32⟩
  | 102 => ⟨S50000x96, .f32⟩
  | 103 => ⟨S50000x96, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x96, .f32⟩
  | 113 => ⟨S800000x1, .f32⟩
  | 114 => ⟨S800000x96, .f32⟩
  | 115 => ⟨S800000x96, .f32⟩
  | 116 => ⟨S_, .f32⟩
  | 117 => ⟨S50000x96, .f32⟩
  | 118 => ⟨S800000x1, .i32⟩
  | 119 => ⟨S50000x96, .f32⟩
  | 120 => ⟨S50000x96, .f32⟩
  | 121 => ⟨S50000x96, .f32⟩
  | 122 => ⟨S50000x96, .f32⟩
  | 123 => ⟨S50000x96, .f32⟩
  | 124 => ⟨S_, .i32⟩
  | 125 => ⟨S800000, .i32⟩
  | 126 => ⟨S800000, .i1⟩
  | 127 => ⟨S_, .i32⟩
  | _ => ⟨S50000x96, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000x96, .f32⟩
  | 5 => ⟨S800000x1, .f32⟩
  | 6 => ⟨S800000x96, .f32⟩
  | 7 => ⟨S800000x96, .f32⟩
  | 8 => ⟨S_, .f32⟩
  | 9 => ⟨S50000x96, .f32⟩
  | 10 => ⟨S800000x1, .i32⟩
  | 11 => ⟨S50000x96, .f32⟩
  | 12 => ⟨S50000x96, .f32⟩
  | 13 => ⟨S50000x96, .f32⟩
  | 14 => ⟨S50000x288, .f32⟩
  | 15 => ⟨S50000x32, .f32⟩
  | 16 => ⟨S1x32, .f32⟩
  | 17 => ⟨S50000x32, .f32⟩
  | 18 => ⟨S50000x32, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S50000x32, .f32⟩
  | 26 => ⟨S50000x32, .f32⟩
  | 27 => ⟨S50000x32, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x32, .f32⟩
  | 35 => ⟨S50000x32, .f32⟩
  | 36 => ⟨S_, .f32⟩
  | 37 => ⟨S50000x1, .f32⟩
  | 38 => ⟨S50000x1, .f32⟩
  | 39 => ⟨S50000x1, .f32⟩
  | 40 => ⟨S50000x32, .f32⟩
  | 41 => ⟨S50000x32, .f32⟩
  | 42 => ⟨S1x32, .f32⟩
  | 43 => ⟨S50000x32, .f32⟩
  | 44 => ⟨S50000x32, .f32⟩
  | 45 => ⟨S1x32, .f32⟩
  | 46 => ⟨S50000x32, .f32⟩
  | 47 => ⟨S50000x32, .f32⟩
  | 48 => ⟨S_, .i32⟩
  | 49 => ⟨S10000, .i32⟩
  | 50 => ⟨S10000, .i1⟩
  | 51 => ⟨S_, .i32⟩
  | 52 => ⟨S10000, .i32⟩
  | 53 => ⟨S10000, .i32⟩
  | 54 => ⟨S10000, .i32⟩
  | 55 => ⟨S10000x1, .i32⟩
  | 56 => ⟨S10000x32, .f32⟩
  | 57 => ⟨S_, .f32⟩
  | 58 => ⟨S10000, .f32⟩
  | 59 => ⟨S_, .f32⟩
  | 60 => ⟨S10000, .f32⟩
  | 61 => ⟨S10000, .f32⟩
  | 62 => ⟨S10000x1, .f32⟩
  | 63 => ⟨S10000x32, .f32⟩
  | 64 => ⟨S10000x32, .f32⟩
  | 65 => ⟨S10000x32, .f32⟩
  | 66 => ⟨S_, .f32⟩
  | 67 => ⟨S10000, .f32⟩
  | 68 => ⟨S10000x1, .f32⟩
  | 69 => ⟨S10000x1, .f32⟩
  | 70 => ⟨S10000x32, .f32⟩
  | 71 => ⟨S10000x32, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_1 : Ref sig .tc := ⟨.hbm, 29, rfl⟩
abbrev main_v4 : Ref sig .tc := ⟨.hbm, 30, rfl⟩
abbrev main_v5 : Ref sig .tc := ⟨.hbm, 31, rfl⟩
abbrev main_cst_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call0_cst : Ref sig .tc := ⟨.hbm, 40, rfl⟩
abbrev main_call0_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c : Ref sig .tc := ⟨.hbm, 78, rfl⟩
abbrev main_v44 : Ref sig .tc := ⟨.hbm, 79, rfl⟩
abbrev main_v45 : Ref sig .tc := ⟨.hbm, 80, rfl⟩
abbrev main_c_8 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_10 : Ref sig .tc := ⟨.hbm, 98, rfl⟩
abbrev main_v61 : Ref sig .tc := ⟨.hbm, 99, rfl⟩
abbrev main_v62 : Ref sig .tc := ⟨.hbm, 100, rfl⟩
abbrev main_c_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_13 : Ref sig .tc := ⟨.hbm, 121, rfl⟩
abbrev main_v81 : Ref sig .tc := ⟨.hbm, 122, rfl⟩
abbrev main_v82 : Ref sig .tc := ⟨.hbm, 123, rfl⟩
abbrev main_cst_14 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_15 : Ref sig .tc := ⟨.hbm, 130, rfl⟩
abbrev main_v88 : Ref sig .tc := ⟨.hbm, 131, rfl⟩
abbrev main_v89 : Ref sig .tc := ⟨.hbm, 132, rfl⟩
abbrev main_cst_16 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_17 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call1_cst : Ref sig .tc := ⟨.hbm, 150, rfl⟩
abbrev main_call1_v0 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_c_18 : Ref sig .tc := ⟨.hbm, 155, rfl⟩
abbrev main_v108 : Ref sig .tc := ⟨.hbm, 156, rfl⟩
abbrev main_v109 : Ref sig .tc := ⟨.hbm, 157, rfl⟩
abbrev main_c_19 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_20 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_c_21 : Ref sig .tc := ⟨.hbm, 175, rfl⟩
abbrev main_v125 : Ref sig .tc := ⟨.hbm, 176, rfl⟩
abbrev main_v126 : Ref sig .tc := ⟨.hbm, 177, rfl⟩
abbrev main_c_22 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_23 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_24 : Ref sig .tc := ⟨.hbm, 198, rfl⟩
abbrev main_v145 : Ref sig .tc := ⟨.hbm, 199, rfl⟩
abbrev main_v146 : Ref sig .tc := ⟨.hbm, 200, rfl⟩
abbrev main_cst_25 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_26 : Ref sig .tc := ⟨.hbm, 207, rfl⟩
abbrev main_v152 : Ref sig .tc := ⟨.hbm, 208, rfl⟩
abbrev main_v153 : Ref sig .tc := ⟨.hbm, 209, rfl⟩
abbrev main_cst_27 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_28 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_call2_cst : Ref sig .tc := ⟨.hbm, 227, rfl⟩
abbrev main_call2_v0 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_29 : Ref sig .tc := ⟨.hbm, 232, rfl⟩
abbrev main_v172 : Ref sig .tc := ⟨.hbm, 233, rfl⟩
abbrev main_v173 : Ref sig .tc := ⟨.hbm, 234, rfl⟩
abbrev main_c_30 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_31 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_c_32 : Ref sig .tc := ⟨.hbm, 252, rfl⟩
abbrev main_v189 : Ref sig .tc := ⟨.hbm, 253, rfl⟩
abbrev main_v190 : Ref sig .tc := ⟨.hbm, 254, rfl⟩
abbrev main_c_33 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_34 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_cst_35 : Ref sig .tc := ⟨.hbm, 275, rfl⟩
abbrev main_v209 : Ref sig .tc := ⟨.hbm, 276, rfl⟩
abbrev main_v210 : Ref sig .tc := ⟨.hbm, 277, rfl⟩
abbrev main_cst_36 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_cst_37 : Ref sig .tc := ⟨.hbm, 284, rfl⟩
abbrev main_v216 : Ref sig .tc := ⟨.hbm, 285, rfl⟩
abbrev main_v217 : Ref sig .tc := ⟨.hbm, 286, rfl⟩
abbrev main_cst_38 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_cst_39 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_c_40 : Ref sig .tc := ⟨.hbm, 304, rfl⟩
abbrev main_v233 : Ref sig .tc := ⟨.hbm, 305, rfl⟩
abbrev main_v234 : Ref sig .tc := ⟨.hbm, 306, rfl⟩
abbrev main_c_41 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_call3_cst : Ref sig .tc := ⟨.hbm, 313, rfl⟩
abbrev main_call3_v0 : Ref sig .tc := ⟨.hbm, 314, rfl⟩
abbrev main_call3_cst_0 : Ref sig .tc := ⟨.hbm, 315, rfl⟩
abbrev main_call3_v1 : Ref sig .tc := ⟨.hbm, 316, rfl⟩
abbrev main_call3_v2 : Ref sig .tc := ⟨.hbm, 317, rfl⟩
abbrev main_call3_v3 : Ref sig .tc := ⟨.hbm, 318, rfl⟩
abbrev main_call3_v4 : Ref sig .tc := ⟨.hbm, 319, rfl⟩
abbrev main_call3_v5 : Ref sig .tc := ⟨.hbm, 320, rfl⟩
abbrev main_call3_v6 : Ref sig .tc := ⟨.hbm, 321, rfl⟩
abbrev main_call3_cst_1 : Ref sig .tc := ⟨.hbm, 322, rfl⟩
abbrev main_call3_v7 : Ref sig .tc := ⟨.hbm, 323, rfl⟩
abbrev main_call3_v8 : Ref sig .tc := ⟨.hbm, 324, rfl⟩
abbrev main_call3_v9 : Ref sig .tc := ⟨.hbm, 325, rfl⟩
abbrev main_call3_v10 : Ref sig .tc := ⟨.hbm, 326, rfl⟩
abbrev main_v240 : Ref sig .tc := ⟨.hbm, 327, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  reducesTo_S50000x96_S50000_d1 : S50000x96.ReducesTo [1] S50000
  h_S_ : 0 < S_.numel
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S800000x1_S800000x96_0_1 : S800000x1.BroadcastsInDim S800000x96 (![0, 1] : Fin 2 → Fin S800000x96.rank)
  concatenates_S50000x96_S50000x96_S50000x96_S50000x288_d1 : Shape.Concatenates [S50000x96, S50000x96, S50000x96] S50000x288 1
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  bcast_S50000x1_S50000x32_0_1 : S50000x1.BroadcastsInDim S50000x32 (![0, 1] : Fin 2 → Fin S50000x32.rank)
  bcast_S_S10000 : S_.BroadcastsInDim S10000 (![] : Fin 0 → Fin S10000.rank)
  bcast_S10000_S10000x1_0 : S10000.BroadcastsInDim S10000x1 (![0] : Fin 1 → Fin S10000x1.rank)
  reducesTo_S10000x32_S10000_d1 : S10000x32.ReducesTo [1] S10000
  bcast_S10000x1_S10000x32_0_1 : S10000x1.BroadcastsInDim S10000x32 (![0, 1] : Fin 2 → Fin S10000x32.rank)
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x288_S288x96_S50000x96_1_0_0_1_n_n_wf : DotDims.WF S50000x288 S288x96 S50000x96 [1] [0] [0] [1] [] []
  dot_S50000x288_S288x32_S50000x32_1_0_0_1_n_n_wf : DotDims.WF S50000x288 S288x32 S50000x32 [1] [0] [0] [1] [] []
  gather_S50000x32_S10000x1_S10000x32_1_0_n_n_0_1_132_wf : GatherDims.WF S50000x32 S10000x1 S10000x32 [1] [0] [] [0] [] 1 ![1, 32]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x288_S288x96_S50000x96_1_0_0_1_n_n : DotDims S50000x288 S288x96 S50000x96 where
  lhsContracting := [1]
  rhsContracting := [0]
  lhsNonContracting := [0]
  rhsNonContracting := [1]
  lhsBatch := []
  rhsBatch := []
  wf := dot_S50000x288_S288x96_S50000x96_1_0_0_1_n_n_wf
def dot_S50000x288_S288x32_S50000x32_1_0_0_1_n_n : DotDims S50000x288 S288x32 S50000x32 where
  lhsContracting := [1]
  rhsContracting := [0]
  lhsNonContracting := [0]
  rhsNonContracting := [1]
  lhsBatch := []
  rhsBatch := []
  wf := dot_S50000x288_S288x32_S50000x32_1_0_0_1_n_n_wf
def gather_S50000x32_S10000x1_S10000x32_1_0_n_n_0_1_132 : GatherDims S50000x32 S10000x1 S10000x32 where
  offsetDims := [1]
  collapsedSliceDims := [0]
  operandBatchingDims := []
  startIndicesBatchingDims := []
  startIndexMap := [0]
  indexVectorDim := 1
  sliceSizes := ![1, 32]
  wf := gather_S50000x32_S10000x1_S10000x32_1_0_n_n_0_1_132_wf

class Facts : Prop extends Facts₀ where

variable [Facts]
-- ==== Proof.KernelReg0.lean ====
/-
  Region 0 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.Kernel.Launch
import proofs.«105666_j32899449488058_1_alg».proof.Proof.Gen.Kernel.Skeleton
import proofs.«105666_j32899449488058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, whether that point fetched it or an
    earlier one did and the block index has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, whether that point fetched it or an
    earlier one did and the block index has not moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, whether that point fetched it or an
    earlier one did and the block index has not moved since. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every grid point, whether that point fetched it or an
    earlier one did and the block index has not moved since. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every grid point, whether that point fetched it or an
    earlier one did and the block index has not moved since. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every grid point, whether that point fetched it or an
    earlier one did and the block index has not moved since. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every grid point, whether that point fetched it or an
    earlier one did and the block index has not moved since. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, as a function of the input blocks: the one store, over the whole
    buffer, of the body's value. -/
def out0_7 (x0 : Vec F S5000x96 .f32) (x1 : Vec F S96x96 .f32) (x2 : Vec F S1x96 .f32) (x3 : Vec F S96x96 .f32) (x4 : Vec F S1x96 .f32) (x5 : Vec F S1x96 .f32) (x6 : Vec F S1x96 .f32) : Vec F S5000x96 .f32 :=
  View.canon [⟨(Rect.unit (s := S5000x96) ![0, 0] S5000x96.size inb_S5000x96_S5000x96_0_0), k0_pay1 (k0_pay3 (View.ld x5 (Rect.unit (s := S1x96) ![0, 0] S1x96.size inb_S1x96_S1x96_0_0))) (k0_pay4 (View.ld x6 (Rect.unit (s := S1x96) ![0, 0] S1x96.size inb_S1x96_S1x96_0_0))) (k0_pay6 (View.ld x0 (Rect.unit (s := S5000x96) ![0, 0] S5000x96.size inb_S5000x96_S5000x96_0_0)) (View.ld x1 (Rect.unit (s := S96x96) ![0, 0] S96x96.size inb_S96x96_S96x96_0_0)) (View.ld x2 (Rect.unit (s := S1x96) ![0, 0] S1x96.size inb_S1x96_S1x96_0_0)) (View.ld x3 (Rect.unit (s := S96x96) ![0, 0] S96x96.size inb_S96x96_S96x96_0_0)) (View.ld x4 (Rect.unit (s := S1x96) ![0, 0] S1x96.size inb_S1x96_S1x96_0_0))) (k0_pay7 (View.ld x0 (Rect.unit (s := S5000x96) ![0, 0] S5000x96.size inb_S5000x96_S5000x96_0_0)) (View.ld x1 (Rect.unit (s := S96x96) ![0, 0] S96x96.size inb_S96x96_S96x96_0_0)) (View.ld x2 (Rect.unit (s := S1x96) ![0, 0] S1x96.size inb_S1x96_S1x96_0_0)) (View.ld x3 (Rect.unit (s := S96x96) ![0, 0] S96x96.size inb_S96x96_S96x96_0_0)) (View.ld x4 (Rect.unit (s := S1x96) ![0, 0] S1x96.size inb_S1x96_S1x96_0_0))) (k0_pay8 (F := F))⟩]

/-- The one store covers the buffer. -/
theorem cover0_7 (p0 : Vec F S5000x96 .f32) (y : S5000x96.Idx) :
    ∃ pc ∈ ([⟨(Rect.unit (s := S5000x96) ![0, 0] S5000x96.size inb_S5000x96_S5000x96_0_0), p0⟩] : List (View.Piece (Elt F) S5000x96 .f32)), y ∈ pc.1.set :=
  View.cover_of_tiled [⟨(Rect.unit (s := S5000x96) ![0, 0] S5000x96.size inb_S5000x96_S5000x96_0_0), p0⟩] S5000x96.size (by rfl) y

set_option maxHeartbeats 4000000 in
/-- The body on whole staging buffers, the inputs' at contents `x` and the output's at anything, runs to the end
    leaving the inputs' as they were and the output's at `out0_7` of the inputs'. -/
theorem sound_kernel0 (c : Dev nD) (E : Set ℕ) (i : grid0.Coords) (arg1 : Memref sig .tc .vmem S5000x96 .f32) (harg1 : arg1.IsWhole) (arg2 : Memref sig .tc .vmem S96x96 .f32) (harg2 : arg2.IsWhole) (arg3 : Memref sig .tc .vmem S1x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (arg8 : Memref sig .tc .vmem S5000x96 .f32) (harg8 : arg8.IsWhole)
    (x0 : Vec F S5000x96 .f32) (x1 : Vec F S96x96 .f32) (x2 : Vec F S1x96 .f32) (x3 : Vec F S96x96 .f32) (x4 : Vec F S1x96 .f32) (x5 : Vec F S1x96 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_in_kernel i arg1 harg1 arg2 harg2 arg3 harg3 arg4 harg4 arg5 harg5 arg6 harg6 arg7 harg7 arg8 harg8) K := by
  simp only [cc0__mlp_in_kernel_eq_skeleton, k0_part1_eq_skeleton]; unfold cc0__mlp_in_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The region's proof data on core `c`: the arrays as the region finds them; after the body at point `t` each input's
    buffer at its block and the output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation the launch asks of the body, at every grid point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KernelReg1.lean ====
/-
  Region 1 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.Kernel.Launch
import proofs.«105666_j32899449488058_1_alg».proof.Proof.Gen.Kernel.Skeleton
import proofs.«105666_j32899449488058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, whether that point fetched it or an
    earlier one did and the block index has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, whether that point fetched it or an
    earlier one did and the block index has not moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, whether that point fetched it or an
    earlier one did and the block index has not moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, whether that point fetched it or an
    earlier one did and the block index has not moved since. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, whether that point fetched it or an
    earlier one did and the block index has not moved since. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, as a function of the input blocks: the one store, over the whole
    buffer, of the body's value. -/
def out1_5 (x0 : Vec F S5000x288 .f32) (x1 : Vec F S288x96 .f32) (x2 : Vec F S1x96 .f32) (x3 : Vec F S1x96 .f32) (x4 : Vec F S1x96 .f32) : Vec F S5000x96 .f32 :=
  View.canon [⟨(Rect.unit (s := S5000x96) ![0, 0] S5000x96.size inb_S5000x96_S5000x96_0_0), k1_pay1 (View.ld x0 (Rect.unit (s := S5000x288) ![0, 0] S5000x288.size inb_S5000x288_S5000x288_0_0)) (View.ld x1 (Rect.unit (s := S288x96) ![0, 0] S288x96.size inb_S288x96_S288x96_0_0)) (View.ld x2 (Rect.unit (s := S1x96) ![0, 0] S1x96.size inb_S1x96_S1x96_0_0)) (View.ld x3 (Rect.unit (s := S1x96) ![0, 0] S1x96.size inb_S1x96_S1x96_0_0)) (View.ld x4 (Rect.unit (s := S1x96) ![0, 0] S1x96.size inb_S1x96_S1x96_0_0))⟩]

/-- The one store covers the buffer. -/
theorem cover1_5 (p0 : Vec F S5000x96 .f32) (y : S5000x96.Idx) :
    ∃ pc ∈ ([⟨(Rect.unit (s := S5000x96) ![0, 0] S5000x96.size inb_S5000x96_S5000x96_0_0), p0⟩] : List (View.Piece (Elt F) S5000x96 .f32)), y ∈ pc.1.set :=
  View.cover_of_tiled [⟨(Rect.unit (s := S5000x96) ![0, 0] S5000x96.size inb_S5000x96_S5000x96_0_0), p0⟩] S5000x96.size (by rfl) y

set_option maxHeartbeats 4000000 in
/-- The body on whole staging buffers, the inputs' at contents `x` and the output's at anything, runs to the end
    leaving the inputs' as they were and the output's at `out1_5` of the inputs'. -/
theorem sound_kernel1 (c : Dev nD) (E : Set ℕ) (i : grid1.Coords) (arg1 : Memref sig .tc .vmem S5000x288 .f32) (harg1 : arg1.IsWhole) (arg2 : Memref sig .tc .vmem S288x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S5000x96 .f32) (harg6 : arg6.IsWhole)
    (x0 : Vec F S5000x288 .f32) (x1 : Vec F S288x96 .f32) (x2 : Vec F S1x96 .f32) (x3 : Vec F S1x96 .f32) (x4 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__affine_ln_act_kernel i arg1 harg1 arg2 harg2 arg3 harg3 arg4 harg4 arg5 harg5 arg6 harg6) K := by
  simp only [cc1__affine_ln_act_kernel_eq_skeleton, k1_part1_eq_skeleton]; unfold cc1__affine_ln_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch asks of the body, at every grid point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KernelReg2.lean ====
/-
  Region 2 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.Kernel.Launch
import proofs.«105666_j32899449488058_1_alg».proof.Proof.Gen.Kernel.Skeleton
import proofs.«105666_j32899449488058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, whether that point fetched it or an
    earlier one did and the block index has not moved since. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, whether that point fetched it or an
    earlier one did and the block index has not moved since. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, whether that point fetched it or an
    earlier one did and the block index has not moved since. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, whether that point fetched it or an
    earlier one did and the block index has not moved since. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every grid point, whether that point fetched it or an
    earlier one did and the block index has not moved since. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, as a function of the input blocks: the one store, over the whole
    buffer, of the body's value. -/
def out2_5 (x0 : Vec F S5000x288 .f32) (x1 : Vec F S288x96 .f32) (x2 : Vec F S1x96 .f32) (x3 : Vec F S1x96 .f32) (x4 : Vec F S1x96 .f32) : Vec F S5000x96 .f32 :=
  View.canon [⟨(Rect.unit (s := S5000x96) ![0, 0] S5000x96.size inb_S5000x96_S5000x96_0_0), k2_pay1 (View.ld x0 (Rect.unit (s := S5000x288) ![0, 0] S5000x288.size inb_S5000x288_S5000x288_0_0)) (View.ld x1 (Rect.unit (s := S288x96) ![0, 0] S288x96.size inb_S288x96_S288x96_0_0)) (View.ld x2 (Rect.unit (s := S1x96) ![0, 0] S1x96.size inb_S1x96_S1x96_0_0)) (View.ld x3 (Rect.unit (s := S1x96) ![0, 0] S1x96.size inb_S1x96_S1x96_0_0)) (View.ld x4 (Rect.unit (s := S1x96) ![0, 0] S1x96.size inb_S1x96_S1x96_0_0))⟩]

/-- The one store covers the buffer. -/
theorem cover2_5 (p0 : Vec F S5000x96 .f32) (y : S5000x96.Idx) :
    ∃ pc ∈ ([⟨(Rect.unit (s := S5000x96) ![0, 0] S5000x96.size inb_S5000x96_S5000x96_0_0), p0⟩] : List (View.Piece (Elt F) S5000x96 .f32)), y ∈ pc.1.set :=
  View.cover_of_tiled [⟨(Rect.unit (s := S5000x96) ![0, 0] S5000x96.size inb_S5000x96_S5000x96_0_0), p0⟩] S5000x96.size (by rfl) y

set_option maxHeartbeats 4000000 in
/-- The body on whole staging buffers, the inputs' at contents `x` and the output's at anything, runs to the end
    leaving the inputs' as they were and the output's at `out2_5` of the inputs'. -/
theorem sound_kernel2 (c : Dev nD) (E : Set ℕ) (i : grid2.Coords) (arg1 : Memref sig .tc .vmem S5000x288 .f32) (harg1 : arg1.IsWhole) (arg2 : Memref sig .tc .vmem S288x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S5000x96 .f32) (harg6 : arg6.IsWhole)
    (x0 : Vec F S5000x288 .f32) (x1 : Vec F S288x96 .f32) (x2 : Vec F S1x96 .f32) (x3 : Vec F S1x96 .f32) (x4 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__affine_ln_act_kernel i arg1 harg1 arg2 harg2 arg3 harg3 arg4 harg4 arg5 harg5 arg6 harg6) K := by
  simp only [cc2__affine_ln_act_kernel_eq_skeleton, k2_part1_eq_skeleton]; unfold cc2__affine_ln_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The region's proof data on core `c`: the arrays as the region finds them; after the body at point `t` each input's
    buffer at its block and the output's at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch asks of the body, at every grid point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KernelReg3.lean ====
/-
  Region 3 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.Kernel.Launch
import proofs.«105666_j32899449488058_1_alg».proof.Proof.Gen.Kernel.Skeleton
import proofs.«105666_j32899449488058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every grid point, whether that point fetched it or an
    earlier one did and the block index has not moved since. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every grid point, whether that point fetched it or an
    earlier one did and the block index has not moved since. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every grid point, whether that point fetched it or an
    earlier one did and the block index has not moved since. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every grid point, whether that point fetched it or an
    earlier one did and the block index has not moved since. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every grid point, whether that point fetched it or an
    earlier one did and the block index has not moved since. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body, as a function of the input blocks: the one store, over the whole
    buffer, of the body's value. -/
def out3_5 (x0 : Vec F S5000x288 .f32) (x1 : Vec F S288x32 .f32) (x2 : Vec F S1x32 .f32) (x3 : Vec F S1x32 .f32) (x4 : Vec F S1x32 .f32) : Vec F S5000x32 .f32 :=
  View.canon [⟨(Rect.unit (s := S5000x32) ![0, 0] S5000x32.size inb_S5000x32_S5000x32_0_0), k3_pay1 (View.ld x0 (Rect.unit (s := S5000x288) ![0, 0] S5000x288.size inb_S5000x288_S5000x288_0_0)) (View.ld x1 (Rect.unit (s := S288x32) ![0, 0] S288x32.size inb_S288x32_S288x32_0_0)) (View.ld x2 (Rect.unit (s := S1x32) ![0, 0] S1x32.size inb_S1x32_S1x32_0_0)) (View.ld x3 (Rect.unit (s := S1x32) ![0, 0] S1x32.size inb_S1x32_S1x32_0_0)) (View.ld x4 (Rect.unit (s := S1x32) ![0, 0] S1x32.size inb_S1x32_S1x32_0_0))⟩]

/-- The one store covers the buffer. -/
theorem cover3_5 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers, the inputs' at contents `x` and the output's at anything, runs to the end
    leaving the inputs' as they were and the output's at `out3_5` of the inputs'. -/
theorem sound_kernel3 (c : Dev nD) (E : Set ℕ) (i : grid3.Coords) (arg1 : Memref sig .tc .vmem S5000x288 .f32) (harg1 : arg1.IsWhole) (arg2 : Memref sig .tc .vmem S288x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x288 .f32) (x1 : Vec F S288x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__affine_ln_act_kernel i arg1 harg1 arg2 harg2 arg3 harg3 arg4 harg4 arg5 harg5 arg6 harg6) K := by
  simp only [cc3__affine_ln_act_kernel_eq_skeleton]; unfold cc3__affine_ln_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each input's
    buffer at its block and the output's at the body's value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any grid point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch asks of the body, at every grid point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KernelRun.lean ====
/-
  The whole run of the program's entry function, at any float instance.

  The entry function is a chain of stretches of host operations and four kernel regions. The contents of the
  TensorCore's buffers are followed from the launch memory through that chain: a stretch of host operations takes the
  contents to the operations' results, a region rewrites its output window's array to what its grid points wrote
  back and leaves every other buffer alone. Every weakly fair execution terminates without a fault in a state whose
  unscoped buffers hold the last contents of that chain; the argument arrays are never written, so they end as
  launched.
-/
import proofs.«105666_j32899449488058_1_alg».proof.Proof.KernelReg0
import proofs.«105666_j32899449488058_1_alg».proof.Proof.KernelReg1
import proofs.«105666_j32899449488058_1_alg».proof.Proof.KernelReg2
import proofs.«105666_j32899449488058_1_alg».proof.Proof.KernelReg3
import proofs.«105666_j32899449488058_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the chain -/

/-- Core `c`'s buffers at launch. -/
abbrev B0 : Dev nD → Valuation τ sig (Elt F) := fun c b => (s₀ m ρ).mem ((c : Dev nD), b)
/-- After the first stretch of host operations (region 0's entry). -/
abbrev B1 : Dev nD → Valuation τ sig (Elt F) := fun c => StableHlo.after hostOps0 (B0 m ρ c)
abbrev A1 : (c : Dev nD) → (b : Ref sig .tc) → Buf (Elt F) ((c : Thread nD τ).loc b) := fun c b => B1 m ρ c b
/-- At region 0's exit: its arrays at what its grid points leave, every other buffer as entered. -/
def B2 (c : Dev nD) : Valuation τ sig (Elt F) :=
  Pipeline.withArrays spec0 c (B1 m ρ c) fun w => (dat0 (A1 m ρ) c).arrAt w cfg0.N
theorem B2_arr (c : Dev nD) (w : Fin cfg0.W) :
    B2 m ρ c (Proc.devRef .tc (Pipeline.arrRef spec0 w)) = (dat0 (A1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev A2 : (c : Dev nD) → (b : Ref sig .tc) → Buf (Elt F) ((c : Thread nD τ).loc b) := fun c b => B2 m ρ c b
theorem hF0 (c : Dev nD) (w : Fin cfg0.W) : (dat0 (A1 m ρ) c).arrAt w cfg0.N = A2 m ρ c (Pipeline.arrRef spec0 w) :=
  (B2_arr m ρ c w).symm
theorem hrest0 (c : Dev nD) : ∀ b, b ∉ Finset.univ.image (Pipeline.arrRef spec0) → A2 m ρ c b = A1 m ρ c b :=
  fun b hb => B2_of_ne m ρ c b fun w e => hb (Finset.mem_image.mpr ⟨w, Finset.mem_univ _, e⟩)
/-- Region 0 changes no buffer but its output window's array: an input window's array is read, never written back. -/
theorem B2_keep (c : Dev nD) (r : Ref sig .tc) (h : r ≠ main_v13) :
    B2 m ρ c (Proc.devRef .tc r) = B1 m ρ c (Proc.devRef .tc r) := by
  by_cases hw : ∃ w, Pipeline.arrRef spec0 w = r
  · obtain ⟨w, rfl⟩ := hw
    rw [B2_arr]
    fin_cases w
    · exact ((dat0 (A1 m ρ) c).arrAt_in 0 rfl _).trans (A_eq0 (A1 m ρ) c 0)
    · exact ((dat0 (A1 m ρ) c).arrAt_in 1 rfl _).trans (A_eq0 (A1 m ρ) c 1)
    · exact ((dat0 (A1 m ρ) c).arrAt_in 2 rfl _).trans (A_eq0 (A1 m ρ) c 2)
    · exact ((dat0 (A1 m ρ) c).arrAt_in 3 rfl _).trans (A_eq0 (A1 m ρ) c 3)
    · exact ((dat0 (A1 m ρ) c).arrAt_in 4 rfl _).trans (A_eq0 (A1 m ρ) c 4)
    · exact ((dat0 (A1 m ρ) c).arrAt_in 5 rfl _).trans (A_eq0 (A1 m ρ) c 5)
    · exact ((dat0 (A1 m ρ) c).arrAt_in 6 rfl _).trans (A_eq0 (A1 m ρ) c 6)
    · exact absurd rfl h
  · exact B2_of_ne m ρ c r fun w e => hw ⟨w, e⟩
/-- After the next stretch of host operations. -/
abbrev B3 : Dev nD → Valuation τ sig (Elt F) := fun c => StableHlo.after hostOps1 (B2 m ρ c)
abbrev A3 : (c : Dev nD) → (b : Ref sig .tc) → Buf (Elt F) ((c : Thread nD τ).loc b) := fun c b => B3 m ρ c b
/-- At region 1's exit: its arrays at what its grid points leave, every other buffer as entered. -/
def B4 (c : Dev nD) : Valuation τ sig (Elt F) :=
  Pipeline.withArrays spec1 c (B3 m ρ c) fun w => (dat1 (A3 m ρ) c).arrAt w cfg1.N
theorem B4_arr (c : Dev nD) (w : Fin cfg1.W) :
    B4 m ρ c (Proc.devRef .tc (Pipeline.arrRef spec1 w)) = (dat1 (A3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev A4 : (c : Dev nD) → (b : Ref sig .tc) → Buf (Elt F) ((c : Thread nD τ).loc b) := fun c b => B4 m ρ c b
theorem hF1 (c : Dev nD) (w : Fin cfg1.W) : (dat1 (A3 m ρ) c).arrAt w cfg1.N = A4 m ρ c (Pipeline.arrRef spec1 w) :=
  (B4_arr m ρ c w).symm
theorem hrest1 (c : Dev nD) : ∀ b, b ∉ Finset.univ.image (Pipeline.arrRef spec1) → A4 m ρ c b = A3 m ρ c b :=
  fun b hb => B4_of_ne m ρ c b fun w e => hb (Finset.mem_image.mpr ⟨w, Finset.mem_univ _, e⟩)
/-- Region 1 changes no buffer but its output window's array: an input window's array is read, never written back. -/
theorem B4_keep (c : Dev nD) (r : Ref sig .tc) (h : r ≠ main_v52) :
    B4 m ρ c (Proc.devRef .tc r) = B3 m ρ c (Proc.devRef .tc r) := by
  by_cases hw : ∃ w, Pipeline.arrRef spec1 w = r
  · obtain ⟨w, rfl⟩ := hw
    rw [B4_arr]
    fin_cases w
    · exact ((dat1 (A3 m ρ) c).arrAt_in 0 rfl _).trans (A_eq1 (A3 m ρ) c 0)
    · exact ((dat1 (A3 m ρ) c).arrAt_in 1 rfl _).trans (A_eq1 (A3 m ρ) c 1)
    · exact ((dat1 (A3 m ρ) c).arrAt_in 2 rfl _).trans (A_eq1 (A3 m ρ) c 2)
    · exact ((dat1 (A3 m ρ) c).arrAt_in 3 rfl _).trans (A_eq1 (A3 m ρ) c 3)
    · exact ((dat1 (A3 m ρ) c).arrAt_in 4 rfl _).trans (A_eq1 (A3 m ρ) c 4)
    · exact absurd rfl h
  · exact B4_of_ne m ρ c r fun w e => hw ⟨w, e⟩
/-- After the next stretch of host operations. -/
abbrev B5 : Dev nD → Valuation τ sig (Elt F) := fun c => StableHlo.after hostOps2 (B4 m ρ c)
abbrev A5 : (c : Dev nD) → (b : Ref sig .tc) → Buf (Elt F) ((c : Thread nD τ).loc b) := fun c b => B5 m ρ c b
/-- At region 2's exit: its arrays at what its grid points leave, every other buffer as entered. -/
def B6 (c : Dev nD) : Valuation τ sig (Elt F) :=
  Pipeline.withArrays spec2 c (B5 m ρ c) fun w => (dat2 (A5 m ρ) c).arrAt w cfg2.N
theorem B6_arr (c : Dev nD) (w : Fin cfg2.W) :
    B6 m ρ c (Proc.devRef .tc (Pipeline.arrRef spec2 w)) = (dat2 (A5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev A6 : (c : Dev nD) → (b : Ref sig .tc) → Buf (Elt F) ((c : Thread nD τ).loc b) := fun c b => B6 m ρ c b
theorem hF2 (c : Dev nD) (w : Fin cfg2.W) : (dat2 (A5 m ρ) c).arrAt w cfg2.N = A6 m ρ c (Pipeline.arrRef spec2 w) :=
  (B6_arr m ρ c w).symm
theorem hrest2 (c : Dev nD) : ∀ b, b ∉ Finset.univ.image (Pipeline.arrRef spec2) → A6 m ρ c b = A5 m ρ c b :=
  fun b hb => B6_of_ne m ρ c b fun w e => hb (Finset.mem_image.mpr ⟨w, Finset.mem_univ _, e⟩)
/-- Region 2 changes no buffer but its output window's array: an input window's array is read, never written back. -/
theorem B6_keep (c : Dev nD) (r : Ref sig .tc) (h : r ≠ main_v91) :
    B6 m ρ c (Proc.devRef .tc r) = B5 m ρ c (Proc.devRef .tc r) := by
  by_cases hw : ∃ w, Pipeline.arrRef spec2 w = r
  · obtain ⟨w, rfl⟩ := hw
    rw [B6_arr]
    fin_cases w
    · exact ((dat2 (A5 m ρ) c).arrAt_in 0 rfl _).trans (A_eq2 (A5 m ρ) c 0)
    · exact ((dat2 (A5 m ρ) c).arrAt_in 1 rfl _).trans (A_eq2 (A5 m ρ) c 1)
    · exact ((dat2 (A5 m ρ) c).arrAt_in 2 rfl _).trans (A_eq2 (A5 m ρ) c 2)
    · exact ((dat2 (A5 m ρ) c).arrAt_in 3 rfl _).trans (A_eq2 (A5 m ρ) c 3)
    · exact ((dat2 (A5 m ρ) c).arrAt_in 4 rfl _).trans (A_eq2 (A5 m ρ) c 4)
    · exact absurd rfl h
  · exact B6_of_ne m ρ c r fun w e => hw ⟨w, e⟩
/-- After the next stretch of host operations. -/
abbrev B7 : Dev nD → Valuation τ sig (Elt F) := fun c => StableHlo.after hostOps3 (B6 m ρ c)
abbrev A7 : (c : Dev nD) → (b : Ref sig .tc) → Buf (Elt F) ((c : Thread nD τ).loc b) := fun c b => B7 m ρ c b
/-- At region 3's exit: its arrays at what its grid points leave, every other buffer as entered. -/
def B8 (c : Dev nD) : Valuation τ sig (Elt F) :=
  Pipeline.withArrays spec3 c (B7 m ρ c) fun w => (dat3 (A7 m ρ) c).arrAt w cfg3.N
theorem B8_arr (c : Dev nD) (w : Fin cfg3.W) :
    B8 m ρ c (Proc.devRef .tc (Pipeline.arrRef spec3 w)) = (dat3 (A7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev A8 : (c : Dev nD) → (b : Ref sig .tc) → Buf (Elt F) ((c : Thread nD τ).loc b) := fun c b => B8 m ρ c b
theorem hF3 (c : Dev nD) (w : Fin cfg3.W) : (dat3 (A7 m ρ) c).arrAt w cfg3.N = A8 m ρ c (Pipeline.arrRef spec3 w) :=
  (B8_arr m ρ c w).symm
theorem hrest3 (c : Dev nD) : ∀ b, b ∉ Finset.univ.image (Pipeline.arrRef spec3) → A8 m ρ c b = A7 m ρ c b :=
  fun b hb => B8_of_ne m ρ c b fun w e => hb (Finset.mem_image.mpr ⟨w, Finset.mem_univ _, e⟩)
/-- Region 3 changes no buffer but its output window's array: an input window's array is read, never written back. -/
theorem B8_keep (c : Dev nD) (r : Ref sig .tc) (h : r ≠ main_v130) :
    B8 m ρ c (Proc.devRef .tc r) = B7 m ρ c (Proc.devRef .tc r) := by
  by_cases hw : ∃ w, Pipeline.arrRef spec3 w = r
  · obtain ⟨w, rfl⟩ := hw
    rw [B8_arr]
    fin_cases w
    · exact ((dat3 (A7 m ρ) c).arrAt_in 0 rfl _).trans (A_eq3 (A7 m ρ) c 0)
    · exact ((dat3 (A7 m ρ) c).arrAt_in 1 rfl _).trans (A_eq3 (A7 m ρ) c 1)
    · exact ((dat3 (A7 m ρ) c).arrAt_in 2 rfl _).trans (A_eq3 (A7 m ρ) c 2)
    · exact ((dat3 (A7 m ρ) c).arrAt_in 3 rfl _).trans (A_eq3 (A7 m ρ) c 3)
    · exact ((dat3 (A7 m ρ) c).arrAt_in 4 rfl _).trans (A_eq3 (A7 m ρ) c 4)
    · exact absurd rfl h
  · exact B8_of_ne m ρ c r fun w e => hw ⟨w, e⟩
/-- After the next stretch of host operations. -/
abbrev B9 : Dev nD → Valuation τ sig (Elt F) := fun c => StableHlo.after hostOps4 (B8 m ρ c)
abbrev A9 : (c : Dev nD) → (b : Ref sig .tc) → Buf (Elt F) ((c : Thread nD τ).loc b) := fun c b => B9 m ρ c b
/-- After the last stretch of host operations: the contents the run ends with. -/
abbrev B10 : Dev nD → Valuation τ sig (Elt F) := fun c => StableHlo.after hostOps4_1 (B9 m ρ c)

/-! ## The arguments end as launched -/

theorem B10_main_arg0 (c : Dev nD) : B10 m ρ c (Proc.devRef .tc main_arg0) = m ((c : Thread nD τ).loc main_arg0) :=
  (StableHlo.after_of_writes_sub hostOps4_1 _ hostOps4_1_writes (by decide : main_arg0 ∉ hostOps4_1_W)).trans <|
  (StableHlo.after_of_writes_sub hostOps4 _ hostOps4_writes (by decide : main_arg0 ∉ hostOps4_W)).trans <|
  (B8_keep m ρ c main_arg0 (by decide)).trans <|
  (StableHlo.after_of_writes_sub hostOps3 _ hostOps3_writes (by decide : main_arg0 ∉ hostOps3_W)).trans <|
  (B6_keep m ρ c main_arg0 (by decide)).trans <|
  (StableHlo.after_of_writes_sub hostOps2 _ hostOps2_writes (by decide : main_arg0 ∉ hostOps2_W)).trans <|
  (B4_keep m ρ c main_arg0 (by decide)).trans <|
  (StableHlo.after_of_writes_sub hostOps1 _ hostOps1_writes (by decide : main_arg0 ∉ hostOps1_W)).trans <|
  (B2_keep m ρ c main_arg0 (by decide)).trans <|
  (StableHlo.after_of_writes_sub hostOps0 _ hostOps0_writes (by decide : main_arg0 ∉ hostOps0_W)).trans rfl
theorem B10_main_arg1 (c : Dev nD) : B10 m ρ c (Proc.devRef .tc main_arg1) = m ((c : Thread nD τ).loc main_arg1) :=
  (StableHlo.after_of_writes_sub hostOps4_1 _ hostOps4_1_writes (by decide : main_arg1 ∉ hostOps4_1_W)).trans <|
  (StableHlo.after_of_writes_sub hostOps4 _ hostOps4_writes (by decide : main_arg1 ∉ hostOps4_W)).trans <|
  (B8_keep m ρ c main_arg1 (by decide)).trans <|
  (StableHlo.after_of_writes_sub hostOps3 _ hostOps3_writes (by decide : main_arg1 ∉ hostOps3_W)).trans <|
  (B6_keep m ρ c main_arg1 (by decide)).trans <|
  (StableHlo.after_of_writes_sub hostOps2 _ hostOps2_writes (by decide : main_arg1 ∉ hostOps2_W)).trans <|
  (B4_keep m ρ c main_arg1 (by decide)).trans <|
  (StableHlo.after_of_writes_sub hostOps1 _ hostOps1_writes (by decide : main_arg1 ∉ hostOps1_W)).trans <|
  (B2_keep m ρ c main_arg1 (by decide)).trans <|
  (StableHlo.after_of_writes_sub hostOps0 _ hostOps0_writes (by decide : main_arg1 ∉ hostOps0_W)).trans rfl
theorem B10_main_arg2 (c : Dev nD) : B10 m ρ c (Proc.devRef .tc main_arg2) = m ((c : Thread nD τ).loc main_arg2) :=
  (StableHlo.after_of_writes_sub hostOps4_1 _ hostOps4_1_writes (by decide : main_arg2 ∉ hostOps4_1_W)).trans <|
  (StableHlo.after_of_writes_sub hostOps4 _ hostOps4_writes (by decide : main_arg2 ∉ hostOps4_W)).trans <|
  (B8_keep m ρ c main_arg2 (by decide)).trans <|
  (StableHlo.after_of_writes_sub hostOps3 _ hostOps3_writes (by decide : main_arg2 ∉ hostOps3_W)).trans <|
  (B6_keep m ρ c main_arg2 (by decide)).trans <|
  (StableHlo.after_of_writes_sub hostOps2 _ hostOps2_writes (by decide : main_arg2 ∉ hostOps2_W)).trans <|
  (B4_keep m ρ c main_arg2 (by decide)).trans <|
  (StableHlo.after_of_writes_sub hostOps1 _ hostOps1_writes (by decide : main_arg2 ∉ hostOps1_W)).trans <|
  (B2_keep m ρ c main_arg2 (by decide)).trans <|
  (StableHlo.after_of_writes_sub hostOps0 _ hostOps0_writes (by decide : main_arg2 ∉ hostOps0_W)).trans rfl
theorem B10_main_arg3 (c : Dev nD) : B10 m ρ c (Proc.devRef .tc main_arg3) = m ((c : Thread nD τ).loc main_arg3) :=
  (StableHlo.after_of_writes_sub hostOps4_1 _ hostOps4_1_writes (by decide : main_arg3 ∉ hostOps4_1_W)).trans <|
  (StableHlo.after_of_writes_sub hostOps4 _ hostOps4_writes (by decide : main_arg3 ∉ hostOps4_W)).trans <|
  (B8_keep m ρ c main_arg3 (by decide)).trans <|
  (StableHlo.after_of_writes_sub hostOps3 _ hostOps3_writes (by decide : main_arg3 ∉ hostOps3_W)).trans <|
  (B6_keep m ρ c main_arg3 (by decide)).trans <|
  (StableHlo.after_of_writes_sub hostOps2 _ hostOps2_writes (by decide : main_arg3 ∉ hostOps2_W)).trans <|
  (B4_keep m ρ c main_arg3 (by decide)).trans <|
  (StableHlo.after_of_writes_sub hostOps1 _ hostOps1_writes (by decide : main_arg3 ∉ hostOps1_W)).trans <|
  (B2_keep m ρ c main_arg3 (by decide)).trans <|
  (StableHlo.after_of_writes_sub hostOps0 _ hostOps0_writes (by decide : main_arg3 ∉ hostOps0_W)).trans rfl
theorem B10_main_arg4 (c : Dev nD) : B10 m ρ c (Proc.devRef .tc main_arg4) = m ((c : Thread nD τ).loc main_arg4) :=
  (StableHlo.after_of_writes_sub hostOps4_1 _ hostOps4_1_writes (by decide : main_arg4 ∉ hostOps4_1_W)).trans <|
  (StableHlo.after_of_writes_sub hostOps4 _ hostOps4_writes (by decide : main_arg4 ∉ hostOps4_W)).trans <|
  (B8_keep m ρ c main_arg4 (by decide)).trans <|
  (StableHlo.after_of_writes_sub hostOps3 _ hostOps3_writes (by decide : main_arg4 ∉ hostOps3_W)).trans <|
  (B6_keep m ρ c main_arg4 (by decide)).trans <|
  (StableHlo.after_of_writes_sub hostOps2 _ hostOps2_writes (by decide : main_arg4 ∉ hostOps2_W)).trans <|
  (B4_keep m ρ c main_arg4 (by decide)).trans <|
  (StableHlo.after_of_writes_sub hostOps1 _ hostOps1_writes (by decide : main_arg4 ∉ hostOps1_W)).trans <|
  (B2_keep m ρ c main_arg4 (by decide)).trans <|
  (StableHlo.after_of_writes_sub hostOps0 _ hostOps0_writes (by decide : main_arg4 ∉ hostOps0_W)).trans rfl
theorem B10_main_arg5 (c : Dev nD) : B10 m ρ c (Proc.devRef .tc main_arg5) = m ((c : Thread nD τ).loc main_arg5) :=
  (StableHlo.after_of_writes_sub hostOps4_1 _ hostOps4_1_writes (by decide : main_arg5 ∉ hostOps4_1_W)).trans <|
  (StableHlo.after_of_writes_sub hostOps4 _ hostOps4_writes (by decide : main_arg5 ∉ hostOps4_W)).trans <|
  (B8_keep m ρ c main_arg5 (by decide)).trans <|
  (StableHlo.after_of_writes_sub hostOps3 _ hostOps3_writes (by decide : main_arg5 ∉ hostOps3_W)).trans <|
  (B6_keep m ρ c main_arg5 (by decide)).trans <|
  (StableHlo.after_of_writes_sub hostOps2 _ hostOps2_writes (by decide : main_arg5 ∉ hostOps2_W)).trans <|
  (B4_keep m ρ c main_arg5 (by decide)).trans <|
  (StableHlo.after_of_writes_sub hostOps1 _ hostOps1_writes (by decide : main_arg5 ∉ hostOps1_W)).trans <|
  (B2_keep m ρ c main_arg5 (by decide)).trans <|
  (StableHlo.after_of_writes_sub hostOps0 _ hostOps0_writes (by decide : main_arg5 ∉ hostOps0_W)).trans rfl
theorem B10_main_arg6 (c : Dev nD) : B10 m ρ c (Proc.devRef .tc main_arg6) = m ((c : Thread nD τ).loc main_arg6) :=
  (StableHlo.after_of_writes_sub hostOps4_1 _ hostOps4_1_writes (by decide : main_arg6 ∉ hostOps4_1_W)).trans <|
  (StableHlo.after_of_writes_sub hostOps4 _ hostOps4_writes (by decide : main_arg6 ∉ hostOps4_W)).trans <|
  (B8_keep m ρ c main_arg6 (by decide)).trans <|
  (StableHlo.after_of_writes_sub hostOps3 _ hostOps3_writes (by decide : main_arg6 ∉ hostOps3_W)).trans <|
  (B6_keep m ρ c main_arg6 (by decide)).trans <|
  (StableHlo.after_of_writes_sub hostOps2 _ hostOps2_writes (by decide : main_arg6 ∉ hostOps2_W)).trans <|
  (B4_keep m ρ c main_arg6 (by decide)).trans <|
  (StableHlo.after_of_writes_sub hostOps1 _ hostOps1_writes (by decide : main_arg6 ∉ hostOps1_W)).trans <|
  (B2_keep m ρ c main_arg6 (by decide)).trans <|
  (StableHlo.after_of_writes_sub hostOps0 _ hostOps0_writes (by decide : main_arg6 ∉ hostOps0_W)).trans rfl
theorem B10_main_arg7 (c : Dev nD) : B10 m ρ c (Proc.devRef .tc main_arg7) = m ((c : Thread nD τ).loc main_arg7) :=
  (StableHlo.after_of_writes_sub hostOps4_1 _ hostOps4_1_writes (by decide : main_arg7 ∉ hostOps4_1_W)).trans <|
  (StableHlo.after_of_writes_sub hostOps4 _ hostOps4_writes (by decide : main_arg7 ∉ hostOps4_W)).trans <|
  (B8_keep m ρ c main_arg7 (by decide)).trans <|
  (StableHlo.after_of_writes_sub hostOps3 _ hostOps3_writes (by decide : main_arg7 ∉ hostOps3_W)).trans <|
  (B6_keep m ρ c main_arg7 (by decide)).trans <|
  (StableHlo.after_of_writes_sub hostOps2 _ hostOps2_writes (by decide : main_arg7 ∉ hostOps2_W)).trans <|
  (B4_keep m ρ c main_arg7 (by decide)).trans <|
  (StableHlo.after_of_writes_sub hostOps1 _ hostOps1_writes (by decide : main_arg7 ∉ hostOps1_W)).trans <|
  (B2_keep m ρ c main_arg7 (by decide)).trans <|
  (StableHlo.after_of_writes_sub hostOps0 _ hostOps0_writes (by decide : main_arg7 ∉ hostOps0_W)).trans rfl
theorem B10_main_arg8 (c : Dev nD) : B10 m ρ c (Proc.devRef .tc main_arg8) = m ((c : Thread nD τ).loc main_arg8) :=
  (StableHlo.after_of_writes_sub hostOps4_1 _ hostOps4_1_writes (by decide : main_arg8 ∉ hostOps4_1_W)).trans <|
  (StableHlo.after_of_writes_sub hostOps4 _ hostOps4_writes (by decide : main_arg8 ∉ hostOps4_W)).trans <|
  (B8_keep m ρ c main_arg8 (by decide)).trans <|
  (StableHlo.after_of_writes_sub hostOps3 _ hostOps3_writes (by decide : main_arg8 ∉ hostOps3_W)).trans <|
  (B6_keep m ρ c main_arg8 (by decide)).trans <|
  (StableHlo.after_of_writes_sub hostOps2 _ hostOps2_writes (by decide : main_arg8 ∉ hostOps2_W)).trans <|
  (B4_keep m ρ c main_arg8 (by decide)).trans <|
  (StableHlo.after_of_writes_sub hostOps1 _ hostOps1_writes (by decide : main_arg8 ∉ hostOps1_W)).trans <|
  (B2_keep m ρ c main_arg8 (by decide)).trans <|
  (StableHlo.after_of_writes_sub hostOps0 _ hostOps0_writes (by decide : main_arg8 ∉ hostOps0_W)).trans rfl
theorem B10_main_arg9 (c : Dev nD) : B10 m ρ c (Proc.devRef .tc main_arg9) = m ((c : Thread nD τ).loc main_arg9) :=
  (StableHlo.after_of_writes_sub hostOps4_1 _ hostOps4_1_writes (by decide : main_arg9 ∉ hostOps4_1_W)).trans <|
  (StableHlo.after_of_writes_sub hostOps4 _ hostOps4_writes (by decide : main_arg9 ∉ hostOps4_W)).trans <|
  (B8_keep m ρ c main_arg9 (by decide)).trans <|
  (StableHlo.after_of_writes_sub hostOps3 _ hostOps3_writes (by decide : main_arg9 ∉ hostOps3_W)).trans <|
  (B6_keep m ρ c main_arg9 (by decide)).trans <|
  (StableHlo.after_of_writes_sub hostOps2 _ hostOps2_writes (by decide : main_arg9 ∉ hostOps2_W)).trans <|
  (B4_keep m ρ c main_arg9 (by decide)).trans <|
  (StableHlo.after_of_writes_sub hostOps1 _ hostOps1_writes (by decide : main_arg9 ∉ hostOps1_W)).trans <|
  (B2_keep m ρ c main_arg9 (by decide)).trans <|
  (StableHlo.after_of_writes_sub hostOps0 _ hostOps0_writes (by decide : main_arg9 ∉ hostOps0_W)).trans rfl
theorem B10_main_arg10 (c : Dev nD) : B10 m ρ c (Proc.devRef .tc main_arg10) = m ((c : Thread nD τ).loc main_arg10) :=
  (StableHlo.after_of_writes_sub hostOps4_1 _ hostOps4_1_writes (by decide : main_arg10 ∉ hostOps4_1_W)).trans <|
  (StableHlo.after_of_writes_sub hostOps4 _ hostOps4_writes (by decide : main_arg10 ∉ hostOps4_W)).trans <|
  (B8_keep m ρ c main_arg10 (by decide)).trans <|
  (StableHlo.after_of_writes_sub hostOps3 _ hostOps3_writes (by decide : main_arg10 ∉ hostOps3_W)).trans <|
  (B6_keep m ρ c main_arg10 (by decide)).trans <|
  (StableHlo.after_of_writes_sub hostOps2 _ hostOps2_writes (by decide : main_arg10 ∉ hostOps2_W)).trans <|
  (B4_keep m ρ c main_arg10 (by decide)).trans <|
  (StableHlo.after_of_writes_sub hostOps1 _ hostOps1_writes (by decide : main_arg10 ∉ hostOps1_W)).trans <|
  (B2_keep m ρ c main_arg10 (by decide)).trans <|
  (StableHlo.after_of_writes_sub hostOps0 _ hostOps0_writes (by decide : main_arg10 ∉ hostOps0_W)).trans rfl
theorem B10_main_arg11 (c : Dev nD) : B10 m ρ c (Proc.devRef .tc main_arg11) = m ((c : Thread nD τ).loc main_arg11) :=
  (StableHlo.after_of_writes_sub hostOps4_1 _ hostOps4_1_writes (by decide : main_arg11 ∉ hostOps4_1_W)).trans <|
  (StableHlo.after_of_writes_sub hostOps4 _ hostOps4_writes (by decide : main_arg11 ∉ hostOps4_W)).trans <|
  (B8_keep m ρ c main_arg11 (by decide)).trans <|
  (StableHlo.after_of_writes_sub hostOps3 _ hostOps3_writes (by decide : main_arg11 ∉ hostOps3_W)).trans <|
  (B6_keep m ρ c main_arg11 (by decide)).trans <|
  (StableHlo.after_of_writes_sub hostOps2 _ hostOps2_writes (by decide : main_arg11 ∉ hostOps2_W)).trans <|
  (B4_keep m ρ c main_arg11 (by decide)).trans <|
  (StableHlo.after_of_writes_sub hostOps1 _ hostOps1_writes (by decide : main_arg11 ∉ hostOps1_W)).trans <|
  (B2_keep m ρ c main_arg11 (by decide)).trans <|
  (StableHlo.after_of_writes_sub hostOps0 _ hostOps0_writes (by decide : main_arg11 ∉ hostOps0_W)).trans rfl
theorem B10_main_arg12 (c : Dev nD) : B10 m ρ c (Proc.devRef .tc main_arg12) = m ((c : Thread nD τ).loc main_arg12) :=
  (StableHlo.after_of_writes_sub hostOps4_1 _ hostOps4_1_writes (by decide : main_arg12 ∉ hostOps4_1_W)).trans <|
  (StableHlo.after_of_writes_sub hostOps4 _ hostOps4_writes (by decide : main_arg12 ∉ hostOps4_W)).trans <|
  (B8_keep m ρ c main_arg12 (by decide)).trans <|
  (StableHlo.after_of_writes_sub hostOps3 _ hostOps3_writes (by decide : main_arg12 ∉ hostOps3_W)).trans <|
  (B6_keep m ρ c main_arg12 (by decide)).trans <|
  (StableHlo.after_of_writes_sub hostOps2 _ hostOps2_writes (by decide : main_arg12 ∉ hostOps2_W)).trans <|
  (B4_keep m ρ c main_arg12 (by decide)).trans <|
  (StableHlo.after_of_writes_sub hostOps1 _ hostOps1_writes (by decide : main_arg12 ∉ hostOps1_W)).trans <|
  (B2_keep m ρ c main_arg12 (by decide)).trans <|
  (StableHlo.after_of_writes_sub hostOps0 _ hostOps0_writes (by decide : main_arg12 ∉ hostOps0_W)).trans rfl
theorem B10_main_arg13 (c : Dev nD) : B10 m ρ c (Proc.devRef .tc main_arg13) = m ((c : Thread nD τ).loc main_arg13) :=
  (StableHlo.after_of_writes_sub hostOps4_1 _ hostOps4_1_writes (by decide : main_arg13 ∉ hostOps4_1_W)).trans <|
  (StableHlo.after_of_writes_sub hostOps4 _ hostOps4_writes (by decide : main_arg13 ∉ hostOps4_W)).trans <|
  (B8_keep m ρ c main_arg13 (by decide)).trans <|
  (StableHlo.after_of_writes_sub hostOps3 _ hostOps3_writes (by decide : main_arg13 ∉ hostOps3_W)).trans <|
  (B6_keep m ρ c main_arg13 (by decide)).trans <|
  (StableHlo.after_of_writes_sub hostOps2 _ hostOps2_writes (by decide : main_arg13 ∉ hostOps2_W)).trans <|
  (B4_keep m ρ c main_arg13 (by decide)).trans <|
  (StableHlo.after_of_writes_sub hostOps1 _ hostOps1_writes (by decide : main_arg13 ∉ hostOps1_W)).trans <|
  (B2_keep m ρ c main_arg13 (by decide)).trans <|
  (StableHlo.after_of_writes_sub hostOps0 _ hostOps0_writes (by decide : main_arg13 ∉ hostOps0_W)).trans rfl
theorem B10_main_arg14 (c : Dev nD) : B10 m ρ c (Proc.devRef .tc main_arg14) = m ((c : Thread nD τ).loc main_arg14) :=
  (StableHlo.after_of_writes_sub hostOps4_1 _ hostOps4_1_writes (by decide : main_arg14 ∉ hostOps4_1_W)).trans <|
  (StableHlo.after_of_writes_sub hostOps4 _ hostOps4_writes (by decide : main_arg14 ∉ hostOps4_W)).trans <|
  (B8_keep m ρ c main_arg14 (by decide)).trans <|
  (StableHlo.after_of_writes_sub hostOps3 _ hostOps3_writes (by decide : main_arg14 ∉ hostOps3_W)).trans <|
  (B6_keep m ρ c main_arg14 (by decide)).trans <|
  (StableHlo.after_of_writes_sub hostOps2 _ hostOps2_writes (by decide : main_arg14 ∉ hostOps2_W)).trans <|
  (B4_keep m ρ c main_arg14 (by decide)).trans <|
  (StableHlo.after_of_writes_sub hostOps1 _ hostOps1_writes (by decide : main_arg14 ∉ hostOps1_W)).trans <|
  (B2_keep m ρ c main_arg14 (by decide)).trans <|
  (StableHlo.after_of_writes_sub hostOps0 _ hostOps0_writes (by decide : main_arg14 ∉ hostOps0_W)).trans rfl
theorem B10_main_arg15 (c : Dev nD) : B10 m ρ c (Proc.devRef .tc main_arg15) = m ((c : Thread nD τ).loc main_arg15) :=
  (StableHlo.after_of_writes_sub hostOps4_1 _ hostOps4_1_writes (by decide : main_arg15 ∉ hostOps4_1_W)).trans <|
  (StableHlo.after_of_writes_sub hostOps4 _ hostOps4_writes (by decide : main_arg15 ∉ hostOps4_W)).trans <|
  (B8_keep m ρ c main_arg15 (by decide)).trans <|
  (StableHlo.after_of_writes_sub hostOps3 _ hostOps3_writes (by decide : main_arg15 ∉ hostOps3_W)).trans <|
  (B6_keep m ρ c main_arg15 (by decide)).trans <|
  (StableHlo.after_of_writes_sub hostOps2 _ hostOps2_writes (by decide : main_arg15 ∉ hostOps2_W)).trans <|
  (B4_keep m ρ c main_arg15 (by decide)).trans <|
  (StableHlo.after_of_writes_sub hostOps1 _ hostOps1_writes (by decide : main_arg15 ∉ hostOps1_W)).trans <|
  (B2_keep m ρ c main_arg15 (by decide)).trans <|
  (StableHlo.after_of_writes_sub hostOps0 _ hostOps0_writes (by decide : main_arg15 ∉ hostOps0_W)).trans rfl
theorem B10_main_arg16 (c : Dev nD) : B10 m ρ c (Proc.devRef .tc main_arg16) = m ((c : Thread nD τ).loc main_arg16) :=
  (StableHlo.after_of_writes_sub hostOps4_1 _ hostOps4_1_writes (by decide : main_arg16 ∉ hostOps4_1_W)).trans <|
  (StableHlo.after_of_writes_sub hostOps4 _ hostOps4_writes (by decide : main_arg16 ∉ hostOps4_W)).trans <|
  (B8_keep m ρ c main_arg16 (by decide)).trans <|
  (StableHlo.after_of_writes_sub hostOps3 _ hostOps3_writes (by decide : main_arg16 ∉ hostOps3_W)).trans <|
  (B6_keep m ρ c main_arg16 (by decide)).trans <|
  (StableHlo.after_of_writes_sub hostOps2 _ hostOps2_writes (by decide : main_arg16 ∉ hostOps2_W)).trans <|
  (B4_keep m ρ c main_arg16 (by decide)).trans <|
  (StableHlo.after_of_writes_sub hostOps1 _ hostOps1_writes (by decide : main_arg16 ∉ hostOps1_W)).trans <|
  (B2_keep m ρ c main_arg16 (by decide)).trans <|
  (StableHlo.after_of_writes_sub hostOps0 _ hostOps0_writes (by decide : main_arg16 ∉ hostOps0_W)).trans rfl
theorem B10_main_arg17 (c : Dev nD) : B10 m ρ c (Proc.devRef .tc main_arg17) = m ((c : Thread nD τ).loc main_arg17) :=
  (StableHlo.after_of_writes_sub hostOps4_1 _ hostOps4_1_writes (by decide : main_arg17 ∉ hostOps4_1_W)).trans <|
  (StableHlo.after_of_writes_sub hostOps4 _ hostOps4_writes (by decide : main_arg17 ∉ hostOps4_W)).trans <|
  (B8_keep m ρ c main_arg17 (by decide)).trans <|
  (StableHlo.after_of_writes_sub hostOps3 _ hostOps3_writes (by decide : main_arg17 ∉ hostOps3_W)).trans <|
  (B6_keep m ρ c main_arg17 (by decide)).trans <|
  (StableHlo.after_of_writes_sub hostOps2 _ hostOps2_writes (by decide : main_arg17 ∉ hostOps2_W)).trans <|
  (B4_keep m ρ c main_arg17 (by decide)).trans <|
  (StableHlo.after_of_writes_sub hostOps1 _ hostOps1_writes (by decide : main_arg17 ∉ hostOps1_W)).trans <|
  (B2_keep m ρ c main_arg17 (by decide)).trans <|
  (StableHlo.after_of_writes_sub hostOps0 _ hostOps0_writes (by decide : main_arg17 ∉ hostOps0_W)).trans rfl
theorem B10_main_arg18 (c : Dev nD) : B10 m ρ c (Proc.devRef .tc main_arg18) = m ((c : Thread nD τ).loc main_arg18) :=
  (StableHlo.after_of_writes_sub hostOps4_1 _ hostOps4_1_writes (by decide : main_arg18 ∉ hostOps4_1_W)).trans <|
  (StableHlo.after_of_writes_sub hostOps4 _ hostOps4_writes (by decide : main_arg18 ∉ hostOps4_W)).trans <|
  (B8_keep m ρ c main_arg18 (by decide)).trans <|
  (StableHlo.after_of_writes_sub hostOps3 _ hostOps3_writes (by decide : main_arg18 ∉ hostOps3_W)).trans <|
  (B6_keep m ρ c main_arg18 (by decide)).trans <|
  (StableHlo.after_of_writes_sub hostOps2 _ hostOps2_writes (by decide : main_arg18 ∉ hostOps2_W)).trans <|
  (B4_keep m ρ c main_arg18 (by decide)).trans <|
  (StableHlo.after_of_writes_sub hostOps1 _ hostOps1_writes (by decide : main_arg18 ∉ hostOps1_W)).trans <|
  (B2_keep m ρ c main_arg18 (by decide)).trans <|
  (StableHlo.after_of_writes_sub hostOps0 _ hostOps0_writes (by decide : main_arg18 ∉ hostOps0_W)).trans rfl
theorem B10_main_arg19 (c : Dev nD) : B10 m ρ c (Proc.devRef .tc main_arg19) = m ((c : Thread nD τ).loc main_arg19) :=
  (StableHlo.after_of_writes_sub hostOps4_1 _ hostOps4_1_writes (by decide : main_arg19 ∉ hostOps4_1_W)).trans <|
  (StableHlo.after_of_writes_sub hostOps4 _ hostOps4_writes (by decide : main_arg19 ∉ hostOps4_W)).trans <|
  (B8_keep m ρ c main_arg19 (by decide)).trans <|
  (StableHlo.after_of_writes_sub hostOps3 _ hostOps3_writes (by decide : main_arg19 ∉ hostOps3_W)).trans <|
  (B6_keep m ρ c main_arg19 (by decide)).trans <|
  (StableHlo.after_of_writes_sub hostOps2 _ hostOps2_writes (by decide : main_arg19 ∉ hostOps2_W)).trans <|
  (B4_keep m ρ c main_arg19 (by decide)).trans <|
  (StableHlo.after_of_writes_sub hostOps1 _ hostOps1_writes (by decide : main_arg19 ∉ hostOps1_W)).trans <|
  (B2_keep m ρ c main_arg19 (by decide)).trans <|
  (StableHlo.after_of_writes_sub hostOps0 _ hostOps0_writes (by decide : main_arg19 ∉ hostOps0_W)).trans rfl
theorem B10_main_arg20 (c : Dev nD) : B10 m ρ c (Proc.devRef .tc main_arg20) = m ((c : Thread nD τ).loc main_arg20) :=
  (StableHlo.after_of_writes_sub hostOps4_1 _ hostOps4_1_writes (by decide : main_arg20 ∉ hostOps4_1_W)).trans <|
  (StableHlo.after_of_writes_sub hostOps4 _ hostOps4_writes (by decide : main_arg20 ∉ hostOps4_W)).trans <|
  (B8_keep m ρ c main_arg20 (by decide)).trans <|
  (StableHlo.after_of_writes_sub hostOps3 _ hostOps3_writes (by decide : main_arg20 ∉ hostOps3_W)).trans <|
  (B6_keep m ρ c main_arg20 (by decide)).trans <|
  (StableHlo.after_of_writes_sub hostOps2 _ hostOps2_writes (by decide : main_arg20 ∉ hostOps2_W)).trans <|
  (B4_keep m ρ c main_arg20 (by decide)).trans <|
  (StableHlo.after_of_writes_sub hostOps1 _ hostOps1_writes (by decide : main_arg20 ∉ hostOps1_W)).trans <|
  (B2_keep m ρ c main_arg20 (by decide)).trans <|
  (StableHlo.after_of_writes_sub hostOps0 _ hostOps0_writes (by decide : main_arg20 ∉ hostOps0_W)).trans rfl
theorem B10_main_arg21 (c : Dev nD) : B10 m ρ c (Proc.devRef .tc main_arg21) = m ((c : Thread nD τ).loc main_arg21) :=
  (StableHlo.after_of_writes_sub hostOps4_1 _ hostOps4_1_writes (by decide : main_arg21 ∉ hostOps4_1_W)).trans <|
  (StableHlo.after_of_writes_sub hostOps4 _ hostOps4_writes (by decide : main_arg21 ∉ hostOps4_W)).trans <|
  (B8_keep m ρ c main_arg21 (by decide)).trans <|
  (StableHlo.after_of_writes_sub hostOps3 _ hostOps3_writes (by decide : main_arg21 ∉ hostOps3_W)).trans <|
  (B6_keep m ρ c main_arg21 (by decide)).trans <|
  (StableHlo.after_of_writes_sub hostOps2 _ hostOps2_writes (by decide : main_arg21 ∉ hostOps2_W)).trans <|
  (B4_keep m ρ c main_arg21 (by decide)).trans <|
  (StableHlo.after_of_writes_sub hostOps1 _ hostOps1_writes (by decide : main_arg21 ∉ hostOps1_W)).trans <|
  (B2_keep m ρ c main_arg21 (by decide)).trans <|
  (StableHlo.after_of_writes_sub hostOps0 _ hostOps0_writes (by decide : main_arg21 ∉ hostOps0_W)).trans rfl
theorem B10_main_arg22 (c : Dev nD) : B10 m ρ c (Proc.devRef .tc main_arg22) = m ((c : Thread nD τ).loc main_arg22) :=
  (StableHlo.after_of_writes_sub hostOps4_1 _ hostOps4_1_writes (by decide : main_arg22 ∉ hostOps4_1_W)).trans <|
  (StableHlo.after_of_writes_sub hostOps4 _ hostOps4_writes (by decide : main_arg22 ∉ hostOps4_W)).trans <|
  (B8_keep m ρ c main_arg22 (by decide)).trans <|
  (StableHlo.after_of_writes_sub hostOps3 _ hostOps3_writes (by decide : main_arg22 ∉ hostOps3_W)).trans <|
  (B6_keep m ρ c main_arg22 (by decide)).trans <|
  (StableHlo.after_of_writes_sub hostOps2 _ hostOps2_writes (by decide : main_arg22 ∉ hostOps2_W)).trans <|
  (B4_keep m ρ c main_arg22 (by decide)).trans <|
  (StableHlo.after_of_writes_sub hostOps1 _ hostOps1_writes (by decide : main_arg22 ∉ hostOps1_W)).trans <|
  (B2_keep m ρ c main_arg22 (by decide)).trans <|
  (StableHlo.after_of_writes_sub hostOps0 _ hostOps0_writes (by decide : main_arg22 ∉ hostOps0_W)).trans rfl

/-! ## The proof data family and the thread state -/

abbrev adm' : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm' p) c
  | ⟨0, _⟩ => fun c => dat0 (A1 m ρ) c
  | ⟨1, _⟩ => fun c => dat1 (A3 m ρ) c
  | ⟨2, _⟩ => fun c => dat2 (A5 m ρ) c
  | ⟨3, _⟩ => fun c => dat3 (A7 m ρ) c
abbrev 𝒱₀' : Variants := Variants.none
abbrev L' : GSem nD τ sig → Finset Unit := fun _ => ∅
abbrev lv' : GSem nD τ sig → Unit → ℕ := fun _ _ => 0
/-- What rides beside the buffers through every item: the core's generator register at some state and what the core
    owes, at nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B10 m ρ c) ∗ ∃ r, prngReg c r)

/-! ## The regions as items of the chain -/

set_option backward.isDefEq.respectTransparency.types false in
/-- Region 0 over the thread state: entered from every unscoped buffer at the contents before it, left at the contents
    after it; its arrays split out of the unscoped buffers and put back; the generator register lent to the region's
    invariant and returned; nothing owed. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (A1 m ρ) c).loose
  hwaits := Pipeline.hwaits_of_owed_zero _ _ _ _ L' lv' 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (A1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (A1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (A1 m ρ c) (A2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register lent to the region's
    invariant and returned; nothing owed. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (A3 m ρ) c).loose
  hwaits := Pipeline.hwaits_of_owed_zero _ _ _ _ L' lv' 1 fun _ _ => rfl
  pre c := iprop(StableHlo.held (c : Thread nD τ) (Pipeline.ucRefs τ sig) (B3 m ρ c) ∗ Rr c)
  post c := iprop(StableHlo.held (c : Thread nD τ) (Pipeline.ucRefs τ sig) (B4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (A3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (A3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (A3 m ρ c) (A4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back; the generator register lent to the region's
    invariant and returned; nothing owed. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (A5 m ρ) c).loose
  hwaits := Pipeline.hwaits_of_owed_zero _ _ _ _ L' lv' 2 fun _ _ => rfl
  pre c := iprop(StableHlo.held (c : Thread nD τ) (Pipeline.ucRefs τ sig) (B5 m ρ c) ∗ Rr c)
  post c := iprop(StableHlo.held (c : Thread nD τ) (Pipeline.ucRefs τ sig) (B6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (A5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (A5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (A5 m ρ c) (A6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it; its arrays split out of the unscoped buffers and put back; the generator register lent to the region's
    invariant and returned; nothing owed. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (A7 m ρ) c).loose
  hwaits := Pipeline.hwaits_of_owed_zero _ _ _ _ L' lv' 3 fun _ _ => rfl
  pre c := iprop(StableHlo.held (c : Thread nD τ) (Pipeline.ucRefs τ sig) (B7 m ρ c) ∗ Rr c)
  post c := iprop(StableHlo.held (c : Thread nD τ) (Pipeline.ucRefs τ sig) (B8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (A7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (A7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (A7 m ρ c) (A8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The entry function's ten items in order. -/
abbrev segs' : List (Pipeline.Seg (pcfgs (F := F)) adm' (pdats m ρ) () defs₀ 𝒱₀' L' lv') :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .host (hseg hostOps4_1 hostOps4_1_sub hostOps4_1_fresh (B9 m ρ)) ]
/-- The entry function is the run of its items. -/
theorem main_run (c : Dev nD) : main (F := F) c = Pipeline.Seg.run (segs' m ρ) := (main_chain c).trans (by chain_rfl)

set_option backward.isDefEq.respectTransparency.types false in
/-- THE RUN: from any memory with zero counters every weakly fair execution of the entry function terminates, nothing
    faulting, in a state whose unscoped buffers hold the last contents of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 m ρ c b) :=
  Pipeline.θ_run_regions_kit (pcfgs (F := F)) adm' (pdats m ρ) () cellOf_inj emb₁ defs₀ 𝒱₀' L' lv' m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L' lv' fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m ρ c b)
    (hfin := fun c s' => by
      iintro ⟨⟨Hh, -⟩, HSI⟩
      unfold StableHlo.held
      imodintro
      iapply (pointsTo_read_all (Pipeline.ucRefs τ sig) (fun b => (((c : Thread nD τ)).1, b)) (B10 m ρ c) s')
      isplitl [Hh] <;> iassumption)
    (hQ := fun s h c => h c)

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (B10_main_arg0 m ρ c),
     (h c _ (mem_uc main_arg1 (by decide))).trans (B10_main_arg1 m ρ c),
     (h c _ (mem_uc main_arg2 (by decide))).trans (B10_main_arg2 m ρ c),
     (h c _ (mem_uc main_arg3 (by decide))).trans (B10_main_arg3 m ρ c),
     (h c _ (mem_uc main_arg4 (by decide))).trans (B10_main_arg4 m ρ c),
     (h c _ (mem_uc main_arg5 (by decide))).trans (B10_main_arg5 m ρ c),
     (h c _ (mem_uc main_arg6 (by decide))).trans (B10_main_arg6 m ρ c),
     (h c _ (mem_uc main_arg7 (by decide))).trans (B10_main_arg7 m ρ c),
     (h c _ (mem_uc main_arg8 (by decide))).trans (B10_main_arg8 m ρ c),
     (h c _ (mem_uc main_arg9 (by decide))).trans (B10_main_arg9 m ρ c),
     (h c _ (mem_uc main_arg10 (by decide))).trans (B10_main_arg10 m ρ c),
     (h c _ (mem_uc main_arg11 (by decide))).trans (B10_main_arg11 m ρ c),
     (h c _ (mem_uc main_arg12 (by decide))).trans (B10_main_arg12 m ρ c),
     (h c _ (mem_uc main_arg13 (by decide))).trans (B10_main_arg13 m ρ c),
     (h c _ (mem_uc main_arg14 (by decide))).trans (B10_main_arg14 m ρ c),
     (h c _ (mem_uc main_arg15 (by decide))).trans (B10_main_arg15 m ρ c),
     (h c _ (mem_uc main_arg16 (by decide))).trans (B10_main_arg16 m ρ c),
     (h c _ (mem_uc main_arg17 (by decide))).trans (B10_main_arg17 m ρ c),
     (h c _ (mem_uc main_arg18 (by decide))).trans (B10_main_arg18 m ρ c),
     (h c _ (mem_uc main_arg19 (by decide))).trans (B10_main_arg19 m ρ c),
     (h c _ (mem_uc main_arg20 (by decide))).trans (B10_main_arg20 m ρ c),
     (h c _ (mem_uc main_arg21 (by decide))).trans (B10_main_arg21 m ρ c),
     (h c _ (mem_uc main_arg22 (by decide))).trans (B10_main_arg22 m ρ c)⟩) (run_all m ρ)

end Cert.Kernel.Gen

end
-- ==== Proof.KernelIdealReg0.lean ====
/-
  Region 0 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.KernelIdeal.Launch
import proofs.«105666_j32899449488058_1_alg».proof.Proof.Gen.KernelIdeal.Skeleton
import proofs.«105666_j32899449488058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, whether that point fetched it or an
    earlier one did and the block index has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, whether that point fetched it or an
    earlier one did and the block index has not moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, whether that point fetched it or an
    earlier one did and the block index has not moved since. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every grid point, whether that point fetched it or an
    earlier one did and the block index has not moved since. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every grid point, whether that point fetched it or an
    earlier one did and the block index has not moved since. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every grid point, whether that point fetched it or an
    earlier one did and the block index has not moved since. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every grid point, whether that point fetched it or an
    earlier one did and the block index has not moved since. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, as a function of the input blocks: the one store, over the whole
    buffer, of the body's value. -/
def out0_7 (x0 : Vec F S5000x96 .f32) (x1 : Vec F S96x96 .f32) (x2 : Vec F S1x96 .f32) (x3 : Vec F S96x96 .f32) (x4 : Vec F S1x96 .f32) (x5 : Vec F S1x96 .f32) (x6 : Vec F S1x96 .f32) : Vec F S5000x96 .f32 :=
  View.canon [⟨(Rect.unit (s := S5000x96) ![0, 0] S5000x96.size inb_S5000x96_S5000x96_0_0), k0_pay1 (k0_pay3 (View.ld x5 (Rect.unit (s := S1x96) ![0, 0] S1x96.size inb_S1x96_S1x96_0_0))) (k0_pay4 (View.ld x6 (Rect.unit (s := S1x96) ![0, 0] S1x96.size inb_S1x96_S1x96_0_0))) (k0_pay6 (View.ld x0 (Rect.unit (s := S5000x96) ![0, 0] S5000x96.size inb_S5000x96_S5000x96_0_0)) (View.ld x1 (Rect.unit (s := S96x96) ![0, 0] S96x96.size inb_S96x96_S96x96_0_0)) (View.ld x2 (Rect.unit (s := S1x96) ![0, 0] S1x96.size inb_S1x96_S1x96_0_0)) (View.ld x3 (Rect.unit (s := S96x96) ![0, 0] S96x96.size inb_S96x96_S96x96_0_0)) (View.ld x4 (Rect.unit (s := S1x96) ![0, 0] S1x96.size inb_S1x96_S1x96_0_0))) (k0_pay7 (View.ld x0 (Rect.unit (s := S5000x96) ![0, 0] S5000x96.size inb_S5000x96_S5000x96_0_0)) (View.ld x1 (Rect.unit (s := S96x96) ![0, 0] S96x96.size inb_S96x96_S96x96_0_0)) (View.ld x2 (Rect.unit (s := S1x96) ![0, 0] S1x96.size inb_S1x96_S1x96_0_0)) (View.ld x3 (Rect.unit (s := S96x96) ![0, 0] S96x96.size inb_S96x96_S96x96_0_0)) (View.ld x4 (Rect.unit (s := S1x96) ![0, 0] S1x96.size inb_S1x96_S1x96_0_0))) (k0_pay8 (F := F))⟩]

/-- The one store covers the buffer. -/
theorem cover0_7 (p0 : Vec F S5000x96 .f32) (y : S5000x96.Idx) :
    ∃ pc ∈ ([⟨(Rect.unit (s := S5000x96) ![0, 0] S5000x96.size inb_S5000x96_S5000x96_0_0), p0⟩] : List (View.Piece (Elt F) S5000x96 .f32)), y ∈ pc.1.set :=
  View.cover_of_tiled [⟨(Rect.unit (s := S5000x96) ![0, 0] S5000x96.size inb_S5000x96_S5000x96_0_0), p0⟩] S5000x96.size (by rfl) y

set_option maxHeartbeats 4000000 in
/-- The body on whole staging buffers, the inputs' at contents `x` and the output's at anything, runs to the end
    leaving the inputs' as they were and the output's at `out0_7` of the inputs'. -/
theorem sound_kernel0 (c : Dev nD) (E : Set ℕ) (i : grid0.Coords) (arg1 : Memref sig .tc .vmem S5000x96 .f32) (harg1 : arg1.IsWhole) (arg2 : Memref sig .tc .vmem S96x96 .f32) (harg2 : arg2.IsWhole) (arg3 : Memref sig .tc .vmem S1x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (arg8 : Memref sig .tc .vmem S5000x96 .f32) (harg8 : arg8.IsWhole)
    (x0 : Vec F S5000x96 .f32) (x1 : Vec F S96x96 .f32) (x2 : Vec F S1x96 .f32) (x3 : Vec F S96x96 .f32) (x4 : Vec F S1x96 .f32) (x5 : Vec F S1x96 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_in_kernel i arg1 harg1 arg2 harg2 arg3 harg3 arg4 harg4 arg5 harg5 arg6 harg6 arg7 harg7 arg8 harg8) K := by
  simp only [cc0__mlp_in_kernel_eq_skeleton, k0_part1_eq_skeleton]; unfold cc0__mlp_in_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The region's proof data on core `c`: the arrays as the region finds them; after the body at point `t` each input's
    buffer at its block and the output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation the launch asks of the body, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KernelIdealReg1.lean ====
/-
  Region 1 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.KernelIdeal.Launch
import proofs.«105666_j32899449488058_1_alg».proof.Proof.Gen.KernelIdeal.Skeleton
import proofs.«105666_j32899449488058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, whether that point fetched it or an
    earlier one did and the block index has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, whether that point fetched it or an
    earlier one did and the block index has not moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, whether that point fetched it or an
    earlier one did and the block index has not moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, whether that point fetched it or an
    earlier one did and the block index has not moved since. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, whether that point fetched it or an
    earlier one did and the block index has not moved since. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, as a function of the input blocks: the one store, over the whole
    buffer, of the body's value. -/
def out1_5 (x0 : Vec F S5000x288 .f32) (x1 : Vec F S288x96 .f32) (x2 : Vec F S1x96 .f32) (x3 : Vec F S1x96 .f32) (x4 : Vec F S1x96 .f32) : Vec F S5000x96 .f32 :=
  View.canon [⟨(Rect.unit (s := S5000x96) ![0, 0] S5000x96.size inb_S5000x96_S5000x96_0_0), k1_pay1 (View.ld x0 (Rect.unit (s := S5000x288) ![0, 0] S5000x288.size inb_S5000x288_S5000x288_0_0)) (View.ld x1 (Rect.unit (s := S288x96) ![0, 0] S288x96.size inb_S288x96_S288x96_0_0)) (View.ld x2 (Rect.unit (s := S1x96) ![0, 0] S1x96.size inb_S1x96_S1x96_0_0)) (View.ld x3 (Rect.unit (s := S1x96) ![0, 0] S1x96.size inb_S1x96_S1x96_0_0)) (View.ld x4 (Rect.unit (s := S1x96) ![0, 0] S1x96.size inb_S1x96_S1x96_0_0))⟩]

/-- The one store covers the buffer. -/
theorem cover1_5 (p0 : Vec F S5000x96 .f32) (y : S5000x96.Idx) :
    ∃ pc ∈ ([⟨(Rect.unit (s := S5000x96) ![0, 0] S5000x96.size inb_S5000x96_S5000x96_0_0), p0⟩] : List (View.Piece (Elt F) S5000x96 .f32)), y ∈ pc.1.set :=
  View.cover_of_tiled [⟨(Rect.unit (s := S5000x96) ![0, 0] S5000x96.size inb_S5000x96_S5000x96_0_0), p0⟩] S5000x96.size (by rfl) y

set_option maxHeartbeats 4000000 in
/-- The body on whole staging buffers, the inputs' at contents `x` and the output's at anything, runs to the end
    leaving the inputs' as they were and the output's at `out1_5` of the inputs'. -/
theorem sound_kernel1 (c : Dev nD) (E : Set ℕ) (i : grid1.Coords) (arg1 : Memref sig .tc .vmem S5000x288 .f32) (harg1 : arg1.IsWhole) (arg2 : Memref sig .tc .vmem S288x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S5000x96 .f32) (harg6 : arg6.IsWhole)
    (x0 : Vec F S5000x288 .f32) (x1 : Vec F S288x96 .f32) (x2 : Vec F S1x96 .f32) (x3 : Vec F S1x96 .f32) (x4 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__affine_ln_act_kernel i arg1 harg1 arg2 harg2 arg3 harg3 arg4 harg4 arg5 harg5 arg6 harg6) K := by
  simp only [cc1__affine_ln_act_kernel_eq_skeleton, k1_part1_eq_skeleton]; unfold cc1__affine_ln_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch asks of the body, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KernelIdealReg2.lean ====
/-
  Region 2 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.KernelIdeal.Launch
import proofs.«105666_j32899449488058_1_alg».proof.Proof.Gen.KernelIdeal.Skeleton
import proofs.«105666_j32899449488058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, whether that point fetched it or an
    earlier one did and the block index has not moved since. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, whether that point fetched it or an
    earlier one did and the block index has not moved since. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, whether that point fetched it or an
    earlier one did and the block index has not moved since. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, whether that point fetched it or an
    earlier one did and the block index has not moved since. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every grid point, whether that point fetched it or an
    earlier one did and the block index has not moved since. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, as a function of the input blocks: the one store, over the whole
    buffer, of the body's value. -/
def out2_5 (x0 : Vec F S5000x288 .f32) (x1 : Vec F S288x96 .f32) (x2 : Vec F S1x96 .f32) (x3 : Vec F S1x96 .f32) (x4 : Vec F S1x96 .f32) : Vec F S5000x96 .f32 :=
  View.canon [⟨(Rect.unit (s := S5000x96) ![0, 0] S5000x96.size inb_S5000x96_S5000x96_0_0), k2_pay1 (View.ld x0 (Rect.unit (s := S5000x288) ![0, 0] S5000x288.size inb_S5000x288_S5000x288_0_0)) (View.ld x1 (Rect.unit (s := S288x96) ![0, 0] S288x96.size inb_S288x96_S288x96_0_0)) (View.ld x2 (Rect.unit (s := S1x96) ![0, 0] S1x96.size inb_S1x96_S1x96_0_0)) (View.ld x3 (Rect.unit (s := S1x96) ![0, 0] S1x96.size inb_S1x96_S1x96_0_0)) (View.ld x4 (Rect.unit (s := S1x96) ![0, 0] S1x96.size inb_S1x96_S1x96_0_0))⟩]

/-- The one store covers the buffer. -/
theorem cover2_5 (p0 : Vec F S5000x96 .f32) (y : S5000x96.Idx) :
    ∃ pc ∈ ([⟨(Rect.unit (s := S5000x96) ![0, 0] S5000x96.size inb_S5000x96_S5000x96_0_0), p0⟩] : List (View.Piece (Elt F) S5000x96 .f32)), y ∈ pc.1.set :=
  View.cover_of_tiled [⟨(Rect.unit (s := S5000x96) ![0, 0] S5000x96.size inb_S5000x96_S5000x96_0_0), p0⟩] S5000x96.size (by rfl) y

set_option maxHeartbeats 4000000 in
/-- The body on whole staging buffers, the inputs' at contents `x` and the output's at anything, runs to the end
    leaving the inputs' as they were and the output's at `out2_5` of the inputs'. -/
theorem sound_kernel2 (c : Dev nD) (E : Set ℕ) (i : grid2.Coords) (arg1 : Memref sig .tc .vmem S5000x288 .f32) (harg1 : arg1.IsWhole) (arg2 : Memref sig .tc .vmem S288x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S5000x96 .f32) (harg6 : arg6.IsWhole)
    (x0 : Vec F S5000x288 .f32) (x1 : Vec F S288x96 .f32) (x2 : Vec F S1x96 .f32) (x3 : Vec F S1x96 .f32) (x4 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__affine_ln_act_kernel i arg1 harg1 arg2 harg2 arg3 harg3 arg4 harg4 arg5 harg5 arg6 harg6) K := by
  simp only [cc2__affine_ln_act_kernel_eq_skeleton, k2_part1_eq_skeleton]; unfold cc2__affine_ln_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The region's proof data on core `c`: the arrays as the region finds them; after the body at point `t` each input's
    buffer at its block and the output's at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch asks of the body, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KernelIdealReg3.lean ====
/-
  Region 3 of the program's entry function, at any float instance: what its grid points find in their input
  windows, what the body leaves in the output window's staging buffer, and the body's triple.

  The region's kernel loads each input window whole, computes one value from them, and stores it over the whole
  output window. So after the body the output's staging buffer holds that value of the input blocks, each input's
  buffer is unchanged, and the obligation the launch asks of the body at every grid point follows.
-/
import proofs.«105666_j32899449488058_1_alg».proof.Proof.Gen.KernelIdeal.Launch
import proofs.«105666_j32899449488058_1_alg».proof.Proof.Gen.KernelIdeal.Skeleton
import proofs.«105666_j32899449488058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every grid point, whether that point fetched it or an
    earlier one did and the block index has not moved since. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every grid point, whether that point fetched it or an
    earlier one did and the block index has not moved since. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every grid point, whether that point fetched it or an
    earlier one did and the block index has not moved since. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every grid point, whether that point fetched it or an
    earlier one did and the block index has not moved since. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every grid point, whether that point fetched it or an
    earlier one did and the block index has not moved since. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body, as a function of the input blocks: the one store, over the whole
    buffer, of the body's value. -/
def out3_5 (x0 : Vec F S5000x288 .f32) (x1 : Vec F S288x32 .f32) (x2 : Vec F S1x32 .f32) (x3 : Vec F S1x32 .f32) (x4 : Vec F S1x32 .f32) : Vec F S5000x32 .f32 :=
  View.canon [⟨(Rect.unit (s := S5000x32) ![0, 0] S5000x32.size inb_S5000x32_S5000x32_0_0), k3_pay1 (View.ld x0 (Rect.unit (s := S5000x288) ![0, 0] S5000x288.size inb_S5000x288_S5000x288_0_0)) (View.ld x1 (Rect.unit (s := S288x32) ![0, 0] S288x32.size inb_S288x32_S288x32_0_0)) (View.ld x2 (Rect.unit (s := S1x32) ![0, 0] S1x32.size inb_S1x32_S1x32_0_0)) (View.ld x3 (Rect.unit (s := S1x32) ![0, 0] S1x32.size inb_S1x32_S1x32_0_0)) (View.ld x4 (Rect.unit (s := S1x32) ![0, 0] S1x32.size inb_S1x32_S1x32_0_0))⟩]

/-- The one store covers the buffer. -/
theorem cover3_5 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers, the inputs' at contents `x` and the output's at anything, runs to the end
    leaving the inputs' as they were and the output's at `out3_5` of the inputs'. -/
theorem sound_kernel3 (c : Dev nD) (E : Set ℕ) (i : grid3.Coords) (arg1 : Memref sig .tc .vmem S5000x288 .f32) (harg1 : arg1.IsWhole) (arg2 : Memref sig .tc .vmem S288x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x288 .f32) (x1 : Vec F S288x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__affine_ln_act_kernel i arg1 harg1 arg2 harg2 arg3 harg3 arg4 harg4 arg5 harg5 arg6 harg6) K := by
  simp only [cc3__affine_ln_act_kernel_eq_skeleton]; unfold cc3__affine_ln_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each input's
    buffer at its block and the output's at the body's value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any grid point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch asks of the body, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KernelIdealRun.lean ====
/-
  The whole run of the program's entry function, at any float instance.

  The entry function is a chain of stretches of host operations and four kernel regions. The contents of the
  TensorCore's buffers are followed from the launch memory through that chain: a stretch of host operations takes the
  contents to the operations' results, a region rewrites its output window's array to what its grid points wrote
  back and leaves every other buffer alone. Every weakly fair execution terminates without a fault in a state whose
  unscoped buffers hold the last contents of that chain; the argument arrays are never written, so they end as
  launched.
-/
import proofs.«105666_j32899449488058_1_alg».proof.Proof.KernelIdealReg0
import proofs.«105666_j32899449488058_1_alg».proof.Proof.KernelIdealReg1
import proofs.«105666_j32899449488058_1_alg».proof.Proof.KernelIdealReg2
import proofs.«105666_j32899449488058_1_alg».proof.Proof.KernelIdealReg3
import proofs.«105666_j32899449488058_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the chain -/

/-- Core `c`'s buffers at launch. -/
abbrev B0 : Dev nD → Valuation τ sig (Elt F) := fun c b => (s₀ m ρ).mem ((c : Dev nD), b)
/-- After the first stretch of host operations (region 0's entry). -/
abbrev B1 : Dev nD → Valuation τ sig (Elt F) := fun c => StableHlo.after hostOps0 (B0 m ρ c)
abbrev A1 : (c : Dev nD) → (b : Ref sig .tc) → Buf (Elt F) ((c : Thread nD τ).loc b) := fun c b => B1 m ρ c b
/-- At region 0's exit: its arrays at what its grid points leave, every other buffer as entered. -/
def B2 (c : Dev nD) : Valuation τ sig (Elt F) :=
  Pipeline.withArrays spec0 c (B1 m ρ c) fun w => (dat0 (A1 m ρ) c).arrAt w cfg0.N
theorem B2_arr (c : Dev nD) (w : Fin cfg0.W) :
    B2 m ρ c (Proc.devRef .tc (Pipeline.arrRef spec0 w)) = (dat0 (A1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev A2 : (c : Dev nD) → (b : Ref sig .tc) → Buf (Elt F) ((c : Thread nD τ).loc b) := fun c b => B2 m ρ c b
theorem hF0 (c : Dev nD) (w : Fin cfg0.W) : (dat0 (A1 m ρ) c).arrAt w cfg0.N = A2 m ρ c (Pipeline.arrRef spec0 w) :=
  (B2_arr m ρ c w).symm
theorem hrest0 (c : Dev nD) : ∀ b, b ∉ Finset.univ.image (Pipeline.arrRef spec0) → A2 m ρ c b = A1 m ρ c b :=
  fun b hb => B2_of_ne m ρ c b fun w e => hb (Finset.mem_image.mpr ⟨w, Finset.mem_univ _, e⟩)
/-- Region 0 changes no buffer but its output window's array: an input window's array is read, never written back. -/
theorem B2_keep (c : Dev nD) (r : Ref sig .tc) (h : r ≠ main_v13) :
    B2 m ρ c (Proc.devRef .tc r) = B1 m ρ c (Proc.devRef .tc r) := by
  by_cases hw : ∃ w, Pipeline.arrRef spec0 w = r
  · obtain ⟨w, rfl⟩ := hw
    rw [B2_arr]
    fin_cases w
    · exact ((dat0 (A1 m ρ) c).arrAt_in 0 rfl _).trans (A_eq0 (A1 m ρ) c 0)
    · exact ((dat0 (A1 m ρ) c).arrAt_in 1 rfl _).trans (A_eq0 (A1 m ρ) c 1)
    · exact ((dat0 (A1 m ρ) c).arrAt_in 2 rfl _).trans (A_eq0 (A1 m ρ) c 2)
    · exact ((dat0 (A1 m ρ) c).arrAt_in 3 rfl _).trans (A_eq0 (A1 m ρ) c 3)
    · exact ((dat0 (A1 m ρ) c).arrAt_in 4 rfl _).trans (A_eq0 (A1 m ρ) c 4)
    · exact ((dat0 (A1 m ρ) c).arrAt_in 5 rfl _).trans (A_eq0 (A1 m ρ) c 5)
    · exact ((dat0 (A1 m ρ) c).arrAt_in 6 rfl _).trans (A_eq0 (A1 m ρ) c 6)
    · exact absurd rfl h
  · exact B2_of_ne m ρ c r fun w e => hw ⟨w, e⟩
/-- After the next stretch of host operations. -/
abbrev B3 : Dev nD → Valuation τ sig (Elt F) := fun c => StableHlo.after hostOps1 (B2 m ρ c)
abbrev A3 : (c : Dev nD) → (b : Ref sig .tc) → Buf (Elt F) ((c : Thread nD τ).loc b) := fun c b => B3 m ρ c b
/-- At region 1's exit: its arrays at what its grid points leave, every other buffer as entered. -/
def B4 (c : Dev nD) : Valuation τ sig (Elt F) :=
  Pipeline.withArrays spec1 c (B3 m ρ c) fun w => (dat1 (A3 m ρ) c).arrAt w cfg1.N
theorem B4_arr (c : Dev nD) (w : Fin cfg1.W) :
    B4 m ρ c (Proc.devRef .tc (Pipeline.arrRef spec1 w)) = (dat1 (A3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev A4 : (c : Dev nD) → (b : Ref sig .tc) → Buf (Elt F) ((c : Thread nD τ).loc b) := fun c b => B4 m ρ c b
theorem hF1 (c : Dev nD) (w : Fin cfg1.W) : (dat1 (A3 m ρ) c).arrAt w cfg1.N = A4 m ρ c (Pipeline.arrRef spec1 w) :=
  (B4_arr m ρ c w).symm
theorem hrest1 (c : Dev nD) : ∀ b, b ∉ Finset.univ.image (Pipeline.arrRef spec1) → A4 m ρ c b = A3 m ρ c b :=
  fun b hb => B4_of_ne m ρ c b fun w e => hb (Finset.mem_image.mpr ⟨w, Finset.mem_univ _, e⟩)
/-- Region 1 changes no buffer but its output window's array: an input window's array is read, never written back. -/
theorem B4_keep (c : Dev nD) (r : Ref sig .tc) (h : r ≠ main_v52) :
    B4 m ρ c (Proc.devRef .tc r) = B3 m ρ c (Proc.devRef .tc r) := by
  by_cases hw : ∃ w, Pipeline.arrRef spec1 w = r
  · obtain ⟨w, rfl⟩ := hw
    rw [B4_arr]
    fin_cases w
    · exact ((dat1 (A3 m ρ) c).arrAt_in 0 rfl _).trans (A_eq1 (A3 m ρ) c 0)
    · exact ((dat1 (A3 m ρ) c).arrAt_in 1 rfl _).trans (A_eq1 (A3 m ρ) c 1)
    · exact ((dat1 (A3 m ρ) c).arrAt_in 2 rfl _).trans (A_eq1 (A3 m ρ) c 2)
    · exact ((dat1 (A3 m ρ) c).arrAt_in 3 rfl _).trans (A_eq1 (A3 m ρ) c 3)
    · exact ((dat1 (A3 m ρ) c).arrAt_in 4 rfl _).trans (A_eq1 (A3 m ρ) c 4)
    · exact absurd rfl h
  · exact B4_of_ne m ρ c r fun w e => hw ⟨w, e⟩
/-- After the next stretch of host operations. -/
abbrev B5 : Dev nD → Valuation τ sig (Elt F) := fun c => StableHlo.after hostOps2 (B4 m ρ c)
abbrev A5 : (c : Dev nD) → (b : Ref sig .tc) → Buf (Elt F) ((c : Thread nD τ).loc b) := fun c b => B5 m ρ c b
/-- At region 2's exit: its arrays at what its grid points leave, every other buffer as entered. -/
def B6 (c : Dev nD) : Valuation τ sig (Elt F) :=
  Pipeline.withArrays spec2 c (B5 m ρ c) fun w => (dat2 (A5 m ρ) c).arrAt w cfg2.N
theorem B6_arr (c : Dev nD) (w : Fin cfg2.W) :
    B6 m ρ c (Proc.devRef .tc (Pipeline.arrRef spec2 w)) = (dat2 (A5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev A6 : (c : Dev nD) → (b : Ref sig .tc) → Buf (Elt F) ((c : Thread nD τ).loc b) := fun c b => B6 m ρ c b
theorem hF2 (c : Dev nD) (w : Fin cfg2.W) : (dat2 (A5 m ρ) c).arrAt w cfg2.N = A6 m ρ c (Pipeline.arrRef spec2 w) :=
  (B6_arr m ρ c w).symm
theorem hrest2 (c : Dev nD) : ∀ b, b ∉ Finset.univ.image (Pipeline.arrRef spec2) → A6 m ρ c b = A5 m ρ c b :=
  fun b hb => B6_of_ne m ρ c b fun w e => hb (Finset.mem_image.mpr ⟨w, Finset.mem_univ _, e⟩)
/-- Region 2 changes no buffer but its output window's array: an input window's array is read, never written back. -/
theorem B6_keep (c : Dev nD) (r : Ref sig .tc) (h : r ≠ main_v91) :
    B6 m ρ c (Proc.devRef .tc r) = B5 m ρ c (Proc.devRef .tc r) := by
  by_cases hw : ∃ w, Pipeline.arrRef spec2 w = r
  · obtain ⟨w, rfl⟩ := hw
    rw [B6_arr]
    fin_cases w
    · exact ((dat2 (A5 m ρ) c).arrAt_in 0 rfl _).trans (A_eq2 (A5 m ρ) c 0)
    · exact ((dat2 (A5 m ρ) c).arrAt_in 1 rfl _).trans (A_eq2 (A5 m ρ) c 1)
    · exact ((dat2 (A5 m ρ) c).arrAt_in 2 rfl _).trans (A_eq2 (A5 m ρ) c 2)
    · exact ((dat2 (A5 m ρ) c).arrAt_in 3 rfl _).trans (A_eq2 (A5 m ρ) c 3)
    · exact ((dat2 (A5 m ρ) c).arrAt_in 4 rfl _).trans (A_eq2 (A5 m ρ) c 4)
    · exact absurd rfl h
  · exact B6_of_ne m ρ c r fun w e => hw ⟨w, e⟩
/-- After the next stretch of host operations. -/
abbrev B7 : Dev nD → Valuation τ sig (Elt F) := fun c => StableHlo.after hostOps3 (B6 m ρ c)
abbrev A7 : (c : Dev nD) → (b : Ref sig .tc) → Buf (Elt F) ((c : Thread nD τ).loc b) := fun c b => B7 m ρ c b
/-- At region 3's exit: its arrays at what its grid points leave, every other buffer as entered. -/
def B8 (c : Dev nD) : Valuation τ sig (Elt F) :=
  Pipeline.withArrays spec3 c (B7 m ρ c) fun w => (dat3 (A7 m ρ) c).arrAt w cfg3.N
theorem B8_arr (c : Dev nD) (w : Fin cfg3.W) :
    B8 m ρ c (Proc.devRef .tc (Pipeline.arrRef spec3 w)) = (dat3 (A7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev A8 : (c : Dev nD) → (b : Ref sig .tc) → Buf (Elt F) ((c : Thread nD τ).loc b) := fun c b => B8 m ρ c b
theorem hF3 (c : Dev nD) (w : Fin cfg3.W) : (dat3 (A7 m ρ) c).arrAt w cfg3.N = A8 m ρ c (Pipeline.arrRef spec3 w) :=
  (B8_arr m ρ c w).symm
theorem hrest3 (c : Dev nD) : ∀ b, b ∉ Finset.univ.image (Pipeline.arrRef spec3) → A8 m ρ c b = A7 m ρ c b :=
  fun b hb => B8_of_ne m ρ c b fun w e => hb (Finset.mem_image.mpr ⟨w, Finset.mem_univ _, e⟩)
/-- Region 3 changes no buffer but its output window's array: an input window's array is read, never written back. -/
theorem B8_keep (c : Dev nD) (r : Ref sig .tc) (h : r ≠ main_v130) :
    B8 m ρ c (Proc.devRef .tc r) = B7 m ρ c (Proc.devRef .tc r) := by
  by_cases hw : ∃ w, Pipeline.arrRef spec3 w = r
  · obtain ⟨w, rfl⟩ := hw
    rw [B8_arr]
    fin_cases w
    · exact ((dat3 (A7 m ρ) c).arrAt_in 0 rfl _).trans (A_eq3 (A7 m ρ) c 0)
    · exact ((dat3 (A7 m ρ) c).arrAt_in 1 rfl _).trans (A_eq3 (A7 m ρ) c 1)
    · exact ((dat3 (A7 m ρ) c).arrAt_in 2 rfl _).trans (A_eq3 (A7 m ρ) c 2)
    · exact ((dat3 (A7 m ρ) c).arrAt_in 3 rfl _).trans (A_eq3 (A7 m ρ) c 3)
    · exact ((dat3 (A7 m ρ) c).arrAt_in 4 rfl _).trans (A_eq3 (A7 m ρ) c 4)
    · exact absurd rfl h
  · exact B8_of_ne m ρ c r fun w e => hw ⟨w, e⟩
/-- After the next stretch of host operations. -/
abbrev B9 : Dev nD → Valuation τ sig (Elt F) := fun c => StableHlo.after hostOps4 (B8 m ρ c)
abbrev A9 : (c : Dev nD) → (b : Ref sig .tc) → Buf (Elt F) ((c : Thread nD τ).loc b) := fun c b => B9 m ρ c b
/-- After the last stretch of host operations: the contents the run ends with. -/
abbrev B10 : Dev nD → Valuation τ sig (Elt F) := fun c => StableHlo.after hostOps4_1 (B9 m ρ c)

/-! ## The arguments end as launched -/

theorem B10_main_arg0 (c : Dev nD) : B10 m ρ c (Proc.devRef .tc main_arg0) = m ((c : Thread nD τ).loc main_arg0) :=
  (StableHlo.after_of_writes_sub hostOps4_1 _ hostOps4_1_writes (by decide : main_arg0 ∉ hostOps4_1_W)).trans <|
  (StableHlo.after_of_writes_sub hostOps4 _ hostOps4_writes (by decide : main_arg0 ∉ hostOps4_W)).trans <|
  (B8_keep m ρ c main_arg0 (by decide)).trans <|
  (StableHlo.after_of_writes_sub hostOps3 _ hostOps3_writes (by decide : main_arg0 ∉ hostOps3_W)).trans <|
  (B6_keep m ρ c main_arg0 (by decide)).trans <|
  (StableHlo.after_of_writes_sub hostOps2 _ hostOps2_writes (by decide : main_arg0 ∉ hostOps2_W)).trans <|
  (B4_keep m ρ c main_arg0 (by decide)).trans <|
  (StableHlo.after_of_writes_sub hostOps1 _ hostOps1_writes (by decide : main_arg0 ∉ hostOps1_W)).trans <|
  (B2_keep m ρ c main_arg0 (by decide)).trans <|
  (StableHlo.after_of_writes_sub hostOps0 _ hostOps0_writes (by decide : main_arg0 ∉ hostOps0_W)).trans rfl
theorem B10_main_arg1 (c : Dev nD) : B10 m ρ c (Proc.devRef .tc main_arg1) = m ((c : Thread nD τ).loc main_arg1) :=
  (StableHlo.after_of_writes_sub hostOps4_1 _ hostOps4_1_writes (by decide : main_arg1 ∉ hostOps4_1_W)).trans <|
  (StableHlo.after_of_writes_sub hostOps4 _ hostOps4_writes (by decide : main_arg1 ∉ hostOps4_W)).trans <|
  (B8_keep m ρ c main_arg1 (by decide)).trans <|
  (StableHlo.after_of_writes_sub hostOps3 _ hostOps3_writes (by decide : main_arg1 ∉ hostOps3_W)).trans <|
  (B6_keep m ρ c main_arg1 (by decide)).trans <|
  (StableHlo.after_of_writes_sub hostOps2 _ hostOps2_writes (by decide : main_arg1 ∉ hostOps2_W)).trans <|
  (B4_keep m ρ c main_arg1 (by decide)).trans <|
  (StableHlo.after_of_writes_sub hostOps1 _ hostOps1_writes (by decide : main_arg1 ∉ hostOps1_W)).trans <|
  (B2_keep m ρ c main_arg1 (by decide)).trans <|
  (StableHlo.after_of_writes_sub hostOps0 _ hostOps0_writes (by decide : main_arg1 ∉ hostOps0_W)).trans rfl
theorem B10_main_arg2 (c : Dev nD) : B10 m ρ c (Proc.devRef .tc main_arg2) = m ((c : Thread nD τ).loc main_arg2) :=
  (StableHlo.after_of_writes_sub hostOps4_1 _ hostOps4_1_writes (by decide : main_arg2 ∉ hostOps4_1_W)).trans <|
  (StableHlo.after_of_writes_sub hostOps4 _ hostOps4_writes (by decide : main_arg2 ∉ hostOps4_W)).trans <|
  (B8_keep m ρ c main_arg2 (by decide)).trans <|
  (StableHlo.after_of_writes_sub hostOps3 _ hostOps3_writes (by decide : main_arg2 ∉ hostOps3_W)).trans <|
  (B6_keep m ρ c main_arg2 (by decide)).trans <|
  (StableHlo.after_of_writes_sub hostOps2 _ hostOps2_writes (by decide : main_arg2 ∉ hostOps2_W)).trans <|
  (B4_keep m ρ c main_arg2 (by decide)).trans <|
  (StableHlo.after_of_writes_sub hostOps1 _ hostOps1_writes (by decide : main_arg2 ∉ hostOps1_W)).trans <|
  (B2_keep m ρ c main_arg2 (by decide)).trans <|
  (StableHlo.after_of_writes_sub hostOps0 _ hostOps0_writes (by decide : main_arg2 ∉ hostOps0_W)).trans rfl
theorem B10_main_arg3 (c : Dev nD) : B10 m ρ c (Proc.devRef .tc main_arg3) = m ((c : Thread nD τ).loc main_arg3) :=
  (StableHlo.after_of_writes_sub hostOps4_1 _ hostOps4_1_writes (by decide : main_arg3 ∉ hostOps4_1_W)).trans <|
  (StableHlo.after_of_writes_sub hostOps4 _ hostOps4_writes (by decide : main_arg3 ∉ hostOps4_W)).trans <|
  (B8_keep m ρ c main_arg3 (by decide)).trans <|
  (StableHlo.after_of_writes_sub hostOps3 _ hostOps3_writes (by decide : main_arg3 ∉ hostOps3_W)).trans <|
  (B6_keep m ρ c main_arg3 (by decide)).trans <|
  (StableHlo.after_of_writes_sub hostOps2 _ hostOps2_writes (by decide : main_arg3 ∉ hostOps2_W)).trans <|
  (B4_keep m ρ c main_arg3 (by decide)).trans <|
  (StableHlo.after_of_writes_sub hostOps1 _ hostOps1_writes (by decide : main_arg3 ∉ hostOps1_W)).trans <|
  (B2_keep m ρ c main_arg3 (by decide)).trans <|
  (StableHlo.after_of_writes_sub hostOps0 _ hostOps0_writes (by decide : main_arg3 ∉ hostOps0_W)).trans rfl
theorem B10_main_arg4 (c : Dev nD) : B10 m ρ c (Proc.devRef .tc main_arg4) = m ((c : Thread nD τ).loc main_arg4) :=
  (StableHlo.after_of_writes_sub hostOps4_1 _ hostOps4_1_writes (by decide : main_arg4 ∉ hostOps4_1_W)).trans <|
  (StableHlo.after_of_writes_sub hostOps4 _ hostOps4_writes (by decide : main_arg4 ∉ hostOps4_W)).trans <|
  (B8_keep m ρ c main_arg4 (by decide)).trans <|
  (StableHlo.after_of_writes_sub hostOps3 _ hostOps3_writes (by decide : main_arg4 ∉ hostOps3_W)).trans <|
  (B6_keep m ρ c main_arg4 (by decide)).trans <|
  (StableHlo.after_of_writes_sub hostOps2 _ hostOps2_writes (by decide : main_arg4 ∉ hostOps2_W)).trans <|
  (B4_keep m ρ c main_arg4 (by decide)).trans <|
  (StableHlo.after_of_writes_sub hostOps1 _ hostOps1_writes (by decide : main_arg4 ∉ hostOps1_W)).trans <|
  (B2_keep m ρ c main_arg4 (by decide)).trans <|
  (StableHlo.after_of_writes_sub hostOps0 _ hostOps0_writes (by decide : main_arg4 ∉ hostOps0_W)).trans rfl
theorem B10_main_arg5 (c : Dev nD) : B10 m ρ c (Proc.devRef .tc main_arg5) = m ((c : Thread nD τ).loc main_arg5) :=
  (StableHlo.after_of_writes_sub hostOps4_1 _ hostOps4_1_writes (by decide : main_arg5 ∉ hostOps4_1_W)).trans <|
  (StableHlo.after_of_writes_sub hostOps4 _ hostOps4_writes (by decide : main_arg5 ∉ hostOps4_W)).trans <|
  (B8_keep m ρ c main_arg5 (by decide)).trans <|
  (StableHlo.after_of_writes_sub hostOps3 _ hostOps3_writes (by decide : main_arg5 ∉ hostOps3_W)).trans <|
  (B6_keep m ρ c main_arg5 (by decide)).trans <|
  (StableHlo.after_of_writes_sub hostOps2 _ hostOps2_writes (by decide : main_arg5 ∉ hostOps2_W)).trans <|
  (B4_keep m ρ c main_arg5 (by decide)).trans <|
  (StableHlo.after_of_writes_sub hostOps1 _ hostOps1_writes (by decide : main_arg5 ∉ hostOps1_W)).trans <|
  (B2_keep m ρ c main_arg5 (by decide)).trans <|
  (StableHlo.after_of_writes_sub hostOps0 _ hostOps0_writes (by decide : main_arg5 ∉ hostOps0_W)).trans rfl
theorem B10_main_arg6 (c : Dev nD) : B10 m ρ c (Proc.devRef .tc main_arg6) = m ((c : Thread nD τ).loc main_arg6) :=
  (StableHlo.after_of_writes_sub hostOps4_1 _ hostOps4_1_writes (by decide : main_arg6 ∉ hostOps4_1_W)).trans <|
  (StableHlo.after_of_writes_sub hostOps4 _ hostOps4_writes (by decide : main_arg6 ∉ hostOps4_W)).trans <|
  (B8_keep m ρ c main_arg6 (by decide)).trans <|
  (StableHlo.after_of_writes_sub hostOps3 _ hostOps3_writes (by decide : main_arg6 ∉ hostOps3_W)).trans <|
  (B6_keep m ρ c main_arg6 (by decide)).trans <|
  (StableHlo.after_of_writes_sub hostOps2 _ hostOps2_writes (by decide : main_arg6 ∉ hostOps2_W)).trans <|
  (B4_keep m ρ c main_arg6 (by decide)).trans <|
  (StableHlo.after_of_writes_sub hostOps1 _ hostOps1_writes (by decide : main_arg6 ∉ hostOps1_W)).trans <|
  (B2_keep m ρ c main_arg6 (by decide)).trans <|
  (StableHlo.after_of_writes_sub hostOps0 _ hostOps0_writes (by decide : main_arg6 ∉ hostOps0_W)).trans rfl
theorem B10_main_arg7 (c : Dev nD) : B10 m ρ c (Proc.devRef .tc main_arg7) = m ((c : Thread nD τ).loc main_arg7) :=
  (StableHlo.after_of_writes_sub hostOps4_1 _ hostOps4_1_writes (by decide : main_arg7 ∉ hostOps4_1_W)).trans <|
  (StableHlo.after_of_writes_sub hostOps4 _ hostOps4_writes (by decide : main_arg7 ∉ hostOps4_W)).trans <|
  (B8_keep m ρ c main_arg7 (by decide)).trans <|
  (StableHlo.after_of_writes_sub hostOps3 _ hostOps3_writes (by decide : main_arg7 ∉ hostOps3_W)).trans <|
  (B6_keep m ρ c main_arg7 (by decide)).trans <|
  (StableHlo.after_of_writes_sub hostOps2 _ hostOps2_writes (by decide : main_arg7 ∉ hostOps2_W)).trans <|
  (B4_keep m ρ c main_arg7 (by decide)).trans <|
  (StableHlo.after_of_writes_sub hostOps1 _ hostOps1_writes (by decide : main_arg7 ∉ hostOps1_W)).trans <|
  (B2_keep m ρ c main_arg7 (by decide)).trans <|
  (StableHlo.after_of_writes_sub hostOps0 _ hostOps0_writes (by decide : main_arg7 ∉ hostOps0_W)).trans rfl
theorem B10_main_arg8 (c : Dev nD) : B10 m ρ c (Proc.devRef .tc main_arg8) = m ((c : Thread nD τ).loc main_arg8) :=
  (StableHlo.after_of_writes_sub hostOps4_1 _ hostOps4_1_writes (by decide : main_arg8 ∉ hostOps4_1_W)).trans <|
  (StableHlo.after_of_writes_sub hostOps4 _ hostOps4_writes (by decide : main_arg8 ∉ hostOps4_W)).trans <|
  (B8_keep m ρ c main_arg8 (by decide)).trans <|
  (StableHlo.after_of_writes_sub hostOps3 _ hostOps3_writes (by decide : main_arg8 ∉ hostOps3_W)).trans <|
  (B6_keep m ρ c main_arg8 (by decide)).trans <|
  (StableHlo.after_of_writes_sub hostOps2 _ hostOps2_writes (by decide : main_arg8 ∉ hostOps2_W)).trans <|
  (B4_keep m ρ c main_arg8 (by decide)).trans <|
  (StableHlo.after_of_writes_sub hostOps1 _ hostOps1_writes (by decide : main_arg8 ∉ hostOps1_W)).trans <|
  (B2_keep m ρ c main_arg8 (by decide)).trans <|
  (StableHlo.after_of_writes_sub hostOps0 _ hostOps0_writes (by decide : main_arg8 ∉ hostOps0_W)).trans rfl
theorem B10_main_arg9 (c : Dev nD) : B10 m ρ c (Proc.devRef .tc main_arg9) = m ((c : Thread nD τ).loc main_arg9) :=
  (StableHlo.after_of_writes_sub hostOps4_1 _ hostOps4_1_writes (by decide : main_arg9 ∉ hostOps4_1_W)).trans <|
  (StableHlo.after_of_writes_sub hostOps4 _ hostOps4_writes (by decide : main_arg9 ∉ hostOps4_W)).trans <|
  (B8_keep m ρ c main_arg9 (by decide)).trans <|
  (StableHlo.after_of_writes_sub hostOps3 _ hostOps3_writes (by decide : main_arg9 ∉ hostOps3_W)).trans <|
  (B6_keep m ρ c main_arg9 (by decide)).trans <|
  (StableHlo.after_of_writes_sub hostOps2 _ hostOps2_writes (by decide : main_arg9 ∉ hostOps2_W)).trans <|
  (B4_keep m ρ c main_arg9 (by decide)).trans <|
  (StableHlo.after_of_writes_sub hostOps1 _ hostOps1_writes (by decide : main_arg9 ∉ hostOps1_W)).trans <|
  (B2_keep m ρ c main_arg9 (by decide)).trans <|
  (StableHlo.after_of_writes_sub hostOps0 _ hostOps0_writes (by decide : main_arg9 ∉ hostOps0_W)).trans rfl
theorem B10_main_arg10 (c : Dev nD) : B10 m ρ c (Proc.devRef .tc main_arg10) = m ((c : Thread nD τ).loc main_arg10) :=
  (StableHlo.after_of_writes_sub hostOps4_1 _ hostOps4_1_writes (by decide : main_arg10 ∉ hostOps4_1_W)).trans <|
  (StableHlo.after_of_writes_sub hostOps4 _ hostOps4_writes (by decide : main_arg10 ∉ hostOps4_W)).trans <|
  (B8_keep m ρ c main_arg10 (by decide)).trans <|
  (StableHlo.after_of_writes_sub hostOps3 _ hostOps3_writes (by decide : main_arg10 ∉ hostOps3_W)).trans <|
  (B6_keep m ρ c main_arg10 (by decide)).trans <|
  (StableHlo.after_of_writes_sub hostOps2 _ hostOps2_writes (by decide : main_arg10 ∉ hostOps2_W)).trans <|
  (B4_keep m ρ c main_arg10 (by decide)).trans <|
  (StableHlo.after_of_writes_sub hostOps1 _ hostOps1_writes (by decide : main_arg10 ∉ hostOps1_W)).trans <|
  (B2_keep m ρ c main_arg10 (by decide)).trans <|
  (StableHlo.after_of_writes_sub hostOps0 _ hostOps0_writes (by decide : main_arg10 ∉ hostOps0_W)).trans rfl
theorem B10_main_arg11 (c : Dev nD) : B10 m ρ c (Proc.devRef .tc main_arg11) = m ((c : Thread nD τ).loc main_arg11) :=
  (StableHlo.after_of_writes_sub hostOps4_1 _ hostOps4_1_writes (by decide : main_arg11 ∉ hostOps4_1_W)).trans <|
  (StableHlo.after_of_writes_sub hostOps4 _ hostOps4_writes (by decide : main_arg11 ∉ hostOps4_W)).trans <|
  (B8_keep m ρ c main_arg11 (by decide)).trans <|
  (StableHlo.after_of_writes_sub hostOps3 _ hostOps3_writes (by decide : main_arg11 ∉ hostOps3_W)).trans <|
  (B6_keep m ρ c main_arg11 (by decide)).trans <|
  (StableHlo.after_of_writes_sub hostOps2 _ hostOps2_writes (by decide : main_arg11 ∉ hostOps2_W)).trans <|
  (B4_keep m ρ c main_arg11 (by decide)).trans <|
  (StableHlo.after_of_writes_sub hostOps1 _ hostOps1_writes (by decide : main_arg11 ∉ hostOps1_W)).trans <|
  (B2_keep m ρ c main_arg11 (by decide)).trans <|
  (StableHlo.after_of_writes_sub hostOps0 _ hostOps0_writes (by decide : main_arg11 ∉ hostOps0_W)).trans rfl
theorem B10_main_arg12 (c : Dev nD) : B10 m ρ c (Proc.devRef .tc main_arg12) = m ((c : Thread nD τ).loc main_arg12) :=
  (StableHlo.after_of_writes_sub hostOps4_1 _ hostOps4_1_writes (by decide : main_arg12 ∉ hostOps4_1_W)).trans <|
  (StableHlo.after_of_writes_sub hostOps4 _ hostOps4_writes (by decide : main_arg12 ∉ hostOps4_W)).trans <|
  (B8_keep m ρ c main_arg12 (by decide)).trans <|
  (StableHlo.after_of_writes_sub hostOps3 _ hostOps3_writes (by decide : main_arg12 ∉ hostOps3_W)).trans <|
  (B6_keep m ρ c main_arg12 (by decide)).trans <|
  (StableHlo.after_of_writes_sub hostOps2 _ hostOps2_writes (by decide : main_arg12 ∉ hostOps2_W)).trans <|
  (B4_keep m ρ c main_arg12 (by decide)).trans <|
  (StableHlo.after_of_writes_sub hostOps1 _ hostOps1_writes (by decide : main_arg12 ∉ hostOps1_W)).trans <|
  (B2_keep m ρ c main_arg12 (by decide)).trans <|
  (StableHlo.after_of_writes_sub hostOps0 _ hostOps0_writes (by decide : main_arg12 ∉ hostOps0_W)).trans rfl
theorem B10_main_arg13 (c : Dev nD) : B10 m ρ c (Proc.devRef .tc main_arg13) = m ((c : Thread nD τ).loc main_arg13) :=
  (StableHlo.after_of_writes_sub hostOps4_1 _ hostOps4_1_writes (by decide : main_arg13 ∉ hostOps4_1_W)).trans <|
  (StableHlo.after_of_writes_sub hostOps4 _ hostOps4_writes (by decide : main_arg13 ∉ hostOps4_W)).trans <|
  (B8_keep m ρ c main_arg13 (by decide)).trans <|
  (StableHlo.after_of_writes_sub hostOps3 _ hostOps3_writes (by decide : main_arg13 ∉ hostOps3_W)).trans <|
  (B6_keep m ρ c main_arg13 (by decide)).trans <|
  (StableHlo.after_of_writes_sub hostOps2 _ hostOps2_writes (by decide : main_arg13 ∉ hostOps2_W)).trans <|
  (B4_keep m ρ c main_arg13 (by decide)).trans <|
  (StableHlo.after_of_writes_sub hostOps1 _ hostOps1_writes (by decide : main_arg13 ∉ hostOps1_W)).trans <|
  (B2_keep m ρ c main_arg13 (by decide)).trans <|
  (StableHlo.after_of_writes_sub hostOps0 _ hostOps0_writes (by decide : main_arg13 ∉ hostOps0_W)).trans rfl
theorem B10_main_arg14 (c : Dev nD) : B10 m ρ c (Proc.devRef .tc main_arg14) = m ((c : Thread nD τ).loc main_arg14) :=
  (StableHlo.after_of_writes_sub hostOps4_1 _ hostOps4_1_writes (by decide : main_arg14 ∉ hostOps4_1_W)).trans <|
  (StableHlo.after_of_writes_sub hostOps4 _ hostOps4_writes (by decide : main_arg14 ∉ hostOps4_W)).trans <|
  (B8_keep m ρ c main_arg14 (by decide)).trans <|
  (StableHlo.after_of_writes_sub hostOps3 _ hostOps3_writes (by decide : main_arg14 ∉ hostOps3_W)).trans <|
  (B6_keep m ρ c main_arg14 (by decide)).trans <|
  (StableHlo.after_of_writes_sub hostOps2 _ hostOps2_writes (by decide : main_arg14 ∉ hostOps2_W)).trans <|
  (B4_keep m ρ c main_arg14 (by decide)).trans <|
  (StableHlo.after_of_writes_sub hostOps1 _ hostOps1_writes (by decide : main_arg14 ∉ hostOps1_W)).trans <|
  (B2_keep m ρ c main_arg14 (by decide)).trans <|
  (StableHlo.after_of_writes_sub hostOps0 _ hostOps0_writes (by decide : main_arg14 ∉ hostOps0_W)).trans rfl
theorem B10_main_arg15 (c : Dev nD) : B10 m ρ c (Proc.devRef .tc main_arg15) = m ((c : Thread nD τ).loc main_arg15) :=
  (StableHlo.after_of_writes_sub hostOps4_1 _ hostOps4_1_writes (by decide : main_arg15 ∉ hostOps4_1_W)).trans <|
  (StableHlo.after_of_writes_sub hostOps4 _ hostOps4_writes (by decide : main_arg15 ∉ hostOps4_W)).trans <|
  (B8_keep m ρ c main_arg15 (by decide)).trans <|
  (StableHlo.after_of_writes_sub hostOps3 _ hostOps3_writes (by decide : main_arg15 ∉ hostOps3_W)).trans <|
  (B6_keep m ρ c main_arg15 (by decide)).trans <|
  (StableHlo.after_of_writes_sub hostOps2 _ hostOps2_writes (by decide : main_arg15 ∉ hostOps2_W)).trans <|
  (B4_keep m ρ c main_arg15 (by decide)).trans <|
  (StableHlo.after_of_writes_sub hostOps1 _ hostOps1_writes (by decide : main_arg15 ∉ hostOps1_W)).trans <|
  (B2_keep m ρ c main_arg15 (by decide)).trans <|
  (StableHlo.after_of_writes_sub hostOps0 _ hostOps0_writes (by decide : main_arg15 ∉ hostOps0_W)).trans rfl
theorem B10_main_arg16 (c : Dev nD) : B10 m ρ c (Proc.devRef .tc main_arg16) = m ((c : Thread nD τ).loc main_arg16) :=
  (StableHlo.after_of_writes_sub hostOps4_1 _ hostOps4_1_writes (by decide : main_arg16 ∉ hostOps4_1_W)).trans <|
  (StableHlo.after_of_writes_sub hostOps4 _ hostOps4_writes (by decide : main_arg16 ∉ hostOps4_W)).trans <|
  (B8_keep m ρ c main_arg16 (by decide)).trans <|
  (StableHlo.after_of_writes_sub hostOps3 _ hostOps3_writes (by decide : main_arg16 ∉ hostOps3_W)).trans <|
  (B6_keep m ρ c main_arg16 (by decide)).trans <|
  (StableHlo.after_of_writes_sub hostOps2 _ hostOps2_writes (by decide : main_arg16 ∉ hostOps2_W)).trans <|
  (B4_keep m ρ c main_arg16 (by decide)).trans <|
  (StableHlo.after_of_writes_sub hostOps1 _ hostOps1_writes (by decide : main_arg16 ∉ hostOps1_W)).trans <|
  (B2_keep m ρ c main_arg16 (by decide)).trans <|
  (StableHlo.after_of_writes_sub hostOps0 _ hostOps0_writes (by decide : main_arg16 ∉ hostOps0_W)).trans rfl
theorem B10_main_arg17 (c : Dev nD) : B10 m ρ c (Proc.devRef .tc main_arg17) = m ((c : Thread nD τ).loc main_arg17) :=
  (StableHlo.after_of_writes_sub hostOps4_1 _ hostOps4_1_writes (by decide : main_arg17 ∉ hostOps4_1_W)).trans <|
  (StableHlo.after_of_writes_sub hostOps4 _ hostOps4_writes (by decide : main_arg17 ∉ hostOps4_W)).trans <|
  (B8_keep m ρ c main_arg17 (by decide)).trans <|
  (StableHlo.after_of_writes_sub hostOps3 _ hostOps3_writes (by decide : main_arg17 ∉ hostOps3_W)).trans <|
  (B6_keep m ρ c main_arg17 (by decide)).trans <|
  (StableHlo.after_of_writes_sub hostOps2 _ hostOps2_writes (by decide : main_arg17 ∉ hostOps2_W)).trans <|
  (B4_keep m ρ c main_arg17 (by decide)).trans <|
  (StableHlo.after_of_writes_sub hostOps1 _ hostOps1_writes (by decide : main_arg17 ∉ hostOps1_W)).trans <|
  (B2_keep m ρ c main_arg17 (by decide)).trans <|
  (StableHlo.after_of_writes_sub hostOps0 _ hostOps0_writes (by decide : main_arg17 ∉ hostOps0_W)).trans rfl
theorem B10_main_arg18 (c : Dev nD) : B10 m ρ c (Proc.devRef .tc main_arg18) = m ((c : Thread nD τ).loc main_arg18) :=
  (StableHlo.after_of_writes_sub hostOps4_1 _ hostOps4_1_writes (by decide : main_arg18 ∉ hostOps4_1_W)).trans <|
  (StableHlo.after_of_writes_sub hostOps4 _ hostOps4_writes (by decide : main_arg18 ∉ hostOps4_W)).trans <|
  (B8_keep m ρ c main_arg18 (by decide)).trans <|
  (StableHlo.after_of_writes_sub hostOps3 _ hostOps3_writes (by decide : main_arg18 ∉ hostOps3_W)).trans <|
  (B6_keep m ρ c main_arg18 (by decide)).trans <|
  (StableHlo.after_of_writes_sub hostOps2 _ hostOps2_writes (by decide : main_arg18 ∉ hostOps2_W)).trans <|
  (B4_keep m ρ c main_arg18 (by decide)).trans <|
  (StableHlo.after_of_writes_sub hostOps1 _ hostOps1_writes (by decide : main_arg18 ∉ hostOps1_W)).trans <|
  (B2_keep m ρ c main_arg18 (by decide)).trans <|
  (StableHlo.after_of_writes_sub hostOps0 _ hostOps0_writes (by decide : main_arg18 ∉ hostOps0_W)).trans rfl
theorem B10_main_arg19 (c : Dev nD) : B10 m ρ c (Proc.devRef .tc main_arg19) = m ((c : Thread nD τ).loc main_arg19) :=
  (StableHlo.after_of_writes_sub hostOps4_1 _ hostOps4_1_writes (by decide : main_arg19 ∉ hostOps4_1_W)).trans <|
  (StableHlo.after_of_writes_sub hostOps4 _ hostOps4_writes (by decide : main_arg19 ∉ hostOps4_W)).trans <|
  (B8_keep m ρ c main_arg19 (by decide)).trans <|
  (StableHlo.after_of_writes_sub hostOps3 _ hostOps3_writes (by decide : main_arg19 ∉ hostOps3_W)).trans <|
  (B6_keep m ρ c main_arg19 (by decide)).trans <|
  (StableHlo.after_of_writes_sub hostOps2 _ hostOps2_writes (by decide : main_arg19 ∉ hostOps2_W)).trans <|
  (B4_keep m ρ c main_arg19 (by decide)).trans <|
  (StableHlo.after_of_writes_sub hostOps1 _ hostOps1_writes (by decide : main_arg19 ∉ hostOps1_W)).trans <|
  (B2_keep m ρ c main_arg19 (by decide)).trans <|
  (StableHlo.after_of_writes_sub hostOps0 _ hostOps0_writes (by decide : main_arg19 ∉ hostOps0_W)).trans rfl
theorem B10_main_arg20 (c : Dev nD) : B10 m ρ c (Proc.devRef .tc main_arg20) = m ((c : Thread nD τ).loc main_arg20) :=
  (StableHlo.after_of_writes_sub hostOps4_1 _ hostOps4_1_writes (by decide : main_arg20 ∉ hostOps4_1_W)).trans <|
  (StableHlo.after_of_writes_sub hostOps4 _ hostOps4_writes (by decide : main_arg20 ∉ hostOps4_W)).trans <|
  (B8_keep m ρ c main_arg20 (by decide)).trans <|
  (StableHlo.after_of_writes_sub hostOps3 _ hostOps3_writes (by decide : main_arg20 ∉ hostOps3_W)).trans <|
  (B6_keep m ρ c main_arg20 (by decide)).trans <|
  (StableHlo.after_of_writes_sub hostOps2 _ hostOps2_writes (by decide : main_arg20 ∉ hostOps2_W)).trans <|
  (B4_keep m ρ c main_arg20 (by decide)).trans <|
  (StableHlo.after_of_writes_sub hostOps1 _ hostOps1_writes (by decide : main_arg20 ∉ hostOps1_W)).trans <|
  (B2_keep m ρ c main_arg20 (by decide)).trans <|
  (StableHlo.after_of_writes_sub hostOps0 _ hostOps0_writes (by decide : main_arg20 ∉ hostOps0_W)).trans rfl
theorem B10_main_arg21 (c : Dev nD) : B10 m ρ c (Proc.devRef .tc main_arg21) = m ((c : Thread nD τ).loc main_arg21) :=
  (StableHlo.after_of_writes_sub hostOps4_1 _ hostOps4_1_writes (by decide : main_arg21 ∉ hostOps4_1_W)).trans <|
  (StableHlo.after_of_writes_sub hostOps4 _ hostOps4_writes (by decide : main_arg21 ∉ hostOps4_W)).trans <|
  (B8_keep m ρ c main_arg21 (by decide)).trans <|
  (StableHlo.after_of_writes_sub hostOps3 _ hostOps3_writes (by decide : main_arg21 ∉ hostOps3_W)).trans <|
  (B6_keep m ρ c main_arg21 (by decide)).trans <|
  (StableHlo.after_of_writes_sub hostOps2 _ hostOps2_writes (by decide : main_arg21 ∉ hostOps2_W)).trans <|
  (B4_keep m ρ c main_arg21 (by decide)).trans <|
  (StableHlo.after_of_writes_sub hostOps1 _ hostOps1_writes (by decide : main_arg21 ∉ hostOps1_W)).trans <|
  (B2_keep m ρ c main_arg21 (by decide)).trans <|
  (StableHlo.after_of_writes_sub hostOps0 _ hostOps0_writes (by decide : main_arg21 ∉ hostOps0_W)).trans rfl
theorem B10_main_arg22 (c : Dev nD) : B10 m ρ c (Proc.devRef .tc main_arg22) = m ((c : Thread nD τ).loc main_arg22) :=
  (StableHlo.after_of_writes_sub hostOps4_1 _ hostOps4_1_writes (by decide : main_arg22 ∉ hostOps4_1_W)).trans <|
  (StableHlo.after_of_writes_sub hostOps4 _ hostOps4_writes (by decide : main_arg22 ∉ hostOps4_W)).trans <|
  (B8_keep m ρ c main_arg22 (by decide)).trans <|
  (StableHlo.after_of_writes_sub hostOps3 _ hostOps3_writes (by decide : main_arg22 ∉ hostOps3_W)).trans <|
  (B6_keep m ρ c main_arg22 (by decide)).trans <|
  (StableHlo.after_of_writes_sub hostOps2 _ hostOps2_writes (by decide : main_arg22 ∉ hostOps2_W)).trans <|
  (B4_keep m ρ c main_arg22 (by decide)).trans <|
  (StableHlo.after_of_writes_sub hostOps1 _ hostOps1_writes (by decide : main_arg22 ∉ hostOps1_W)).trans <|
  (B2_keep m ρ c main_arg22 (by decide)).trans <|
  (StableHlo.after_of_writes_sub hostOps0 _ hostOps0_writes (by decide : main_arg22 ∉ hostOps0_W)).trans rfl

/-! ## The proof data family and the thread state -/

abbrev adm' : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm' p) c
  | ⟨0, _⟩ => fun c => dat0 (A1 m ρ) c
  | ⟨1, _⟩ => fun c => dat1 (A3 m ρ) c
  | ⟨2, _⟩ => fun c => dat2 (A5 m ρ) c
  | ⟨3, _⟩ => fun c => dat3 (A7 m ρ) c
abbrev 𝒱₀' : Variants := Variants.none
abbrev L' : GSem nD τ sig → Finset Unit := fun _ => ∅
abbrev lv' : GSem nD τ sig → Unit → ℕ := fun _ _ => 0
/-- What rides beside the buffers through every item: the core's generator register at some state and what the core
    owes, at nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B10 m ρ c) ∗ ∃ r, prngReg c r)

/-! ## The regions as items of the chain -/

set_option backward.isDefEq.respectTransparency.types false in
/-- Region 0 over the thread state: entered from every unscoped buffer at the contents before it, left at the contents
    after it; its arrays split out of the unscoped buffers and put back; the generator register lent to the region's
    invariant and returned; nothing owed. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (A1 m ρ) c).loose
  hwaits := Pipeline.hwaits_of_owed_zero _ _ _ _ L' lv' 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (A1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (A1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (A1 m ρ c) (A2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register lent to the region's
    invariant and returned; nothing owed. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (A3 m ρ) c).loose
  hwaits := Pipeline.hwaits_of_owed_zero _ _ _ _ L' lv' 1 fun _ _ => rfl
  pre c := iprop(StableHlo.held (c : Thread nD τ) (Pipeline.ucRefs τ sig) (B3 m ρ c) ∗ Rr c)
  post c := iprop(StableHlo.held (c : Thread nD τ) (Pipeline.ucRefs τ sig) (B4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (A3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (A3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (A3 m ρ c) (A4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back; the generator register lent to the region's
    invariant and returned; nothing owed. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (A5 m ρ) c).loose
  hwaits := Pipeline.hwaits_of_owed_zero _ _ _ _ L' lv' 2 fun _ _ => rfl
  pre c := iprop(StableHlo.held (c : Thread nD τ) (Pipeline.ucRefs τ sig) (B5 m ρ c) ∗ Rr c)
  post c := iprop(StableHlo.held (c : Thread nD τ) (Pipeline.ucRefs τ sig) (B6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (A5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (A5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (A5 m ρ c) (A6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it; its arrays split out of the unscoped buffers and put back; the generator register lent to the region's
    invariant and returned; nothing owed. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (A7 m ρ) c).loose
  hwaits := Pipeline.hwaits_of_owed_zero _ _ _ _ L' lv' 3 fun _ _ => rfl
  pre c := iprop(StableHlo.held (c : Thread nD τ) (Pipeline.ucRefs τ sig) (B7 m ρ c) ∗ Rr c)
  post c := iprop(StableHlo.held (c : Thread nD τ) (Pipeline.ucRefs τ sig) (B8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (A7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (A7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (A7 m ρ c) (A8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The entry function's ten items in order. -/
abbrev segs' : List (Pipeline.Seg (pcfgs (F := F)) adm' (pdats m ρ) () defs₀ 𝒱₀' L' lv') :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .host (hseg hostOps4_1 hostOps4_1_sub hostOps4_1_fresh (B9 m ρ)) ]
/-- The entry function is the run of its items. -/
theorem main_run (c : Dev nD) : main (F := F) c = Pipeline.Seg.run (segs' m ρ) := (main_chain c).trans (by chain_rfl)

set_option backward.isDefEq.respectTransparency.types false in
/-- THE RUN: from any memory with zero counters every weakly fair execution of the entry function terminates, nothing
    faulting, in a state whose unscoped buffers hold the last contents of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 m ρ c b) :=
  Pipeline.θ_run_regions_kit (pcfgs (F := F)) adm' (pdats m ρ) () cellOf_inj emb₁ defs₀ 𝒱₀' L' lv' m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L' lv' fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m ρ c b)
    (hfin := fun c s' => by
      iintro ⟨⟨Hh, -⟩, HSI⟩
      unfold StableHlo.held
      imodintro
      iapply (pointsTo_read_all (Pipeline.ucRefs τ sig) (fun b => (((c : Thread nD τ)).1, b)) (B10 m ρ c) s')
      isplitl [Hh] <;> iassumption)
    (hQ := fun s h c => h c)

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (B10_main_arg0 m ρ c),
     (h c _ (mem_uc main_arg1 (by decide))).trans (B10_main_arg1 m ρ c),
     (h c _ (mem_uc main_arg2 (by decide))).trans (B10_main_arg2 m ρ c),
     (h c _ (mem_uc main_arg3 (by decide))).trans (B10_main_arg3 m ρ c),
     (h c _ (mem_uc main_arg4 (by decide))).trans (B10_main_arg4 m ρ c),
     (h c _ (mem_uc main_arg5 (by decide))).trans (B10_main_arg5 m ρ c),
     (h c _ (mem_uc main_arg6 (by decide))).trans (B10_main_arg6 m ρ c),
     (h c _ (mem_uc main_arg7 (by decide))).trans (B10_main_arg7 m ρ c),
     (h c _ (mem_uc main_arg8 (by decide))).trans (B10_main_arg8 m ρ c),
     (h c _ (mem_uc main_arg9 (by decide))).trans (B10_main_arg9 m ρ c),
     (h c _ (mem_uc main_arg10 (by decide))).trans (B10_main_arg10 m ρ c),
     (h c _ (mem_uc main_arg11 (by decide))).trans (B10_main_arg11 m ρ c),
     (h c _ (mem_uc main_arg12 (by decide))).trans (B10_main_arg12 m ρ c),
     (h c _ (mem_uc main_arg13 (by decide))).trans (B10_main_arg13 m ρ c),
     (h c _ (mem_uc main_arg14 (by decide))).trans (B10_main_arg14 m ρ c),
     (h c _ (mem_uc main_arg15 (by decide))).trans (B10_main_arg15 m ρ c),
     (h c _ (mem_uc main_arg16 (by decide))).trans (B10_main_arg16 m ρ c),
     (h c _ (mem_uc main_arg17 (by decide))).trans (B10_main_arg17 m ρ c),
     (h c _ (mem_uc main_arg18 (by decide))).trans (B10_main_arg18 m ρ c),
     (h c _ (mem_uc main_arg19 (by decide))).trans (B10_main_arg19 m ρ c),
     (h c _ (mem_uc main_arg20 (by decide))).trans (B10_main_arg20 m ρ c),
     (h c _ (mem_uc main_arg21 (by decide))).trans (B10_main_arg21 m ρ c),
     (h c _ (mem_uc main_arg22 (by decide))).trans (B10_main_arg22 m ρ c)⟩) (run_all m ρ)

end Cert.KernelIdeal.Gen

end
-- ==== Proof.RowSpec.lean ====
/-
  One row of the network's dense stages, on the extended reals.

  Every dense stage of the network acts on the rows of its input independently: a row `x` is sent to the affine
  image `x · W + b`, and a layer normalisation recentres that row by its mean, rescales it by the inverse square
  root of its variance plus a small constant, and applies a per-column scale and shift; a rectifier may follow.
  The functions below state this for one row, column by column, with the divisor (the row length as a float) and
  the small constant as parameters.
-/
import Idealize.ShloMosaic.PureOps.Ideal
import Idealize.ShloMosaic.Lib.ValueIdx

noncomputable section

namespace Cert.RowSpec

open Idealize.ShloMosaic
open scoped BigOperators

/-- The float zero, as the rectifier's threshold. -/
abbrev zero32 : Ideal .f32 := Ideal.ofBits .f32 0x00000000#32
/-- The small constant added to the variance. -/
abbrev eps32 : Ideal .f32 := Ideal.ofBits .f32 0x3727C5AC#32
/-- The row length 96 as a float. -/
abbrev c96 : Ideal .f32 := Ideal.ofBits .f32 0x42C00000#32
/-- The row length 32 as a float. -/
abbrev c32 : Ideal .f32 := Ideal.ofBits .f32 0x42000000#32

/-- Column `k` of the affine image `x · W + b` of a row `x`. -/
def aff {K n : ℕ} (x : Fin K → Ideal .f32) (W : Fin K → Fin n → Ideal .f32) (b : Fin n → Ideal .f32) (k : Fin n) :
    Ideal .f32 :=
  (∑ j : Fin K, x j * W j k) + b k

/-- The mean of a row: its sum divided by the row length `cn`. -/
def mean {n : ℕ} (cn : Ideal .f32) (y : Fin n → Ideal .f32) : Ideal .f32 :=
  Ideal.div (∑ k : Fin n, y k) cn

/-- The variance of a row: the mean of the squared deviations from its mean. -/
def var {n : ℕ} (cn : Ideal .f32) (y : Fin n → Ideal .f32) : Ideal .f32 :=
  Ideal.div (∑ k : Fin n, (y k - mean cn y) * (y k - mean cn y)) cn

/-- Column `q` of the layer normalisation of a row `y` with scale `g` and shift `be`. -/
def ln {n : ℕ} (cn : Ideal .f32) (y g be : Fin n → Ideal .f32) (q : Fin n) : Ideal .f32 :=
  (y q - mean cn y) * Ideal.rsqrt (var cn y + eps32) * g q + be q

/-- The rectifier. -/
def relu (v : Ideal .f32) : Ideal .f32 := max v zero32

end Cert.RowSpec

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KernelRows.lean ====
/-
  The dense stages' stored blocks, read at an entry, on the extended reals.

  Each stage computes, on a block of rows, an affine image (a matrix product into the zero accumulator plus a bias row
  broadcast down the rows), then a layer normalisation along the lanes: the mean column, the centred block, the variance
  column, the inverse square root of the variance plus a small constant, a scale row and a shift row; a rectifier may
  follow. All of these act on the rows independently, so the entry `(p, q)` of a stored block depends on row `p` of the
  input block only, and is column `q` of the one-row functions `aff`, `ln`, `relu` applied to that row.

  The general lemmas are stated for any block sizes `M`, `K`, `N`; the last section instantiates them at the four
  stages' payloads.
-/
import proofs.«105666_j32899449488058_1_alg».proof.Proof.Gen.KernelIdeal.Skeleton
import proofs.«105666_j32899449488058_1_alg».proof.Proof.RowSpec
import proofs.«105666_j32899449488058_1_alg».proof.Proof.LibPlainDot
import proofs.«105666_j32899449488058_1_alg».proof.Proof.LibKeepdims

noncomputable section

namespace Cert.KernelRows

open Idealize.ShloMosaic Idealize.ShloMosaic.ValueIdx Cert.KernelIdeal Cert.KernelIdeal.Gen Cert.RowSpec
open scoped BigOperators

/-- A product of a row block with a weight matrix into the zero accumulator, plus a bias row broadcast down the rows,
    read at `(p, q)`: column `q` of the affine image of row `p`. -/
theorem aff_at {M K N : ℕ} (D : DotDims ⟨2, ![M, K]⟩ ⟨2, ![K, N]⟩ ⟨2, ![M, N]⟩) (hD : D = DotDims.plain M K N)
    (hb : FTy.bits .bf16 < FTy.bits .f32)
    (hc : (⟨2, ![1, N]⟩ : Shape).ShapeCasts ⟨2, ![1, N]⟩) (hbr : (⟨2, ![1, N]⟩ : Shape).Broadcasts ⟨2, ![M, N]⟩)
    (x : FVec Ideal ⟨2, ![M, K]⟩ .f32) (W : FVec Ideal ⟨2, ![K, N]⟩ .f32) (b : FVec Ideal ⟨2, ![1, N]⟩ .f32)
    (p : Fin M) (q : Fin N) :
    addf (matmul D none (truncf .bf16 x hb) (truncf .bf16 W hb) (constant (F := Ideal) ⟨2, ![M, N]⟩ .f32 0x00000000#32))
        (broadcastTo ⟨2, ![M, N]⟩ (shapeCast ⟨2, ![1, N]⟩ b hc) hbr) (ix2 p q)
      = aff (fun j : Fin K => x (ix2 p j)) (fun j k => W (ix2 j k)) (fun k : Fin N => b (ix2 (0 : Fin 1) k)) q := by
  rw [addf_apply, PlainDot.matmul_zero_apply D hD, broadcastTo_1b_ab_apply, shapeCast_self]
  rfl

/-- The lane sum of a block kept as a column and divided by a splat constant, read at `(p, u)`: the mean of row `p`. -/
theorem mean_at {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩)
    (y : FVec Ideal ⟨2, ![M, N]⟩ .f32) (p : Fin M) (u : Fin 1) :
    divf (shapeCast ⟨2, ![M, 1]⟩ (multiReduction .add [1] ⟨1, ![M]⟩ y 0x00000000#32 hr hφ hacc) hsc)
        (broadcast ⟨2, ![M, 1]⟩ (Scalar.ofBits (F := Ideal) .f32 c)) (ix2 p u)
      = mean (Ideal.ofBits .f32 c) (fun k : Fin N => y (ix2 p k)) := by
  rw [divf_apply, shapeCast_a_a1_apply, multiReduction_add_axis1_apply]
  rfl

/-- The mean column of a block: its lane sums kept as a column, divided by the splat of the word `c`. -/
def meanCol {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (y : FVec Ideal ⟨2, ![M, N]⟩ .f32) : FVec Ideal ⟨2, ![M, 1]⟩ .f32 :=
  divf (shapeCast ⟨2, ![M, 1]⟩ (multiReduction .add [1] ⟨1, ![M]⟩ y 0x00000000#32 hr hφ hacc) hsc)
    (broadcast ⟨2, ![M, 1]⟩ (Scalar.ofBits (F := Ideal) .f32 c))

/-- The centred block: the block minus its mean column broadcast along the lanes. -/
def centred {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (y : FVec Ideal ⟨2, ![M, N]⟩ .f32) : FVec Ideal ⟨2, ![M, N]⟩ .f32 :=
  subf y (broadcastTo ⟨2, ![M, N]⟩ (meanCol c hr hφ hacc hsc y) hbc)

/-- The variance column of a block: the lane sums of the squared centred block, kept as a column, divided by the splat
    of the word `c`. -/
def varCol {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (y : FVec Ideal ⟨2, ![M, N]⟩ .f32) : FVec Ideal ⟨2, ![M, 1]⟩ .f32 :=
  divf (shapeCast ⟨2, ![M, 1]⟩ (multiReduction .add [1] ⟨1, ![M]⟩
      (mulf (centred c hr hφ hacc hsc hbc y) (centred c hr hφ hacc hsc hbc y)) 0x00000000#32 hr hφ hacc) hsc)
    (broadcast ⟨2, ![M, 1]⟩ (Scalar.ofBits (F := Ideal) .f32 c))

/-- The normalised block: the centred block times the inverse square root of the variance column plus the small
    constant, times the scale row, plus the shift row. -/
def lnBlock {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (hbr : (⟨2, ![1, N]⟩ : Shape).Broadcasts ⟨2, ![M, N]⟩)
    (y : FVec Ideal ⟨2, ![M, N]⟩ .f32) (g be : FVec Ideal ⟨2, ![1, N]⟩ .f32) : FVec Ideal ⟨2, ![M, N]⟩ .f32 :=
  addf (mulf (mulf (centred c hr hφ hacc hsc hbc y)
      (broadcastTo ⟨2, ![M, N]⟩ (rsqrt (addf (varCol c hr hφ hacc hsc hbc y)
        (broadcast ⟨2, ![M, 1]⟩ (Scalar.ofBits (F := Ideal) .f32 0x3727C5AC#32)))) hbc))
      (broadcastTo ⟨2, ![M, N]⟩ g hbr)) (broadcastTo ⟨2, ![M, N]⟩ be hbr)

/-- The mean column at `(p, u)` is the mean of row `p`. -/
theorem meanCol_at {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (y : FVec Ideal ⟨2, ![M, N]⟩ .f32) (p : Fin M) (u : Fin 1) :
    meanCol c hr hφ hacc hsc y (ix2 p u) = mean (Ideal.ofBits .f32 c) (fun k : Fin N => y (ix2 p k)) :=
  mean_at c hr hφ hacc hsc y p u

/-- The centred block at `(p, q)` is the entry minus the mean of row `p`. -/
theorem centred_at {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (y : FVec Ideal ⟨2, ![M, N]⟩ .f32) (p : Fin M) (q : Fin N) :
    centred c hr hφ hacc hsc hbc y (ix2 p q)
      = y (ix2 p q) - mean (Ideal.ofBits .f32 c) (fun k : Fin N => y (ix2 p k)) := by
  unfold centred
  rw [subf_apply, broadcastTo_a1_ab_apply, meanCol_at]

/-- The variance column at `(p, u)` is the variance of row `p`. -/
theorem varCol_at {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (y : FVec Ideal ⟨2, ![M, N]⟩ .f32) (p : Fin M) (u : Fin 1) :
    varCol c hr hφ hacc hsc hbc y (ix2 p u) = var (Ideal.ofBits .f32 c) (fun k : Fin N => y (ix2 p k)) := by
  unfold varCol
  rw [divf_apply, shapeCast_a_a1_apply, multiReduction_add_axis1_apply]
  refine congrArg (fun s => Ideal.div s (Ideal.ofBits .f32 c)) (Finset.sum_congr rfl fun k _ => ?_)
  rw [mulf_apply, centred_at]

/-- The normalised block at `(p, q)` is column `q` of the layer normalisation of row `p`. -/
theorem lnBlock_at {M N : ℕ} (c : BitVec 32) (hr : (⟨2, ![M, N]⟩ : Shape).Reduces [1] ⟨1, ![M]⟩) (hφ : FKind.Formats .f32)
    (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (hbr : (⟨2, ![1, N]⟩ : Shape).Broadcasts ⟨2, ![M, N]⟩)
    (y : FVec Ideal ⟨2, ![M, N]⟩ .f32) (g be : FVec Ideal ⟨2, ![1, N]⟩ .f32) (p : Fin M) (q : Fin N) :
    lnBlock c hr hφ hacc hsc hbc hbr y g be (ix2 p q)
      = ln (Ideal.ofBits .f32 c) (fun k : Fin N => y (ix2 p k)) (fun k => g (ix2 (0 : Fin 1) k))
          (fun k => be (ix2 (0 : Fin 1) k)) q := by
  unfold lnBlock
  rw [addf_apply, mulf_apply, mulf_apply, centred_at, broadcastTo_a1_ab_apply, broadcastTo_1b_ab_apply,
    broadcastTo_1b_ab_apply]
  show _ * Ideal.rsqrt (varCol c hr hφ hacc hsc hbc y (ix2 p (0 : Fin 1)) + eps32) * _ + _ = _
  rw [varCol_at]
  rfl

/-- The affine block: the product of a block with a weight matrix into the zero accumulator, plus the bias row
    broadcast down the rows. -/
def affBlock {M K N : ℕ} (D : DotDims ⟨2, ![M, K]⟩ ⟨2, ![K, N]⟩ ⟨2, ![M, N]⟩) (hb : FTy.bits .bf16 < FTy.bits .f32)
    (hc : (⟨2, ![1, N]⟩ : Shape).ShapeCasts ⟨2, ![1, N]⟩) (hbr : (⟨2, ![1, N]⟩ : Shape).Broadcasts ⟨2, ![M, N]⟩)
    (x : FVec Ideal ⟨2, ![M, K]⟩ .f32) (W : FVec Ideal ⟨2, ![K, N]⟩ .f32) (b : FVec Ideal ⟨2, ![1, N]⟩ .f32) :
    FVec Ideal ⟨2, ![M, N]⟩ .f32 :=
  addf (matmul D none (truncf .bf16 x hb) (truncf .bf16 W hb) (constant (F := Ideal) ⟨2, ![M, N]⟩ .f32 0x00000000#32))
    (broadcastTo ⟨2, ![M, N]⟩ (shapeCast ⟨2, ![1, N]⟩ b hc) hbr)

/-- The affine block at `(p, q)` is column `q` of the affine image of row `p`. -/
theorem affBlock_at {M K N : ℕ} (D : DotDims ⟨2, ![M, K]⟩ ⟨2, ![K, N]⟩ ⟨2, ![M, N]⟩) (hD : D = DotDims.plain M K N)
    (hb : FTy.bits .bf16 < FTy.bits .f32)
    (hc : (⟨2, ![1, N]⟩ : Shape).ShapeCasts ⟨2, ![1, N]⟩) (hbr : (⟨2, ![1, N]⟩ : Shape).Broadcasts ⟨2, ![M, N]⟩)
    (x : FVec Ideal ⟨2, ![M, K]⟩ .f32) (W : FVec Ideal ⟨2, ![K, N]⟩ .f32) (b : FVec Ideal ⟨2, ![1, N]⟩ .f32)
    (p : Fin M) (q : Fin N) :
    affBlock D hb hc hbr x W b (ix2 p q)
      = aff (fun j : Fin K => x (ix2 p j)) (fun j k => W (ix2 j k)) (fun k : Fin N => b (ix2 (0 : Fin 1) k)) q :=
  aff_at D hD hb hc hbr x W b p q

/-- The second stage's stored block is the rectified normalised affine block. -/
theorem k1_pay1_eq (v0 : Vec Ideal S5000x288 .f32) (v3 : Vec Ideal S288x96 .f32) (v6 v10 v12 : Vec Ideal S1x96 .f32) :
    k1_pay1 (F := Ideal) v0 v3 v6 v10 v12
      = maximumf (lnBlock 0x42C00000#32 reduces_S5000x96_S5000 (.inl rfl) rfl shapeCasts_S5000_S5000x1
            broadcasts_S5000x1_S5000x96 broadcasts_S1x96_S5000x96
            (affBlock dot_S5000x288_S288x96_S5000x96_1_0_0_1_n_n bitsLt_bf16_f32 shapeCasts_S1x96_S1x96
              broadcasts_S1x96_S5000x96 (shapeCast S5000x288 v0 shapeCasts_S5000x288_S5000x288) v3 v6)
            (shapeCast S1x96 v10 shapeCasts_S1x96_S1x96) (shapeCast S1x96 v12 shapeCasts_S1x96_S1x96))
          (broadcast S5000x96 (Scalar.ofBits (F := Ideal) .f32 0x00000000#32)) := rfl

/-- The second stage's stored block at `(p, q)`: the rectified layer normalisation of the affine image of row `p`. -/
theorem k1_pay1_at (v0 : Vec Ideal S5000x288 .f32) (v3 : Vec Ideal S288x96 .f32) (v6 v10 v12 : Vec Ideal S1x96 .f32)
    (p : Fin 5000) (q : Fin 96) :
    k1_pay1 (F := Ideal) v0 v3 v6 v10 v12 (ix2 p q)
      = relu (ln c96 (aff (fun j : Fin 288 => v0 (ix2 p j)) (fun j k => v3 (ix2 j k))
            (fun k : Fin 96 => v6 (ix2 (0 : Fin 1) k)))
          (fun k => v10 (ix2 (0 : Fin 1) k)) (fun k => v12 (ix2 (0 : Fin 1) k)) q) := by
  have e0 : shapeCast S5000x288 v0 shapeCasts_S5000x288_S5000x288 = v0 := shapeCast_self _ _
  have e10 : shapeCast S1x96 v10 shapeCasts_S1x96_S1x96 = v10 := shapeCast_self _ _
  have e12 : shapeCast S1x96 v12 shapeCasts_S1x96_S1x96 = v12 := shapeCast_self _ _
  refine (congrFun (k1_pay1_eq v0 v3 v6 v10 v12) (ix2 p q)).trans ?_
  refine (congrArg (fun t => max t zero32) (lnBlock_at _ _ _ _ _ _ _ _ _ _ p q)).trans ?_
  rw [e0, e10, e12]
  refine congrArg (fun y => relu (ln c96 y (fun k => v10 (ix2 (0 : Fin 1) k)) (fun k => v12 (ix2 (0 : Fin 1) k)) q)) ?_
  exact funext fun k => affBlock_at _ rfl _ _ _ v0 v3 v6 p k

/-- The third stage's stored block is the rectified normalised affine block. -/
theorem k2_pay1_eq (v0 : Vec Ideal S5000x288 .f32) (v3 : Vec Ideal S288x96 .f32) (v6 v10 v12 : Vec Ideal S1x96 .f32) :
    k2_pay1 (F := Ideal) v0 v3 v6 v10 v12
      = maximumf (lnBlock 0x42C00000#32 reduces_S5000x96_S5000 (.inl rfl) rfl shapeCasts_S5000_S5000x1
            broadcasts_S5000x1_S5000x96 broadcasts_S1x96_S5000x96
            (affBlock dot_S5000x288_S288x96_S5000x96_1_0_0_1_n_n bitsLt_bf16_f32 shapeCasts_S1x96_S1x96
              broadcasts_S1x96_S5000x96 (shapeCast S5000x288 v0 shapeCasts_S5000x288_S5000x288) v3 v6)
            (shapeCast S1x96 v10 shapeCasts_S1x96_S1x96) (shapeCast S1x96 v12 shapeCasts_S1x96_S1x96))
          (broadcast S5000x96 (Scalar.ofBits (F := Ideal) .f32 0x00000000#32)) := rfl

/-- The third stage's stored block at `(p, q)`: the rectified layer normalisation of the affine image of row `p`. -/
theorem k2_pay1_at (v0 : Vec Ideal S5000x288 .f32) (v3 : Vec Ideal S288x96 .f32) (v6 v10 v12 : Vec Ideal S1x96 .f32)
    (p : Fin 5000) (q : Fin 96) :
    k2_pay1 (F := Ideal) v0 v3 v6 v10 v12 (ix2 p q)
      = relu (ln c96 (aff (fun j : Fin 288 => v0 (ix2 p j)) (fun j k => v3 (ix2 j k))
            (fun k : Fin 96 => v6 (ix2 (0 : Fin 1) k)))
          (fun k => v10 (ix2 (0 : Fin 1) k)) (fun k => v12 (ix2 (0 : Fin 1) k)) q) := by
  have e0 : shapeCast S5000x288 v0 shapeCasts_S5000x288_S5000x288 = v0 := shapeCast_self _ _
  have e10 : shapeCast S1x96 v10 shapeCasts_S1x96_S1x96 = v10 := shapeCast_self _ _
  have e12 : shapeCast S1x96 v12 shapeCasts_S1x96_S1x96 = v12 := shapeCast_self _ _
  refine (congrFun (k2_pay1_eq v0 v3 v6 v10 v12) (ix2 p q)).trans ?_
  refine (congrArg (fun t => max t zero32) (lnBlock_at _ _ _ _ _ _ _ _ _ _ p q)).trans ?_
  rw [e0, e10, e12]
  refine congrArg (fun y => relu (ln c96 y (fun k => v10 (ix2 (0 : Fin 1) k)) (fun k => v12 (ix2 (0 : Fin 1) k)) q)) ?_
  exact funext fun k => affBlock_at _ rfl _ _ _ v0 v3 v6 p k

/-- The last stage's stored block is the normalised affine block, over rows of length 32. -/
theorem k3_pay1_eq (v0 : Vec Ideal S5000x288 .f32) (v3 : Vec Ideal S288x32 .f32) (v6 v10 v12 : Vec Ideal S1x32 .f32) :
    k3_pay1 (F := Ideal) v0 v3 v6 v10 v12
      = lnBlock 0x42000000#32 reduces_S5000x32_S5000 (.inl rfl) rfl shapeCasts_S5000_S5000x1
          broadcasts_S5000x1_S5000x32 broadcasts_S1x32_S5000x32
          (affBlock dot_S5000x288_S288x32_S5000x32_1_0_0_1_n_n bitsLt_bf16_f32 shapeCasts_S1x32_S1x32
            broadcasts_S1x32_S5000x32 (shapeCast S5000x288 v0 shapeCasts_S5000x288_S5000x288) v3 v6)
          (shapeCast S1x32 v10 shapeCasts_S1x32_S1x32) (shapeCast S1x32 v12 shapeCasts_S1x32_S1x32) := rfl

/-- The last stage's stored block at `(p, q)`: the layer normalisation, over a row of length 32, of the affine image of row `p`. -/
theorem k3_pay1_at (v0 : Vec Ideal S5000x288 .f32) (v3 : Vec Ideal S288x32 .f32) (v6 v10 v12 : Vec Ideal S1x32 .f32)
    (p : Fin 5000) (q : Fin 32) :
    k3_pay1 (F := Ideal) v0 v3 v6 v10 v12 (ix2 p q)
      = ln c32 (aff (fun j : Fin 288 => v0 (ix2 p j)) (fun j k => v3 (ix2 j k))
            (fun k : Fin 32 => v6 (ix2 (0 : Fin 1) k)))
          (fun k => v10 (ix2 (0 : Fin 1) k)) (fun k => v12 (ix2 (0 : Fin 1) k)) q := by
  have e0 : shapeCast S5000x288 v0 shapeCasts_S5000x288_S5000x288 = v0 := shapeCast_self _ _
  have e10 : shapeCast S1x32 v10 shapeCasts_S1x32_S1x32 = v10 := shapeCast_self _ _
  have e12 : shapeCast S1x32 v12 shapeCasts_S1x32_S1x32 = v12 := shapeCast_self _ _
  refine (congrFun (k3_pay1_eq v0 v3 v6 v10 v12) (ix2 p q)).trans ?_
  refine (lnBlock_at _ _ _ _ _ _ _ _ _ _ p q).trans ?_
  rw [e0, e10, e12]
  refine congrArg (fun y => ln c32 y (fun k => v10 (ix2 (0 : Fin 1) k)) (fun k => v12 (ix2 (0 : Fin 1) k)) q) ?_
  exact funext fun k => affBlock_at _ rfl _ _ _ v0 v3 v6 p k

/-- The first stage's pre-normalisation block: the affine block of the rectified affine block. -/
theorem k0_pay2_eq (v0 : Vec Ideal S5000x96 .f32) (v2 v12 : Vec Ideal S96x96 .f32) (v5 v15 : Vec Ideal S1x96 .f32) :
    k0_pay2 (F := Ideal) v0 v2 v5 v12 v15
      = affBlock dot_S5000x96_S96x96_S5000x96_1_0_0_1_n_n bitsLt_bf16_f32 shapeCasts_S1x96_S1x96
          broadcasts_S1x96_S5000x96
          (maximumf (affBlock dot_S5000x96_S96x96_S5000x96_1_0_0_1_n_n bitsLt_bf16_f32 shapeCasts_S1x96_S1x96
              broadcasts_S1x96_S5000x96 v0 v2 v5)
            (broadcast S5000x96 (Scalar.ofBits (F := Ideal) .f32 0x00000000#32))) v12 v15 := rfl

/-- The first stage's stored block is the normalised pre-normalisation block. -/
theorem k0_store_eq (v0 : Vec Ideal S5000x96 .f32) (v2 v12 : Vec Ideal S96x96 .f32)
    (v5 v15 v19 v21 : Vec Ideal S1x96 .f32) :
    k0_pay1 (F := Ideal) (k0_pay3 v19) (k0_pay4 v21) (k0_pay6 v0 v2 v5 v12 v15) (k0_pay7 v0 v2 v5 v12 v15) k0_pay8
      = lnBlock 0x42C00000#32 reduces_S5000x96_S5000 (.inl rfl) rfl shapeCasts_S5000_S5000x1
          broadcasts_S5000x1_S5000x96 broadcasts_S1x96_S5000x96 (k0_pay2 v0 v2 v5 v12 v15)
          (shapeCast S1x96 v19 shapeCasts_S1x96_S1x96) (shapeCast S1x96 v21 shapeCasts_S1x96_S1x96) := rfl

/-- The first stage's pre-normalisation block at `(p, k)`: the affine image of the rectified affine image of row `p`. -/
theorem k0_pay2_at (v0 : Vec Ideal S5000x96 .f32) (v2 v12 : Vec Ideal S96x96 .f32) (v5 v15 : Vec Ideal S1x96 .f32)
    (p : Fin 5000) (k : Fin 96) :
    k0_pay2 (F := Ideal) v0 v2 v5 v12 v15 (ix2 p k)
      = aff (fun j : Fin 96 => relu (aff (fun i : Fin 96 => v0 (ix2 p i)) (fun i j => v2 (ix2 i j))
            (fun j => v5 (ix2 (0 : Fin 1) j)) j))
          (fun j k => v12 (ix2 j k)) (fun k => v15 (ix2 (0 : Fin 1) k)) k := by
  refine (congrFun (k0_pay2_eq v0 v2 v12 v5 v15) (ix2 p k)).trans ?_
  refine (affBlock_at _ rfl _ _ _ _ v12 v15 p k).trans ?_
  refine congrArg (fun x => aff x (fun j k => v12 (ix2 j k)) (fun k => v15 (ix2 (0 : Fin 1) k)) k) ?_
  funext j
  exact congrArg (fun t => max t zero32) (affBlock_at _ rfl _ _ _ v0 v2 v5 p j)

/-- The first stage's stored block at `(p, q)`: the layer normalisation of the affine image of the rectified affine image of row `p`. -/
theorem k0_store_at (v0 : Vec Ideal S5000x96 .f32) (v2 v12 : Vec Ideal S96x96 .f32)
    (v5 v15 v19 v21 : Vec Ideal S1x96 .f32) (p : Fin 5000) (q : Fin 96) :
    k0_pay1 (F := Ideal) (k0_pay3 v19) (k0_pay4 v21) (k0_pay6 v0 v2 v5 v12 v15) (k0_pay7 v0 v2 v5 v12 v15) k0_pay8
        (ix2 p q)
      = ln c96 (aff (fun j : Fin 96 => relu (aff (fun i : Fin 96 => v0 (ix2 p i)) (fun i j => v2 (ix2 i j))
            (fun j => v5 (ix2 (0 : Fin 1) j)) j))
          (fun j k => v12 (ix2 j k)) (fun k => v15 (ix2 (0 : Fin 1) k)))
        (fun k => v19 (ix2 (0 : Fin 1) k)) (fun k => v21 (ix2 (0 : Fin 1) k)) q := by
  have e19 : shapeCast S1x96 v19 shapeCasts_S1x96_S1x96 = v19 := shapeCast_self _ _
  have e21 : shapeCast S1x96 v21 shapeCasts_S1x96_S1x96 = v21 := shapeCast_self _ _
  refine (congrFun (k0_store_eq v0 v2 v12 v5 v15 v19 v21) (ix2 p q)).trans ?_
  refine (lnBlock_at _ _ _ _ _ _ _ _ _ _ p q).trans ?_
  rw [e19, e21]
  refine congrArg (fun y => ln c96 y (fun k => v19 (ix2 (0 : Fin 1) k)) (fun k => v21 (ix2 (0 : Fin 1) k)) q) ?_
  exact funext fun k => k0_pay2_at v0 v2 v12 v5 v15 p k

end Cert.KernelRows

end
-- ==== Proof.KernelIdealVal0.lean ====
/-
  Region 0 of the idealized kernel as one function of whole arrays.

  Grid point `t` works on rows `5000 t … 5000 t + 4999` of the region's first operand and of its result; the other
  operands are read whole at every point. Each row of the result depends on the same row of the first operand only,
  so the blocks the ten grid points write back are the restrictions of ONE function of the operand arrays, row by
  row the dense stage of `RowSpec`; they cover the result array.
-/
import proofs.«105666_j32899449488058_1_alg».proof.Proof.KernelIdealReg0
import proofs.«105666_j32899449488058_1_alg».proof.Proof.KernelRows
import proofs.«105666_j32899449488058_1_alg».proof.Proof.RowSpec
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.RowSpec

variable (V : (c : Dev nD) → (b : Ref sig .tc) → Buf (Elt Ideal) ((c : Thread nD τ).loc b))

theorem hz0 : (![0, 0] : Fin 2 → Nat) = fun _ => 0 := funext fun a => by fin_cases a <;> rfl

/-- The region's result as one function of its operand arrays: entry `(r, q)` is the dense stage of row `r` at column `q`. -/
def G0 (a0 : S50000x96.Idx → Elt Ideal .f32) (a1 : S96x96.Idx → Elt Ideal .f32) (a2 : S1x96.Idx → Elt Ideal .f32) (a3 : S96x96.Idx → Elt Ideal .f32) (a4 : S1x96.Idx → Elt Ideal .f32) (a5 : S1x96.Idx → Elt Ideal .f32) (a6 : S1x96.Idx → Elt Ideal .f32) : S50000x96.Idx → Elt Ideal .f32 :=
  fun i => ln c96 (aff (fun w : Fin 96 => relu (aff (fun u : Fin 96 => a0 (ix2 (i 0) u)) (fun u w => a1 (ix2 u w)) (fun w => a2 (ix2 (0 : Fin 1) w)) w)) (fun w k => a3 (ix2 w k)) (fun k => a4 (ix2 (0 : Fin 1) k))) (fun k => a5 (ix2 (0 : Fin 1) k)) (fun k => a6 (ix2 (0 : Fin 1) k)) (i 1)

/-- The printed index maps, decided over the grid: the first operand's block moves with the result's along the rows, the
    other operands' blocks stay put, and the result's ten blocks are consecutive. -/
theorem idx_facts0 : ∀ t : Fin cfg0.N, win0_0.index t (0 : Fin 2) = win0_7.index t (0 : Fin 2)
    ∧ win0_0.index t (1 : Fin 2) = 0
    ∧ win0_7.index t (1 : Fin 2) = 0
    ∧ win0_7.index t (0 : Fin 2) ≤ 9
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-- Every block of rows is some grid point's. -/
theorem idx_onto0 : ∀ q0 : Fin 10, ∃ t : Fin cfg0.N, win0_7.index t = ![q0.val, 0] :=
  (by decide +kernel : ∀ q0 : Fin 10, ∃ t : Fin grid0.N, win0_7.index t = ![q0.val, 0])

set_option maxHeartbeats 1000000 in
/-- What grid point `t` writes back is block `t` of `G0` of the operand arrays as the region finds them: the block's
    row `p` is row `5000 t + p` of the first operand, and every other operand's block is the operand itself. -/
theorem flushed0_eq (c : Dev nD) (t : Fin cfg0.N) :
    (dat0 V c).flushed 7 t = ((cfg0.win 7).blk t).view.read (Elt Ideal) (G0 (V c main_arg0) (V c main_arg5) (V c main_v9) (V c main_arg7) (V c main_v10) (V c main_v11) (V c main_v12)) := by
  show (cfg0.win 7).cut (grid0.coords t) ((dat0 V c).after 7 t) = _
  rw [after0_7]
  unfold out0_7
  rw [View.canon_unit_zero hz0]
  simp only [View.ld_unit_zero (S := S5000x96) hz0, View.ld_unit_zero (S := S96x96) hz0, View.ld_unit_zero (S := S1x96) hz0]
  obtain ⟨e0, e1, e2, e3, e4, e5, e6, e7, e8, e9, e10, e11, e12, e13, e14, e15⟩ := idx_facts0 t
  funext j
  show k0_pay1 (F := Ideal) (k0_pay3 (iblk0 V c 5 t)) (k0_pay4 (iblk0 V c 6 t)) (k0_pay6 (iblk0 V c 0 t) (iblk0 V c 1 t) (iblk0 V c 2 t) (iblk0 V c 3 t) (iblk0 V c 4 t)) (k0_pay7 (iblk0 V c 0 t) (iblk0 V c 1 t) (iblk0 V c 2 t) (iblk0 V c 3 t) (iblk0 V c 4 t)) k0_pay8 j = G0 (V c main_arg0) (V c main_arg5) (V c main_v9) (V c main_arg7) (V c main_v10) (V c main_v11) (V c main_v12) (((cfg0.win 7).blk t).view.emb j)
  obtain ⟨p, q, rfl⟩ : ∃ (p : Fin 5000) (q : Fin 96), j = ix2 p q := ⟨j 0, j 1, eq_ix2 j⟩
  refine (Cert.KernelRows.k0_store_at (iblk0 V c 0 t) (iblk0 V c 1 t) (iblk0 V c 3 t) (iblk0 V c 2 t) (iblk0 V c 4 t) (iblk0 V c 5 t) (iblk0 V c 6 t) p q).trans ?_
  unfold G0
  have f0 : (fun j : Fin 96 => iblk0 V c 0 t (ix2 p j)) = fun j => (V c main_arg0 : S50000x96.Idx → Elt Ideal .f32) (ix2 (((cfg0.win 7).blk t).view.emb (ix2 p q) 0) j) := by
    funext j
    show (V c main_arg0 : S50000x96.Idx → Elt Ideal .f32) (((cfg0.win 0).blk t).view.emb (ix2 p j)) = _
    refine congrArg (V c main_arg0 : S50000x96.Idx → Elt Ideal .f32) (funext fun a => Fin.ext ?_)
    match a with
    | ⟨0, _⟩ => show win0_0.index t (0 : Fin 2) * 5000 + 1 * p.val = win0_7.index t (0 : Fin 2) * 5000 + 1 * p.val; omega
    | ⟨1, _⟩ => show win0_0.index t (1 : Fin 2) * 96 + 1 * j.val = j.val; omega
  have f1 : (fun (j : Fin 96) (k : Fin 96) => iblk0 V c 1 t (ix2 j k)) = fun j k => (V c main_arg5 : S96x96.Idx → Elt Ideal .f32) (ix2 j k) := by
    funext j k
    show (V c main_arg5 : S96x96.Idx → Elt Ideal .f32) (((cfg0.win 1).blk t).view.emb (ix2 j k)) = _
    refine congrArg (V c main_arg5 : S96x96.Idx → Elt Ideal .f32) (funext fun a => Fin.ext ?_)
    match a with
    | ⟨0, _⟩ => show win0_1.index t (0 : Fin 2) * 96 + 1 * j.val = j.val; omega
    | ⟨1, _⟩ => show win0_1.index t (1 : Fin 2) * 96 + 1 * k.val = k.val; omega
  have f2 : (fun k : Fin 96 => iblk0 V c 2 t (ix2 (0 : Fin 1) k)) = fun k => (V c main_v9 : S1x96.Idx → Elt Ideal .f32) (ix2 (0 : Fin 1) k) := by
    funext k
    show (V c main_v9 : S1x96.Idx → Elt Ideal .f32) (((cfg0.win 2).blk t).view.emb (ix2 (0 : Fin 1) k)) = _
    refine congrArg (V c main_v9 : S1x96.Idx → Elt Ideal .f32) (funext fun a => Fin.ext ?_)
    match a with
    | ⟨0, _⟩ => show win0_2.index t (0 : Fin 2) * 1 + 1 * 0 = 0; omega
    | ⟨1, _⟩ => show win0_2.index t (1 : Fin 2) * 96 + 1 * k.val = k.val; omega
  have f3 : (fun (j : Fin 96) (k : Fin 96) => iblk0 V c 3 t (ix2 j k)) = fun j k => (V c main_arg7 : S96x96.Idx → Elt Ideal .f32) (ix2 j k) := by
    funext j k
    show (V c main_arg7 : S96x96.Idx → Elt Ideal .f32) (((cfg0.win 3).blk t).view.emb (ix2 j k)) = _
    refine congrArg (V c main_arg7 : S96x96.Idx → Elt Ideal .f32) (funext fun a => Fin.ext ?_)
    match a with
    | ⟨0, _⟩ => show win0_3.index t (0 : Fin 2) * 96 + 1 * j.val = j.val; omega
    | ⟨1, _⟩ => show win0_3.index t (1 : Fin 2) * 96 + 1 * k.val = k.val; omega
  have f4 : (fun k : Fin 96 => iblk0 V c 4 t (ix2 (0 : Fin 1) k)) = fun k => (V c main_v10 : S1x96.Idx → Elt Ideal .f32) (ix2 (0 : Fin 1) k) := by
    funext k
    show (V c main_v10 : S1x96.Idx → Elt Ideal .f32) (((cfg0.win 4).blk t).view.emb (ix2 (0 : Fin 1) k)) = _
    refine congrArg (V c main_v10 : S1x96.Idx → Elt Ideal .f32) (funext fun a => Fin.ext ?_)
    match a with
    | ⟨0, _⟩ => show win0_4.index t (0 : Fin 2) * 1 + 1 * 0 = 0; omega
    | ⟨1, _⟩ => show win0_4.index t (1 : Fin 2) * 96 + 1 * k.val = k.val; omega
  have f5 : (fun k : Fin 96 => iblk0 V c 5 t (ix2 (0 : Fin 1) k)) = fun k => (V c main_v11 : S1x96.Idx → Elt Ideal .f32) (ix2 (0 : Fin 1) k) := by
    funext k
    show (V c main_v11 : S1x96.Idx → Elt Ideal .f32) (((cfg0.win 5).blk t).view.emb (ix2 (0 : Fin 1) k)) = _
    refine congrArg (V c main_v11 : S1x96.Idx → Elt Ideal .f32) (funext fun a => Fin.ext ?_)
    match a with
    | ⟨0, _⟩ => show win0_5.index t (0 : Fin 2) * 1 + 1 * 0 = 0; omega
    | ⟨1, _⟩ => show win0_5.index t (1 : Fin 2) * 96 + 1 * k.val = k.val; omega
  have f6 : (fun k : Fin 96 => iblk0 V c 6 t (ix2 (0 : Fin 1) k)) = fun k => (V c main_v12 : S1x96.Idx → Elt Ideal .f32) (ix2 (0 : Fin 1) k) := by
    funext k
    show (V c main_v12 : S1x96.Idx → Elt Ideal .f32) (((cfg0.win 6).blk t).view.emb (ix2 (0 : Fin 1) k)) = _
    refine congrArg (V c main_v12 : S1x96.Idx → Elt Ideal .f32) (funext fun a => Fin.ext ?_)
    match a with
    | ⟨0, _⟩ => show win0_6.index t (0 : Fin 2) * 1 + 1 * 0 = 0; omega
    | ⟨1, _⟩ => show win0_6.index t (1 : Fin 2) * 96 + 1 * k.val = k.val; omega
  have hq : ((cfg0.win 7).blk t).view.emb (ix2 p q) 1 = q :=
    Fin.ext (by show win0_7.index t (1 : Fin 2) * 96 + 1 * q.val = q.val; omega)
  rw [f0, f1, f2, f3, f4, f5, f6, hq]

/-- The result array after the region: `G0` of the operand arrays as the region finds them, since the ten blocks of rows
    cover it. -/
theorem final0 (c : Dev nD) : (dat0 V c).arrAt 7 cfg0.N = G0 (V c main_arg0) (V c main_arg5) (V c main_v9) (V c main_arg7) (V c main_v10) (V c main_v11) (V c main_v12) :=
  (dat0 V c).arrAt_eq_of_cover 7 (G0 (V c main_arg0) (V c main_arg5) (V c main_v9) (V c main_arg7) (V c main_v10) (V c main_v11) (V c main_v12)) (fun t _ => flushed0_eq V c t) fun i => by
    have hi0 : (i 0).val < 50000 := (i 0).isLt
    have hi1 : (i 1).val < 96 := (i 1).isLt
    obtain ⟨t, ht⟩ := idx_onto0 ⟨(i 0).val / 5000, by omega⟩
    have q0 : win0_7.index t (0 : Fin 2) = (i 0).val / 5000 := congrFun ht 0
    have q1 : win0_7.index t (1 : Fin 2) = 0 := congrFun ht 1
    refine ⟨t, flush0_7 t, ?_⟩
    show i ∈ ((View.whole main_v13).slice (win0_7.rect t)).set
    rw [View.set_slice_whole, Rect.mem_set_unit]
    intro a
    match a with
    | ⟨0, _⟩ => show win0_7.index t (0 : Fin 2) * 5000 ≤ (i 0).val ∧ (i 0).val < win0_7.index t (0 : Fin 2) * 5000 + 5000; omega
    | ⟨1, _⟩ => show win0_7.index t (1 : Fin 2) * 96 ≤ (i 1).val ∧ (i 1).val < win0_7.index t (1 : Fin 2) * 96 + 96; omega

end Cert.KernelIdeal.Gen

end
-- ==== Proof.KernelIdealVal1.lean ====
/-
  Region 1 of the idealized kernel as one function of whole arrays.

  Grid point `t` works on rows `5000 t … 5000 t + 4999` of the region's first operand and of its result; the other
  operands are read whole at every point. Each row of the result depends on the same row of the first operand only,
  so the blocks the ten grid points write back are the restrictions of ONE function of the operand arrays, row by
  row the dense stage of `RowSpec`; they cover the result array.
-/
import proofs.«105666_j32899449488058_1_alg».proof.Proof.KernelIdealReg1
import proofs.«105666_j32899449488058_1_alg».proof.Proof.KernelRows
import proofs.«105666_j32899449488058_1_alg».proof.Proof.RowSpec
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.RowSpec

variable (V : (c : Dev nD) → (b : Ref sig .tc) → Buf (Elt Ideal) ((c : Thread nD τ).loc b))

theorem hz1 : (![0, 0] : Fin 2 → Nat) = fun _ => 0 := funext fun a => by fin_cases a <;> rfl

/-- The region's result as one function of its operand arrays: entry `(r, q)` is the dense stage of row `r` at column `q`. -/
def G1 (a0 : S50000x288.Idx → Elt Ideal .f32) (a1 : S288x96.Idx → Elt Ideal .f32) (a2 : S1x96.Idx → Elt Ideal .f32) (a3 : S1x96.Idx → Elt Ideal .f32) (a4 : S1x96.Idx → Elt Ideal .f32) : S50000x96.Idx → Elt Ideal .f32 :=
  fun i => relu (ln c96 (aff (fun w : Fin 288 => a0 (ix2 (i 0) w)) (fun w k => a1 (ix2 w k)) (fun k : Fin 96 => a2 (ix2 (0 : Fin 1) k))) (fun k => a3 (ix2 (0 : Fin 1) k)) (fun k => a4 (ix2 (0 : Fin 1) k)) (i 1))

/-- The printed index maps, decided over the grid: the first operand's block moves with the result's along the rows, the
    other operands' blocks stay put, and the result's ten blocks are consecutive. -/
theorem idx_facts1 : ∀ t : Fin cfg1.N, win1_0.index t (0 : Fin 2) = win1_5.index t (0 : Fin 2)
    ∧ win1_0.index t (1 : Fin 2) = 0
    ∧ win1_5.index t (1 : Fin 2) = 0
    ∧ win1_5.index t (0 : Fin 2) ≤ 9
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

/-- Every block of rows is some grid point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

set_option maxHeartbeats 1000000 in
/-- What grid point `t` writes back is block `t` of `G1` of the operand arrays as the region finds them: the block's
    row `p` is row `5000 t + p` of the first operand, and every other operand's block is the operand itself. -/
theorem flushed1_eq (c : Dev nD) (t : Fin cfg1.N) :
    (dat1 V c).flushed 5 t = ((cfg1.win 5).blk t).view.read (Elt Ideal) (G1 (V c main_v48) (V c main_arg11) (V c main_v49) (V c main_v50) (V c main_v51)) := by
  show (cfg1.win 5).cut (grid1.coords t) ((dat1 V c).after 5 t) = _
  rw [after1_5]
  unfold out1_5
  rw [View.canon_unit_zero hz1]
  simp only [View.ld_unit_zero (S := S5000x288) hz1, View.ld_unit_zero (S := S288x96) hz1, View.ld_unit_zero (S := S1x96) hz1]
  obtain ⟨e0, e1, e2, e3, e4, e5, e6, e7, e8, e9, e10, e11⟩ := idx_facts1 t
  funext j
  show k1_pay1 (F := Ideal) (iblk1 V c 0 t) (iblk1 V c 1 t) (iblk1 V c 2 t) (iblk1 V c 3 t) (iblk1 V c 4 t) j = G1 (V c main_v48) (V c main_arg11) (V c main_v49) (V c main_v50) (V c main_v51) (((cfg1.win 5).blk t).view.emb j)
  obtain ⟨p, q, rfl⟩ : ∃ (p : Fin 5000) (q : Fin 96), j = ix2 p q := ⟨j 0, j 1, eq_ix2 j⟩
  refine (Cert.KernelRows.k1_pay1_at (iblk1 V c 0 t) (iblk1 V c 1 t) (iblk1 V c 2 t) (iblk1 V c 3 t) (iblk1 V c 4 t) p q).trans ?_
  unfold G1
  have f0 : (fun j : Fin 288 => iblk1 V c 0 t (ix2 p j)) = fun j => (V c main_v48 : S50000x288.Idx → Elt Ideal .f32) (ix2 (((cfg1.win 5).blk t).view.emb (ix2 p q) 0) j) := by
    funext j
    show (V c main_v48 : S50000x288.Idx → Elt Ideal .f32) (((cfg1.win 0).blk t).view.emb (ix2 p j)) = _
    refine congrArg (V c main_v48 : S50000x288.Idx → Elt Ideal .f32) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 288 + 1 * j.val = j.val; omega
  have f1 : (fun (j : Fin 288) (k : Fin 96) => iblk1 V c 1 t (ix2 j k)) = fun j k => (V c main_arg11 : S288x96.Idx → Elt Ideal .f32) (ix2 j k) := by
    funext j k
    show (V c main_arg11 : S288x96.Idx → Elt Ideal .f32) (((cfg1.win 1).blk t).view.emb (ix2 j k)) = _
    refine congrArg (V c main_arg11 : S288x96.Idx → Elt Ideal .f32) (funext fun a => Fin.ext ?_)
    match a with
    | ⟨0, _⟩ => show win1_1.index t (0 : Fin 2) * 288 + 1 * j.val = j.val; omega
    | ⟨1, _⟩ => show win1_1.index t (1 : Fin 2) * 96 + 1 * k.val = k.val; omega
  have f2 : (fun k : Fin 96 => iblk1 V c 2 t (ix2 (0 : Fin 1) k)) = fun k => (V c main_v49 : S1x96.Idx → Elt Ideal .f32) (ix2 (0 : Fin 1) k) := by
    funext k
    show (V c main_v49 : S1x96.Idx → Elt Ideal .f32) (((cfg1.win 2).blk t).view.emb (ix2 (0 : Fin 1) k)) = _
    refine congrArg (V c main_v49 : S1x96.Idx → Elt Ideal .f32) (funext fun a => Fin.ext ?_)
    match a with
    | ⟨0, _⟩ => show win1_2.index t (0 : Fin 2) * 1 + 1 * 0 = 0; omega
    | ⟨1, _⟩ => show win1_2.index t (1 : Fin 2) * 96 + 1 * k.val = k.val; omega
  have f3 : (fun k : Fin 96 => iblk1 V c 3 t (ix2 (0 : Fin 1) k)) = fun k => (V c main_v50 : S1x96.Idx → Elt Ideal .f32) (ix2 (0 : Fin 1) k) := by
    funext k
    show (V c main_v50 : S1x96.Idx → Elt Ideal .f32) (((cfg1.win 3).blk t).view.emb (ix2 (0 : Fin 1) k)) = _
    refine congrArg (V c main_v50 : S1x96.Idx → Elt Ideal .f32) (funext fun a => Fin.ext ?_)
    match a with
    | ⟨0, _⟩ => show win1_3.index t (0 : Fin 2) * 1 + 1 * 0 = 0; omega
    | ⟨1, _⟩ => show win1_3.index t (1 : Fin 2) * 96 + 1 * k.val = k.val; omega
  have f4 : (fun k : Fin 96 => iblk1 V c 4 t (ix2 (0 : Fin 1) k)) = fun k => (V c main_v51 : S1x96.Idx → Elt Ideal .f32) (ix2 (0 : Fin 1) k) := by
    funext k
    show (V c main_v51 : S1x96.Idx → Elt Ideal .f32) (((cfg1.win 4).blk t).view.emb (ix2 (0 : Fin 1) k)) = _
    refine congrArg (V c main_v51 : S1x96.Idx → Elt Ideal .f32) (funext fun a => Fin.ext ?_)
    match a with
    | ⟨0, _⟩ => show win1_4.index t (0 : Fin 2) * 1 + 1 * 0 = 0; omega
    | ⟨1, _⟩ => show win1_4.index t (1 : Fin 2) * 96 + 1 * k.val = k.val; omega
  have hq : ((cfg1.win 5).blk t).view.emb (ix2 p q) 1 = q :=
    Fin.ext (by show win1_5.index t (1 : Fin 2) * 96 + 1 * q.val = q.val; omega)
  rw [f0, f1, f2, f3, f4, hq]

/-- The result array after the region: `G1` of the operand arrays as the region finds them, since the ten blocks of rows
    cover it. -/
theorem final1 (c : Dev nD) : (dat1 V c).arrAt 5 cfg1.N = G1 (V c main_v48) (V c main_arg11) (V c main_v49) (V c main_v50) (V c main_v51) :=
  (dat1 V c).arrAt_eq_of_cover 5 (G1 (V c main_v48) (V c main_arg11) (V c main_v49) (V c main_v50) (V c main_v51)) (fun t _ => flushed1_eq V c t) fun i => by
    have hi0 : (i 0).val < 50000 := (i 0).isLt
    have hi1 : (i 1).val < 96 := (i 1).isLt
    obtain ⟨t, ht⟩ := idx_onto1 ⟨(i 0).val / 5000, by omega⟩
    have q0 : win1_5.index t (0 : Fin 2) = (i 0).val / 5000 := congrFun ht 0
    have q1 : win1_5.index t (1 : Fin 2) = 0 := congrFun ht 1
    refine ⟨t, flush1_5 t, ?_⟩
    show i ∈ ((View.whole main_v52).slice (win1_5.rect t)).set
    rw [View.set_slice_whole, Rect.mem_set_unit]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 96 ≤ (i 1).val ∧ (i 1).val < win1_5.index t (1 : Fin 2) * 96 + 96; omega

end Cert.KernelIdeal.Gen

end
-- ==== Proof.KernelIdealVal2.lean ====
/-
  Region 2 of the idealized kernel as one function of whole arrays.

  Grid point `t` works on rows `5000 t … 5000 t + 4999` of the region's first operand and of its result; the other
  operands are read whole at every point. Each row of the result depends on the same row of the first operand only,
  so the blocks the ten grid points write back are the restrictions of ONE function of the operand arrays, row by
  row the dense stage of `RowSpec`; they cover the result array.
-/
import proofs.«105666_j32899449488058_1_alg».proof.Proof.KernelIdealReg2
import proofs.«105666_j32899449488058_1_alg».proof.Proof.KernelRows
import proofs.«105666_j32899449488058_1_alg».proof.Proof.RowSpec
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.RowSpec

variable (V : (c : Dev nD) → (b : Ref sig .tc) → Buf (Elt Ideal) ((c : Thread nD τ).loc b))

theorem hz2 : (![0, 0] : Fin 2 → Nat) = fun _ => 0 := funext fun a => by fin_cases a <;> rfl

/-- The region's result as one function of its operand arrays: entry `(r, q)` is the dense stage of row `r` at column `q`. -/
def G2 (a0 : S50000x288.Idx → Elt Ideal .f32) (a1 : S288x96.Idx → Elt Ideal .f32) (a2 : S1x96.Idx → Elt Ideal .f32) (a3 : S1x96.Idx → Elt Ideal .f32) (a4 : S1x96.Idx → Elt Ideal .f32) : S50000x96.Idx → Elt Ideal .f32 :=
  fun i => relu (ln c96 (aff (fun w : Fin 288 => a0 (ix2 (i 0) w)) (fun w k => a1 (ix2 w k)) (fun k : Fin 96 => a2 (ix2 (0 : Fin 1) k))) (fun k => a3 (ix2 (0 : Fin 1) k)) (fun k => a4 (ix2 (0 : Fin 1) k)) (i 1))

/-- The printed index maps, decided over the grid: the first operand's block moves with the result's along the rows, the
    other operands' blocks stay put, and the result's ten blocks are consecutive. -/
theorem idx_facts2 : ∀ t : Fin cfg2.N, win2_0.index t (0 : Fin 2) = win2_5.index t (0 : Fin 2)
    ∧ win2_0.index t (1 : Fin 2) = 0
    ∧ win2_5.index t (1 : Fin 2) = 0
    ∧ win2_5.index t (0 : Fin 2) ≤ 9
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0 :=
  (by decide +kernel : ∀ t : Fin grid2.N, _)

/-- Every block of rows is some grid point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

set_option maxHeartbeats 1000000 in
/-- What grid point `t` writes back is block `t` of `G2` of the operand arrays as the region finds them: the block's
    row `p` is row `5000 t + p` of the first operand, and every other operand's block is the operand itself. -/
theorem flushed2_eq (c : Dev nD) (t : Fin cfg2.N) :
    (dat2 V c).flushed 5 t = ((cfg2.win 5).blk t).view.read (Elt Ideal) (G2 (V c main_v87) (V c main_arg15) (V c main_v88) (V c main_v89) (V c main_v90)) := by
  show (cfg2.win 5).cut (grid2.coords t) ((dat2 V c).after 5 t) = _
  rw [after2_5]
  unfold out2_5
  rw [View.canon_unit_zero hz2]
  simp only [View.ld_unit_zero (S := S5000x288) hz2, View.ld_unit_zero (S := S288x96) hz2, View.ld_unit_zero (S := S1x96) hz2]
  obtain ⟨e0, e1, e2, e3, e4, e5, e6, e7, e8, e9, e10, e11⟩ := idx_facts2 t
  funext j
  show k2_pay1 (F := Ideal) (iblk2 V c 0 t) (iblk2 V c 1 t) (iblk2 V c 2 t) (iblk2 V c 3 t) (iblk2 V c 4 t) j = G2 (V c main_v87) (V c main_arg15) (V c main_v88) (V c main_v89) (V c main_v90) (((cfg2.win 5).blk t).view.emb j)
  obtain ⟨p, q, rfl⟩ : ∃ (p : Fin 5000) (q : Fin 96), j = ix2 p q := ⟨j 0, j 1, eq_ix2 j⟩
  refine (Cert.KernelRows.k2_pay1_at (iblk2 V c 0 t) (iblk2 V c 1 t) (iblk2 V c 2 t) (iblk2 V c 3 t) (iblk2 V c 4 t) p q).trans ?_
  unfold G2
  have f0 : (fun j : Fin 288 => iblk2 V c 0 t (ix2 p j)) = fun j => (V c main_v87 : S50000x288.Idx → Elt Ideal .f32) (ix2 (((cfg2.win 5).blk t).view.emb (ix2 p q) 0) j) := by
    funext j
    show (V c main_v87 : S50000x288.Idx → Elt Ideal .f32) (((cfg2.win 0).blk t).view.emb (ix2 p j)) = _
    refine congrArg (V c main_v87 : S50000x288.Idx → Elt Ideal .f32) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 288 + 1 * j.val = j.val; omega
  have f1 : (fun (j : Fin 288) (k : Fin 96) => iblk2 V c 1 t (ix2 j k)) = fun j k => (V c main_arg15 : S288x96.Idx → Elt Ideal .f32) (ix2 j k) := by
    funext j k
    show (V c main_arg15 : S288x96.Idx → Elt Ideal .f32) (((cfg2.win 1).blk t).view.emb (ix2 j k)) = _
    refine congrArg (V c main_arg15 : S288x96.Idx → Elt Ideal .f32) (funext fun a => Fin.ext ?_)
    match a with
    | ⟨0, _⟩ => show win2_1.index t (0 : Fin 2) * 288 + 1 * j.val = j.val; omega
    | ⟨1, _⟩ => show win2_1.index t (1 : Fin 2) * 96 + 1 * k.val = k.val; omega
  have f2 : (fun k : Fin 96 => iblk2 V c 2 t (ix2 (0 : Fin 1) k)) = fun k => (V c main_v88 : S1x96.Idx → Elt Ideal .f32) (ix2 (0 : Fin 1) k) := by
    funext k
    show (V c main_v88 : S1x96.Idx → Elt Ideal .f32) (((cfg2.win 2).blk t).view.emb (ix2 (0 : Fin 1) k)) = _
    refine congrArg (V c main_v88 : S1x96.Idx → Elt Ideal .f32) (funext fun a => Fin.ext ?_)
    match a with
    | ⟨0, _⟩ => show win2_2.index t (0 : Fin 2) * 1 + 1 * 0 = 0; omega
    | ⟨1, _⟩ => show win2_2.index t (1 : Fin 2) * 96 + 1 * k.val = k.val; omega
  have f3 : (fun k : Fin 96 => iblk2 V c 3 t (ix2 (0 : Fin 1) k)) = fun k => (V c main_v89 : S1x96.Idx → Elt Ideal .f32) (ix2 (0 : Fin 1) k) := by
    funext k
    show (V c main_v89 : S1x96.Idx → Elt Ideal .f32) (((cfg2.win 3).blk t).view.emb (ix2 (0 : Fin 1) k)) = _
    refine congrArg (V c main_v89 : S1x96.Idx → Elt Ideal .f32) (funext fun a => Fin.ext ?_)
    match a with
    | ⟨0, _⟩ => show win2_3.index t (0 : Fin 2) * 1 + 1 * 0 = 0; omega
    | ⟨1, _⟩ => show win2_3.index t (1 : Fin 2) * 96 + 1 * k.val = k.val; omega
  have f4 : (fun k : Fin 96 => iblk2 V c 4 t (ix2 (0 : Fin 1) k)) = fun k => (V c main_v90 : S1x96.Idx → Elt Ideal .f32) (ix2 (0 : Fin 1) k) := by
    funext k
    show (V c main_v90 : S1x96.Idx → Elt Ideal .f32) (((cfg2.win 4).blk t).view.emb (ix2 (0 : Fin 1) k)) = _
    refine congrArg (V c main_v90 : S1x96.Idx → Elt Ideal .f32) (funext fun a => Fin.ext ?_)
    match a with
    | ⟨0, _⟩ => show win2_4.index t (0 : Fin 2) * 1 + 1 * 0 = 0; omega
    | ⟨1, _⟩ => show win2_4.index t (1 : Fin 2) * 96 + 1 * k.val = k.val; omega
  have hq : ((cfg2.win 5).blk t).view.emb (ix2 p q) 1 = q :=
    Fin.ext (by show win2_5.index t (1 : Fin 2) * 96 + 1 * q.val = q.val; omega)
  rw [f0, f1, f2, f3, f4, hq]

/-- The result array after the region: `G2` of the operand arrays as the region finds them, since the ten blocks of rows
    cover it. -/
theorem final2 (c : Dev nD) : (dat2 V c).arrAt 5 cfg2.N = G2 (V c main_v87) (V c main_arg15) (V c main_v88) (V c main_v89) (V c main_v90) :=
  (dat2 V c).arrAt_eq_of_cover 5 (G2 (V c main_v87) (V c main_arg15) (V c main_v88) (V c main_v89) (V c main_v90)) (fun t _ => flushed2_eq V c t) fun i => by
    have hi0 : (i 0).val < 50000 := (i 0).isLt
    have hi1 : (i 1).val < 96 := (i 1).isLt
    obtain ⟨t, ht⟩ := idx_onto2 ⟨(i 0).val / 5000, by omega⟩
    have q0 : win2_5.index t (0 : Fin 2) = (i 0).val / 5000 := congrFun ht 0
    have q1 : win2_5.index t (1 : Fin 2) = 0 := congrFun ht 1
    refine ⟨t, flush2_5 t, ?_⟩
    show i ∈ ((View.whole main_v91).slice (win2_5.rect t)).set
    rw [View.set_slice_whole, Rect.mem_set_unit]
    intro a
    match a with
    | ⟨0, _⟩ => show win2_5.index t (0 : Fin 2) * 5000 ≤ (i 0).val ∧ (i 0).val < win2_5.index t (0 : Fin 2) * 5000 + 5000; omega
    | ⟨1, _⟩ => show win2_5.index t (1 : Fin 2) * 96 ≤ (i 1).val ∧ (i 1).val < win2_5.index t (1 : Fin 2) * 96 + 96; omega

end Cert.KernelIdeal.Gen

end
-- ==== Proof.KernelIdealVal3.lean ====
/-
  Region 3 of the idealized kernel as one function of whole arrays.

  Grid point `t` works on rows `5000 t … 5000 t + 4999` of the region's first operand and of its result; the other
  operands are read whole at every point. Each row of the result depends on the same row of the first operand only,
  so the blocks the ten grid points write back are the restrictions of ONE function of the operand arrays, row by
  row the dense stage of `RowSpec`; they cover the result array.
-/
import proofs.«105666_j32899449488058_1_alg».proof.Proof.KernelIdealReg3
import proofs.«105666_j32899449488058_1_alg».proof.Proof.KernelRows
import proofs.«105666_j32899449488058_1_alg».proof.Proof.RowSpec
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.RowSpec

variable (V : (c : Dev nD) → (b : Ref sig .tc) → Buf (Elt Ideal) ((c : Thread nD τ).loc b))

theorem hz3 : (![0, 0] : Fin 2 → Nat) = fun _ => 0 := funext fun a => by fin_cases a <;> rfl

/-- The region's result as one function of its operand arrays: entry `(r, q)` is the dense stage of row `r` at column `q`. -/
def G3 (a0 : S50000x288.Idx → Elt Ideal .f32) (a1 : S288x32.Idx → Elt Ideal .f32) (a2 : S1x32.Idx → Elt Ideal .f32) (a3 : S1x32.Idx → Elt Ideal .f32) (a4 : S1x32.Idx → Elt Ideal .f32) : S50000x32.Idx → Elt Ideal .f32 :=
  fun i => ln c32 (aff (fun w : Fin 288 => a0 (ix2 (i 0) w)) (fun w k => a1 (ix2 w k)) (fun k : Fin 32 => a2 (ix2 (0 : Fin 1) k))) (fun k => a3 (ix2 (0 : Fin 1) k)) (fun k => a4 (ix2 (0 : Fin 1) k)) (i 1)

/-- The printed index maps, decided over the grid: the first operand's block moves with the result's along the rows, the
    other operands' blocks stay put, and the result's ten blocks are consecutive. -/
theorem idx_facts3 : ∀ t : Fin cfg3.N, win3_0.index t (0 : Fin 2) = win3_5.index t (0 : Fin 2)
    ∧ win3_0.index t (1 : Fin 2) = 0
    ∧ win3_5.index t (1 : Fin 2) = 0
    ∧ win3_5.index t (0 : Fin 2) ≤ 9
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0 :=
  (by decide +kernel : ∀ t : Fin grid3.N, _)

/-- Every block of rows is some grid point's. -/
theorem idx_onto3 : ∀ q0 : Fin 10, ∃ t : Fin cfg3.N, win3_5.index t = ![q0.val, 0] :=
  (by decide +kernel : ∀ q0 : Fin 10, ∃ t : Fin grid3.N, win3_5.index t = ![q0.val, 0])

set_option maxHeartbeats 1000000 in
/-- What grid point `t` writes back is block `t` of `G3` of the operand arrays as the region finds them: the block's
    row `p` is row `5000 t + p` of the first operand, and every other operand's block is the operand itself. -/
theorem flushed3_eq (c : Dev nD) (t : Fin cfg3.N) :
    (dat3 V c).flushed 5 t = ((cfg3.win 5).blk t).view.read (Elt Ideal) (G3 (V c main_v126) (V c main_arg19) (V c main_v127) (V c main_v128) (V c main_v129)) := by
  show (cfg3.win 5).cut (grid3.coords t) ((dat3 V c).after 5 t) = _
  rw [after3_5]
  unfold out3_5
  rw [View.canon_unit_zero hz3]
  simp only [View.ld_unit_zero (S := S5000x288) hz3, View.ld_unit_zero (S := S288x32) hz3, View.ld_unit_zero (S := S1x32) hz3]
  obtain ⟨e0, e1, e2, e3, e4, e5, e6, e7, e8, e9, e10, e11⟩ := idx_facts3 t
  funext j
  show k3_pay1 (F := Ideal) (iblk3 V c 0 t) (iblk3 V c 1 t) (iblk3 V c 2 t) (iblk3 V c 3 t) (iblk3 V c 4 t) j = G3 (V c main_v126) (V c main_arg19) (V c main_v127) (V c main_v128) (V c main_v129) (((cfg3.win 5).blk t).view.emb j)
  obtain ⟨p, q, rfl⟩ : ∃ (p : Fin 5000) (q : Fin 32), j = ix2 p q := ⟨j 0, j 1, eq_ix2 j⟩
  refine (Cert.KernelRows.k3_pay1_at (iblk3 V c 0 t) (iblk3 V c 1 t) (iblk3 V c 2 t) (iblk3 V c 3 t) (iblk3 V c 4 t) p q).trans ?_
  unfold G3
  have f0 : (fun j : Fin 288 => iblk3 V c 0 t (ix2 p j)) = fun j => (V c main_v126 : S50000x288.Idx → Elt Ideal .f32) (ix2 (((cfg3.win 5).blk t).view.emb (ix2 p q) 0) j) := by
    funext j
    show (V c main_v126 : S50000x288.Idx → Elt Ideal .f32) (((cfg3.win 0).blk t).view.emb (ix2 p j)) = _
    refine congrArg (V c main_v126 : S50000x288.Idx → Elt Ideal .f32) (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 288 + 1 * j.val = j.val; omega
  have f1 : (fun (j : Fin 288) (k : Fin 32) => iblk3 V c 1 t (ix2 j k)) = fun j k => (V c main_arg19 : S288x32.Idx → Elt Ideal .f32) (ix2 j k) := by
    funext j k
    show (V c main_arg19 : S288x32.Idx → Elt Ideal .f32) (((cfg3.win 1).blk t).view.emb (ix2 j k)) = _
    refine congrArg (V c main_arg19 : S288x32.Idx → Elt Ideal .f32) (funext fun a => Fin.ext ?_)
    match a with
    | ⟨0, _⟩ => show win3_1.index t (0 : Fin 2) * 288 + 1 * j.val = j.val; omega
    | ⟨1, _⟩ => show win3_1.index t (1 : Fin 2) * 32 + 1 * k.val = k.val; omega
  have f2 : (fun k : Fin 32 => iblk3 V c 2 t (ix2 (0 : Fin 1) k)) = fun k => (V c main_v127 : S1x32.Idx → Elt Ideal .f32) (ix2 (0 : Fin 1) k) := by
    funext k
    show (V c main_v127 : S1x32.Idx → Elt Ideal .f32) (((cfg3.win 2).blk t).view.emb (ix2 (0 : Fin 1) k)) = _
    refine congrArg (V c main_v127 : S1x32.Idx → Elt Ideal .f32) (funext fun a => Fin.ext ?_)
    match a with
    | ⟨0, _⟩ => show win3_2.index t (0 : Fin 2) * 1 + 1 * 0 = 0; omega
    | ⟨1, _⟩ => show win3_2.index t (1 : Fin 2) * 32 + 1 * k.val = k.val; omega
  have f3 : (fun k : Fin 32 => iblk3 V c 3 t (ix2 (0 : Fin 1) k)) = fun k => (V c main_v128 : S1x32.Idx → Elt Ideal .f32) (ix2 (0 : Fin 1) k) := by
    funext k
    show (V c main_v128 : S1x32.Idx → Elt Ideal .f32) (((cfg3.win 3).blk t).view.emb (ix2 (0 : Fin 1) k)) = _
    refine congrArg (V c main_v128 : S1x32.Idx → Elt Ideal .f32) (funext fun a => Fin.ext ?_)
    match a with
    | ⟨0, _⟩ => show win3_3.index t (0 : Fin 2) * 1 + 1 * 0 = 0; omega
    | ⟨1, _⟩ => show win3_3.index t (1 : Fin 2) * 32 + 1 * k.val = k.val; omega
  have f4 : (fun k : Fin 32 => iblk3 V c 4 t (ix2 (0 : Fin 1) k)) = fun k => (V c main_v129 : S1x32.Idx → Elt Ideal .f32) (ix2 (0 : Fin 1) k) := by
    funext k
    show (V c main_v129 : S1x32.Idx → Elt Ideal .f32) (((cfg3.win 4).blk t).view.emb (ix2 (0 : Fin 1) k)) = _
    refine congrArg (V c main_v129 : S1x32.Idx → Elt Ideal .f32) (funext fun a => Fin.ext ?_)
    match a with
    | ⟨0, _⟩ => show win3_4.index t (0 : Fin 2) * 1 + 1 * 0 = 0; omega
    | ⟨1, _⟩ => show win3_4.index t (1 : Fin 2) * 32 + 1 * k.val = k.val; omega
  have hq : ((cfg3.win 5).blk t).view.emb (ix2 p q) 1 = q :=
    Fin.ext (by show win3_5.index t (1 : Fin 2) * 32 + 1 * q.val = q.val; omega)
  rw [f0, f1, f2, f3, f4, hq]

/-- The result array after the region: `G3` of the operand arrays as the region finds them, since the ten blocks of rows
    cover it. -/
theorem final3 (c : Dev nD) : (dat3 V c).arrAt 5 cfg3.N = G3 (V c main_v126) (V c main_arg19) (V c main_v127) (V c main_v128) (V c main_v129) :=
  (dat3 V c).arrAt_eq_of_cover 5 (G3 (V c main_v126) (V c main_arg19) (V c main_v127) (V c main_v128) (V c main_v129)) (fun t _ => flushed3_eq V c t) fun i => by
    have hi0 : (i 0).val < 50000 := (i 0).isLt
    have hi1 : (i 1).val < 32 := (i 1).isLt
    obtain ⟨t, ht⟩ := idx_onto3 ⟨(i 0).val / 5000, by omega⟩
    have q0 : win3_5.index t (0 : Fin 2) = (i 0).val / 5000 := congrFun ht 0
    have q1 : win3_5.index t (1 : Fin 2) = 0 := congrFun ht 1
    refine ⟨t, flush3_5 t, ?_⟩
    show i ∈ ((View.whole main_v130).slice (win3_5.rect t)).set
    rw [View.set_slice_whole, Rect.mem_set_unit]
    intro a
    match a with
    | ⟨0, _⟩ => show win3_5.index t (0 : Fin 2) * 5000 ≤ (i 0).val ∧ (i 0).val < win3_5.index t (0 : Fin 2) * 5000 + 5000; omega
    | ⟨1, _⟩ => show win3_5.index t (1 : Fin 2) * 32 ≤ (i 1).val ∧ (i 1).val < win3_5.index t (1 : Fin 2) * 32 + 32; omega

end Cert.KernelIdeal.Gen

end
-- ==== Proof.RefRows.lean ====
/-
  The dense stages of the reference program read at an entry, on the extended reals.

  The reference computes four dense stages, each acting on the rows of its operand independently: the input stage
  (an affine map, a rectifier, a second affine map and a layer normalisation) and three layers (an affine map of the
  joined features and a layer normalisation; a rectifier follows in layers 1 and 2). Each stage is spelt by the program
  as a chain of whole-array operations: a matrix product, a bias broadcast along the rows, two row sums kept as columns
  and broadcast back along the columns, and pointwise arithmetic. Reading that chain at an entry (n, q) one operation at
  a time gives the row formulas of `Cert.RowSpec`: the product is the sum over the contracted coordinate, each
  broadcast reads the entry of its operand with the broadcast coordinate dropped, and each row sum starts from the zero
  word, which is zero. The joined features of a layer are left as they are: the statements read them at (n, j).
-/
import proofs.«105666_j32899449488058_1_alg».proof.Proof.RefRead2
import proofs.«105666_j32899449488058_1_alg».proof.Proof.RowSpec
import Idealize.ShloMosaic.PureOps.Ideal.Laws
import Idealize.ShloMosaic.Lib.ValueIdx

noncomputable section

namespace Cert.RefRows

open Cert.ReferenceIdeal Cert.ReferenceIdeal.Gen Cert.ReferenceIdeal.Read Idealize.ShloMosaic Idealize.ShloMosaic.ValueIdx Cert.RowSpec
open scoped BigOperators

variable (x0 : (⟨S50000x96, .f32⟩ : BufTy).Contents (Elt Ideal)) (x1 x2 : (⟨S800000, .i32⟩ : BufTy).Contents (Elt Ideal))
  (x3 : (⟨S800000, .f32⟩ : BufTy).Contents (Elt Ideal)) (x5 : (⟨S96x96, .f32⟩ : BufTy).Contents (Elt Ideal))
  (x6 : (⟨S96, .f32⟩ : BufTy).Contents (Elt Ideal)) (x7 : (⟨S96x96, .f32⟩ : BufTy).Contents (Elt Ideal))
  (x8 x9 x10 : (⟨S96, .f32⟩ : BufTy).Contents (Elt Ideal)) (x11 : (⟨S288x96, .f32⟩ : BufTy).Contents (Elt Ideal))
  (x12 x13 x14 : (⟨S96, .f32⟩ : BufTy).Contents (Elt Ideal))
  (x15 : (⟨S288x96, .f32⟩ : BufTy).Contents (Elt Ideal))
  (x16 x17 x18 : (⟨S96, .f32⟩ : BufTy).Contents (Elt Ideal))
  (x19 : (⟨S288x32, .f32⟩ : BufTy).Contents (Elt Ideal))
  (x20 x21 x22 : (⟨S32, .f32⟩ : BufTy).Contents (Elt Ideal))

/-! ## The input stage -/

/-- The first affine stage at an entry: a row of the features times the first weights, plus the first bias. -/
theorem s0a_aff (n : Fin 50000) (q : Fin 96) :
    val_main_v12 (F := Ideal) x0 x5 x6 (ix2 n q)
      = aff (fun j : Fin 96 => x0 (ix2 n j)) (fun j k => x5 (ix2 j k)) (fun k => x6 (ix1 k)) q := by
  rw [val_main_v12_apply, val_main_v9_apply, val_main_v11_apply, val_main_v10_apply, Ideal.addf_def]
  have e1 : ∀ k : Fin 96, lidx_main_v9 (ix2 n q) k = ix2 n k := fun k => funext fun a => Fin.ext (by match a with | ⟨0, _⟩ => rfl | ⟨1, _⟩ => rfl)
  have e2 : ∀ k : Fin 96, ridx_main_v9 (ix2 n q) k = ix2 k q := fun k => funext fun a => Fin.ext (by match a with | ⟨0, _⟩ => rfl | ⟨1, _⟩ => rfl)
  have e3 : idx_main_v10 (idx_main_v11 (ix2 n q)) = ix1 q := funext fun a => Fin.ext (by match a with | ⟨0, _⟩ => rfl)
  simp only [e1, e2, e3]
  rfl

/-- The rectified first affine stage at an entry. -/
theorem s0_relu (n : Fin 50000) (q : Fin 96) :
    val_main_v13 (F := Ideal) x0 x5 x6 (ix2 n q) = relu (aff (fun i : Fin 96 => x0 (ix2 n i)) (fun i j => x5 (ix2 i j)) (fun j => x6 (ix1 j)) q) := by
  rw [val_main_v13_apply, val_main_call0_v0_apply, val_main_call0_cst_apply, Ideal.maximumf_def, Ideal.ofBits_def,
    s0a_aff x0 x5 x6 n q]
  rfl

/-- The second affine stage at an entry, over the rectified first stage. -/
theorem s0_aff (n : Fin 50000) (q : Fin 96) :
    val_main_v17 (F := Ideal) x0 x5 x6 x7 x8 (ix2 n q)
      = aff (fun j : Fin 96 => val_main_v13 (F := Ideal) x0 x5 x6 (ix2 n j)) (fun j k => x7 (ix2 j k)) (fun k => x8 (ix1 k)) q := by
  rw [val_main_v17_apply, val_main_v14_apply, val_main_v16_apply, val_main_v15_apply, Ideal.addf_def]
  have e1 : ∀ k : Fin 96, lidx_main_v14 (ix2 n q) k = ix2 n k := fun k => funext fun a => Fin.ext (by match a with | ⟨0, _⟩ => rfl | ⟨1, _⟩ => rfl)
  have e2 : ∀ k : Fin 96, ridx_main_v14 (ix2 n q) k = ix2 k q := fun k => funext fun a => Fin.ext (by match a with | ⟨0, _⟩ => rfl | ⟨1, _⟩ => rfl)
  have e3 : idx_main_v15 (idx_main_v16 (ix2 n q)) = ix1 q := funext fun a => Fin.ext (by match a with | ⟨0, _⟩ => rfl)
  simp only [e1, e2, e3]
  rfl

section
variable (n : Fin 50000) (y : Fin 96 → Ideal .f32)
  (hy : ∀ k : Fin 96, val_main_v17 (F := Ideal) x0 x5 x6 x7 x8 (ix2 n k) = y k)
include hy

/-- The row mean, kept as a column: the row sum (the zero word in front of it is zero) over the row length. -/
theorem s0_mean (u : Fin 1) : val_main_v21 (F := Ideal) x0 x5 x6 x7 x8 (ix2 n u) = mean c96 y := by
  rw [val_main_v21_apply, val_main_v19_apply, val_main_v18_apply, val_main_v20_apply, val_main_cst_4_apply,
    val_main_cst_3_apply, Ideal.hostDivf_def, Ideal.ofBits_def, Ideal.ofBits_def, Ideal.ofBits_zero_f32, zero_add]
  have e1 : ∀ k : Fin 96, idx_main_v18 (idx_main_v19 (ix2 n u)) k = ix2 n k := fun k => funext fun a => Fin.ext (by match a with | ⟨0, _⟩ => rfl | ⟨1, _⟩ => rfl)
  simp only [e1, hy]
  rfl

/-- The deviation from the row mean that is squared for the variance. -/
theorem s0_dev1 (k : Fin 96) : val_main_v23 (F := Ideal) x0 x5 x6 x7 x8 (ix2 n k) = y k - mean c96 y := by
  have e1 : idx_main_v22 (ix2 n k) = ix2 n (0 : Fin 1) := funext fun a => Fin.ext (by match a with | ⟨0, _⟩ => rfl | ⟨1, _⟩ => rfl)
  rw [val_main_v23_apply, val_main_v22_apply, e1, s0_mean x0 x5 x6 x7 x8 n y hy, hy, Ideal.subf_def]

/-- The deviation from the row mean that is rescaled. -/
theorem s0_dev2 (k : Fin 96) : val_main_v30 (F := Ideal) x0 x5 x6 x7 x8 (ix2 n k) = y k - mean c96 y := by
  have e1 : idx_main_v29 (ix2 n k) = ix2 n (0 : Fin 1) := funext fun a => Fin.ext (by match a with | ⟨0, _⟩ => rfl | ⟨1, _⟩ => rfl)
  rw [val_main_v30_apply, val_main_v29_apply, e1, s0_mean x0 x5 x6 x7 x8 n y hy, hy, Ideal.subf_def]

/-- The row variance, kept as a column: the mean of the squared deviations. -/
theorem s0_var (u : Fin 1) : val_main_v28 (F := Ideal) x0 x5 x6 x7 x8 (ix2 n u) = var c96 y := by
  rw [val_main_v28_apply, val_main_v26_apply, val_main_v25_apply, val_main_v27_apply, val_main_cst_6_apply,
    val_main_cst_5_apply, Ideal.hostDivf_def, Ideal.ofBits_def, Ideal.ofBits_def, Ideal.ofBits_zero_f32, zero_add]
  have e1 : ∀ k : Fin 96, idx_main_v25 (idx_main_v26 (ix2 n u)) k = ix2 n k := fun k => funext fun a => Fin.ext (by match a with | ⟨0, _⟩ => rfl | ⟨1, _⟩ => rfl)
  simp only [e1, val_main_v24_apply, s0_dev1 x0 x5 x6 x7 x8 n y hy, Ideal.mulf_def]
  rfl

/-- The inverse square root of the variance plus the small constant, kept as a column. -/
theorem s0_rstd (u : Fin 1) :
    val_main_v33 (F := Ideal) x0 x5 x6 x7 x8 (ix2 n u) = Ideal.rsqrt (var c96 y + eps32) := by
  rw [val_main_v33_apply, val_main_v32_apply, s0_var x0 x5 x6 x7 x8 n y hy, val_main_v31_apply, val_main_cst_7_apply,
    Ideal.hostUnary_rsqrt_def, Ideal.addf_def, Ideal.ofBits_def]

/-- The layer normalisation of the row at an entry. -/
theorem s0_ln (q : Fin 96) :
    val_main_v41 (F := Ideal) x0 x5 x6 x7 x8 x9 x10 (ix2 n q)
      = ln c96 y (fun k => x9 (ix1 k)) (fun k => x10 (ix1 k)) q := by
  have e1 : idx_main_v34 (ix2 n q) = ix2 n (0 : Fin 1) := funext fun a => Fin.ext (by match a with | ⟨0, _⟩ => rfl | ⟨1, _⟩ => rfl)
  have e2 : idx_main_v36 (idx_main_v37 (ix2 n q)) = ix1 q := funext fun a => Fin.ext (by match a with | ⟨0, _⟩ => rfl)
  have e3 : idx_main_v39 (idx_main_v40 (ix2 n q)) = ix1 q := funext fun a => Fin.ext (by match a with | ⟨0, _⟩ => rfl)
  rw [val_main_v41_apply, val_main_v38_apply, val_main_v35_apply, s0_dev2 x0 x5 x6 x7 x8 n y hy, val_main_v34_apply, e1,
    s0_rstd x0 x5 x6 x7 x8 n y hy, val_main_v37_apply, val_main_v36_apply, e2, val_main_v40_apply, val_main_v39_apply, e3,
    Ideal.addf_def, Ideal.mulf_def, Ideal.mulf_def]
  rfl

end

/-- The second affine stage at an entry, from the features. -/
theorem s0_aff' (n : Fin 50000) (q : Fin 96) :
    val_main_v17 (F := Ideal) x0 x5 x6 x7 x8 (ix2 n q)
      = aff (fun j : Fin 96 => relu (aff (fun i : Fin 96 => x0 (ix2 n i)) (fun i j => x5 (ix2 i j)) (fun j => x6 (ix1 j)) j)) (fun j k => x7 (ix2 j k)) (fun k => x8 (ix1 k)) q := by
  rw [s0_aff x0 x5 x6 x7 x8 n q]
  exact congrArg (fun r => aff r (fun j k => x7 (ix2 j k)) (fun k => x8 (ix1 k)) q) (funext fun j => s0_relu x0 x5 x6 n j)

/-- The input stage of the reference at an entry: the layer normalisation of the affine image of the rectified affine image of a row of the features. -/
theorem ref0_at (n : Fin 50000) (q : Fin 96) :
    val_main_v41 (F := Ideal) x0 x5 x6 x7 x8 x9 x10 (ix2 n q)
      = ln c96 (aff (fun j : Fin 96 => relu (aff (fun i : Fin 96 => x0 (ix2 n i)) (fun i j => x5 (ix2 i j)) (fun j => x6 (ix1 j)) j)) (fun j k => x7 (ix2 j k)) (fun k => x8 (ix1 k)))
          (fun k => x9 (ix1 k)) (fun k => x10 (ix1 k)) q :=
  s0_ln x0 x5 x6 x7 x8 x9 x10 n _ (fun k => s0_aff' x0 x5 x6 x7 x8 n k) q

/-! ## Layer 1 -/

/-- Layer 1's affine stage at an entry: a row of the joined features times the weights, plus the bias. -/
theorem s1_aff (n : Fin 50000) (q : Fin 96) :
    val_main_v80 (F := Ideal) x0 x1 x2 x3 x5 x6 x7 x8 x9 x10 x11 x12 (ix2 n q)
      = aff (fun j : Fin 288 => val_main_v76 (F := Ideal) x0 x1 x2 x3 x5 x6 x7 x8 x9 x10 (ix2 n j)) (fun j k => x11 (ix2 j k)) (fun k => x12 (ix1 k)) q := by
  rw [val_main_v80_apply, val_main_v77_apply, val_main_v79_apply, val_main_v78_apply, Ideal.addf_def]
  have e1 : ∀ k : Fin 288, lidx_main_v77 (ix2 n q) k = ix2 n k := fun k => funext fun a => Fin.ext (by match a with | ⟨0, _⟩ => rfl | ⟨1, _⟩ => rfl)
  have e2 : ∀ k : Fin 288, ridx_main_v77 (ix2 n q) k = ix2 k q := fun k => funext fun a => Fin.ext (by match a with | ⟨0, _⟩ => rfl | ⟨1, _⟩ => rfl)
  have e3 : idx_main_v78 (idx_main_v79 (ix2 n q)) = ix1 q := funext fun a => Fin.ext (by match a with | ⟨0, _⟩ => rfl)
  simp only [e1, e2, e3]
  rfl

section
variable (n : Fin 50000) (y : Fin 96 → Ideal .f32)
  (hy : ∀ k : Fin 96, val_main_v80 (F := Ideal) x0 x1 x2 x3 x5 x6 x7 x8 x9 x10 x11 x12 (ix2 n k) = y k)
include hy

/-- The row mean, kept as a column: the row sum (the zero word in front of it is zero) over the row length. -/
theorem s1_mean (u : Fin 1) : val_main_v84 (F := Ideal) x0 x1 x2 x3 x5 x6 x7 x8 x9 x10 x11 x12 (ix2 n u) = mean c96 y := by
  rw [val_main_v84_apply, val_main_v82_apply, val_main_v81_apply, val_main_v83_apply, val_main_cst_14_apply,
    val_main_cst_13_apply, Ideal.hostDivf_def, Ideal.ofBits_def, Ideal.ofBits_def, Ideal.ofBits_zero_f32, zero_add]
  have e1 : ∀ k : Fin 96, idx_main_v81 (idx_main_v82 (ix2 n u)) k = ix2 n k := fun k => funext fun a => Fin.ext (by match a with | ⟨0, _⟩ => rfl | ⟨1, _⟩ => rfl)
  simp only [e1, hy]
  rfl

/-- The deviation from the row mean that is squared for the variance. -/
theorem s1_dev1 (k : Fin 96) : val_main_v86 (F := Ideal) x0 x1 x2 x3 x5 x6 x7 x8 x9 x10 x11 x12 (ix2 n k) = y k - mean c96 y := by
  have e1 : idx_main_v85 (ix2 n k) = ix2 n (0 : Fin 1) := funext fun a => Fin.ext (by match a with | ⟨0, _⟩ => rfl | ⟨1, _⟩ => rfl)
  rw [val_main_v86_apply, val_main_v85_apply, e1, s1_mean x0 x1 x2 x3 x5 x6 x7 x8 x9 x10 x11 x12 n y hy, hy, Ideal.subf_def]

/-- The deviation from the row mean that is rescaled. -/
theorem s1_dev2 (k : Fin 96) : val_main_v93 (F := Ideal) x0 x1 x2 x3 x5 x6 x7 x8 x9 x10 x11 x12 (ix2 n k) = y k - mean c96 y := by
  have e1 : idx_main_v92 (ix2 n k) = ix2 n (0 : Fin 1) := funext fun a => Fin.ext (by match a with | ⟨0, _⟩ => rfl | ⟨1, _⟩ => rfl)
  rw [val_main_v93_apply, val_main_v92_apply, e1, s1_mean x0 x1 x2 x3 x5 x6 x7 x8 x9 x10 x11 x12 n y hy, hy, Ideal.subf_def]

/-- The row variance, kept as a column: the mean of the squared deviations. -/
theorem s1_var (u : Fin 1) : val_main_v91 (F := Ideal) x0 x1 x2 x3 x5 x6 x7 x8 x9 x10 x11 x12 (ix2 n u) = var c96 y := by
  rw [val_main_v91_apply, val_main_v89_apply, val_main_v88_apply, val_main_v90_apply, val_main_cst_16_apply,
    val_main_cst_15_apply, Ideal.hostDivf_def, Ideal.ofBits_def, Ideal.ofBits_def, Ideal.ofBits_zero_f32, zero_add]
  have e1 : ∀ k : Fin 96, idx_main_v88 (idx_main_v89 (ix2 n u)) k = ix2 n k := fun k => funext fun a => Fin.ext (by match a with | ⟨0, _⟩ => rfl | ⟨1, _⟩ => rfl)
  simp only [e1, val_main_v87_apply, s1_dev1 x0 x1 x2 x3 x5 x6 x7 x8 x9 x10 x11 x12 n y hy, Ideal.mulf_def]
  rfl

/-- The inverse square root of the variance plus the small constant, kept as a column. -/
theorem s1_rstd (u : Fin 1) :
    val_main_v96 (F := Ideal) x0 x1 x2 x3 x5 x6 x7 x8 x9 x10 x11 x12 (ix2 n u) = Ideal.rsqrt (var c96 y + eps32) := by
  rw [val_main_v96_apply, val_main_v95_apply, s1_var x0 x1 x2 x3 x5 x6 x7 x8 x9 x10 x11 x12 n y hy, val_main_v94_apply, val_main_cst_17_apply,
    Ideal.hostUnary_rsqrt_def, Ideal.addf_def, Ideal.ofBits_def]

/-- The layer normalisation of the row at an entry. -/
theorem s1_ln (q : Fin 96) :
    val_main_v104 (F := Ideal) x0 x1 x2 x3 x5 x6 x7 x8 x9 x10 x11 x12 x13 x14 (ix2 n q)
      = ln c96 y (fun k => x13 (ix1 k)) (fun k => x14 (ix1 k)) q := by
  have e1 : idx_main_v97 (ix2 n q) = ix2 n (0 : Fin 1) := funext fun a => Fin.ext (by match a with | ⟨0, _⟩ => rfl | ⟨1, _⟩ => rfl)
  have e2 : idx_main_v99 (idx_main_v100 (ix2 n q)) = ix1 q := funext fun a => Fin.ext (by match a with | ⟨0, _⟩ => rfl)
  have e3 : idx_main_v102 (idx_main_v103 (ix2 n q)) = ix1 q := funext fun a => Fin.ext (by match a with | ⟨0, _⟩ => rfl)
  rw [val_main_v104_apply, val_main_v101_apply, val_main_v98_apply, s1_dev2 x0 x1 x2 x3 x5 x6 x7 x8 x9 x10 x11 x12 n y hy, val_main_v97_apply, e1,
    s1_rstd x0 x1 x2 x3 x5 x6 x7 x8 x9 x10 x11 x12 n y hy, val_main_v100_apply, val_main_v99_apply, e2, val_main_v103_apply, val_main_v102_apply, e3,
    Ideal.addf_def, Ideal.mulf_def, Ideal.mulf_def]
  rfl

end

/-- Layer 1 of the reference at an entry: the rectified layer normalisation of the affine image of a row of the joined features. -/
theorem ref1_at (n : Fin 50000) (q : Fin 96) :
    val_main_v105 (F := Ideal) x0 x1 x2 x3 x5 x6 x7 x8 x9 x10 x11 x12 x13 x14 (ix2 n q)
      = relu (ln c96 (aff (fun j : Fin 288 => val_main_v76 (F := Ideal) x0 x1 x2 x3 x5 x6 x7 x8 x9 x10 (ix2 n j)) (fun j k => x11 (ix2 j k)) (fun k => x12 (ix1 k)))
          (fun k => x13 (ix1 k)) (fun k => x14 (ix1 k)) q) := by
  rw [val_main_v105_apply, val_main_call1_v0_apply, val_main_call1_cst_apply, Ideal.maximumf_def, Ideal.ofBits_def,
    s1_ln x0 x1 x2 x3 x5 x6 x7 x8 x9 x10 x11 x12 x13 x14 n _ (fun k => s1_aff x0 x1 x2 x3 x5 x6 x7 x8 x9 x10 x11 x12 n k) q]
  rfl

/-! ## Layer 2 -/

/-- Layer 2's affine stage at an entry: a row of the joined features times the weights, plus the bias. -/
theorem s2_aff (n : Fin 50000) (q : Fin 96) :
    val_main_v144 (F := Ideal) x0 x1 x2 x3 x5 x6 x7 x8 x9 x10 x11 x12 x13 x14 x15 x16 (ix2 n q)
      = aff (fun j : Fin 288 => val_main_v140 (F := Ideal) x0 x1 x2 x3 x5 x6 x7 x8 x9 x10 x11 x12 x13 x14 (ix2 n j)) (fun j k => x15 (ix2 j k)) (fun k => x16 (ix1 k)) q := by
  rw [val_main_v144_apply, val_main_v141_apply, val_main_v143_apply, val_main_v142_apply, Ideal.addf_def]
  have e1 : ∀ k : Fin 288, lidx_main_v141 (ix2 n q) k = ix2 n k := fun k => funext fun a => Fin.ext (by match a with | ⟨0, _⟩ => rfl | ⟨1, _⟩ => rfl)
  have e2 : ∀ k : Fin 288, ridx_main_v141 (ix2 n q) k = ix2 k q := fun k => funext fun a => Fin.ext (by match a with | ⟨0, _⟩ => rfl | ⟨1, _⟩ => rfl)
  have e3 : idx_main_v142 (idx_main_v143 (ix2 n q)) = ix1 q := funext fun a => Fin.ext (by match a with | ⟨0, _⟩ => rfl)
  simp only [e1, e2, e3]
  rfl

section
variable (n : Fin 50000) (y : Fin 96 → Ideal .f32)
  (hy : ∀ k : Fin 96, val_main_v144 (F := Ideal) x0 x1 x2 x3 x5 x6 x7 x8 x9 x10 x11 x12 x13 x14 x15 x16 (ix2 n k) = y k)
include hy

/-- The row mean, kept as a column: the row sum (the zero word in front of it is zero) over the row length. -/
theorem s2_mean (u : Fin 1) : val_main_v148 (F := Ideal) x0 x1 x2 x3 x5 x6 x7 x8 x9 x10 x11 x12 x13 x14 x15 x16 (ix2 n u) = mean c96 y := by
  rw [val_main_v148_apply, val_main_v146_apply, val_main_v145_apply, val_main_v147_apply, val_main_cst_25_apply,
    val_main_cst_24_apply, Ideal.hostDivf_def, Ideal.ofBits_def, Ideal.ofBits_def, Ideal.ofBits_zero_f32, zero_add]
  have e1 : ∀ k : Fin 96, idx_main_v145 (idx_main_v146 (ix2 n u)) k = ix2 n k := fun k => funext fun a => Fin.ext (by match a with | ⟨0, _⟩ => rfl | ⟨1, _⟩ => rfl)
  simp only [e1, hy]
  rfl

/-- The deviation from the row mean that is squared for the variance. -/
theorem s2_dev1 (k : Fin 96) : val_main_v150 (F := Ideal) x0 x1 x2 x3 x5 x6 x7 x8 x9 x10 x11 x12 x13 x14 x15 x16 (ix2 n k) = y k - mean c96 y := by
  have e1 : idx_main_v149 (ix2 n k) = ix2 n (0 : Fin 1) := funext fun a => Fin.ext (by match a with | ⟨0, _⟩ => rfl | ⟨1, _⟩ => rfl)
  rw [val_main_v150_apply, val_main_v149_apply, e1, s2_mean x0 x1 x2 x3 x5 x6 x7 x8 x9 x10 x11 x12 x13 x14 x15 x16 n y hy, hy, Ideal.subf_def]

/-- The deviation from the row mean that is rescaled. -/
theorem s2_dev2 (k : Fin 96) : val_main_v157 (F := Ideal) x0 x1 x2 x3 x5 x6 x7 x8 x9 x10 x11 x12 x13 x14 x15 x16 (ix2 n k) = y k - mean c96 y := by
  have e1 : idx_main_v156 (ix2 n k) = ix2 n (0 : Fin 1) := funext fun a => Fin.ext (by match a with | ⟨0, _⟩ => rfl | ⟨1, _⟩ => rfl)
  rw [val_main_v157_apply, val_main_v156_apply, e1, s2_mean x0 x1 x2 x3 x5 x6 x7 x8 x9 x10 x11 x12 x13 x14 x15 x16 n y hy, hy, Ideal.subf_def]

/-- The row variance, kept as a column: the mean of the squared deviations. -/
theorem s2_var (u : Fin 1) : val_main_v155 (F := Ideal) x0 x1 x2 x3 x5 x6 x7 x8 x9 x10 x11 x12 x13 x14 x15 x16 (ix2 n u) = var c96 y := by
  rw [val_main_v155_apply, val_main_v153_apply, val_main_v152_apply, val_main_v154_apply, val_main_cst_27_apply,
    val_main_cst_26_apply, Ideal.hostDivf_def, Ideal.ofBits_def, Ideal.ofBits_def, Ideal.ofBits_zero_f32, zero_add]
  have e1 : ∀ k : Fin 96, idx_main_v152 (idx_main_v153 (ix2 n u)) k = ix2 n k := fun k => funext fun a => Fin.ext (by match a with | ⟨0, _⟩ => rfl | ⟨1, _⟩ => rfl)
  simp only [e1, val_main_v151_apply, s2_dev1 x0 x1 x2 x3 x5 x6 x7 x8 x9 x10 x11 x12 x13 x14 x15 x16 n y hy, Ideal.mulf_def]
  rfl

/-- The inverse square root of the variance plus the small constant, kept as a column. -/
theorem s2_rstd (u : Fin 1) :
    val_main_v160 (F := Ideal) x0 x1 x2 x3 x5 x6 x7 x8 x9 x10 x11 x12 x13 x14 x15 x16 (ix2 n u) = Ideal.rsqrt (var c96 y + eps32) := by
  rw [val_main_v160_apply, val_main_v159_apply, s2_var x0 x1 x2 x3 x5 x6 x7 x8 x9 x10 x11 x12 x13 x14 x15 x16 n y hy, val_main_v158_apply, val_main_cst_28_apply,
    Ideal.hostUnary_rsqrt_def, Ideal.addf_def, Ideal.ofBits_def]

/-- The layer normalisation of the row at an entry. -/
theorem s2_ln (q : Fin 96) :
    val_main_v168 (F := Ideal) x0 x1 x2 x3 x5 x6 x7 x8 x9 x10 x11 x12 x13 x14 x15 x16 x17 x18 (ix2 n q)
      = ln c96 y (fun k => x17 (ix1 k)) (fun k => x18 (ix1 k)) q := by
  have e1 : idx_main_v161 (ix2 n q) = ix2 n (0 : Fin 1) := funext fun a => Fin.ext (by match a with | ⟨0, _⟩ => rfl | ⟨1, _⟩ => rfl)
  have e2 : idx_main_v163 (idx_main_v164 (ix2 n q)) = ix1 q := funext fun a => Fin.ext (by match a with | ⟨0, _⟩ => rfl)
  have e3 : idx_main_v166 (idx_main_v167 (ix2 n q)) = ix1 q := funext fun a => Fin.ext (by match a with | ⟨0, _⟩ => rfl)
  rw [val_main_v168_apply, val_main_v165_apply, val_main_v162_apply, s2_dev2 x0 x1 x2 x3 x5 x6 x7 x8 x9 x10 x11 x12 x13 x14 x15 x16 n y hy, val_main_v161_apply, e1,
    s2_rstd x0 x1 x2 x3 x5 x6 x7 x8 x9 x10 x11 x12 x13 x14 x15 x16 n y hy, val_main_v164_apply, val_main_v163_apply, e2, val_main_v167_apply, val_main_v166_apply, e3,
    Ideal.addf_def, Ideal.mulf_def, Ideal.mulf_def]
  rfl

end

/-- Layer 2 of the reference at an entry: the rectified layer normalisation of the affine image of a row of the joined features. -/
theorem ref2_at (n : Fin 50000) (q : Fin 96) :
    val_main_v169 (F := Ideal) x0 x1 x2 x3 x5 x6 x7 x8 x9 x10 x11 x12 x13 x14 x15 x16 x17 x18 (ix2 n q)
      = relu (ln c96 (aff (fun j : Fin 288 => val_main_v140 (F := Ideal) x0 x1 x2 x3 x5 x6 x7 x8 x9 x10 x11 x12 x13 x14 (ix2 n j)) (fun j k => x15 (ix2 j k)) (fun k => x16 (ix1 k)))
          (fun k => x17 (ix1 k)) (fun k => x18 (ix1 k)) q) := by
  rw [val_main_v169_apply, val_main_call2_v0_apply, val_main_call2_cst_apply, Ideal.maximumf_def, Ideal.ofBits_def,
    s2_ln x0 x1 x2 x3 x5 x6 x7 x8 x9 x10 x11 x12 x13 x14 x15 x16 x17 x18 n _ (fun k => s2_aff x0 x1 x2 x3 x5 x6 x7 x8 x9 x10 x11 x12 x13 x14 x15 x16 n k) q]
  rfl

/-! ## Layer 3 -/

/-- Layer 3's affine stage at an entry: a row of the joined features times the weights, plus the bias. -/
theorem s3_aff (n : Fin 50000) (q : Fin 32) :
    val_main_v208 (F := Ideal) x0 x1 x2 x3 x5 x6 x7 x8 x9 x10 x11 x12 x13 x14 x15 x16 x17 x18 x19 x20 (ix2 n q)
      = aff (fun j : Fin 288 => val_main_v204 (F := Ideal) x0 x1 x2 x3 x5 x6 x7 x8 x9 x10 x11 x12 x13 x14 x15 x16 x17 x18 (ix2 n j)) (fun j k => x19 (ix2 j k)) (fun k => x20 (ix1 k)) q := by
  rw [val_main_v208_apply, val_main_v205_apply, val_main_v207_apply, val_main_v206_apply, Ideal.addf_def]
  have e1 : ∀ k : Fin 288, lidx_main_v205 (ix2 n q) k = ix2 n k := fun k => funext fun a => Fin.ext (by match a with | ⟨0, _⟩ => rfl | ⟨1, _⟩ => rfl)
  have e2 : ∀ k : Fin 288, ridx_main_v205 (ix2 n q) k = ix2 k q := fun k => funext fun a => Fin.ext (by match a with | ⟨0, _⟩ => rfl | ⟨1, _⟩ => rfl)
  have e3 : idx_main_v206 (idx_main_v207 (ix2 n q)) = ix1 q := funext fun a => Fin.ext (by match a with | ⟨0, _⟩ => rfl)
  simp only [e1, e2, e3]
  rfl

section
variable (n : Fin 50000) (y : Fin 32 → Ideal .f32)
  (hy : ∀ k : Fin 32, val_main_v208 (F := Ideal) x0 x1 x2 x3 x5 x6 x7 x8 x9 x10 x11 x12 x13 x14 x15 x16 x17 x18 x19 x20 (ix2 n k) = y k)
include hy

/-- The row mean, kept as a column: the row sum (the zero word in front of it is zero) over the row length. -/
theorem s3_mean (u : Fin 1) : val_main_v212 (F := Ideal) x0 x1 x2 x3 x5 x6 x7 x8 x9 x10 x11 x12 x13 x14 x15 x16 x17 x18 x19 x20 (ix2 n u) = mean c32 y := by
  rw [val_main_v212_apply, val_main_v210_apply, val_main_v209_apply, val_main_v211_apply, val_main_cst_36_apply,
    val_main_cst_35_apply, Ideal.hostDivf_def, Ideal.ofBits_def, Ideal.ofBits_def, Ideal.ofBits_zero_f32, zero_add]
  have e1 : ∀ k : Fin 32, idx_main_v209 (idx_main_v210 (ix2 n u)) k = ix2 n k := fun k => funext fun a => Fin.ext (by match a with | ⟨0, _⟩ => rfl | ⟨1, _⟩ => rfl)
  simp only [e1, hy]
  rfl

/-- The deviation from the row mean that is squared for the variance. -/
theorem s3_dev1 (k : Fin 32) : val_main_v214 (F := Ideal) x0 x1 x2 x3 x5 x6 x7 x8 x9 x10 x11 x12 x13 x14 x15 x16 x17 x18 x19 x20 (ix2 n k) = y k - mean c32 y := by
  have e1 : idx_main_v213 (ix2 n k) = ix2 n (0 : Fin 1) := funext fun a => Fin.ext (by match a with | ⟨0, _⟩ => rfl | ⟨1, _⟩ => rfl)
  rw [val_main_v214_apply, val_main_v213_apply, e1, s3_mean x0 x1 x2 x3 x5 x6 x7 x8 x9 x10 x11 x12 x13 x14 x15 x16 x17 x18 x19 x20 n y hy, hy, Ideal.subf_def]

/-- The deviation from the row mean that is rescaled. -/
theorem s3_dev2 (k : Fin 32) : val_main_v221 (F := Ideal) x0 x1 x2 x3 x5 x6 x7 x8 x9 x10 x11 x12 x13 x14 x15 x16 x17 x18 x19 x20 (ix2 n k) = y k - mean c32 y := by
  have e1 : idx_main_v220 (ix2 n k) = ix2 n (0 : Fin 1) := funext fun a => Fin.ext (by match a with | ⟨0, _⟩ => rfl | ⟨1, _⟩ => rfl)
  rw [val_main_v221_apply, val_main_v220_apply, e1, s3_mean x0 x1 x2 x3 x5 x6 x7 x8 x9 x10 x11 x12 x13 x14 x15 x16 x17 x18 x19 x20 n y hy, hy, Ideal.subf_def]

/-- The row variance, kept as a column: the mean of the squared deviations. -/
theorem s3_var (u : Fin 1) : val_main_v219 (F := Ideal) x0 x1 x2 x3 x5 x6 x7 x8 x9 x10 x11 x12 x13 x14 x15 x16 x17 x18 x19 x20 (ix2 n u) = var c32 y := by
  rw [val_main_v219_apply, val_main_v217_apply, val_main_v216_apply, val_main_v218_apply, val_main_cst_38_apply,
    val_main_cst_37_apply, Ideal.hostDivf_def, Ideal.ofBits_def, Ideal.ofBits_def, Ideal.ofBits_zero_f32, zero_add]
  have e1 : ∀ k : Fin 32, idx_main_v216 (idx_main_v217 (ix2 n u)) k = ix2 n k := fun k => funext fun a => Fin.ext (by match a with | ⟨0, _⟩ => rfl | ⟨1, _⟩ => rfl)
  simp only [e1, val_main_v215_apply, s3_dev1 x0 x1 x2 x3 x5 x6 x7 x8 x9 x10 x11 x12 x13 x14 x15 x16 x17 x18 x19 x20 n y hy, Ideal.mulf_def]
  rfl

/-- The inverse square root of the variance plus the small constant, kept as a column. -/
theorem s3_rstd (u : Fin 1) :
    val_main_v224 (F := Ideal) x0 x1 x2 x3 x5 x6 x7 x8 x9 x10 x11 x12 x13 x14 x15 x16 x17 x18 x19 x20 (ix2 n u) = Ideal.rsqrt (var c32 y + eps32) := by
  rw [val_main_v224_apply, val_main_v223_apply, s3_var x0 x1 x2 x3 x5 x6 x7 x8 x9 x10 x11 x12 x13 x14 x15 x16 x17 x18 x19 x20 n y hy, val_main_v222_apply, val_main_cst_39_apply,
    Ideal.hostUnary_rsqrt_def, Ideal.addf_def, Ideal.ofBits_def]

/-- The layer normalisation of the row at an entry. -/
theorem s3_ln (q : Fin 32) :
    val_main_v232 (F := Ideal) x0 x1 x2 x3 x5 x6 x7 x8 x9 x10 x11 x12 x13 x14 x15 x16 x17 x18 x19 x20 x21 x22 (ix2 n q)
      = ln c32 y (fun k => x21 (ix1 k)) (fun k => x22 (ix1 k)) q := by
  have e1 : idx_main_v225 (ix2 n q) = ix2 n (0 : Fin 1) := funext fun a => Fin.ext (by match a with | ⟨0, _⟩ => rfl | ⟨1, _⟩ => rfl)
  have e2 : idx_main_v227 (idx_main_v228 (ix2 n q)) = ix1 q := funext fun a => Fin.ext (by match a with | ⟨0, _⟩ => rfl)
  have e3 : idx_main_v230 (idx_main_v231 (ix2 n q)) = ix1 q := funext fun a => Fin.ext (by match a with | ⟨0, _⟩ => rfl)
  rw [val_main_v232_apply, val_main_v229_apply, val_main_v226_apply, s3_dev2 x0 x1 x2 x3 x5 x6 x7 x8 x9 x10 x11 x12 x13 x14 x15 x16 x17 x18 x19 x20 n y hy, val_main_v225_apply, e1,
    s3_rstd x0 x1 x2 x3 x5 x6 x7 x8 x9 x10 x11 x12 x13 x14 x15 x16 x17 x18 x19 x20 n y hy, val_main_v228_apply, val_main_v227_apply, e2, val_main_v231_apply, val_main_v230_apply, e3,
    Ideal.addf_def, Ideal.mulf_def, Ideal.mulf_def]
  rfl

end

/-- Layer 3 of the reference at an entry: the layer normalisation (row length 32, no rectifier) of the affine image of a row of the joined features. -/
theorem ref3_at (n : Fin 50000) (q : Fin 32) :
    val_main_v232 (F := Ideal) x0 x1 x2 x3 x5 x6 x7 x8 x9 x10 x11 x12 x13 x14 x15 x16 x17 x18 x19 x20 x21 x22 (ix2 n q)
      = ln c32 (aff (fun j : Fin 288 => val_main_v204 (F := Ideal) x0 x1 x2 x3 x5 x6 x7 x8 x9 x10 x11 x12 x13 x14 x15 x16 x17 x18 (ix2 n j)) (fun j k => x19 (ix2 j k)) (fun k => x20 (ix1 k)))
          (fun k => x21 (ix1 k)) (fun k => x22 (ix1 k)) q :=
  s3_ln x0 x1 x2 x3 x5 x6 x7 x8 x9 x10 x11 x12 x13 x14 x15 x16 x17 x18 x19 x20 x21 x22 n _ (fun k => s3_aff x0 x1 x2 x3 x5 x6 x7 x8 x9 x10 x11 x12 x13 x14 x15 x16 x17 x18 x19 x20 n k) q

end Cert.RefRows

end
-- ==== Proof.LibNaryThree.lean ====
/-
  GENERAL LEMMA: the result of a host operation over a literal family of three operand buffers.

  A concatenation of three arrays is one operation reading a family of three buffers. Its result, read at the
  operation's own result buffer, is the operation's function of the three operands' contents, each named at its own
  buffer (rather than through the family under a binder), so that the contents of each operand can go on being
  rewritten to what the earlier operations wrote there.
-/
import Idealize.ShloMosaic.Lib.StableHlo.Run

noncomputable section

namespace Idealize.ShloMosaic.StableHlo

variable {τ : Topo} {sig : RefSig} {Val : EltTy → Type}

/-- The result of an operation over the three buffers `![x, a, b]`, at its result buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.LibHostRead.lean ====
/-
  Reading a stretch of host operations at one of its result buffers.

  The contents after a list of host operations is a fold; at a result buffer it is that operation's function of
  its operands' contents, each read in turn from the operations before. One pass of rewriting opens the whole
  fold. A three-operand concatenation reads a family of three buffers; its result is stated with each operand
  named at its own buffer, so that the pass goes on into the operands.
-/
import proofs.«105666_j32899449488058_1_alg».proof.Proof.LibNaryThree
import Idealize.ShloMosaic.Lib.StableHlo.Run

noncomputable section

namespace Idealize.ShloMosaic.StableHlo

variable {τ : Topo} {sig : RefSig} {Val : EltTy → Type}

/-- The three-operand result, keyed for the rewriting pass on the operation alone. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for an operation whose function reads its three operands one by one, `fun u => g (u 0) (u 1) (u 2)` (a
    concatenation of three arrays): the result is `g` of the three operands' contents. -/
theorem nary3_result_fn {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) :=
  nary3_result (fun u => g (u 0) (u 1) (u 2)) hxs hy F

/-- Open the fold of a stretch of host operations at a buffer: every operation's result at its own buffer, every other
    buffer passed through (the buffers' inequalities decided). -/
macro "host_read" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KernelHost.lean ====
/-
  The host operations between the dense stages, read at a result buffer, on the extended reals: the first stretch and the last.

  Between its dense stages the program computes, on whole arrays, the operations of the graph layers: the column of
  inverse-square-root in-degrees, a gather of rows by the source index of each edge, a product with the edge weights, a
  sum of the edge rows into their destination rows, products with the in-degree column, and the join of three such
  arrays along the lanes; at the end a gather of rows and the logarithm of the soft maximum. The statements read the
  contents after a stretch of these operations at one buffer, from any contents known at the buffers the stretch reads,
  and state that it is the reference's value of the same step. The gathers, the sums into rows and the joins are not
  opened: both sides hold the same operation on equal operands.
-/
import proofs.«105666_j32899449488058_1_alg».proof.Proof.Gen.KernelIdeal.Launch
import proofs.«105666_j32899449488058_1_alg».proof.Proof.RefRead2
import proofs.«105666_j32899449488058_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelHost

open Idealize.ShloMosaic Idealize.ShloMosaic.StableHlo Idealize.ShloMosaic.ValueIdx Idealize.SL.Sem
open Cert.KernelIdeal Cert.KernelIdeal.Gen

/-- The first stretch of host operations at the column of inverse-square-root in-degrees. -/
theorem hostOps0_v8 (W : Valuation τ sig (Elt Ideal)) (a2 : (⟨S800000, .i32⟩ : BufTy).Contents (Elt Ideal))
    (h2 : (W (Proc.devRef .tc main_arg2) : (⟨S800000, .i32⟩ : BufTy).Contents (Elt Ideal)) = a2) :
    (StableHlo.after (hostOps0 (F := Ideal)) W (Proc.devRef .tc main_v8) : (⟨S50000x1, .f32⟩ : BufTy).Contents (Elt Ideal))
      = Cert.ReferenceIdeal.Read.val_main_v8 a2 := by
  host_read
  rw [h2]
  rfl

/-- The bias row `%arg6` as a `[1, 96]` array, read at an entry. -/
theorem hostOps0_v9 (W : Valuation τ sig (Elt Ideal)) (k : Fin 96) :
    (StableHlo.after (hostOps0 (F := Ideal)) W (Proc.devRef .tc main_v9) : (⟨S1x96, .f32⟩ : BufTy).Contents (Elt Ideal)) (ix2 (0 : Fin 1) k)
      = (W (Proc.devRef .tc main_arg6) : (⟨S96, .f32⟩ : BufTy).Contents (Elt Ideal)) (ix1 k) := by
  host_read
  exact shapeCast_a_1a_apply _ _ (0 : Fin 1) k

/-- The bias row `%arg8` as a `[1, 96]` array, read at an entry. -/
theorem hostOps0_v10 (W : Valuation τ sig (Elt Ideal)) (k : Fin 96) :
    (StableHlo.after (hostOps0 (F := Ideal)) W (Proc.devRef .tc main_v10) : (⟨S1x96, .f32⟩ : BufTy).Contents (Elt Ideal)) (ix2 (0 : Fin 1) k)
      = (W (Proc.devRef .tc main_arg8) : (⟨S96, .f32⟩ : BufTy).Contents (Elt Ideal)) (ix1 k) := by
  host_read
  exact shapeCast_a_1a_apply _ _ (0 : Fin 1) k

/-- The bias row `%arg9` as a `[1, 96]` array, read at an entry. -/
theorem hostOps0_v11 (W : Valuation τ sig (Elt Ideal)) (k : Fin 96) :
    (StableHlo.after (hostOps0 (F := Ideal)) W (Proc.devRef .tc main_v11) : (⟨S1x96, .f32⟩ : BufTy).Contents (Elt Ideal)) (ix2 (0 : Fin 1) k)
      = (W (Proc.devRef .tc main_arg9) : (⟨S96, .f32⟩ : BufTy).Contents (Elt Ideal)) (ix1 k) := by
  host_read
  exact shapeCast_a_1a_apply _ _ (0 : Fin 1) k

/-- The bias row `%arg10` as a `[1, 96]` array, read at an entry. -/
theorem hostOps0_v12 (W : Valuation τ sig (Elt Ideal)) (k : Fin 96) :
    (StableHlo.after (hostOps0 (F := Ideal)) W (Proc.devRef .tc main_v12) : (⟨S1x96, .f32⟩ : BufTy).Contents (Elt Ideal)) (ix2 (0 : Fin 1) k)
      = (W (Proc.devRef .tc main_arg10) : (⟨S96, .f32⟩ : BufTy).Contents (Elt Ideal)) (ix1 k) := by
  host_read
  exact shapeCast_a_1a_apply _ _ (0 : Fin 1) k

/-- The last stretch of host operations: the rows of the last stage's output chosen by the index array, then the
    logarithm of the soft maximum along each row. -/
theorem hostOps4_v138 (W : Valuation τ sig (Elt Ideal))
    (a0 : (⟨S50000x96, .f32⟩ : BufTy).Contents (Elt Ideal)) (a1 : (⟨S800000, .i32⟩ : BufTy).Contents (Elt Ideal)) (a2 : (⟨S800000, .i32⟩ : BufTy).Contents (Elt Ideal)) (a3 : (⟨S800000, .f32⟩ : BufTy).Contents (Elt Ideal)) (a4 : (⟨S10000, .i32⟩ : BufTy).Contents (Elt Ideal)) (a5 : (⟨S96x96, .f32⟩ : BufTy).Contents (Elt Ideal)) (a6 : (⟨S96, .f32⟩ : BufTy).Contents (Elt Ideal)) (a7 : (⟨S96x96, .f32⟩ : BufTy).Contents (Elt Ideal)) (a8 : (⟨S96, .f32⟩ : BufTy).Contents (Elt Ideal)) (a9 : (⟨S96, .f32⟩ : BufTy).Contents (Elt Ideal)) (a10 : (⟨S96, .f32⟩ : BufTy).Contents (Elt Ideal)) (a11 : (⟨S288x96, .f32⟩ : BufTy).Contents (Elt Ideal)) (a12 : (⟨S96, .f32⟩ : BufTy).Contents (Elt Ideal)) (a13 : (⟨S96, .f32⟩ : BufTy).Contents (Elt Ideal)) (a14 : (⟨S96, .f32⟩ : BufTy).Contents (Elt Ideal)) (a15 : (⟨S288x96, .f32⟩ : BufTy).Contents (Elt Ideal)) (a16 : (⟨S96, .f32⟩ : BufTy).Contents (Elt Ideal)) (a17 : (⟨S96, .f32⟩ : BufTy).Contents (Elt Ideal)) (a18 : (⟨S96, .f32⟩ : BufTy).Contents (Elt Ideal)) (a19 : (⟨S288x32, .f32⟩ : BufTy).Contents (Elt Ideal)) (a20 : (⟨S32, .f32⟩ : BufTy).Contents (Elt Ideal)) (a21 : (⟨S32, .f32⟩ : BufTy).Contents (Elt Ideal)) (a22 : (⟨S32, .f32⟩ : BufTy).Contents (Elt Ideal))
    (hin : (W (Proc.devRef .tc main_v130) : (⟨S50000x32, .f32⟩ : BufTy).Contents (Elt Ideal))
      = Cert.ReferenceIdeal.Read.val_main_v232 a0 a1 a2 a3 a5 a6 a7 a8 a9 a10 a11 a12 a13 a14 a15 a16 a17 a18 a19 a20 a21 a22)
    (h4 : (W (Proc.devRef .tc main_arg4) : (⟨S10000, .i32⟩ : BufTy).Contents (Elt Ideal)) = a4) :
    (StableHlo.after (hostOps4_1 (F := Ideal)) (StableHlo.after (hostOps4 (F := Ideal)) W) (Proc.devRef .tc main_v138) : (⟨S10000x32, .f32⟩ : BufTy).Contents (Elt Ideal))
      = Cert.ReferenceIdeal.Read.val_main_v240 a0 a1 a2 a3 a4 a5 a6 a7 a8 a9 a10 a11 a12 a13 a14 a15 a16 a17 a18 a19 a20 a21 a22 := by
  host_read
  rw [hin, h4]
  simp only [TRef.toBuf, TRef.ofBuf, cast_cast, cast_eq]
  rfl

end Cert.KernelHost

end
-- ==== Proof.KernelHost1.lean ====
/-
  The host operations between the dense stages, read at a result buffer, on the extended reals: the stretch after the first stage.

  Between its dense stages the program computes, on whole arrays, the operations of the graph layers: the column of
  inverse-square-root in-degrees, a gather of rows by the source index of each edge, a product with the edge weights, a
  sum of the edge rows into their destination rows, products with the in-degree column, and the join of three such
  arrays along the lanes; at the end a gather of rows and the logarithm of the soft maximum. The statements read the
  contents after a stretch of these operations at one buffer, from any contents known at the buffers the stretch reads,
  and state that it is the reference's value of the same step. The gathers, the sums into rows and the joins are not
  opened: both sides hold the same operation on equal operands.
-/
import proofs.«105666_j32899449488058_1_alg».proof.Proof.Gen.KernelIdeal.Launch
import proofs.«105666_j32899449488058_1_alg».proof.Proof.RefRead2
import proofs.«105666_j32899449488058_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelHost

open Idealize.ShloMosaic Idealize.ShloMosaic.StableHlo Idealize.ShloMosaic.ValueIdx Idealize.SL.Sem
open Cert.KernelIdeal Cert.KernelIdeal.Gen

/-- Concatenating three arrays of one shape: equal operands give equal results. -/
private theorem concat3_congr {α : Type} (t : Shape) (ax : Fin t.rank) (s : Shape) {p q r p' q' r' : s.Idx → α}
    (h : Shape.Concatenates [s, s, s] t ax) (hp : p = p') (hq : q = q') (hr : r = r') :
    concatenate t ax [⟨s, p⟩, ⟨s, q⟩, ⟨s, r⟩] h = concatenate t ax [⟨s, p'⟩, ⟨s, q'⟩, ⟨s, r'⟩] h := by
  subst hp hq hr; rfl

/-- The second stretch of host operations at the joined array: from the first stage's output and the column of
    inverse-square-root in-degrees, two rounds of normalised neighbourhood sums, joined to the input along the lanes. -/
theorem hostOps1_v48 (W : Valuation τ sig (Elt Ideal))
    (a0 : (⟨S50000x96, .f32⟩ : BufTy).Contents (Elt Ideal)) (a1 : (⟨S800000, .i32⟩ : BufTy).Contents (Elt Ideal)) (a2 : (⟨S800000, .i32⟩ : BufTy).Contents (Elt Ideal)) (a3 : (⟨S800000, .f32⟩ : BufTy).Contents (Elt Ideal)) (a5 : (⟨S96x96, .f32⟩ : BufTy).Contents (Elt Ideal)) (a6 : (⟨S96, .f32⟩ : BufTy).Contents (Elt Ideal)) (a7 : (⟨S96x96, .f32⟩ : BufTy).Contents (Elt Ideal)) (a8 : (⟨S96, .f32⟩ : BufTy).Contents (Elt Ideal)) (a9 : (⟨S96, .f32⟩ : BufTy).Contents (Elt Ideal)) (a10 : (⟨S96, .f32⟩ : BufTy).Contents (Elt Ideal))
    (hin : (W (Proc.devRef .tc main_v13) : (⟨S50000x96, .f32⟩ : BufTy).Contents (Elt Ideal))
      = Cert.ReferenceIdeal.Read.val_main_v41 a0 a5 a6 a7 a8 a9 a10)
    (h8 : (W (Proc.devRef .tc main_v8) : (⟨S50000x1, .f32⟩ : BufTy).Contents (Elt Ideal))
      = Cert.ReferenceIdeal.Read.val_main_v8 a2)
    (h1 : (W (Proc.devRef .tc main_arg1) : (⟨S800000, .i32⟩ : BufTy).Contents (Elt Ideal)) = a1)
    (h2 : (W (Proc.devRef .tc main_arg2) : (⟨S800000, .i32⟩ : BufTy).Contents (Elt Ideal)) = a2)
    (h3 : (W (Proc.devRef .tc main_arg3) : (⟨S800000, .f32⟩ : BufTy).Contents (Elt Ideal)) = a3) :
    (StableHlo.after (hostOps1 (F := Ideal)) W (Proc.devRef .tc main_v48) : (⟨S50000x288, .f32⟩ : BufTy).Contents (Elt Ideal))
      = Cert.ReferenceIdeal.Read.val_main_v76 a0 a1 a2 a3 a5 a6 a7 a8 a9 a10 := by
  simp only [after_cons, after_nil]
  simp (disch := decide) only [reshape_result_ne']
  rw [nary3_result_fn (x := main_v13) (a := main_v30) (b := main_v47) (y := main_v48) (g := fun p q r =>
    concatenate S50000x288 1 [⟨S50000x96, p⟩, ⟨S50000x96, q⟩, ⟨S50000x96, r⟩]
      concatenates_S50000x96_S50000x96_S50000x96_S50000x288_d1)]
  unfold Cert.ReferenceIdeal.Read.val_main_v76
  refine concat3_congr _ _ _ _ ?_ ?_ ?_
  · host_read
    exact hin
  · host_read
    rw [hin, h8, h1, h2, h3]
    rfl
  · host_read
    rw [hin, h8, h1, h2, h3]
    rfl

/-- The bias row `%arg12` as a `[1, 96]` array, read at an entry. -/
theorem hostOps1_v49 (W : Valuation τ sig (Elt Ideal)) (k : Fin 96) :
    (StableHlo.after (hostOps1 (F := Ideal)) W (Proc.devRef .tc main_v49) : (⟨S1x96, .f32⟩ : BufTy).Contents (Elt Ideal)) (ix2 (0 : Fin 1) k)
      = (W (Proc.devRef .tc main_arg12) : (⟨S96, .f32⟩ : BufTy).Contents (Elt Ideal)) (ix1 k) := by
  host_read
  exact shapeCast_a_1a_apply _ _ (0 : Fin 1) k

/-- The bias row `%arg13` as a `[1, 96]` array, read at an entry. -/
theorem hostOps1_v50 (W : Valuation τ sig (Elt Ideal)) (k : Fin 96) :
    (StableHlo.after (hostOps1 (F := Ideal)) W (Proc.devRef .tc main_v50) : (⟨S1x96, .f32⟩ : BufTy).Contents (Elt Ideal)) (ix2 (0 : Fin 1) k)
      = (W (Proc.devRef .tc main_arg13) : (⟨S96, .f32⟩ : BufTy).Contents (Elt Ideal)) (ix1 k) := by
  host_read
  exact shapeCast_a_1a_apply _ _ (0 : Fin 1) k

/-- The bias row `%arg14` as a `[1, 96]` array, read at an entry. -/
theorem hostOps1_v51 (W : Valuation τ sig (Elt Ideal)) (k : Fin 96) :
    (StableHlo.after (hostOps1 (F := Ideal)) W (Proc.devRef .tc main_v51) : (⟨S1x96, .f32⟩ : BufTy).Contents (Elt Ideal)) (ix2 (0 : Fin 1) k)
      = (W (Proc.devRef .tc main_arg14) : (⟨S96, .f32⟩ : BufTy).Contents (Elt Ideal)) (ix1 k) := by
  host_read
  exact shapeCast_a_1a_apply _ _ (0 : Fin 1) k

end Cert.KernelHost

end
-- ==== Proof.KernelHost2.lean ====
/-
  The host operations between the dense stages, read at a result buffer, on the extended reals: the stretch after the second stage.

  Between its dense stages the program computes, on whole arrays, the operations of the graph layers: the column of
  inverse-square-root in-degrees, a gather of rows by the source index of each edge, a product with the edge weights, a
  sum of the edge rows into their destination rows, products with the in-degree column, and the join of three such
  arrays along the lanes; at the end a gather of rows and the logarithm of the soft maximum. The statements read the
  contents after a stretch of these operations at one buffer, from any contents known at the buffers the stretch reads,
  and state that it is the reference's value of the same step. The gathers, the sums into rows and the joins are not
  opened: both sides hold the same operation on equal operands.
-/
import proofs.«105666_j32899449488058_1_alg».proof.Proof.Gen.KernelIdeal.Launch
import proofs.«105666_j32899449488058_1_alg».proof.Proof.RefRead2
import proofs.«105666_j32899449488058_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelHost

open Idealize.ShloMosaic Idealize.ShloMosaic.StableHlo Idealize.ShloMosaic.ValueIdx Idealize.SL.Sem
open Cert.KernelIdeal Cert.KernelIdeal.Gen

/-- Concatenating three arrays of one shape: equal operands give equal results. -/
private theorem concat3_congr {α : Type} (t : Shape) (ax : Fin t.rank) (s : Shape) {p q r p' q' r' : s.Idx → α}
    (h : Shape.Concatenates [s, s, s] t ax) (hp : p = p') (hq : q = q') (hr : r = r') :
    concatenate t ax [⟨s, p⟩, ⟨s, q⟩, ⟨s, r⟩] h = concatenate t ax [⟨s, p'⟩, ⟨s, q'⟩, ⟨s, r'⟩] h := by
  subst hp hq hr; rfl

set_option maxHeartbeats 1600000 in
/-- The third stretch of host operations at the joined array: the same two rounds of normalised neighbourhood sums,
    from the second stage's output. -/
theorem hostOps2_v87 (W : Valuation τ sig (Elt Ideal))
    (a0 : (⟨S50000x96, .f32⟩ : BufTy).Contents (Elt Ideal)) (a1 : (⟨S800000, .i32⟩ : BufTy).Contents (Elt Ideal)) (a2 : (⟨S800000, .i32⟩ : BufTy).Contents (Elt Ideal)) (a3 : (⟨S800000, .f32⟩ : BufTy).Contents (Elt Ideal)) (a5 : (⟨S96x96, .f32⟩ : BufTy).Contents (Elt Ideal)) (a6 : (⟨S96, .f32⟩ : BufTy).Contents (Elt Ideal)) (a7 : (⟨S96x96, .f32⟩ : BufTy).Contents (Elt Ideal)) (a8 : (⟨S96, .f32⟩ : BufTy).Contents (Elt Ideal)) (a9 : (⟨S96, .f32⟩ : BufTy).Contents (Elt Ideal)) (a10 : (⟨S96, .f32⟩ : BufTy).Contents (Elt Ideal)) (a11 : (⟨S288x96, .f32⟩ : BufTy).Contents (Elt Ideal)) (a12 : (⟨S96, .f32⟩ : BufTy).Contents (Elt Ideal)) (a13 : (⟨S96, .f32⟩ : BufTy).Contents (Elt Ideal)) (a14 : (⟨S96, .f32⟩ : BufTy).Contents (Elt Ideal))
    (hin : (W (Proc.devRef .tc main_v52) : (⟨S50000x96, .f32⟩ : BufTy).Contents (Elt Ideal))
      = Cert.ReferenceIdeal.Read.val_main_v105 a0 a1 a2 a3 a5 a6 a7 a8 a9 a10 a11 a12 a13 a14)
    (h8 : (W (Proc.devRef .tc main_v8) : (⟨S50000x1, .f32⟩ : BufTy).Contents (Elt Ideal))
      = Cert.ReferenceIdeal.Read.val_main_v8 a2)
    (h1 : (W (Proc.devRef .tc main_arg1) : (⟨S800000, .i32⟩ : BufTy).Contents (Elt Ideal)) = a1)
    (h2 : (W (Proc.devRef .tc main_arg2) : (⟨S800000, .i32⟩ : BufTy).Contents (Elt Ideal)) = a2)
    (h3 : (W (Proc.devRef .tc main_arg3) : (⟨S800000, .f32⟩ : BufTy).Contents (Elt Ideal)) = a3) :
    (StableHlo.after (hostOps2 (F := Ideal)) W (Proc.devRef .tc main_v87) : (⟨S50000x288, .f32⟩ : BufTy).Contents (Elt Ideal))
      = Cert.ReferenceIdeal.Read.val_main_v140 a0 a1 a2 a3 a5 a6 a7 a8 a9 a10 a11 a12 a13 a14 := by
  simp only [after_cons, after_nil]
  simp (disch := decide) only [reshape_result_ne']
  rw [nary3_result_fn (x := main_v52) (a := main_v69) (b := main_v86) (y := main_v87) (g := fun p q r =>
    concatenate S50000x288 1 [⟨S50000x96, p⟩, ⟨S50000x96, q⟩, ⟨S50000x96, r⟩]
      concatenates_S50000x96_S50000x96_S50000x96_S50000x288_d1)]
  unfold Cert.ReferenceIdeal.Read.val_main_v140
  refine concat3_congr _ _ _ _ ?_ ?_ ?_
  · host_read
    exact hin
  · host_read
    rw [hin, h8, h1, h2, h3]
    rfl
  · host_read
    rw [hin, h8, h1, h2, h3]
    rfl

/-- The bias row `%arg16` as a `[1, 96]` array, read at an entry. -/
theorem hostOps2_v88 (W : Valuation τ sig (Elt Ideal)) (k : Fin 96) :
    (StableHlo.after (hostOps2 (F := Ideal)) W (Proc.devRef .tc main_v88) : (⟨S1x96, .f32⟩ : BufTy).Contents (Elt Ideal)) (ix2 (0 : Fin 1) k)
      = (W (Proc.devRef .tc main_arg16) : (⟨S96, .f32⟩ : BufTy).Contents (Elt Ideal)) (ix1 k) := by
  host_read
  exact shapeCast_a_1a_apply _ _ (0 : Fin 1) k

/-- The bias row `%arg17` as a `[1, 96]` array, read at an entry. -/
theorem hostOps2_v89 (W : Valuation τ sig (Elt Ideal)) (k : Fin 96) :
    (StableHlo.after (hostOps2 (F := Ideal)) W (Proc.devRef .tc main_v89) : (⟨S1x96, .f32⟩ : BufTy).Contents (Elt Ideal)) (ix2 (0 : Fin 1) k)
      = (W (Proc.devRef .tc main_arg17) : (⟨S96, .f32⟩ : BufTy).Contents (Elt Ideal)) (ix1 k) := by
  host_read
  exact shapeCast_a_1a_apply _ _ (0 : Fin 1) k

/-- The bias row `%arg18` as a `[1, 96]` array, read at an entry. -/
theorem hostOps2_v90 (W : Valuation τ sig (Elt Ideal)) (k : Fin 96) :
    (StableHlo.after (hostOps2 (F := Ideal)) W (Proc.devRef .tc main_v90) : (⟨S1x96, .f32⟩ : BufTy).Contents (Elt Ideal)) (ix2 (0 : Fin 1) k)
      = (W (Proc.devRef .tc main_arg18) : (⟨S96, .f32⟩ : BufTy).Contents (Elt Ideal)) (ix1 k) := by
  host_read
  exact shapeCast_a_1a_apply _ _ (0 : Fin 1) k

end Cert.KernelHost

end
-- ==== Proof.KernelHost3.lean ====
/-
  The host operations between the dense stages, read at a result buffer, on the extended reals: the stretch after the third stage.

  Between its dense stages the program computes, on whole arrays, the operations of the graph layers: the column of
  inverse-square-root in-degrees, a gather of rows by the source index of each edge, a product with the edge weights, a
  sum of the edge rows into their destination rows, products with the in-degree column, and the join of three such
  arrays along the lanes; at the end a gather of rows and the logarithm of the soft maximum. The statements read the
  contents after a stretch of these operations at one buffer, from any contents known at the buffers the stretch reads,
  and state that it is the reference's value of the same step. The gathers, the sums into rows and the joins are not
  opened: both sides hold the same operation on equal operands.
-/
import proofs.«105666_j32899449488058_1_alg».proof.Proof.Gen.KernelIdeal.Launch
import proofs.«105666_j32899449488058_1_alg».proof.Proof.RefRead2
import proofs.«105666_j32899449488058_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelHost

open Idealize.ShloMosaic Idealize.ShloMosaic.StableHlo Idealize.ShloMosaic.ValueIdx Idealize.SL.Sem
open Cert.KernelIdeal Cert.KernelIdeal.Gen

/-- Concatenating three arrays of one shape: equal operands give equal results. -/
private theorem concat3_congr {α : Type} (t : Shape) (ax : Fin t.rank) (s : Shape) {p q r p' q' r' : s.Idx → α}
    (h : Shape.Concatenates [s, s, s] t ax) (hp : p = p') (hq : q = q') (hr : r = r') :
    concatenate t ax [⟨s, p⟩, ⟨s, q⟩, ⟨s, r⟩] h = concatenate t ax [⟨s, p'⟩, ⟨s, q'⟩, ⟨s, r'⟩] h := by
  subst hp hq hr; rfl

set_option maxHeartbeats 1600000 in
/-- The fourth stretch of host operations at the joined array: the same two rounds of normalised neighbourhood sums,
    from the third stage's output. -/
theorem hostOps3_v126 (W : Valuation τ sig (Elt Ideal))
    (a0 : (⟨S50000x96, .f32⟩ : BufTy).Contents (Elt Ideal)) (a1 : (⟨S800000, .i32⟩ : BufTy).Contents (Elt Ideal)) (a2 : (⟨S800000, .i32⟩ : BufTy).Contents (Elt Ideal)) (a3 : (⟨S800000, .f32⟩ : BufTy).Contents (Elt Ideal)) (a5 : (⟨S96x96, .f32⟩ : BufTy).Contents (Elt Ideal)) (a6 : (⟨S96, .f32⟩ : BufTy).Contents (Elt Ideal)) (a7 : (⟨S96x96, .f32⟩ : BufTy).Contents (Elt Ideal)) (a8 : (⟨S96, .f32⟩ : BufTy).Contents (Elt Ideal)) (a9 : (⟨S96, .f32⟩ : BufTy).Contents (Elt Ideal)) (a10 : (⟨S96, .f32⟩ : BufTy).Contents (Elt Ideal)) (a11 : (⟨S288x96, .f32⟩ : BufTy).Contents (Elt Ideal)) (a12 : (⟨S96, .f32⟩ : BufTy).Contents (Elt Ideal)) (a13 : (⟨S96, .f32⟩ : BufTy).Contents (Elt Ideal)) (a14 : (⟨S96, .f32⟩ : BufTy).Contents (Elt Ideal)) (a15 : (⟨S288x96, .f32⟩ : BufTy).Contents (Elt Ideal)) (a16 : (⟨S96, .f32⟩ : BufTy).Contents (Elt Ideal)) (a17 : (⟨S96, .f32⟩ : BufTy).Contents (Elt Ideal)) (a18 : (⟨S96, .f32⟩ : BufTy).Contents (Elt Ideal))
    (hin : (W (Proc.devRef .tc main_v91) : (⟨S50000x96, .f32⟩ : BufTy).Contents (Elt Ideal))
      = Cert.ReferenceIdeal.Read.val_main_v169 a0 a1 a2 a3 a5 a6 a7 a8 a9 a10 a11 a12 a13 a14 a15 a16 a17 a18)
    (h8 : (W (Proc.devRef .tc main_v8) : (⟨S50000x1, .f32⟩ : BufTy).Contents (Elt Ideal))
      = Cert.ReferenceIdeal.Read.val_main_v8 a2)
    (h1 : (W (Proc.devRef .tc main_arg1) : (⟨S800000, .i32⟩ : BufTy).Contents (Elt Ideal)) = a1)
    (h2 : (W (Proc.devRef .tc main_arg2) : (⟨S800000, .i32⟩ : BufTy).Contents (Elt Ideal)) = a2)
    (h3 : (W (Proc.devRef .tc main_arg3) : (⟨S800000, .f32⟩ : BufTy).Contents (Elt Ideal)) = a3) :
    (StableHlo.after (hostOps3 (F := Ideal)) W (Proc.devRef .tc main_v126) : (⟨S50000x288, .f32⟩ : BufTy).Contents (Elt Ideal))
      = Cert.ReferenceIdeal.Read.val_main_v204 a0 a1 a2 a3 a5 a6 a7 a8 a9 a10 a11 a12 a13 a14 a15 a16 a17 a18 := by
  simp only [after_cons, after_nil]
  simp (disch := decide) only [reshape_result_ne']
  rw [nary3_result_fn (x := main_v91) (a := main_v108) (b := main_v125) (y := main_v126) (g := fun p q r =>
    concatenate S50000x288 1 [⟨S50000x96, p⟩, ⟨S50000x96, q⟩, ⟨S50000x96, r⟩]
      concatenates_S50000x96_S50000x96_S50000x96_S50000x288_d1)]
  unfold Cert.ReferenceIdeal.Read.val_main_v204
  refine concat3_congr _ _ _ _ ?_ ?_ ?_
  · host_read
    exact hin
  · host_read
    rw [hin, h8, h1, h2, h3]
    rfl
  · host_read
    rw [hin, h8, h1, h2, h3]
    rfl

/-- The bias row `%arg20` as a `[1, 32]` array, read at an entry. -/
theorem hostOps3_v127 (W : Valuation τ sig (Elt Ideal)) (k : Fin 32) :
    (StableHlo.after (hostOps3 (F := Ideal)) W (Proc.devRef .tc main_v127) : (⟨S1x32, .f32⟩ : BufTy).Contents (Elt Ideal)) (ix2 (0 : Fin 1) k)
      = (W (Proc.devRef .tc main_arg20) : (⟨S32, .f32⟩ : BufTy).Contents (Elt Ideal)) (ix1 k) := by
  host_read
  exact shapeCast_a_1a_apply _ _ (0 : Fin 1) k

/-- The bias row `%arg21` as a `[1, 32]` array, read at an entry. -/
theorem hostOps3_v128 (W : Valuation τ sig (Elt Ideal)) (k : Fin 32) :
    (StableHlo.after (hostOps3 (F := Ideal)) W (Proc.devRef .tc main_v128) : (⟨S1x32, .f32⟩ : BufTy).Contents (Elt Ideal)) (ix2 (0 : Fin 1) k)
      = (W (Proc.devRef .tc main_arg21) : (⟨S32, .f32⟩ : BufTy).Contents (Elt Ideal)) (ix1 k) := by
  host_read
  exact shapeCast_a_1a_apply _ _ (0 : Fin 1) k

/-- The bias row `%arg22` as a `[1, 32]` array, read at an entry. -/
theorem hostOps3_v129 (W : Valuation τ sig (Elt Ideal)) (k : Fin 32) :
    (StableHlo.after (hostOps3 (F := Ideal)) W (Proc.devRef .tc main_v129) : (⟨S1x32, .f32⟩ : BufTy).Contents (Elt Ideal)) (ix2 (0 : Fin 1) k)
      = (W (Proc.devRef .tc main_arg22) : (⟨S32, .f32⟩ : BufTy).Contents (Elt Ideal)) (ix1 k) := by
  host_read
  exact shapeCast_a_1a_apply _ _ (0 : Fin 1) k

end Cert.KernelHost

end
-- ==== Proof.Bridge.lean ====
/-
  The idealized kernel's result is the reference's function of the arguments.

  The buffers' contents are followed through the entry function's chain, one item at a time, and at each item the
  buffer the next item reads is identified with a stage of the reference: after the first stretch of host operations
  the column of inverse-square-root in-degrees; after region 0 the input perceptron's normalised output (row by row both
  are the dense stage of `RowSpec`); after each further stretch the concatenation of the features with their two
  hops of neighbourhood sums (the stretch consists of the reference's own operations); after each further region that
  layer's dense stage; and after the last two stretches the log-softmax of the gathered rows.
-/
import proofs.«105666_j32899449488058_1_alg».proof.Proof.KernelIdealRun
import proofs.«105666_j32899449488058_1_alg».proof.Proof.KernelIdealVal0
import proofs.«105666_j32899449488058_1_alg».proof.Proof.KernelIdealVal1
import proofs.«105666_j32899449488058_1_alg».proof.Proof.KernelIdealVal2
import proofs.«105666_j32899449488058_1_alg».proof.Proof.KernelIdealVal3
import proofs.«105666_j32899449488058_1_alg».proof.Proof.RefRows
import proofs.«105666_j32899449488058_1_alg».proof.Proof.KernelHost
import proofs.«105666_j32899449488058_1_alg».proof.Proof.KernelHost1
import proofs.«105666_j32899449488058_1_alg».proof.Proof.KernelHost2
import proofs.«105666_j32899449488058_1_alg».proof.Proof.KernelHost3
set_option maxRecDepth 16384

noncomputable section

namespace Cert.KernelIdeal.Gen

open Idealize.ShloMosaic Idealize.ShloMosaic.TcCoe Idealize.ShloMosaic.ValueIdx Idealize.SL.Sem
open Cert.RowSpec

variable (m : (ℓ : Loc nD τ sig) → Buf (Elt Ideal) ℓ) (ρ : Dev nD → PrngReg) (c : Dev nD)

abbrev a0 : (⟨S50000x96, .f32⟩ : BufTy).Contents (Elt Ideal) := m ((c : Thread nD τ).loc main_arg0)
abbrev a1 : (⟨S800000, .i32⟩ : BufTy).Contents (Elt Ideal) := m ((c : Thread nD τ).loc main_arg1)
abbrev a2 : (⟨S800000, .i32⟩ : BufTy).Contents (Elt Ideal) := m ((c : Thread nD τ).loc main_arg2)
abbrev a3 : (⟨S800000, .f32⟩ : BufTy).Contents (Elt Ideal) := m ((c : Thread nD τ).loc main_arg3)
abbrev a4 : (⟨S10000, .i32⟩ : BufTy).Contents (Elt Ideal) := m ((c : Thread nD τ).loc main_arg4)
abbrev a5 : (⟨S96x96, .f32⟩ : BufTy).Contents (Elt Ideal) := m ((c : Thread nD τ).loc main_arg5)
abbrev a6 : (⟨S96, .f32⟩ : BufTy).Contents (Elt Ideal) := m ((c : Thread nD τ).loc main_arg6)
abbrev a7 : (⟨S96x96, .f32⟩ : BufTy).Contents (Elt Ideal) := m ((c : Thread nD τ).loc main_arg7)
abbrev a8 : (⟨S96, .f32⟩ : BufTy).Contents (Elt Ideal) := m ((c : Thread nD τ).loc main_arg8)
abbrev a9 : (⟨S96, .f32⟩ : BufTy).Contents (Elt Ideal) := m ((c : Thread nD τ).loc main_arg9)
abbrev a10 : (⟨S96, .f32⟩ : BufTy).Contents (Elt Ideal) := m ((c : Thread nD τ).loc main_arg10)
abbrev a11 : (⟨S288x96, .f32⟩ : BufTy).Contents (Elt Ideal) := m ((c : Thread nD τ).loc main_arg11)
abbrev a12 : (⟨S96, .f32⟩ : BufTy).Contents (Elt Ideal) := m ((c : Thread nD τ).loc main_arg12)
abbrev a13 : (⟨S96, .f32⟩ : BufTy).Contents (Elt Ideal) := m ((c : Thread nD τ).loc main_arg13)
abbrev a14 : (⟨S96, .f32⟩ : BufTy).Contents (Elt Ideal) := m ((c : Thread nD τ).loc main_arg14)
abbrev a15 : (⟨S288x96, .f32⟩ : BufTy).Contents (Elt Ideal) := m ((c : Thread nD τ).loc main_arg15)
abbrev a16 : (⟨S96, .f32⟩ : BufTy).Contents (Elt Ideal) := m ((c : Thread nD τ).loc main_arg16)
abbrev a17 : (⟨S96, .f32⟩ : BufTy).Contents (Elt Ideal) := m ((c : Thread nD τ).loc main_arg17)
abbrev a18 : (⟨S96, .f32⟩ : BufTy).Contents (Elt Ideal) := m ((c : Thread nD τ).loc main_arg18)
abbrev a19 : (⟨S288x32, .f32⟩ : BufTy).Contents (Elt Ideal) := m ((c : Thread nD τ).loc main_arg19)
abbrev a20 : (⟨S32, .f32⟩ : BufTy).Contents (Elt Ideal) := m ((c : Thread nD τ).loc main_arg20)
abbrev a21 : (⟨S32, .f32⟩ : BufTy).Contents (Elt Ideal) := m ((c : Thread nD τ).loc main_arg21)
abbrev a22 : (⟨S32, .f32⟩ : BufTy).Contents (Elt Ideal) := m ((c : Thread nD τ).loc main_arg22)

/-! ## After the first stretch of host operations -/

theorem e8_1 : (B1 m ρ c (Proc.devRef .tc main_v8) : (⟨S50000x1, .f32⟩ : BufTy).Contents (Elt Ideal)) = Cert.ReferenceIdeal.Read.val_main_v8 (F := Ideal) (a2 m c) :=
  Cert.KernelHost.hostOps0_v8 (B0 m ρ c) (a2 m c) rfl
theorem r9_1 (k : Fin 96) : (B1 m ρ c (Proc.devRef .tc main_v9) : (⟨S1x96, .f32⟩ : BufTy).Contents (Elt Ideal)) (ix2 (0 : Fin 1) k) = a6 m c (ix1 k) :=
  Cert.KernelHost.hostOps0_v9 (B0 m ρ c) k
theorem r10_1 (k : Fin 96) : (B1 m ρ c (Proc.devRef .tc main_v10) : (⟨S1x96, .f32⟩ : BufTy).Contents (Elt Ideal)) (ix2 (0 : Fin 1) k) = a8 m c (ix1 k) :=
  Cert.KernelHost.hostOps0_v10 (B0 m ρ c) k
theorem r11_1 (k : Fin 96) : (B1 m ρ c (Proc.devRef .tc main_v11) : (⟨S1x96, .f32⟩ : BufTy).Contents (Elt Ideal)) (ix2 (0 : Fin 1) k) = a9 m c (ix1 k) :=
  Cert.KernelHost.hostOps0_v11 (B0 m ρ c) k
theorem r12_1 (k : Fin 96) : (B1 m ρ c (Proc.devRef .tc main_v12) : (⟨S1x96, .f32⟩ : BufTy).Contents (Elt Ideal)) (ix2 (0 : Fin 1) k) = a10 m c (ix1 k) :=
  Cert.KernelHost.hostOps0_v12 (B0 m ρ c) k

/-! ## After region 0: the input perceptron's normalised output -/

set_option maxHeartbeats 1000000 in
theorem h13 : (B2 m ρ c (Proc.devRef .tc main_v13) : (⟨S50000x96, .f32⟩ : BufTy).Contents (Elt Ideal)) = Cert.ReferenceIdeal.Read.val_main_v41 (F := Ideal) (a0 m c) (a5 m c) (a6 m c) (a7 m c) (a8 m c) (a9 m c) (a10 m c) := by
  refine ((B2_arr m ρ c 7).trans (final0 (A1 m ρ) c)).trans ?_
  funext i
  obtain ⟨n, q, rfl⟩ : ∃ (n : Fin 50000) (q : Fin 96), i = ix2 n q := ⟨i 0, i 1, eq_ix2 i⟩
  refine Eq.trans ?_ (Cert.RefRows.ref0_at (a0 m c) (a5 m c) (a6 m c) (a7 m c) (a8 m c) (a9 m c) (a10 m c) n q).symm
  unfold G0
  have e0 : (A1 m ρ c main_arg0 : (⟨S50000x96, .f32⟩ : BufTy).Contents (Elt Ideal)) = a0 m c := (StableHlo.after_of_writes_sub hostOps0 _ hostOps0_writes (by decide : main_arg0 ∉ hostOps0_W))
  have e5 : (A1 m ρ c main_arg5 : (⟨S96x96, .f32⟩ : BufTy).Contents (Elt Ideal)) = a5 m c := (StableHlo.after_of_writes_sub hostOps0 _ hostOps0_writes (by decide : main_arg5 ∉ hostOps0_W))
  have e7 : (A1 m ρ c main_arg7 : (⟨S96x96, .f32⟩ : BufTy).Contents (Elt Ideal)) = a7 m c := (StableHlo.after_of_writes_sub hostOps0 _ hostOps0_writes (by decide : main_arg7 ∉ hostOps0_W))
  have e9 : (fun w : Fin 96 => (A1 m ρ c main_v9 : (⟨S1x96, .f32⟩ : BufTy).Contents (Elt Ideal)) (ix2 (0 : Fin 1) w)) = fun w => a6 m c (ix1 w) := funext (r9_1 m ρ c)
  have e10 : (fun k : Fin 96 => (A1 m ρ c main_v10 : (⟨S1x96, .f32⟩ : BufTy).Contents (Elt Ideal)) (ix2 (0 : Fin 1) k)) = fun k => a8 m c (ix1 k) := funext (r10_1 m ρ c)
  have e11 : (fun k : Fin 96 => (A1 m ρ c main_v11 : (⟨S1x96, .f32⟩ : BufTy).Contents (Elt Ideal)) (ix2 (0 : Fin 1) k)) = fun k => a9 m c (ix1 k) := funext (r11_1 m ρ c)
  have e12 : (fun k : Fin 96 => (A1 m ρ c main_v12 : (⟨S1x96, .f32⟩ : BufTy).Contents (Elt Ideal)) (ix2 (0 : Fin 1) k)) = fun k => a10 m c (ix1 k) := funext (r12_1 m ρ c)
  show ln c96 (aff (fun w : Fin 96 => relu (aff (fun u : Fin 96 => (A1 m ρ c main_arg0 : (⟨S50000x96, .f32⟩ : BufTy).Contents (Elt Ideal)) (ix2 n u)) (fun u w => (A1 m ρ c main_arg5 : (⟨S96x96, .f32⟩ : BufTy).Contents (Elt Ideal)) (ix2 u w)) (fun w => (A1 m ρ c main_v9 : (⟨S1x96, .f32⟩ : BufTy).Contents (Elt Ideal)) (ix2 (0 : Fin 1) w)) w)) (fun w k => (A1 m ρ c main_arg7 : (⟨S96x96, .f32⟩ : BufTy).Contents (Elt Ideal)) (ix2 w k)) (fun k => (A1 m ρ c main_v10 : (⟨S1x96, .f32⟩ : BufTy).Contents (Elt Ideal)) (ix2 (0 : Fin 1) k))) (fun k => (A1 m ρ c main_v11 : (⟨S1x96, .f32⟩ : BufTy).Contents (Elt Ideal)) (ix2 (0 : Fin 1) k)) (fun k => (A1 m ρ c main_v12 : (⟨S1x96, .f32⟩ : BufTy).Contents (Elt Ideal)) (ix2 (0 : Fin 1) k)) q = _
  rw [e0, e5, e7, e9, e10, e11, e12]

/-! ## Layer 1: the stretch of host operations before region 1, then the region -/

theorem e8_2 : (B2 m ρ c (Proc.devRef .tc main_v8) : (⟨S50000x1, .f32⟩ : BufTy).Contents (Elt Ideal)) = Cert.ReferenceIdeal.Read.val_main_v8 (F := Ideal) (a2 m c) :=
  (B2_keep m ρ c main_v8 (by decide)).trans (e8_1 m ρ c)

set_option maxHeartbeats 1000000 in
theorem h48 : (B3 m ρ c (Proc.devRef .tc main_v48) : (⟨S50000x288, .f32⟩ : BufTy).Contents (Elt Ideal)) = Cert.ReferenceIdeal.Read.val_main_v76 (F := Ideal) (a0 m c) (a1 m c) (a2 m c) (a3 m c) (a5 m c) (a6 m c) (a7 m c) (a8 m c) (a9 m c) (a10 m c) :=
  Cert.KernelHost.hostOps1_v48 (B2 m ρ c) (a0 m c) (a1 m c) (a2 m c) (a3 m c) (a5 m c) (a6 m c) (a7 m c) (a8 m c) (a9 m c) (a10 m c) (h13 m ρ c) (e8_2 m ρ c) ((B2_keep m ρ c main_arg1 (by decide)).trans (StableHlo.after_of_writes_sub hostOps0 _ hostOps0_writes (by decide : main_arg1 ∉ hostOps0_W))) ((B2_keep m ρ c main_arg2 (by decide)).trans (StableHlo.after_of_writes_sub hostOps0 _ hostOps0_writes (by decide : main_arg2 ∉ hostOps0_W))) ((B2_keep m ρ c main_arg3 (by decide)).trans (StableHlo.after_of_writes_sub hostOps0 _ hostOps0_writes (by decide : main_arg3 ∉ hostOps0_W)))
theorem r49_3 (k : Fin 96) : (B3 m ρ c (Proc.devRef .tc main_v49) : (⟨S1x96, .f32⟩ : BufTy).Contents (Elt Ideal)) (ix2 (0 : Fin 1) k) = a12 m c (ix1 k) :=
  (Cert.KernelHost.hostOps1_v49 (B2 m ρ c) k).trans (congrFun (((B2_keep m ρ c main_arg12 (by decide)).trans (StableHlo.after_of_writes_sub hostOps0 _ hostOps0_writes (by decide : main_arg12 ∉ hostOps0_W))) : (B2 m ρ c (Proc.devRef .tc main_arg12) : (⟨S96, .f32⟩ : BufTy).Contents (Elt Ideal)) = a12 m c) (ix1 k))
theorem r50_3 (k : Fin 96) : (B3 m ρ c (Proc.devRef .tc main_v50) : (⟨S1x96, .f32⟩ : BufTy).Contents (Elt Ideal)) (ix2 (0 : Fin 1) k) = a13 m c (ix1 k) :=
  (Cert.KernelHost.hostOps1_v50 (B2 m ρ c) k).trans (congrFun (((B2_keep m ρ c main_arg13 (by decide)).trans (StableHlo.after_of_writes_sub hostOps0 _ hostOps0_writes (by decide : main_arg13 ∉ hostOps0_W))) : (B2 m ρ c (Proc.devRef .tc main_arg13) : (⟨S96, .f32⟩ : BufTy).Contents (Elt Ideal)) = a13 m c) (ix1 k))
theorem r51_3 (k : Fin 96) : (B3 m ρ c (Proc.devRef .tc main_v51) : (⟨S1x96, .f32⟩ : BufTy).Contents (Elt Ideal)) (ix2 (0 : Fin 1) k) = a14 m c (ix1 k) :=
  (Cert.KernelHost.hostOps1_v51 (B2 m ρ c) k).trans (congrFun (((B2_keep m ρ c main_arg14 (by decide)).trans (StableHlo.after_of_writes_sub hostOps0 _ hostOps0_writes (by decide : main_arg14 ∉ hostOps0_W))) : (B2 m ρ c (Proc.devRef .tc main_arg14) : (⟨S96, .f32⟩ : BufTy).Contents (Elt Ideal)) = a14 m c) (ix1 k))

set_option maxHeartbeats 1000000 in
theorem h52 : (B4 m ρ c (Proc.devRef .tc main_v52) : (⟨S50000x96, .f32⟩ : BufTy).Contents (Elt Ideal)) = Cert.ReferenceIdeal.Read.val_main_v105 (F := Ideal) (a0 m c) (a1 m c) (a2 m c) (a3 m c) (a5 m c) (a6 m c) (a7 m c) (a8 m c) (a9 m c) (a10 m c) (a11 m c) (a12 m c) (a13 m c) (a14 m c) := by
  refine ((B4_arr m ρ c 5).trans (final1 (A3 m ρ) c)).trans ?_
  funext i
  obtain ⟨n, q, rfl⟩ : ∃ (n : Fin 50000) (q : Fin 96), i = ix2 n q := ⟨i 0, i 1, eq_ix2 i⟩
  refine Eq.trans ?_ (Cert.RefRows.ref1_at (a0 m c) (a1 m c) (a2 m c) (a3 m c) (a5 m c) (a6 m c) (a7 m c) (a8 m c) (a9 m c) (a10 m c) (a11 m c) (a12 m c) (a13 m c) (a14 m c) n q).symm
  unfold G1
  have ec : (A3 m ρ c main_v48 : (⟨S50000x288, .f32⟩ : BufTy).Contents (Elt Ideal)) = Cert.ReferenceIdeal.Read.val_main_v76 (F := Ideal) (a0 m c) (a1 m c) (a2 m c) (a3 m c) (a5 m c) (a6 m c) (a7 m c) (a8 m c) (a9 m c) (a10 m c) := h48 m ρ c
  have ew : (A3 m ρ c main_arg11 : (⟨S288x96, .f32⟩ : BufTy).Contents (Elt Ideal)) = a11 m c := ((StableHlo.after_of_writes_sub hostOps1 _ hostOps1_writes (by decide : main_arg11 ∉ hostOps1_W)).trans ((B2_keep m ρ c main_arg11 (by decide)).trans (StableHlo.after_of_writes_sub hostOps0 _ hostOps0_writes (by decide : main_arg11 ∉ hostOps0_W))))
  have er0 : (fun k : Fin 96 => (A3 m ρ c main_v49 : (⟨S1x96, .f32⟩ : BufTy).Contents (Elt Ideal)) (ix2 (0 : Fin 1) k)) = fun k => a12 m c (ix1 k) := funext (r49_3 m ρ c)
  have er1 : (fun k : Fin 96 => (A3 m ρ c main_v50 : (⟨S1x96, .f32⟩ : BufTy).Contents (Elt Ideal)) (ix2 (0 : Fin 1) k)) = fun k => a13 m c (ix1 k) := funext (r50_3 m ρ c)
  have er2 : (fun k : Fin 96 => (A3 m ρ c main_v51 : (⟨S1x96, .f32⟩ : BufTy).Contents (Elt Ideal)) (ix2 (0 : Fin 1) k)) = fun k => a14 m c (ix1 k) := funext (r51_3 m ρ c)
  show relu (ln c96 (aff (fun w : Fin 288 => (A3 m ρ c main_v48 : (⟨S50000x288, .f32⟩ : BufTy).Contents (Elt Ideal)) (ix2 n w)) (fun w k => (A3 m ρ c main_arg11 : (⟨S288x96, .f32⟩ : BufTy).Contents (Elt Ideal)) (ix2 w k)) (fun k : Fin 96 => (A3 m ρ c main_v49 : (⟨S1x96, .f32⟩ : BufTy).Contents (Elt Ideal)) (ix2 (0 : Fin 1) k))) (fun k => (A3 m ρ c main_v50 : (⟨S1x96, .f32⟩ : BufTy).Contents (Elt Ideal)) (ix2 (0 : Fin 1) k)) (fun k => (A3 m ρ c main_v51 : (⟨S1x96, .f32⟩ : BufTy).Contents (Elt Ideal)) (ix2 (0 : Fin 1) k)) q) = _
  rw [ec, ew, er0, er1, er2]

/-! ## Layer 2: the stretch of host operations before region 2, then the region -/

theorem e8_4 : (B4 m ρ c (Proc.devRef .tc main_v8) : (⟨S50000x1, .f32⟩ : BufTy).Contents (Elt Ideal)) = Cert.ReferenceIdeal.Read.val_main_v8 (F := Ideal) (a2 m c) :=
  ((B4_keep m ρ c main_v8 (by decide)).trans ((StableHlo.after_of_writes_sub hostOps1 _ hostOps1_writes (by decide : main_v8 ∉ hostOps1_W)).trans (B2_keep m ρ c main_v8 (by decide)))).trans (e8_1 m ρ c)

set_option maxHeartbeats 1000000 in
theorem h87 : (B5 m ρ c (Proc.devRef .tc main_v87) : (⟨S50000x288, .f32⟩ : BufTy).Contents (Elt Ideal)) = Cert.ReferenceIdeal.Read.val_main_v140 (F := Ideal) (a0 m c) (a1 m c) (a2 m c) (a3 m c) (a5 m c) (a6 m c) (a7 m c) (a8 m c) (a9 m c) (a10 m c) (a11 m c) (a12 m c) (a13 m c) (a14 m c) :=
  Cert.KernelHost.hostOps2_v87 (B4 m ρ c) (a0 m c) (a1 m c) (a2 m c) (a3 m c) (a5 m c) (a6 m c) (a7 m c) (a8 m c) (a9 m c) (a10 m c) (a11 m c) (a12 m c) (a13 m c) (a14 m c) (h52 m ρ c) (e8_4 m ρ c) ((B4_keep m ρ c main_arg1 (by decide)).trans ((StableHlo.after_of_writes_sub hostOps1 _ hostOps1_writes (by decide : main_arg1 ∉ hostOps1_W)).trans ((B2_keep m ρ c main_arg1 (by decide)).trans (StableHlo.after_of_writes_sub hostOps0 _ hostOps0_writes (by decide : main_arg1 ∉ hostOps0_W))))) ((B4_keep m ρ c main_arg2 (by decide)).trans ((StableHlo.after_of_writes_sub hostOps1 _ hostOps1_writes (by decide : main_arg2 ∉ hostOps1_W)).trans ((B2_keep m ρ c main_arg2 (by decide)).trans (StableHlo.after_of_writes_sub hostOps0 _ hostOps0_writes (by decide : main_arg2 ∉ hostOps0_W))))) ((B4_keep m ρ c main_arg3 (by decide)).trans ((StableHlo.after_of_writes_sub hostOps1 _ hostOps1_writes (by decide : main_arg3 ∉ hostOps1_W)).trans ((B2_keep m ρ c main_arg3 (by decide)).trans (StableHlo.after_of_writes_sub hostOps0 _ hostOps0_writes (by decide : main_arg3 ∉ hostOps0_W)))))
theorem r88_5 (k : Fin 96) : (B5 m ρ c (Proc.devRef .tc main_v88) : (⟨S1x96, .f32⟩ : BufTy).Contents (Elt Ideal)) (ix2 (0 : Fin 1) k) = a16 m c (ix1 k) :=
  (Cert.KernelHost.hostOps2_v88 (B4 m ρ c) k).trans (congrFun (((B4_keep m ρ c main_arg16 (by decide)).trans ((StableHlo.after_of_writes_sub hostOps1 _ hostOps1_writes (by decide : main_arg16 ∉ hostOps1_W)).trans ((B2_keep m ρ c main_arg16 (by decide)).trans (StableHlo.after_of_writes_sub hostOps0 _ hostOps0_writes (by decide : main_arg16 ∉ hostOps0_W))))) : (B4 m ρ c (Proc.devRef .tc main_arg16) : (⟨S96, .f32⟩ : BufTy).Contents (Elt Ideal)) = a16 m c) (ix1 k))
theorem r89_5 (k : Fin 96) : (B5 m ρ c (Proc.devRef .tc main_v89) : (⟨S1x96, .f32⟩ : BufTy).Contents (Elt Ideal)) (ix2 (0 : Fin 1) k) = a17 m c (ix1 k) :=
  (Cert.KernelHost.hostOps2_v89 (B4 m ρ c) k).trans (congrFun (((B4_keep m ρ c main_arg17 (by decide)).trans ((StableHlo.after_of_writes_sub hostOps1 _ hostOps1_writes (by decide : main_arg17 ∉ hostOps1_W)).trans ((B2_keep m ρ c main_arg17 (by decide)).trans (StableHlo.after_of_writes_sub hostOps0 _ hostOps0_writes (by decide : main_arg17 ∉ hostOps0_W))))) : (B4 m ρ c (Proc.devRef .tc main_arg17) : (⟨S96, .f32⟩ : BufTy).Contents (Elt Ideal)) = a17 m c) (ix1 k))
theorem r90_5 (k : Fin 96) : (B5 m ρ c (Proc.devRef .tc main_v90) : (⟨S1x96, .f32⟩ : BufTy).Contents (Elt Ideal)) (ix2 (0 : Fin 1) k) = a18 m c (ix1 k) :=
  (Cert.KernelHost.hostOps2_v90 (B4 m ρ c) k).trans (congrFun (((B4_keep m ρ c main_arg18 (by decide)).trans ((StableHlo.after_of_writes_sub hostOps1 _ hostOps1_writes (by decide : main_arg18 ∉ hostOps1_W)).trans ((B2_keep m ρ c main_arg18 (by decide)).trans (StableHlo.after_of_writes_sub hostOps0 _ hostOps0_writes (by decide : main_arg18 ∉ hostOps0_W))))) : (B4 m ρ c (Proc.devRef .tc main_arg18) : (⟨S96, .f32⟩ : BufTy).Contents (Elt Ideal)) = a18 m c) (ix1 k))

set_option maxHeartbeats 1000000 in
theorem h91 : (B6 m ρ c (Proc.devRef .tc main_v91) : (⟨S50000x96, .f32⟩ : BufTy).Contents (Elt Ideal)) = Cert.ReferenceIdeal.Read.val_main_v169 (F := Ideal) (a0 m c) (a1 m c) (a2 m c) (a3 m c) (a5 m c) (a6 m c) (a7 m c) (a8 m c) (a9 m c) (a10 m c) (a11 m c) (a12 m c) (a13 m c) (a14 m c) (a15 m c) (a16 m c) (a17 m c) (a18 m c) := by
  refine ((B6_arr m ρ c 5).trans (final2 (A5 m ρ) c)).trans ?_
  funext i
  obtain ⟨n, q, rfl⟩ : ∃ (n : Fin 50000) (q : Fin 96), i = ix2 n q := ⟨i 0, i 1, eq_ix2 i⟩
  refine Eq.trans ?_ (Cert.RefRows.ref2_at (a0 m c) (a1 m c) (a2 m c) (a3 m c) (a5 m c) (a6 m c) (a7 m c) (a8 m c) (a9 m c) (a10 m c) (a11 m c) (a12 m c) (a13 m c) (a14 m c) (a15 m c) (a16 m c) (a17 m c) (a18 m c) n q).symm
  unfold G2
  have ec : (A5 m ρ c main_v87 : (⟨S50000x288, .f32⟩ : BufTy).Contents (Elt Ideal)) = Cert.ReferenceIdeal.Read.val_main_v140 (F := Ideal) (a0 m c) (a1 m c) (a2 m c) (a3 m c) (a5 m c) (a6 m c) (a7 m c) (a8 m c) (a9 m c) (a10 m c) (a11 m c) (a12 m c) (a13 m c) (a14 m c) := h87 m ρ c
  have ew : (A5 m ρ c main_arg15 : (⟨S288x96, .f32⟩ : BufTy).Contents (Elt Ideal)) = a15 m c := ((StableHlo.after_of_writes_sub hostOps2 _ hostOps2_writes (by decide : main_arg15 ∉ hostOps2_W)).trans ((B4_keep m ρ c main_arg15 (by decide)).trans ((StableHlo.after_of_writes_sub hostOps1 _ hostOps1_writes (by decide : main_arg15 ∉ hostOps1_W)).trans ((B2_keep m ρ c main_arg15 (by decide)).trans (StableHlo.after_of_writes_sub hostOps0 _ hostOps0_writes (by decide : main_arg15 ∉ hostOps0_W))))))
  have er0 : (fun k : Fin 96 => (A5 m ρ c main_v88 : (⟨S1x96, .f32⟩ : BufTy).Contents (Elt Ideal)) (ix2 (0 : Fin 1) k)) = fun k => a16 m c (ix1 k) := funext (r88_5 m ρ c)
  have er1 : (fun k : Fin 96 => (A5 m ρ c main_v89 : (⟨S1x96, .f32⟩ : BufTy).Contents (Elt Ideal)) (ix2 (0 : Fin 1) k)) = fun k => a17 m c (ix1 k) := funext (r89_5 m ρ c)
  have er2 : (fun k : Fin 96 => (A5 m ρ c main_v90 : (⟨S1x96, .f32⟩ : BufTy).Contents (Elt Ideal)) (ix2 (0 : Fin 1) k)) = fun k => a18 m c (ix1 k) := funext (r90_5 m ρ c)
  show relu (ln c96 (aff (fun w : Fin 288 => (A5 m ρ c main_v87 : (⟨S50000x288, .f32⟩ : BufTy).Contents (Elt Ideal)) (ix2 n w)) (fun w k => (A5 m ρ c main_arg15 : (⟨S288x96, .f32⟩ : BufTy).Contents (Elt Ideal)) (ix2 w k)) (fun k : Fin 96 => (A5 m ρ c main_v88 : (⟨S1x96, .f32⟩ : BufTy).Contents (Elt Ideal)) (ix2 (0 : Fin 1) k))) (fun k => (A5 m ρ c main_v89 : (⟨S1x96, .f32⟩ : BufTy).Contents (Elt Ideal)) (ix2 (0 : Fin 1) k)) (fun k => (A5 m ρ c main_v90 : (⟨S1x96, .f32⟩ : BufTy).Contents (Elt Ideal)) (ix2 (0 : Fin 1) k)) q) = _
  rw [ec, ew, er0, er1, er2]

/-! ## Layer 3: the stretch of host operations before region 3, then the region -/

theorem e8_6 : (B6 m ρ c (Proc.devRef .tc main_v8) : (⟨S50000x1, .f32⟩ : BufTy).Contents (Elt Ideal)) = Cert.ReferenceIdeal.Read.val_main_v8 (F := Ideal) (a2 m c) :=
  ((B6_keep m ρ c main_v8 (by decide)).trans ((StableHlo.after_of_writes_sub hostOps2 _ hostOps2_writes (by decide : main_v8 ∉ hostOps2_W)).trans ((B4_keep m ρ c main_v8 (by decide)).trans ((StableHlo.after_of_writes_sub hostOps1 _ hostOps1_writes (by decide : main_v8 ∉ hostOps1_W)).trans (B2_keep m ρ c main_v8 (by decide)))))).trans (e8_1 m ρ c)

set_option maxHeartbeats 1000000 in
theorem h126 : (B7 m ρ c (Proc.devRef .tc main_v126) : (⟨S50000x288, .f32⟩ : BufTy).Contents (Elt Ideal)) = Cert.ReferenceIdeal.Read.val_main_v204 (F := Ideal) (a0 m c) (a1 m c) (a2 m c) (a3 m c) (a5 m c) (a6 m c) (a7 m c) (a8 m c) (a9 m c) (a10 m c) (a11 m c) (a12 m c) (a13 m c) (a14 m c) (a15 m c) (a16 m c) (a17 m c) (a18 m c) :=
  Cert.KernelHost.hostOps3_v126 (B6 m ρ c) (a0 m c) (a1 m c) (a2 m c) (a3 m c) (a5 m c) (a6 m c) (a7 m c) (a8 m c) (a9 m c) (a10 m c) (a11 m c) (a12 m c) (a13 m c) (a14 m c) (a15 m c) (a16 m c) (a17 m c) (a18 m c) (h91 m ρ c) (e8_6 m ρ c) ((B6_keep m ρ c main_arg1 (by decide)).trans ((StableHlo.after_of_writes_sub hostOps2 _ hostOps2_writes (by decide : main_arg1 ∉ hostOps2_W)).trans ((B4_keep m ρ c main_arg1 (by decide)).trans ((StableHlo.after_of_writes_sub hostOps1 _ hostOps1_writes (by decide : main_arg1 ∉ hostOps1_W)).trans ((B2_keep m ρ c main_arg1 (by decide)).trans (StableHlo.after_of_writes_sub hostOps0 _ hostOps0_writes (by decide : main_arg1 ∉ hostOps0_W))))))) ((B6_keep m ρ c main_arg2 (by decide)).trans ((StableHlo.after_of_writes_sub hostOps2 _ hostOps2_writes (by decide : main_arg2 ∉ hostOps2_W)).trans ((B4_keep m ρ c main_arg2 (by decide)).trans ((StableHlo.after_of_writes_sub hostOps1 _ hostOps1_writes (by decide : main_arg2 ∉ hostOps1_W)).trans ((B2_keep m ρ c main_arg2 (by decide)).trans (StableHlo.after_of_writes_sub hostOps0 _ hostOps0_writes (by decide : main_arg2 ∉ hostOps0_W))))))) ((B6_keep m ρ c main_arg3 (by decide)).trans ((StableHlo.after_of_writes_sub hostOps2 _ hostOps2_writes (by decide : main_arg3 ∉ hostOps2_W)).trans ((B4_keep m ρ c main_arg3 (by decide)).trans ((StableHlo.after_of_writes_sub hostOps1 _ hostOps1_writes (by decide : main_arg3 ∉ hostOps1_W)).trans ((B2_keep m ρ c main_arg3 (by decide)).trans (StableHlo.after_of_writes_sub hostOps0 _ hostOps0_writes (by decide : main_arg3 ∉ hostOps0_W)))))))
theorem r127_7 (k : Fin 32) : (B7 m ρ c (Proc.devRef .tc main_v127) : (⟨S1x32, .f32⟩ : BufTy).Contents (Elt Ideal)) (ix2 (0 : Fin 1) k) = a20 m c (ix1 k) :=
  (Cert.KernelHost.hostOps3_v127 (B6 m ρ c) k).trans (congrFun (((B6_keep m ρ c main_arg20 (by decide)).trans ((StableHlo.after_of_writes_sub hostOps2 _ hostOps2_writes (by decide : main_arg20 ∉ hostOps2_W)).trans ((B4_keep m ρ c main_arg20 (by decide)).trans ((StableHlo.after_of_writes_sub hostOps1 _ hostOps1_writes (by decide : main_arg20 ∉ hostOps1_W)).trans ((B2_keep m ρ c main_arg20 (by decide)).trans (StableHlo.after_of_writes_sub hostOps0 _ hostOps0_writes (by decide : main_arg20 ∉ hostOps0_W))))))) : (B6 m ρ c (Proc.devRef .tc main_arg20) : (⟨S32, .f32⟩ : BufTy).Contents (Elt Ideal)) = a20 m c) (ix1 k))
theorem r128_7 (k : Fin 32) : (B7 m ρ c (Proc.devRef .tc main_v128) : (⟨S1x32, .f32⟩ : BufTy).Contents (Elt Ideal)) (ix2 (0 : Fin 1) k) = a21 m c (ix1 k) :=
  (Cert.KernelHost.hostOps3_v128 (B6 m ρ c) k).trans (congrFun (((B6_keep m ρ c main_arg21 (by decide)).trans ((StableHlo.after_of_writes_sub hostOps2 _ hostOps2_writes (by decide : main_arg21 ∉ hostOps2_W)).trans ((B4_keep m ρ c main_arg21 (by decide)).trans ((StableHlo.after_of_writes_sub hostOps1 _ hostOps1_writes (by decide : main_arg21 ∉ hostOps1_W)).trans ((B2_keep m ρ c main_arg21 (by decide)).trans (StableHlo.after_of_writes_sub hostOps0 _ hostOps0_writes (by decide : main_arg21 ∉ hostOps0_W))))))) : (B6 m ρ c (Proc.devRef .tc main_arg21) : (⟨S32, .f32⟩ : BufTy).Contents (Elt Ideal)) = a21 m c) (ix1 k))
theorem r129_7 (k : Fin 32) : (B7 m ρ c (Proc.devRef .tc main_v129) : (⟨S1x32, .f32⟩ : BufTy).Contents (Elt Ideal)) (ix2 (0 : Fin 1) k) = a22 m c (ix1 k) :=
  (Cert.KernelHost.hostOps3_v129 (B6 m ρ c) k).trans (congrFun (((B6_keep m ρ c main_arg22 (by decide)).trans ((StableHlo.after_of_writes_sub hostOps2 _ hostOps2_writes (by decide : main_arg22 ∉ hostOps2_W)).trans ((B4_keep m ρ c main_arg22 (by decide)).trans ((StableHlo.after_of_writes_sub hostOps1 _ hostOps1_writes (by decide : main_arg22 ∉ hostOps1_W)).trans ((B2_keep m ρ c main_arg22 (by decide)).trans (StableHlo.after_of_writes_sub hostOps0 _ hostOps0_writes (by decide : main_arg22 ∉ hostOps0_W))))))) : (B6 m ρ c (Proc.devRef .tc main_arg22) : (⟨S32, .f32⟩ : BufTy).Contents (Elt Ideal)) = a22 m c) (ix1 k))

set_option maxHeartbeats 1000000 in
theorem h130 : (B8 m ρ c (Proc.devRef .tc main_v130) : (⟨S50000x32, .f32⟩ : BufTy).Contents (Elt Ideal)) = Cert.ReferenceIdeal.Read.val_main_v232 (F := Ideal) (a0 m c) (a1 m c) (a2 m c) (a3 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) := by
  refine ((B8_arr m ρ c 5).trans (final3 (A7 m ρ) c)).trans ?_
  funext i
  obtain ⟨n, q, rfl⟩ : ∃ (n : Fin 50000) (q : Fin 32), i = ix2 n q := ⟨i 0, i 1, eq_ix2 i⟩
  refine Eq.trans ?_ (Cert.RefRows.ref3_at (a0 m c) (a1 m c) (a2 m c) (a3 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) n q).symm
  unfold G3
  have ec : (A7 m ρ c main_v126 : (⟨S50000x288, .f32⟩ : BufTy).Contents (Elt Ideal)) = Cert.ReferenceIdeal.Read.val_main_v204 (F := Ideal) (a0 m c) (a1 m c) (a2 m c) (a3 m c) (a5 m c) (a6 m c) (a7 m c) (a8 m c) (a9 m c) (a10 m c) (a11 m c) (a12 m c) (a13 m c) (a14 m c) (a15 m c) (a16 m c) (a17 m c) (a18 m c) := h126 m ρ c
  have ew : (A7 m ρ c main_arg19 : (⟨S288x32, .f32⟩ : BufTy).Contents (Elt Ideal)) = a19 m c := ((StableHlo.after_of_writes_sub hostOps3 _ hostOps3_writes (by decide : main_arg19 ∉ hostOps3_W)).trans ((B6_keep m ρ c main_arg19 (by decide)).trans ((StableHlo.after_of_writes_sub hostOps2 _ hostOps2_writes (by decide : main_arg19 ∉ hostOps2_W)).trans ((B4_keep m ρ c main_arg19 (by decide)).trans ((StableHlo.after_of_writes_sub hostOps1 _ hostOps1_writes (by decide : main_arg19 ∉ hostOps1_W)).trans ((B2_keep m ρ c main_arg19 (by decide)).trans (StableHlo.after_of_writes_sub hostOps0 _ hostOps0_writes (by decide : main_arg19 ∉ hostOps0_W))))))))
  have er0 : (fun k : Fin 32 => (A7 m ρ c main_v127 : (⟨S1x32, .f32⟩ : BufTy).Contents (Elt Ideal)) (ix2 (0 : Fin 1) k)) = fun k => a20 m c (ix1 k) := funext (r127_7 m ρ c)
  have er1 : (fun k : Fin 32 => (A7 m ρ c main_v128 : (⟨S1x32, .f32⟩ : BufTy).Contents (Elt Ideal)) (ix2 (0 : Fin 1) k)) = fun k => a21 m c (ix1 k) := funext (r128_7 m ρ c)
  have er2 : (fun k : Fin 32 => (A7 m ρ c main_v129 : (⟨S1x32, .f32⟩ : BufTy).Contents (Elt Ideal)) (ix2 (0 : Fin 1) k)) = fun k => a22 m c (ix1 k) := funext (r129_7 m ρ c)
  show ln c32 (aff (fun w : Fin 288 => (A7 m ρ c main_v126 : (⟨S50000x288, .f32⟩ : BufTy).Contents (Elt Ideal)) (ix2 n w)) (fun w k => (A7 m ρ c main_arg19 : (⟨S288x32, .f32⟩ : BufTy).Contents (Elt Ideal)) (ix2 w k)) (fun k : Fin 32 => (A7 m ρ c main_v127 : (⟨S1x32, .f32⟩ : BufTy).Contents (Elt Ideal)) (ix2 (0 : Fin 1) k))) (fun k => (A7 m ρ c main_v128 : (⟨S1x32, .f32⟩ : BufTy).Contents (Elt Ideal)) (ix2 (0 : Fin 1) k)) (fun k => (A7 m ρ c main_v129 : (⟨S1x32, .f32⟩ : BufTy).Contents (Elt Ideal)) (ix2 (0 : Fin 1) k)) q = _
  rw [ec, ew, er0, er1, er2]

/-! ## The last two stretches: the gather of the requested rows and the log-softmax -/

set_option maxHeartbeats 1000000 in
/-- The idealized kernel's result buffer ends at the reference's function of the argument arrays. -/
theorem kernel_value : (B10 m ρ c (Proc.devRef .tc main_v138) : (⟨S10000x32, .f32⟩ : BufTy).Contents (Elt Ideal)) = Cert.ReferenceIdeal.Read.val_main_v240 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) :=
  Cert.KernelHost.hostOps4_v138 (B8 m ρ c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (h130 m ρ c) ((B8_keep m ρ c main_arg4 (by decide)).trans ((StableHlo.after_of_writes_sub hostOps3 _ hostOps3_writes (by decide : main_arg4 ∉ hostOps3_W)).trans ((B6_keep m ρ c main_arg4 (by decide)).trans ((StableHlo.after_of_writes_sub hostOps2 _ hostOps2_writes (by decide : main_arg4 ∉ hostOps2_W)).trans ((B4_keep m ρ c main_arg4 (by decide)).trans ((StableHlo.after_of_writes_sub hostOps1 _ hostOps1_writes (by decide : main_arg4 ∉ hostOps1_W)).trans ((B2_keep m ρ c main_arg4 (by decide)).trans (StableHlo.after_of_writes_sub hostOps0 _ hostOps0_writes (by decide : main_arg4 ∉ hostOps0_W)))))))))

end Cert.KernelIdeal.Gen

end
-- ==== Proof.RefChain.lean ====
/-
  The fold of the reference program's operations, read at its result.

  The reference's entry function is a straight line of 305 whole-array operations, each writing a buffer of its own.
  The contents of the buffers after the line is a fold over the operations; at the result buffer that fold is the
  composed value of the entry function's arguments, one definition per operation. Written as one tree that value is
  enormous (a buffer read by several later operations is repeated at every use), so the fold is walked in eight
  consecutive stretches instead: each stretch is read at the one or two buffers later stretches use, as the composed
  value of the buffers and arguments it reads, over any starting contents known only at those; buffers and arguments
  written before a stretch and read after it pass through it unchanged, because no operation of it writes them.
  Chaining the eight readings gives the result; the same bookkeeping shows that an argument of the entry function, which
  no operation writes, keeps its launch contents.
-/
import proofs.«105666_j32899449488058_1_alg».proof.Proof.RefRead2
import proofs.«105666_j32899449488058_1_alg».proof.Proof.RefOps
import proofs.«105666_j32899449488058_1_alg».proof.Proof.LibHostRead
import Idealize.ShloMosaic.Lib.StableHlo.Run

noncomputable section

namespace Cert.RefChain

open Cert.ReferenceIdeal Cert.ReferenceIdeal.Gen Cert.ReferenceIdeal.Read Idealize.ShloMosaic Idealize.ShloMosaic.TcCoe Idealize.SL.Sem Idealize.ShloMosaic.StableHlo

/-- The fold over two stretches of operations run one after the other is the fold over the second from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

section Chunks
variable {F : FTy → Type} [FloatOps F]

/-! ## The operations, cut into eight stretches -/

/-- Three blocks of 96 columns joined along the columns, as a function of the three blocks. -/
abbrev cat3 (p q r : (⟨S50000x96, .f32⟩ : BufTy).Contents (Elt F)) : (⟨S50000x288, .f32⟩ : BufTy).Contents (Elt F) :=
  concatenate S50000x288 1 [⟨S50000x96, p⟩, ⟨S50000x96, q⟩, ⟨S50000x96, r⟩] concatenates_S50000x96_S50000x96_S50000x96_S50000x288_d1

/-- Operations 0 to 52 of the reference's entry function, in order. -/
abbrev cA : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    nullary main_cst_2 (constant S_ .f32 0xBF000000#32),
    unary main_cst_2 main_v6 (broadcastInDim S50000 ![] bcast_S_S50000 : (⟨S_, .f32⟩ : BufTy).Contents (Elt F) → (⟨S50000, .f32⟩ : BufTy).Contents (Elt F)),
    binary main_v5 main_v6 main_v7 (Host.powf : (⟨S50000, .f32⟩ : BufTy).Contents (Elt F) → (⟨S50000, .f32⟩ : BufTy).Contents (Elt F) → (⟨S50000, .f32⟩ : BufTy).Contents (Elt F)),
    unary main_v7 main_v8 (broadcastInDim S50000x1 ![0] bcast_S50000_S50000x1_0 : (⟨S50000, .f32⟩ : BufTy).Contents (Elt F) → (⟨S50000x1, .f32⟩ : BufTy).Contents (Elt F)),
    binary main_arg0 main_arg5 main_v9 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg6 main_v10 (broadcastInDim S1x96 ![1] bcast_S96_S1x96_1 : (⟨S96, .f32⟩ : BufTy).Contents (Elt F) → (⟨S1x96, .f32⟩ : BufTy).Contents (Elt F)),
    unary main_v10 main_v11 (broadcastInDim S50000x96 ![0, 1] bcast_S1x96_S50000x96_0_1 : (⟨S1x96, .f32⟩ : BufTy).Contents (Elt F) → (⟨S50000x96, .f32⟩ : BufTy).Contents (Elt F)),
    binary main_v9 main_v11 main_v12 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v12) (TRef.of (T := ⟨S50000x96, .f32⟩) main_call0_v0) (TRef.of (T := ⟨S50000x96, .f32⟩) main_v13) maximumf,
    binary main_v13 main_arg7 main_v14 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg8 main_v15 (broadcastInDim S1x96 ![1] bcast_S96_S1x96_1 : (⟨S96, .f32⟩ : BufTy).Contents (Elt F) → (⟨S1x96, .f32⟩ : BufTy).Contents (Elt F)),
    unary main_v15 main_v16 (broadcastInDim S50000x96 ![0, 1] bcast_S1x96_S50000x96_0_1 : (⟨S1x96, .f32⟩ : BufTy).Contents (Elt F) → (⟨S50000x96, .f32⟩ : BufTy).Contents (Elt F)),
    binary main_v14 main_v16 main_v17 (addf : (⟨S50000x96, .f32⟩ : BufTy).Contents (Elt F) → (⟨S50000x96, .f32⟩ : BufTy).Contents (Elt F) → (⟨S50000x96, .f32⟩ : BufTy).Contents (Elt F)),
    nullary main_cst_3 (constant S_ .f32 0x00000000#32),
    binary main_v17 main_cst_3 main_v18 ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)),
    unary main_v18 main_v19 (broadcastInDim S50000x1 ![0] bcast_S50000_S50000x1_0 : (⟨S50000, .f32⟩ : BufTy).Contents (Elt F) → (⟨S50000x1, .f32⟩ : BufTy).Contents (Elt F)),
    nullary main_cst_4 (constant S_ .f32 0x42C00000#32),
    unary main_cst_4 main_v20 (broadcastInDim S50000x1 ![] bcast_S_S50000x1 : (⟨S_, .f32⟩ : BufTy).Contents (Elt F) → (⟨S50000x1, .f32⟩ : BufTy).Contents (Elt F)),
    binary main_v19 main_v20 main_v21 (Host.divf : (⟨S50000x1, .f32⟩ : BufTy).Contents (Elt F) → (⟨S50000x1, .f32⟩ : BufTy).Contents (Elt F) → (⟨S50000x1, .f32⟩ : BufTy).Contents (Elt F)),
    unary main_v21 main_v22 (broadcastInDim S50000x96 ![0, 1] bcast_S50000x1_S50000x96_0_1 : (⟨S50000x1, .f32⟩ : BufTy).Contents (Elt F) → (⟨S50000x96, .f32⟩ : BufTy).Contents (Elt F)),
    binary main_v17 main_v22 main_v23 (subf : (⟨S50000x96, .f32⟩ : BufTy).Contents (Elt F) → (⟨S50000x96, .f32⟩ : BufTy).Contents (Elt F) → (⟨S50000x96, .f32⟩ : BufTy).Contents (Elt F)),
    binary main_v23 main_v23 main_v24 (mulf : (⟨S50000x96, .f32⟩ : BufTy).Contents (Elt F) → (⟨S50000x96, .f32⟩ : BufTy).Contents (Elt F) → (⟨S50000x96, .f32⟩ : BufTy).Contents (Elt F)),
    nullary main_cst_5 (constant S_ .f32 0x00000000#32),
    binary main_v24 main_cst_5 main_v25 ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)),
    unary main_v25 main_v26 (broadcastInDim S50000x1 ![0] bcast_S50000_S50000x1_0 : (⟨S50000, .f32⟩ : BufTy).Contents (Elt F) → (⟨S50000x1, .f32⟩ : BufTy).Contents (Elt F)),
    nullary main_cst_6 (constant S_ .f32 0x42C00000#32),
    unary main_cst_6 main_v27 (broadcastInDim S50000x1 ![] bcast_S_S50000x1 : (⟨S_, .f32⟩ : BufTy).Contents (Elt F) → (⟨S50000x1, .f32⟩ : BufTy).Contents (Elt F)),
    binary main_v26 main_v27 main_v28 (Host.divf : (⟨S50000x1, .f32⟩ : BufTy).Contents (Elt F) → (⟨S50000x1, .f32⟩ : BufTy).Contents (Elt F) → (⟨S50000x1, .f32⟩ : BufTy).Contents (Elt F)),
    unary main_v21 main_v29 (broadcastInDim S50000x96 ![0, 1] bcast_S50000x1_S50000x96_0_1 : (⟨S50000x1, .f32⟩ : BufTy).Contents (Elt F) → (⟨S50000x96, .f32⟩ : BufTy).Contents (Elt F)),
    binary main_v17 main_v29 main_v30 (subf : (⟨S50000x96, .f32⟩ : BufTy).Contents (Elt F) → (⟨S50000x96, .f32⟩ : BufTy).Contents (Elt F) → (⟨S50000x96, .f32⟩ : BufTy).Contents (Elt F)),
    nullary main_cst_7 (constant S_ .f32 0x3727C5AC#32),
    unary main_cst_7 main_v31 (broadcastInDim S50000x1 ![] bcast_S_S50000x1 : (⟨S_, .f32⟩ : BufTy).Contents (Elt F) → (⟨S50000x1, .f32⟩ : BufTy).Contents (Elt F)),
    binary main_v28 main_v31 main_v32 (addf : (⟨S50000x1, .f32⟩ : BufTy).Contents (Elt F) → (⟨S50000x1, .f32⟩ : BufTy).Contents (Elt F) → (⟨S50000x1, .f32⟩ : BufTy).Contents (Elt F)),
    unary main_v32 main_v33 (Host.rsqrt : (⟨S50000x1, .f32⟩ : BufTy).Contents (Elt F) → (⟨S50000x1, .f32⟩ : BufTy).Contents (Elt F)),
    unary main_v33 main_v34 (broadcastInDim S50000x96 ![0, 1] bcast_S50000x1_S50000x96_0_1 : (⟨S50000x1, .f32⟩ : BufTy).Contents (Elt F) → (⟨S50000x96, .f32⟩ : BufTy).Contents (Elt F)),
    binary main_v30 main_v34 main_v35 (mulf : (⟨S50000x96, .f32⟩ : BufTy).Contents (Elt F) → (⟨S50000x96, .f32⟩ : BufTy).Contents (Elt F) → (⟨S50000x96, .f32⟩ : BufTy).Contents (Elt F)),
    unary main_arg9 main_v36 (broadcastInDim S1x96 ![1] bcast_S96_S1x96_1 : (⟨S96, .f32⟩ : BufTy).Contents (Elt F) → (⟨S1x96, .f32⟩ : BufTy).Contents (Elt F)),
    unary main_v36 main_v37 (broadcastInDim S50000x96 ![0, 1] bcast_S1x96_S50000x96_0_1 : (⟨S1x96, .f32⟩ : BufTy).Contents (Elt F) → (⟨S50000x96, .f32⟩ : BufTy).Contents (Elt F)),
    binary main_v35 main_v37 main_v38 (mulf : (⟨S50000x96, .f32⟩ : BufTy).Contents (Elt F) → (⟨S50000x96, .f32⟩ : BufTy).Contents (Elt F) → (⟨S50000x96, .f32⟩ : BufTy).Contents (Elt F)),
    unary main_arg10 main_v39 (broadcastInDim S1x96 ![1] bcast_S96_S1x96_1 : (⟨S96, .f32⟩ : BufTy).Contents (Elt F) → (⟨S1x96, .f32⟩ : BufTy).Contents (Elt F)),
    unary main_v39 main_v40 (broadcastInDim S50000x96 ![0, 1] bcast_S1x96_S50000x96_0_1 : (⟨S1x96, .f32⟩ : BufTy).Contents (Elt F) → (⟨S50000x96, .f32⟩ : BufTy).Contents (Elt F)),
    binary main_v38 main_v40 main_v41 (addf : (⟨S50000x96, .f32⟩ : BufTy).Contents (Elt F) → (⟨S50000x96, .f32⟩ : BufTy).Contents (Elt F) → (⟨S50000x96, .f32⟩ : BufTy).Contents (Elt F)) ]

/-- Operations 53 to 92 of the reference's entry function, in order. -/
abbrev cB0 : List (HloOp τ sig (Elt F)) :=
  [ unary main_v8 main_v42 (broadcastInDim S50000x96 ![0, 1] bcast_S50000x1_S50000x96_0_1 : (⟨S50000x1, .f32⟩ : BufTy).Contents (Elt F) → (⟨S50000x96, .f32⟩ : BufTy).Contents (Elt F)),
    binary main_v41 main_v42 main_v43 (mulf : (⟨S50000x96, .f32⟩ : BufTy).Contents (Elt F) → (⟨S50000x96, .f32⟩ : BufTy).Contents (Elt F) → (⟨S50000x96, .f32⟩ : BufTy).Contents (Elt F)),
    nullary main_c (constantI S_ 32 0#32),
    unary main_c main_v44 (broadcastInDim S800000 ![] bcast_S_S800000 : (⟨S_, .i32⟩ : BufTy).Contents (Elt F) → (⟨S800000, .i32⟩ : BufTy).Contents (Elt F)),
    binary main_arg1 main_v44 main_v45 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v46 (broadcastInDim S800000 ![] bcast_S_S800000 : (⟨S_, .i32⟩ : BufTy).Contents (Elt F) → (⟨S800000, .i32⟩ : BufTy).Contents (Elt F)),
    binary main_arg1 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_arg1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v43 main_v49 main_v50 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg3 main_v51 (broadcastInDim S800000x1 ![0] bcast_S800000_S800000x1_0 : (⟨S800000, .f32⟩ : BufTy).Contents (Elt F) → (⟨S800000x1, .f32⟩ : BufTy).Contents (Elt F)),
    unary main_v51 main_v52 (broadcastInDim S800000x96 ![0, 1] bcast_S800000x1_S800000x96_0_1 : (⟨S800000x1, .f32⟩ : BufTy).Contents (Elt F) → (⟨S800000x96, .f32⟩ : BufTy).Contents (Elt F)),
    binary main_v50 main_v52 main_v53 (mulf : (⟨S800000x96, .f32⟩ : BufTy).Contents (Elt F) → (⟨S800000x96, .f32⟩ : BufTy).Contents (Elt F) → (⟨S800000x96, .f32⟩ : BufTy).Contents (Elt F)),
    nullary main_cst_9 (constant S_ .f32 0x00000000#32),
    unary main_cst_9 main_v54 (broadcastInDim S50000x96 ![] bcast_S_S50000x96 : (⟨S_, .f32⟩ : BufTy).Contents (Elt F) → (⟨S50000x96, .f32⟩ : BufTy).Contents (Elt F)),
    unary main_arg2 main_v55 (broadcastInDim S800000x1 ![0] bcast_S800000_S800000x1_0 : (⟨S800000, .i32⟩ : BufTy).Contents (Elt F) → (⟨S800000x1, .i32⟩ : BufTy).Contents (Elt F)),
    ternary main_v54 main_v55 main_v53 main_v56 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_v8 main_v57 (broadcastInDim S50000x96 ![0, 1] bcast_S50000x1_S50000x96_0_1 : (⟨S50000x1, .f32⟩ : BufTy).Contents (Elt F) → (⟨S50000x96, .f32⟩ : BufTy).Contents (Elt F)),
    binary main_v56 main_v57 main_v58 (mulf : (⟨S50000x96, .f32⟩ : BufTy).Contents (Elt F) → (⟨S50000x96, .f32⟩ : BufTy).Contents (Elt F) → (⟨S50000x96, .f32⟩ : BufTy).Contents (Elt F)),
    unary main_v8 main_v59 (broadcastInDim S50000x96 ![0, 1] bcast_S50000x1_S50000x96_0_1 : (⟨S50000x1, .f32⟩ : BufTy).Contents (Elt F) → (⟨S50000x96, .f32⟩ : BufTy).Contents (Elt F)),
    binary main_v58 main_v59 main_v60 (mulf : (⟨S50000x96, .f32⟩ : BufTy).Contents (Elt F) → (⟨S50000x96, .f32⟩ : BufTy).Contents (Elt F) → (⟨S50000x96, .f32⟩ : BufTy).Contents (Elt F)),
    nullary main_c_10 (constantI S_ 32 0#32),
    unary main_c_10 main_v61 (broadcastInDim S800000 ![] bcast_S_S800000 : (⟨S_, .i32⟩ : BufTy).Contents (Elt F) → (⟨S800000, .i32⟩ : BufTy).Contents (Elt F)),
    binary main_arg1 main_v61 main_v62 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v63 (broadcastInDim S800000 ![] bcast_S_S800000 : (⟨S_, .i32⟩ : BufTy).Contents (Elt F) → (⟨S800000, .i32⟩ : BufTy).Contents (Elt F)),
    binary main_arg1 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_arg1 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    binary main_v60 main_v66 main_v67 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg3 main_v68 (broadcastInDim S800000x1 ![0] bcast_S800000_S800000x1_0 : (⟨S800000, .f32⟩ : BufTy).Contents (Elt F) → (⟨S800000x1, .f32⟩ : BufTy).Contents (Elt F)),
    unary main_v68 main_v69 (broadcastInDim S800000x96 ![0, 1] bcast_S800000x1_S800000x96_0_1 : (⟨S800000x1, .f32⟩ : BufTy).Contents (Elt F) → (⟨S800000x96, .f32⟩ : BufTy).Contents (Elt F)),
    binary main_v67 main_v69 main_v70 (mulf : (⟨S800000x96, .f32⟩ : BufTy).Contents (Elt F) → (⟨S800000x96, .f32⟩ : BufTy).Contents (Elt F) → (⟨S800000x96, .f32⟩ : BufTy).Contents (Elt F)),
    nullary main_cst_12 (constant S_ .f32 0x00000000#32),
    unary main_cst_12 main_v71 (broadcastInDim S50000x96 ![] bcast_S_S50000x96 : (⟨S_, .f32⟩ : BufTy).Contents (Elt F) → (⟨S50000x96, .f32⟩ : BufTy).Contents (Elt F)),
    unary main_arg2 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_v8 main_v74 (broadcastInDim S50000x96 ![0, 1] bcast_S50000x1_S50000x96_0_1 : (⟨S50000x1, .f32⟩ : BufTy).Contents (Elt F) → (⟨S50000x96, .f32⟩ : BufTy).Contents (Elt F)),
    binary main_v73 main_v74 main_v75 (mulf : (⟨S50000x96, .f32⟩ : BufTy).Contents (Elt F) → (⟨S50000x96, .f32⟩ : BufTy).Contents (Elt F) → (⟨S50000x96, .f32⟩ : BufTy).Contents (Elt F)) ]
/-- Operation 93: the joining of the three feature blocks main_v41, main_v58, main_v75 along the columns. -/
abbrev catB : HloOp τ sig (Elt F) :=
  nary ![main_v41, main_v58, main_v75] main_v76 (fun u => cat3 (u 0) (u 1) (u 2))
/-- Operations 53 to 93 of the reference's entry function, in order. -/
abbrev cB : List (HloOp τ sig (Elt F)) := cB0 ++ [catB]

/-- Operations 94 to 129 of the reference's entry function, in order. -/
abbrev cC : List (HloOp τ sig (Elt F)) :=
  [ binary main_v76 main_arg11 main_v77 ((fun l r => Host.dotGeneral dot_S50000x288_S288x96_S50000x96_1_0_0_1_n_n none l r) : (⟨S50000x288, .f32⟩ : BufTy).Contents (Elt F) → (⟨S288x96, .f32⟩ : BufTy).Contents (Elt F) → (⟨S50000x96, .f32⟩ : BufTy).Contents (Elt F)),
    unary main_arg12 main_v78 (broadcastInDim S1x96 ![1] bcast_S96_S1x96_1 : (⟨S96, .f32⟩ : BufTy).Contents (Elt F) → (⟨S1x96, .f32⟩ : BufTy).Contents (Elt F)),
    unary main_v78 main_v79 (broadcastInDim S50000x96 ![0, 1] bcast_S1x96_S50000x96_0_1 : (⟨S1x96, .f32⟩ : BufTy).Contents (Elt F) → (⟨S50000x96, .f32⟩ : BufTy).Contents (Elt F)),
    binary main_v77 main_v79 main_v80 (addf : (⟨S50000x96, .f32⟩ : BufTy).Contents (Elt F) → (⟨S50000x96, .f32⟩ : BufTy).Contents (Elt F) → (⟨S50000x96, .f32⟩ : BufTy).Contents (Elt F)),
    nullary main_cst_13 (constant S_ .f32 0x00000000#32),
    binary main_v80 main_cst_13 main_v81 ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)),
    unary main_v81 main_v82 (broadcastInDim S50000x1 ![0] bcast_S50000_S50000x1_0 : (⟨S50000, .f32⟩ : BufTy).Contents (Elt F) → (⟨S50000x1, .f32⟩ : BufTy).Contents (Elt F)),
    nullary main_cst_14 (constant S_ .f32 0x42C00000#32),
    unary main_cst_14 main_v83 (broadcastInDim S50000x1 ![] bcast_S_S50000x1 : (⟨S_, .f32⟩ : BufTy).Contents (Elt F) → (⟨S50000x1, .f32⟩ : BufTy).Contents (Elt F)),
    binary main_v82 main_v83 main_v84 (Host.divf : (⟨S50000x1, .f32⟩ : BufTy).Contents (Elt F) → (⟨S50000x1, .f32⟩ : BufTy).Contents (Elt F) → (⟨S50000x1, .f32⟩ : BufTy).Contents (Elt F)),
    unary main_v84 main_v85 (broadcastInDim S50000x96 ![0, 1] bcast_S50000x1_S50000x96_0_1 : (⟨S50000x1, .f32⟩ : BufTy).Contents (Elt F) → (⟨S50000x96, .f32⟩ : BufTy).Contents (Elt F)),
    binary main_v80 main_v85 main_v86 (subf : (⟨S50000x96, .f32⟩ : BufTy).Contents (Elt F) → (⟨S50000x96, .f32⟩ : BufTy).Contents (Elt F) → (⟨S50000x96, .f32⟩ : BufTy).Contents (Elt F)),
    binary main_v86 main_v86 main_v87 (mulf : (⟨S50000x96, .f32⟩ : BufTy).Contents (Elt F) → (⟨S50000x96, .f32⟩ : BufTy).Contents (Elt F) → (⟨S50000x96, .f32⟩ : BufTy).Contents (Elt F)),
    nullary main_cst_15 (constant S_ .f32 0x00000000#32),
    binary main_v87 main_cst_15 main_v88 ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)),
    unary main_v88 main_v89 (broadcastInDim S50000x1 ![0] bcast_S50000_S50000x1_0 : (⟨S50000, .f32⟩ : BufTy).Contents (Elt F) → (⟨S50000x1, .f32⟩ : BufTy).Contents (Elt F)),
    nullary main_cst_16 (constant S_ .f32 0x42C00000#32),
    unary main_cst_16 main_v90 (broadcastInDim S50000x1 ![] bcast_S_S50000x1 : (⟨S_, .f32⟩ : BufTy).Contents (Elt F) → (⟨S50000x1, .f32⟩ : BufTy).Contents (Elt F)),
    binary main_v89 main_v90 main_v91 (Host.divf : (⟨S50000x1, .f32⟩ : BufTy).Contents (Elt F) → (⟨S50000x1, .f32⟩ : BufTy).Contents (Elt F) → (⟨S50000x1, .f32⟩ : BufTy).Contents (Elt F)),
    unary main_v84 main_v92 (broadcastInDim S50000x96 ![0, 1] bcast_S50000x1_S50000x96_0_1 : (⟨S50000x1, .f32⟩ : BufTy).Contents (Elt F) → (⟨S50000x96, .f32⟩ : BufTy).Contents (Elt F)),
    binary main_v80 main_v92 main_v93 (subf : (⟨S50000x96, .f32⟩ : BufTy).Contents (Elt F) → (⟨S50000x96, .f32⟩ : BufTy).Contents (Elt F) → (⟨S50000x96, .f32⟩ : BufTy).Contents (Elt F)),
    nullary main_cst_17 (constant S_ .f32 0x3727C5AC#32),
    unary main_cst_17 main_v94 (broadcastInDim S50000x1 ![] bcast_S_S50000x1 : (⟨S_, .f32⟩ : BufTy).Contents (Elt F) → (⟨S50000x1, .f32⟩ : BufTy).Contents (Elt F)),
    binary main_v91 main_v94 main_v95 (addf : (⟨S50000x1, .f32⟩ : BufTy).Contents (Elt F) → (⟨S50000x1, .f32⟩ : BufTy).Contents (Elt F) → (⟨S50000x1, .f32⟩ : BufTy).Contents (Elt F)),
    unary main_v95 main_v96 (Host.rsqrt : (⟨S50000x1, .f32⟩ : BufTy).Contents (Elt F) → (⟨S50000x1, .f32⟩ : BufTy).Contents (Elt F)),
    unary main_v96 main_v97 (broadcastInDim S50000x96 ![0, 1] bcast_S50000x1_S50000x96_0_1 : (⟨S50000x1, .f32⟩ : BufTy).Contents (Elt F) → (⟨S50000x96, .f32⟩ : BufTy).Contents (Elt F)),
    binary main_v93 main_v97 main_v98 (mulf : (⟨S50000x96, .f32⟩ : BufTy).Contents (Elt F) → (⟨S50000x96, .f32⟩ : BufTy).Contents (Elt F) → (⟨S50000x96, .f32⟩ : BufTy).Contents (Elt F)),
    unary main_arg13 main_v99 (broadcastInDim S1x96 ![1] bcast_S96_S1x96_1 : (⟨S96, .f32⟩ : BufTy).Contents (Elt F) → (⟨S1x96, .f32⟩ : BufTy).Contents (Elt F)),
    unary main_v99 main_v100 (broadcastInDim S50000x96 ![0, 1] bcast_S1x96_S50000x96_0_1 : (⟨S1x96, .f32⟩ : BufTy).Contents (Elt F) → (⟨S50000x96, .f32⟩ : BufTy).Contents (Elt F)),
    binary main_v98 main_v100 main_v101 (mulf : (⟨S50000x96, .f32⟩ : BufTy).Contents (Elt F) → (⟨S50000x96, .f32⟩ : BufTy).Contents (Elt F) → (⟨S50000x96, .f32⟩ : BufTy).Contents (Elt F)),
    unary main_arg14 main_v102 (broadcastInDim S1x96 ![1] bcast_S96_S1x96_1 : (⟨S96, .f32⟩ : BufTy).Contents (Elt F) → (⟨S1x96, .f32⟩ : BufTy).Contents (Elt F)),
    unary main_v102 main_v103 (broadcastInDim S50000x96 ![0, 1] bcast_S1x96_S50000x96_0_1 : (⟨S1x96, .f32⟩ : BufTy).Contents (Elt F) → (⟨S50000x96, .f32⟩ : BufTy).Contents (Elt F)),
    binary main_v101 main_v103 main_v104 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v104) (TRef.of (T := ⟨S50000x96, .f32⟩) main_call1_v0) (TRef.of (T := ⟨S50000x96, .f32⟩) main_v105) maximumf ]

/-- Operations 130 to 169 of the reference's entry function, in order. -/
abbrev cD0 : List (HloOp τ sig (Elt F)) :=
  [ unary main_v8 main_v106 (broadcastInDim S50000x96 ![0, 1] bcast_S50000x1_S50000x96_0_1 : (⟨S50000x1, .f32⟩ : BufTy).Contents (Elt F) → (⟨S50000x96, .f32⟩ : BufTy).Contents (Elt F)),
    binary main_v105 main_v106 main_v107 (mulf : (⟨S50000x96, .f32⟩ : BufTy).Contents (Elt F) → (⟨S50000x96, .f32⟩ : BufTy).Contents (Elt F) → (⟨S50000x96, .f32⟩ : BufTy).Contents (Elt F)),
    nullary main_c_18 (constantI S_ 32 0#32),
    unary main_c_18 main_v108 (broadcastInDim S800000 ![] bcast_S_S800000 : (⟨S_, .i32⟩ : BufTy).Contents (Elt F) → (⟨S800000, .i32⟩ : BufTy).Contents (Elt F)),
    binary main_arg1 main_v108 main_v109 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v110 (broadcastInDim S800000 ![] bcast_S_S800000 : (⟨S_, .i32⟩ : BufTy).Contents (Elt F) → (⟨S800000, .i32⟩ : BufTy).Contents (Elt F)),
    binary main_arg1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_arg1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v107 main_v113 main_v114 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg3 main_v115 (broadcastInDim S800000x1 ![0] bcast_S800000_S800000x1_0 : (⟨S800000, .f32⟩ : BufTy).Contents (Elt F) → (⟨S800000x1, .f32⟩ : BufTy).Contents (Elt F)),
    unary main_v115 main_v116 (broadcastInDim S800000x96 ![0, 1] bcast_S800000x1_S800000x96_0_1 : (⟨S800000x1, .f32⟩ : BufTy).Contents (Elt F) → (⟨S800000x96, .f32⟩ : BufTy).Contents (Elt F)),
    binary main_v114 main_v116 main_v117 (mulf : (⟨S800000x96, .f32⟩ : BufTy).Contents (Elt F) → (⟨S800000x96, .f32⟩ : BufTy).Contents (Elt F) → (⟨S800000x96, .f32⟩ : BufTy).Contents (Elt F)),
    nullary main_cst_20 (constant S_ .f32 0x00000000#32),
    unary main_cst_20 main_v118 (broadcastInDim S50000x96 ![] bcast_S_S50000x96 : (⟨S_, .f32⟩ : BufTy).Contents (Elt F) → (⟨S50000x96, .f32⟩ : BufTy).Contents (Elt F)),
    unary main_arg2 main_v119 (broadcastInDim S800000x1 ![0] bcast_S800000_S800000x1_0 : (⟨S800000, .i32⟩ : BufTy).Contents (Elt F) → (⟨S800000x1, .i32⟩ : BufTy).Contents (Elt F)),
    ternary main_v118 main_v119 main_v117 main_v120 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_v8 main_v121 (broadcastInDim S50000x96 ![0, 1] bcast_S50000x1_S50000x96_0_1 : (⟨S50000x1, .f32⟩ : BufTy).Contents (Elt F) → (⟨S50000x96, .f32⟩ : BufTy).Contents (Elt F)),
    binary main_v120 main_v121 main_v122 (mulf : (⟨S50000x96, .f32⟩ : BufTy).Contents (Elt F) → (⟨S50000x96, .f32⟩ : BufTy).Contents (Elt F) → (⟨S50000x96, .f32⟩ : BufTy).Contents (Elt F)),
    unary main_v8 main_v123 (broadcastInDim S50000x96 ![0, 1] bcast_S50000x1_S50000x96_0_1 : (⟨S50000x1, .f32⟩ : BufTy).Contents (Elt F) → (⟨S50000x96, .f32⟩ : BufTy).Contents (Elt F)),
    binary main_v122 main_v123 main_v124 (mulf : (⟨S50000x96, .f32⟩ : BufTy).Contents (Elt F) → (⟨S50000x96, .f32⟩ : BufTy).Contents (Elt F) → (⟨S50000x96, .f32⟩ : BufTy).Contents (Elt F)),
    nullary main_c_21 (constantI S_ 32 0#32),
    unary main_c_21 main_v125 (broadcastInDim S800000 ![] bcast_S_S800000 : (⟨S_, .i32⟩ : BufTy).Contents (Elt F) → (⟨S800000, .i32⟩ : BufTy).Contents (Elt F)),
    binary main_arg1 main_v125 main_v126 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v127 (broadcastInDim S800000 ![] bcast_S_S800000 : (⟨S_, .i32⟩ : BufTy).Contents (Elt F) → (⟨S800000, .i32⟩ : BufTy).Contents (Elt F)),
    binary main_arg1 main_v127 main_v128 (addi : (⟨S800000, .i32⟩ : BufTy).Contents (Elt F) → (⟨S800000, .i32⟩ : BufTy).Contents (Elt F) → (⟨S800000, .i32⟩ : BufTy).Contents (Elt F)),
    ternary main_v126 main_v128 main_arg1 main_v129 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v129 main_v130 (broadcastInDim S800000x1 ![0] bcast_S800000_S800000x1_0 : (⟨S800000, .i32⟩ : BufTy).Contents (Elt F) → (⟨S800000x1, .i32⟩ : BufTy).Contents (Elt F)),
    binary main_v124 main_v130 main_v131 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg3 main_v132 (broadcastInDim S800000x1 ![0] bcast_S800000_S800000x1_0 : (⟨S800000, .f32⟩ : BufTy).Contents (Elt F) → (⟨S800000x1, .f32⟩ : BufTy).Contents (Elt F)),
    unary main_v132 main_v133 (broadcastInDim S800000x96 ![0, 1] bcast_S800000x1_S800000x96_0_1 : (⟨S800000x1, .f32⟩ : BufTy).Contents (Elt F) → (⟨S800000x96, .f32⟩ : BufTy).Contents (Elt F)),
    binary main_v131 main_v133 main_v134 (mulf : (⟨S800000x96, .f32⟩ : BufTy).Contents (Elt F) → (⟨S800000x96, .f32⟩ : BufTy).Contents (Elt F) → (⟨S800000x96, .f32⟩ : BufTy).Contents (Elt F)),
    nullary main_cst_23 (constant S_ .f32 0x00000000#32),
    unary main_cst_23 main_v135 (broadcastInDim S50000x96 ![] bcast_S_S50000x96 : (⟨S_, .f32⟩ : BufTy).Contents (Elt F) → (⟨S50000x96, .f32⟩ : BufTy).Contents (Elt F)),
    unary main_arg2 main_v136 (broadcastInDim S800000x1 ![0] bcast_S800000_S800000x1_0 : (⟨S800000, .i32⟩ : BufTy).Contents (Elt F) → (⟨S800000x1, .i32⟩ : BufTy).Contents (Elt F)),
    ternary main_v135 main_v136 main_v134 main_v137 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_v8 main_v138 (broadcastInDim S50000x96 ![0, 1] bcast_S50000x1_S50000x96_0_1 : (⟨S50000x1, .f32⟩ : BufTy).Contents (Elt F) → (⟨S50000x96, .f32⟩ : BufTy).Contents (Elt F)),
    binary main_v137 main_v138 main_v139 (mulf : (⟨S50000x96, .f32⟩ : BufTy).Contents (Elt F) → (⟨S50000x96, .f32⟩ : BufTy).Contents (Elt F) → (⟨S50000x96, .f32⟩ : BufTy).Contents (Elt F)) ]
/-- Operation 170: the joining of the three feature blocks main_v105, main_v122, main_v139 along the columns. -/
abbrev catD : HloOp τ sig (Elt F) :=
  nary ![main_v105, main_v122, main_v139] main_v140 (fun u => cat3 (u 0) (u 1) (u 2))
/-- Operations 130 to 170 of the reference's entry function, in order. -/
abbrev cD : List (HloOp τ sig (Elt F)) := cD0 ++ [catD]

/-- Operations 171 to 206 of the reference's entry function, in order. -/
abbrev cE : List (HloOp τ sig (Elt F)) :=
  [ binary main_v140 main_arg15 main_v141 ((fun l r => Host.dotGeneral dot_S50000x288_S288x96_S50000x96_1_0_0_1_n_n none l r) : (⟨S50000x288, .f32⟩ : BufTy).Contents (Elt F) → (⟨S288x96, .f32⟩ : BufTy).Contents (Elt F) → (⟨S50000x96, .f32⟩ : BufTy).Contents (Elt F)),
    unary main_arg16 main_v142 (broadcastInDim S1x96 ![1] bcast_S96_S1x96_1 : (⟨S96, .f32⟩ : BufTy).Contents (Elt F) → (⟨S1x96, .f32⟩ : BufTy).Contents (Elt F)),
    unary main_v142 main_v143 (broadcastInDim S50000x96 ![0, 1] bcast_S1x96_S50000x96_0_1 : (⟨S1x96, .f32⟩ : BufTy).Contents (Elt F) → (⟨S50000x96, .f32⟩ : BufTy).Contents (Elt F)),
    binary main_v141 main_v143 main_v144 (addf : (⟨S50000x96, .f32⟩ : BufTy).Contents (Elt F) → (⟨S50000x96, .f32⟩ : BufTy).Contents (Elt F) → (⟨S50000x96, .f32⟩ : BufTy).Contents (Elt F)),
    nullary main_cst_24 (constant S_ .f32 0x00000000#32),
    binary main_v144 main_cst_24 main_v145 ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)),
    unary main_v145 main_v146 (broadcastInDim S50000x1 ![0] bcast_S50000_S50000x1_0 : (⟨S50000, .f32⟩ : BufTy).Contents (Elt F) → (⟨S50000x1, .f32⟩ : BufTy).Contents (Elt F)),
    nullary main_cst_25 (constant S_ .f32 0x42C00000#32),
    unary main_cst_25 main_v147 (broadcastInDim S50000x1 ![] bcast_S_S50000x1 : (⟨S_, .f32⟩ : BufTy).Contents (Elt F) → (⟨S50000x1, .f32⟩ : BufTy).Contents (Elt F)),
    binary main_v146 main_v147 main_v148 (Host.divf : (⟨S50000x1, .f32⟩ : BufTy).Contents (Elt F) → (⟨S50000x1, .f32⟩ : BufTy).Contents (Elt F) → (⟨S50000x1, .f32⟩ : BufTy).Contents (Elt F)),
    unary main_v148 main_v149 (broadcastInDim S50000x96 ![0, 1] bcast_S50000x1_S50000x96_0_1 : (⟨S50000x1, .f32⟩ : BufTy).Contents (Elt F) → (⟨S50000x96, .f32⟩ : BufTy).Contents (Elt F)),
    binary main_v144 main_v149 main_v150 (subf : (⟨S50000x96, .f32⟩ : BufTy).Contents (Elt F) → (⟨S50000x96, .f32⟩ : BufTy).Contents (Elt F) → (⟨S50000x96, .f32⟩ : BufTy).Contents (Elt F)),
    binary main_v150 main_v150 main_v151 (mulf : (⟨S50000x96, .f32⟩ : BufTy).Contents (Elt F) → (⟨S50000x96, .f32⟩ : BufTy).Contents (Elt F) → (⟨S50000x96, .f32⟩ : BufTy).Contents (Elt F)),
    nullary main_cst_26 (constant S_ .f32 0x00000000#32),
    binary main_v151 main_cst_26 main_v152 ((fun x v => Host.reduceAdd x v reducesTo_S50000x96_S50000_d1 h_S_) : (⟨S50000x96, .f32⟩ : BufTy).Contents (Elt F) → (⟨S_, .f32⟩ : BufTy).Contents (Elt F) → (⟨S50000, .f32⟩ : BufTy).Contents (Elt F)),
    unary main_v152 main_v153 (broadcastInDim S50000x1 ![0] bcast_S50000_S50000x1_0 : (⟨S50000, .f32⟩ : BufTy).Contents (Elt F) → (⟨S50000x1, .f32⟩ : BufTy).Contents (Elt F)),
    nullary main_cst_27 (constant S_ .f32 0x42C00000#32),
    unary main_cst_27 main_v154 (broadcastInDim S50000x1 ![] bcast_S_S50000x1 : (⟨S_, .f32⟩ : BufTy).Contents (Elt F) → (⟨S50000x1, .f32⟩ : BufTy).Contents (Elt F)),
    binary main_v153 main_v154 main_v155 (Host.divf : (⟨S50000x1, .f32⟩ : BufTy).Contents (Elt F) → (⟨S50000x1, .f32⟩ : BufTy).Contents (Elt F) → (⟨S50000x1, .f32⟩ : BufTy).Contents (Elt F)),
    unary main_v148 main_v156 (broadcastInDim S50000x96 ![0, 1] bcast_S50000x1_S50000x96_0_1 : (⟨S50000x1, .f32⟩ : BufTy).Contents (Elt F) → (⟨S50000x96, .f32⟩ : BufTy).Contents (Elt F)),
    binary main_v144 main_v156 main_v157 (subf : (⟨S50000x96, .f32⟩ : BufTy).Contents (Elt F) → (⟨S50000x96, .f32⟩ : BufTy).Contents (Elt F) → (⟨S50000x96, .f32⟩ : BufTy).Contents (Elt F)),
    nullary main_cst_28 (constant S_ .f32 0x3727C5AC#32),
    unary main_cst_28 main_v158 (broadcastInDim S50000x1 ![] bcast_S_S50000x1 : (⟨S_, .f32⟩ : BufTy).Contents (Elt F) → (⟨S50000x1, .f32⟩ : BufTy).Contents (Elt F)),
    binary main_v155 main_v158 main_v159 (addf : (⟨S50000x1, .f32⟩ : BufTy).Contents (Elt F) → (⟨S50000x1, .f32⟩ : BufTy).Contents (Elt F) → (⟨S50000x1, .f32⟩ : BufTy).Contents (Elt F)),
    unary main_v159 main_v160 (Host.rsqrt : (⟨S50000x1, .f32⟩ : BufTy).Contents (Elt F) → (⟨S50000x1, .f32⟩ : BufTy).Contents (Elt F)),
    unary main_v160 main_v161 (broadcastInDim S50000x96 ![0, 1] bcast_S50000x1_S50000x96_0_1 : (⟨S50000x1, .f32⟩ : BufTy).Contents (Elt F) → (⟨S50000x96, .f32⟩ : BufTy).Contents (Elt F)),
    binary main_v157 main_v161 main_v162 (mulf : (⟨S50000x96, .f32⟩ : BufTy).Contents (Elt F) → (⟨S50000x96, .f32⟩ : BufTy).Contents (Elt F) → (⟨S50000x96, .f32⟩ : BufTy).Contents (Elt F)),
    unary main_arg17 main_v163 (broadcastInDim S1x96 ![1] bcast_S96_S1x96_1 : (⟨S96, .f32⟩ : BufTy).Contents (Elt F) → (⟨S1x96, .f32⟩ : BufTy).Contents (Elt F)),
    unary main_v163 main_v164 (broadcastInDim S50000x96 ![0, 1] bcast_S1x96_S50000x96_0_1 : (⟨S1x96, .f32⟩ : BufTy).Contents (Elt F) → (⟨S50000x96, .f32⟩ : BufTy).Contents (Elt F)),
    binary main_v162 main_v164 main_v165 (mulf : (⟨S50000x96, .f32⟩ : BufTy).Contents (Elt F) → (⟨S50000x96, .f32⟩ : BufTy).Contents (Elt F) → (⟨S50000x96, .f32⟩ : BufTy).Contents (Elt F)),
    unary main_arg18 main_v166 (broadcastInDim S1x96 ![1] bcast_S96_S1x96_1 : (⟨S96, .f32⟩ : BufTy).Contents (Elt F) → (⟨S1x96, .f32⟩ : BufTy).Contents (Elt F)),
    unary main_v166 main_v167 (broadcastInDim S50000x96 ![0, 1] bcast_S1x96_S50000x96_0_1 : (⟨S1x96, .f32⟩ : BufTy).Contents (Elt F) → (⟨S50000x96, .f32⟩ : BufTy).Contents (Elt F)),
    binary main_v165 main_v167 main_v168 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x96, .f32⟩) main_call2_v0) (broadcastInDim S50000x96 ![] bcast_S_S50000x96),
    TRef.binary (TRef.of (T := ⟨S50000x96, .f32⟩) main_v168) (TRef.of (T := ⟨S50000x96, .f32⟩) main_call2_v0) (TRef.of (T := ⟨S50000x96, .f32⟩) main_v169) maximumf ]

/-- Operations 207 to 246 of the reference's entry function, in order. -/
abbrev cF0 : List (HloOp τ sig (Elt F)) :=
  [ unary main_v8 main_v170 (broadcastInDim S50000x96 ![0, 1] bcast_S50000x1_S50000x96_0_1 : (⟨S50000x1, .f32⟩ : BufTy).Contents (Elt F) → (⟨S50000x96, .f32⟩ : BufTy).Contents (Elt F)),
    binary main_v169 main_v170 main_v171 (mulf : (⟨S50000x96, .f32⟩ : BufTy).Contents (Elt F) → (⟨S50000x96, .f32⟩ : BufTy).Contents (Elt F) → (⟨S50000x96, .f32⟩ : BufTy).Contents (Elt F)),
    nullary main_c_29 (constantI S_ 32 0#32),
    unary main_c_29 main_v172 (broadcastInDim S800000 ![] bcast_S_S800000 : (⟨S_, .i32⟩ : BufTy).Contents (Elt F) → (⟨S800000, .i32⟩ : BufTy).Contents (Elt F)),
    binary main_arg1 main_v172 main_v173 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v174 (broadcastInDim S800000 ![] bcast_S_S800000 : (⟨S_, .i32⟩ : BufTy).Contents (Elt F) → (⟨S800000, .i32⟩ : BufTy).Contents (Elt F)),
    binary main_arg1 main_v174 main_v175 (addi : (⟨S800000, .i32⟩ : BufTy).Contents (Elt F) → (⟨S800000, .i32⟩ : BufTy).Contents (Elt F) → (⟨S800000, .i32⟩ : BufTy).Contents (Elt F)),
    ternary main_v173 main_v175 main_arg1 main_v176 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v176 main_v177 (broadcastInDim S800000x1 ![0] bcast_S800000_S800000x1_0 : (⟨S800000, .i32⟩ : BufTy).Contents (Elt F) → (⟨S800000x1, .i32⟩ : BufTy).Contents (Elt F)),
    binary main_v171 main_v177 main_v178 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg3 main_v179 (broadcastInDim S800000x1 ![0] bcast_S800000_S800000x1_0 : (⟨S800000, .f32⟩ : BufTy).Contents (Elt F) → (⟨S800000x1, .f32⟩ : BufTy).Contents (Elt F)),
    unary main_v179 main_v180 (broadcastInDim S800000x96 ![0, 1] bcast_S800000x1_S800000x96_0_1 : (⟨S800000x1, .f32⟩ : BufTy).Contents (Elt F) → (⟨S800000x96, .f32⟩ : BufTy).Contents (Elt F)),
    binary main_v178 main_v180 main_v181 (mulf : (⟨S800000x96, .f32⟩ : BufTy).Contents (Elt F) → (⟨S800000x96, .f32⟩ : BufTy).Contents (Elt F) → (⟨S800000x96, .f32⟩ : BufTy).Contents (Elt F)),
    nullary main_cst_31 (constant S_ .f32 0x00000000#32),
    unary main_cst_31 main_v182 (broadcastInDim S50000x96 ![] bcast_S_S50000x96 : (⟨S_, .f32⟩ : BufTy).Contents (Elt F) → (⟨S50000x96, .f32⟩ : BufTy).Contents (Elt F)),
    unary main_arg2 main_v183 (broadcastInDim S800000x1 ![0] bcast_S800000_S800000x1_0 : (⟨S800000, .i32⟩ : BufTy).Contents (Elt F) → (⟨S800000x1, .i32⟩ : BufTy).Contents (Elt F)),
    ternary main_v182 main_v183 main_v181 main_v184 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_v8 main_v185 (broadcastInDim S50000x96 ![0, 1] bcast_S50000x1_S50000x96_0_1 : (⟨S50000x1, .f32⟩ : BufTy).Contents (Elt F) → (⟨S50000x96, .f32⟩ : BufTy).Contents (Elt F)),
    binary main_v184 main_v185 main_v186 (mulf : (⟨S50000x96, .f32⟩ : BufTy).Contents (Elt F) → (⟨S50000x96, .f32⟩ : BufTy).Contents (Elt F) → (⟨S50000x96, .f32⟩ : BufTy).Contents (Elt F)),
    unary main_v8 main_v187 (broadcastInDim S50000x96 ![0, 1] bcast_S50000x1_S50000x96_0_1 : (⟨S50000x1, .f32⟩ : BufTy).Contents (Elt F) → (⟨S50000x96, .f32⟩ : BufTy).Contents (Elt F)),
    binary main_v186 main_v187 main_v188 (mulf : (⟨S50000x96, .f32⟩ : BufTy).Contents (Elt F) → (⟨S50000x96, .f32⟩ : BufTy).Contents (Elt F) → (⟨S50000x96, .f32⟩ : BufTy).Contents (Elt F)),
    nullary main_c_32 (constantI S_ 32 0#32),
    unary main_c_32 main_v189 (broadcastInDim S800000 ![] bcast_S_S800000 : (⟨S_, .i32⟩ : BufTy).Contents (Elt F) → (⟨S800000, .i32⟩ : BufTy).Contents (Elt F)),
    binary main_arg1 main_v189 main_v190 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v191 (broadcastInDim S800000 ![] bcast_S_S800000 : (⟨S_, .i32⟩ : BufTy).Contents (Elt F) → (⟨S800000, .i32⟩ : BufTy).Contents (Elt F)),
    binary main_arg1 main_v191 main_v192 (addi : (⟨S800000, .i32⟩ : BufTy).Contents (Elt F) → (⟨S800000, .i32⟩ : BufTy).Contents (Elt F) → (⟨S800000, .i32⟩ : BufTy).Contents (Elt F)),
    ternary main_v190 main_v192 main_arg1 main_v193 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v193 main_v194 (broadcastInDim S800000x1 ![0] bcast_S800000_S800000x1_0 : (⟨S800000, .i32⟩ : BufTy).Contents (Elt F) → (⟨S800000x1, .i32⟩ : BufTy).Contents (Elt F)),
    binary main_v188 main_v194 main_v195 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg3 main_v196 (broadcastInDim S800000x1 ![0] bcast_S800000_S800000x1_0 : (⟨S800000, .f32⟩ : BufTy).Contents (Elt F) → (⟨S800000x1, .f32⟩ : BufTy).Contents (Elt F)),
    unary main_v196 main_v197 (broadcastInDim S800000x96 ![0, 1] bcast_S800000x1_S800000x96_0_1 : (⟨S800000x1, .f32⟩ : BufTy).Contents (Elt F) → (⟨S800000x96, .f32⟩ : BufTy).Contents (Elt F)),
    binary main_v195 main_v197 main_v198 (mulf : (⟨S800000x96, .f32⟩ : BufTy).Contents (Elt F) → (⟨S800000x96, .f32⟩ : BufTy).Contents (Elt F) → (⟨S800000x96, .f32⟩ : BufTy).Contents (Elt F)),
    nullary main_cst_34 (constant S_ .f32 0x00000000#32),
    unary main_cst_34 main_v199 (broadcastInDim S50000x96 ![] bcast_S_S50000x96 : (⟨S_, .f32⟩ : BufTy).Contents (Elt F) → (⟨S50000x96, .f32⟩ : BufTy).Contents (Elt F)),
    unary main_arg2 main_v200 (broadcastInDim S800000x1 ![0] bcast_S800000_S800000x1_0 : (⟨S800000, .i32⟩ : BufTy).Contents (Elt F) → (⟨S800000x1, .i32⟩ : BufTy).Contents (Elt F)),
    ternary main_v199 main_v200 main_v198 main_v201 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_v8 main_v202 (broadcastInDim S50000x96 ![0, 1] bcast_S50000x1_S50000x96_0_1 : (⟨S50000x1, .f32⟩ : BufTy).Contents (Elt F) → (⟨S50000x96, .f32⟩ : BufTy).Contents (Elt F)),
    binary main_v201 main_v202 main_v203 (mulf : (⟨S50000x96, .f32⟩ : BufTy).Contents (Elt F) → (⟨S50000x96, .f32⟩ : BufTy).Contents (Elt F) → (⟨S50000x96, .f32⟩ : BufTy).Contents (Elt F)) ]
/-- Operation 247: the joining of the three feature blocks main_v169, main_v186, main_v203 along the columns. -/
abbrev catF : HloOp τ sig (Elt F) :=
  nary ![main_v169, main_v186, main_v203] main_v204 (fun u => cat3 (u 0) (u 1) (u 2))
/-- Operations 207 to 247 of the reference's entry function, in order. -/
abbrev cF : List (HloOp τ sig (Elt F)) := cF0 ++ [catF]

/-- Operations 248 to 280 of the reference's entry function, in order. -/
abbrev cG : List (HloOp τ sig (Elt F)) :=
  [ binary main_v204 main_arg19 main_v205 ((fun l r => Host.dotGeneral dot_S50000x288_S288x32_S50000x32_1_0_0_1_n_n none l r) : (⟨S50000x288, .f32⟩ : BufTy).Contents (Elt F) → (⟨S288x32, .f32⟩ : BufTy).Contents (Elt F) → (⟨S50000x32, .f32⟩ : BufTy).Contents (Elt F)),
    unary main_arg20 main_v206 (broadcastInDim S1x32 ![1] bcast_S32_S1x32_1 : (⟨S32, .f32⟩ : BufTy).Contents (Elt F) → (⟨S1x32, .f32⟩ : BufTy).Contents (Elt F)),
    unary main_v206 main_v207 (broadcastInDim S50000x32 ![0, 1] bcast_S1x32_S50000x32_0_1 : (⟨S1x32, .f32⟩ : BufTy).Contents (Elt F) → (⟨S50000x32, .f32⟩ : BufTy).Contents (Elt F)),
    binary main_v205 main_v207 main_v208 (addf : (⟨S50000x32, .f32⟩ : BufTy).Contents (Elt F) → (⟨S50000x32, .f32⟩ : BufTy).Contents (Elt F) → (⟨S50000x32, .f32⟩ : BufTy).Contents (Elt F)),
    nullary main_cst_35 (constant S_ .f32 0x00000000#32),
    binary main_v208 main_cst_35 main_v209 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v209 main_v210 (broadcastInDim S50000x1 ![0] bcast_S50000_S50000x1_0 : (⟨S50000, .f32⟩ : BufTy).Contents (Elt F) → (⟨S50000x1, .f32⟩ : BufTy).Contents (Elt F)),
    nullary main_cst_36 (constant S_ .f32 0x42000000#32),
    unary main_cst_36 main_v211 (broadcastInDim S50000x1 ![] bcast_S_S50000x1 : (⟨S_, .f32⟩ : BufTy).Contents (Elt F) → (⟨S50000x1, .f32⟩ : BufTy).Contents (Elt F)),
    binary main_v210 main_v211 main_v212 (Host.divf : (⟨S50000x1, .f32⟩ : BufTy).Contents (Elt F) → (⟨S50000x1, .f32⟩ : BufTy).Contents (Elt F) → (⟨S50000x1, .f32⟩ : BufTy).Contents (Elt F)),
    unary main_v212 main_v213 (broadcastInDim S50000x32 ![0, 1] bcast_S50000x1_S50000x32_0_1 : (⟨S50000x1, .f32⟩ : BufTy).Contents (Elt F) → (⟨S50000x32, .f32⟩ : BufTy).Contents (Elt F)),
    binary main_v208 main_v213 main_v214 (subf : (⟨S50000x32, .f32⟩ : BufTy).Contents (Elt F) → (⟨S50000x32, .f32⟩ : BufTy).Contents (Elt F) → (⟨S50000x32, .f32⟩ : BufTy).Contents (Elt F)),
    binary main_v214 main_v214 main_v215 (mulf : (⟨S50000x32, .f32⟩ : BufTy).Contents (Elt F) → (⟨S50000x32, .f32⟩ : BufTy).Contents (Elt F) → (⟨S50000x32, .f32⟩ : BufTy).Contents (Elt F)),
    nullary main_cst_37 (constant S_ .f32 0x00000000#32),
    binary main_v215 main_cst_37 main_v216 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v216 main_v217 (broadcastInDim S50000x1 ![0] bcast_S50000_S50000x1_0 : (⟨S50000, .f32⟩ : BufTy).Contents (Elt F) → (⟨S50000x1, .f32⟩ : BufTy).Contents (Elt F)),
    nullary main_cst_38 (constant S_ .f32 0x42000000#32),
    unary main_cst_38 main_v218 (broadcastInDim S50000x1 ![] bcast_S_S50000x1 : (⟨S_, .f32⟩ : BufTy).Contents (Elt F) → (⟨S50000x1, .f32⟩ : BufTy).Contents (Elt F)),
    binary main_v217 main_v218 main_v219 (Host.divf : (⟨S50000x1, .f32⟩ : BufTy).Contents (Elt F) → (⟨S50000x1, .f32⟩ : BufTy).Contents (Elt F) → (⟨S50000x1, .f32⟩ : BufTy).Contents (Elt F)),
    unary main_v212 main_v220 (broadcastInDim S50000x32 ![0, 1] bcast_S50000x1_S50000x32_0_1 : (⟨S50000x1, .f32⟩ : BufTy).Contents (Elt F) → (⟨S50000x32, .f32⟩ : BufTy).Contents (Elt F)),
    binary main_v208 main_v220 main_v221 (subf : (⟨S50000x32, .f32⟩ : BufTy).Contents (Elt F) → (⟨S50000x32, .f32⟩ : BufTy).Contents (Elt F) → (⟨S50000x32, .f32⟩ : BufTy).Contents (Elt F)),
    nullary main_cst_39 (constant S_ .f32 0x3727C5AC#32),
    unary main_cst_39 main_v222 (broadcastInDim S50000x1 ![] bcast_S_S50000x1 : (⟨S_, .f32⟩ : BufTy).Contents (Elt F) → (⟨S50000x1, .f32⟩ : BufTy).Contents (Elt F)),
    binary main_v219 main_v222 main_v223 (addf : (⟨S50000x1, .f32⟩ : BufTy).Contents (Elt F) → (⟨S50000x1, .f32⟩ : BufTy).Contents (Elt F) → (⟨S50000x1, .f32⟩ : BufTy).Contents (Elt F)),
    unary main_v223 main_v224 (Host.rsqrt : (⟨S50000x1, .f32⟩ : BufTy).Contents (Elt F) → (⟨S50000x1, .f32⟩ : BufTy).Contents (Elt F)),
    unary main_v224 main_v225 (broadcastInDim S50000x32 ![0, 1] bcast_S50000x1_S50000x32_0_1 : (⟨S50000x1, .f32⟩ : BufTy).Contents (Elt F) → (⟨S50000x32, .f32⟩ : BufTy).Contents (Elt F)),
    binary main_v221 main_v225 main_v226 (mulf : (⟨S50000x32, .f32⟩ : BufTy).Contents (Elt F) → (⟨S50000x32, .f32⟩ : BufTy).Contents (Elt F) → (⟨S50000x32, .f32⟩ : BufTy).Contents (Elt F)),
    unary main_arg21 main_v227 (broadcastInDim S1x32 ![1] bcast_S32_S1x32_1 : (⟨S32, .f32⟩ : BufTy).Contents (Elt F) → (⟨S1x32, .f32⟩ : BufTy).Contents (Elt F)),
    unary main_v227 main_v228 (broadcastInDim S50000x32 ![0, 1] bcast_S1x32_S50000x32_0_1 : (⟨S1x32, .f32⟩ : BufTy).Contents (Elt F) → (⟨S50000x32, .f32⟩ : BufTy).Contents (Elt F)),
    binary main_v226 main_v228 main_v229 (mulf : (⟨S50000x32, .f32⟩ : BufTy).Contents (Elt F) → (⟨S50000x32, .f32⟩ : BufTy).Contents (Elt F) → (⟨S50000x32, .f32⟩ : BufTy).Contents (Elt F)),
    unary main_arg22 main_v230 (broadcastInDim S1x32 ![1] bcast_S32_S1x32_1 : (⟨S32, .f32⟩ : BufTy).Contents (Elt F) → (⟨S1x32, .f32⟩ : BufTy).Contents (Elt F)),
    unary main_v230 main_v231 (broadcastInDim S50000x32 ![0, 1] bcast_S1x32_S50000x32_0_1 : (⟨S1x32, .f32⟩ : BufTy).Contents (Elt F) → (⟨S50000x32, .f32⟩ : BufTy).Contents (Elt F)),
    binary main_v229 main_v231 main_v232 (addf : (⟨S50000x32, .f32⟩ : BufTy).Contents (Elt F) → (⟨S50000x32, .f32⟩ : BufTy).Contents (Elt F) → (⟨S50000x32, .f32⟩ : BufTy).Contents (Elt F)) ]

/-- Operations 281 to 304 of the reference's entry function, in order. -/
abbrev cH : List (HloOp τ sig (Elt F)) :=
  [ nullary main_c_40 (constantI S_ 32 0#32),
    unary main_c_40 main_v233 (broadcastInDim S10000 ![] bcast_S_S10000 : (⟨S_, .i32⟩ : BufTy).Contents (Elt F) → (⟨S10000, .i32⟩ : BufTy).Contents (Elt F)),
    binary main_arg4 main_v233 main_v234 (cmpi .slt : (⟨S10000, .i32⟩ : BufTy).Contents (Elt F) → (⟨S10000, .i32⟩ : BufTy).Contents (Elt F) → (⟨S10000, .i1⟩ : BufTy).Contents (Elt F)),
    nullary main_c_41 (constantI S_ 32 50000#32),
    unary main_c_41 main_v235 (broadcastInDim S10000 ![] bcast_S_S10000 : (⟨S_, .i32⟩ : BufTy).Contents (Elt F) → (⟨S10000, .i32⟩ : BufTy).Contents (Elt F)),
    binary main_arg4 main_v235 main_v236 (addi : (⟨S10000, .i32⟩ : BufTy).Contents (Elt F) → (⟨S10000, .i32⟩ : BufTy).Contents (Elt F) → (⟨S10000, .i32⟩ : BufTy).Contents (Elt F)),
    ternary main_v234 main_v236 main_arg4 main_v237 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v237 main_v238 (broadcastInDim S10000x1 ![0] bcast_S10000_S10000x1_0 : (⟨S10000, .i32⟩ : BufTy).Contents (Elt F) → (⟨S10000x1, .i32⟩ : BufTy).Contents (Elt F)),
    binary main_v232 main_v238 main_v239 ((fun x i => Host.gather gather_S50000x32_S10000x1_S10000x32_1_0_n_n_0_1_132 x i) : (⟨S50000x32, .f32⟩ : BufTy).Contents (Elt F) → (⟨S10000x1, .i32⟩ : BufTy).Contents (Elt F) → (⟨S10000x32, .f32⟩ : BufTy).Contents (Elt F)),
    TRef.nullary (TRef.of (T := ⟨S_, .f32⟩) main_call3_cst) (constant S_ .f32 0xFF800000#32),
    TRef.binary (TRef.of (T := ⟨S10000x32, .f32⟩) main_v239) (TRef.of (T := ⟨S_, .f32⟩) main_call3_cst) (TRef.of (T := ⟨S10000, .f32⟩) main_call3_v0) (fun x v => Host.reduce FloatOps.maximumf x v reducesTo_S10000x32_S10000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S10000, .f32⟩) main_call3_v1) (broadcastInDim S10000 ![] bcast_S_S10000),
    TRef.binary (TRef.of (T := ⟨S10000, .f32⟩) main_call3_v1) (TRef.of (T := ⟨S10000, .f32⟩) main_call3_v0) (TRef.of (T := ⟨S10000, .f32⟩) main_call3_v2) maximumf,
    TRef.unary (TRef.of (T := ⟨S10000, .f32⟩) main_call3_v2) (TRef.of (T := ⟨S10000x1, .f32⟩) main_call3_v3) (broadcastInDim S10000x1 ![0] bcast_S10000_S10000x1_0),
    TRef.unary (TRef.of (T := ⟨S10000x1, .f32⟩) main_call3_v3) (TRef.of (T := ⟨S10000x32, .f32⟩) main_call3_v4) (broadcastInDim S10000x32 ![0, 1] bcast_S10000x1_S10000x32_0_1),
    TRef.binary (TRef.of (T := ⟨S10000x32, .f32⟩) main_v239) (TRef.of (T := ⟨S10000x32, .f32⟩) main_call3_v4) (TRef.of (T := ⟨S10000x32, .f32⟩) main_call3_v5) subf,
    TRef.unary (TRef.of (T := ⟨S10000x32, .f32⟩) main_call3_v5) (TRef.of (T := ⟨S10000x32, .f32⟩) main_call3_v6) Host.exp,
    TRef.nullary (TRef.of (T := ⟨S_, .f32⟩) main_call3_cst_1) (constant S_ .f32 0x00000000#32),
    TRef.binary (TRef.of (T := ⟨S10000x32, .f32⟩) main_call3_v6) (TRef.of (T := ⟨S_, .f32⟩) main_call3_cst_1) (TRef.of (T := ⟨S10000, .f32⟩) main_call3_v7) (fun x v => Host.reduceAdd x v reducesTo_S10000x32_S10000_d1 h_S_),
    TRef.unary (TRef.of (T := ⟨S10000, .f32⟩) main_call3_v7) (TRef.of (T := ⟨S10000x1, .f32⟩) main_call3_v8) (broadcastInDim S10000x1 ![0] bcast_S10000_S10000x1_0),
    TRef.unary (TRef.of (T := ⟨S10000x1, .f32⟩) main_call3_v8) (TRef.of (T := ⟨S10000x1, .f32⟩) main_call3_v9) Host.log,
    TRef.unary (TRef.of (T := ⟨S10000x1, .f32⟩) main_call3_v9) (TRef.of (T := ⟨S10000x32, .f32⟩) main_call3_v10) (broadcastInDim S10000x32 ![0, 1] bcast_S10000x1_S10000x32_0_1),
    TRef.binary (TRef.of (T := ⟨S10000x32, .f32⟩) main_call3_v5) (TRef.of (T := ⟨S10000x32, .f32⟩) main_call3_v10) (TRef.of (T := ⟨S10000x32, .f32⟩) main_v240) subf ]

/-- The reference's operations are the eight stretches in a row. -/
theorem ops_eq : (Ops.ops : List (HloOp τ sig (Elt F))) = cA ++ cB ++ cC ++ cD ++ cE ++ cF ++ cG ++ cH := rfl

/-- The fold over the reference's operations, stretch by stretch. -/
theorem after_ops (V : Valuation τ sig (Elt F)) :
    after Ops.ops V = after cH (after cG (after cF (after cE (after cD (after cC (after cB (after cA V))))))) := by
  rw [ops_eq]
  exact (after_append _ cH V).trans <| congrArg (after cH) <| (after_append _ cG V).trans <| congrArg (after cG) <|
    (after_append _ cF V).trans <| congrArg (after cF) <| (after_append _ cE V).trans <| congrArg (after cE) <|
    (after_append _ cD V).trans <| congrArg (after cD) <| (after_append _ cC V).trans <| congrArg (after cC) <|
    after_append cA cB V

/-! ## What the stretches write -/

/-- One operation's result buffer is in the list of written buffers. -/
local macro "writes_mem" : tactic =>
  `(tactic| (simp only [StableHlo.nullary_writes, StableHlo.unary_writes, StableHlo.binary_writes, StableHlo.ternary_writes,
      StableHlo.nary_writes, Finset.singleton_subset_iff, List.mem_toFinset]; exact List.mem_map_of_mem (by decide)))

/-- The buffers the operations of `cA` write. -/
abbrev cA_W : List (Ref sig .tc) := [main_cst, main_v0, main_cst_0, main_v1, main_v2, main_v3, main_cst_1, main_v4, main_v5, main_cst_2, main_v6, main_v7, main_v8, main_v9, main_v10, main_v11, main_v12, main_call0_cst, main_call0_v0, main_v13, main_v14, main_v15, main_v16, main_v17, main_cst_3, main_v18, main_v19, main_cst_4, main_v20, main_v21, main_v22, main_v23, main_v24, main_cst_5, main_v25, main_v26, main_cst_6, main_v27, main_v28, main_v29, main_v30, main_cst_7, main_v31, main_v32, main_v33, main_v34, main_v35, main_v36, main_v37, main_v38, main_v39, main_v40, main_v41]
theorem cA_writes : (cA : List (HloOp τ sig (Elt F))).Forall fun op => op.writes ⊆ (cA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

/-- The buffers the operations of `cB` write. -/
abbrev cB_W : List (Ref sig .tc) := [main_v42, main_v43, main_c, main_v44, main_v45, main_c_8, main_v46, main_v47, main_v48, main_v49, main_v50, main_v51, main_v52, main_v53, main_cst_9, main_v54, main_v55, main_v56, main_v57, main_v58, main_v59, main_v60, main_c_10, main_v61, main_v62, main_c_11, main_v63, main_v64, main_v65, main_v66, main_v67, main_v68, main_v69, main_v70, main_cst_12, main_v71, main_v72, main_v73, main_v74, main_v75, main_v76]
theorem cB0_writes : (cB0 : List (HloOp τ sig (Elt F))).Forall fun op => op.writes ⊆ (cB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem
theorem catB_writes : (catB : HloOp τ sig (Elt F)).writes ⊆ (cB_W.map (Proc.devRef (τ := τ) .tc)).toFinset := by
  writes_mem
theorem cB_writes : (cB : List (HloOp τ sig (Elt F))).Forall fun op => op.writes ⊆ (cB_W.map (Proc.devRef (τ := τ) .tc)).toFinset :=
  List.forall_iff_forall_mem.mpr fun op hop => (List.mem_append.mp hop).elim
    (List.forall_iff_forall_mem.mp cB0_writes op) (fun h => List.mem_singleton.mp h ▸ catB_writes)

/-- The buffers the operations of `cC` write. -/
abbrev cC_W : List (Ref sig .tc) := [main_v77, main_v78, main_v79, main_v80, main_cst_13, main_v81, main_v82, main_cst_14, main_v83, main_v84, main_v85, main_v86, main_v87, main_cst_15, main_v88, main_v89, main_cst_16, main_v90, main_v91, main_v92, main_v93, main_cst_17, main_v94, main_v95, main_v96, main_v97, main_v98, main_v99, main_v100, main_v101, main_v102, main_v103, main_v104, main_call1_cst, main_call1_v0, main_v105]
theorem cC_writes : (cC : List (HloOp τ sig (Elt F))).Forall fun op => op.writes ⊆ (cC_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

/-- The buffers the operations of `cD` write. -/
abbrev cD_W : List (Ref sig .tc) := [main_v106, main_v107, main_c_18, main_v108, main_v109, main_c_19, main_v110, main_v111, main_v112, main_v113, main_v114, main_v115, main_v116, main_v117, main_cst_20, main_v118, main_v119, main_v120, main_v121, main_v122, main_v123, main_v124, main_c_21, main_v125, main_v126, main_c_22, main_v127, main_v128, main_v129, main_v130, main_v131, main_v132, main_v133, main_v134, main_cst_23, main_v135, main_v136, main_v137, main_v138, main_v139, main_v140]
theorem cD0_writes : (cD0 : List (HloOp τ sig (Elt F))).Forall fun op => op.writes ⊆ (cD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem
theorem catD_writes : (catD : HloOp τ sig (Elt F)).writes ⊆ (cD_W.map (Proc.devRef (τ := τ) .tc)).toFinset := by
  writes_mem
theorem cD_writes : (cD : List (HloOp τ sig (Elt F))).Forall fun op => op.writes ⊆ (cD_W.map (Proc.devRef (τ := τ) .tc)).toFinset :=
  List.forall_iff_forall_mem.mpr fun op hop => (List.mem_append.mp hop).elim
    (List.forall_iff_forall_mem.mp cD0_writes op) (fun h => List.mem_singleton.mp h ▸ catD_writes)

/-- The buffers the operations of `cE` write. -/
abbrev cE_W : List (Ref sig .tc) := [main_v141, main_v142, main_v143, main_v144, main_cst_24, main_v145, main_v146, main_cst_25, main_v147, main_v148, main_v149, main_v150, main_v151, main_cst_26, main_v152, main_v153, main_cst_27, main_v154, main_v155, main_v156, main_v157, main_cst_28, main_v158, main_v159, main_v160, main_v161, main_v162, main_v163, main_v164, main_v165, main_v166, main_v167, main_v168, main_call2_cst, main_call2_v0, main_v169]
theorem cE_writes : (cE : List (HloOp τ sig (Elt F))).Forall fun op => op.writes ⊆ (cE_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

/-- The buffers the operations of `cF` write. -/
abbrev cF_W : List (Ref sig .tc) := [main_v170, main_v171, main_c_29, main_v172, main_v173, main_c_30, main_v174, main_v175, main_v176, main_v177, main_v178, main_v179, main_v180, main_v181, main_cst_31, main_v182, main_v183, main_v184, main_v185, main_v186, main_v187, main_v188, main_c_32, main_v189, main_v190, main_c_33, main_v191, main_v192, main_v193, main_v194, main_v195, main_v196, main_v197, main_v198, main_cst_34, main_v199, main_v200, main_v201, main_v202, main_v203, main_v204]
theorem cF0_writes : (cF0 : List (HloOp τ sig (Elt F))).Forall fun op => op.writes ⊆ (cF_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem
theorem catF_writes : (catF : HloOp τ sig (Elt F)).writes ⊆ (cF_W.map (Proc.devRef (τ := τ) .tc)).toFinset := by
  writes_mem
theorem cF_writes : (cF : List (HloOp τ sig (Elt F))).Forall fun op => op.writes ⊆ (cF_W.map (Proc.devRef (τ := τ) .tc)).toFinset :=
  List.forall_iff_forall_mem.mpr fun op hop => (List.mem_append.mp hop).elim
    (List.forall_iff_forall_mem.mp cF0_writes op) (fun h => List.mem_singleton.mp h ▸ catF_writes)

/-- The buffers the operations of `cG` write. -/
abbrev cG_W : List (Ref sig .tc) := [main_v205, main_v206, main_v207, main_v208, main_cst_35, main_v209, main_v210, main_cst_36, main_v211, main_v212, main_v213, main_v214, main_v215, main_cst_37, main_v216, main_v217, main_cst_38, main_v218, main_v219, main_v220, main_v221, main_cst_39, main_v222, main_v223, main_v224, main_v225, main_v226, main_v227, main_v228, main_v229, main_v230, main_v231, main_v232]
theorem cG_writes : (cG : List (HloOp τ sig (Elt F))).Forall fun op => op.writes ⊆ (cG_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

/-- The buffers the operations of `cH` write. -/
abbrev cH_W : List (Ref sig .tc) := [main_c_40, main_v233, main_v234, main_c_41, main_v235, main_v236, main_v237, main_v238, main_v239, main_call3_cst, main_call3_v0, main_call3_cst_0, main_call3_v1, main_call3_v2, main_call3_v3, main_call3_v4, main_call3_v5, main_call3_v6, main_call3_cst_1, main_call3_v7, main_call3_v8, main_call3_v9, main_call3_v10, main_v240]
theorem cH_writes : (cH : List (HloOp τ sig (Elt F))).Forall fun op => op.writes ⊆ (cH_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;> writes_mem

/-- A buffer the operations of `cA` do not write keeps its contents. -/
theorem keepA (V : Valuation τ sig (Elt F)) {r : Ref sig .tc} (hr : r ∉ cA_W) :
    after cA V (Proc.devRef .tc r) = V (Proc.devRef .tc r) := after_of_writes_sub cA V cA_writes hr

/-- A buffer the operations of `cB` do not write keeps its contents. -/
theorem keepB (V : Valuation τ sig (Elt F)) {r : Ref sig .tc} (hr : r ∉ cB_W) :
    after cB V (Proc.devRef .tc r) = V (Proc.devRef .tc r) := after_of_writes_sub cB V cB_writes hr

/-- A buffer the operations of `cC` do not write keeps its contents. -/
theorem keepC (V : Valuation τ sig (Elt F)) {r : Ref sig .tc} (hr : r ∉ cC_W) :
    after cC V (Proc.devRef .tc r) = V (Proc.devRef .tc r) := after_of_writes_sub cC V cC_writes hr

/-- A buffer the operations of `cD` do not write keeps its contents. -/
theorem keepD (V : Valuation τ sig (Elt F)) {r : Ref sig .tc} (hr : r ∉ cD_W) :
    after cD V (Proc.devRef .tc r) = V (Proc.devRef .tc r) := after_of_writes_sub cD V cD_writes hr

/-- A buffer the operations of `cE` do not write keeps its contents. -/
theorem keepE (V : Valuation τ sig (Elt F)) {r : Ref sig .tc} (hr : r ∉ cE_W) :
    after cE V (Proc.devRef .tc r) = V (Proc.devRef .tc r) := after_of_writes_sub cE V cE_writes hr

/-- A buffer the operations of `cF` do not write keeps its contents. -/
theorem keepF (V : Valuation τ sig (Elt F)) {r : Ref sig .tc} (hr : r ∉ cF_W) :
    after cF V (Proc.devRef .tc r) = V (Proc.devRef .tc r) := after_of_writes_sub cF V cF_writes hr

/-- A buffer the operations of `cG` do not write keeps its contents. -/
theorem keepG (V : Valuation τ sig (Elt F)) {r : Ref sig .tc} (hr : r ∉ cG_W) :
    after cG V (Proc.devRef .tc r) = V (Proc.devRef .tc r) := after_of_writes_sub cG V cG_writes hr

/-- A buffer the operations of `cH` do not write keeps its contents. -/
theorem keepH (V : Valuation τ sig (Elt F)) {r : Ref sig .tc} (hr : r ∉ cH_W) :
    after cH V (Proc.devRef .tc r) = V (Proc.devRef .tc r) := after_of_writes_sub cH V cH_writes hr

/-- Every buffer the reference's operations write. -/
abbrev ops_W : List (Ref sig .tc) := cA_W ++ cB_W ++ cC_W ++ cD_W ++ cE_W ++ cF_W ++ cG_W ++ cH_W

/-- A buffer no operation of the reference writes (an argument of the entry function, for one) keeps its contents. -/
theorem ops_keeps (V : Valuation τ sig (Elt F)) {r : Ref sig .tc} (h : r ∉ ops_W) :
    after Ops.ops V (Proc.devRef .tc r) = V (Proc.devRef .tc r) := by
  simp only [ops_W, List.mem_append, not_or] at h
  obtain ⟨⟨⟨⟨⟨⟨⟨hA, hB⟩, hC⟩, hD⟩, hE⟩, hF⟩, hG⟩, hH⟩ := h
  rw [after_ops, keepH _ hH, keepG _ hG, keepF _ hF, keepE _ hE, keepD _ hD, keepC _ hC, keepB _ hB, keepA _ hA]

end Chunks

/-! ## Each stretch read at its result -/

set_option maxRecDepth 16384 in
/-- The first stretch at the degree scale: it reads the destination indices only. -/
theorem chunkA_v8 (W : Valuation τ sig (Elt Ideal))
    (a2 : (⟨S800000, .i32⟩ : BufTy).Contents (Elt Ideal))
    (h2 : W (Proc.devRef .tc main_arg2) = a2) :
    after (cA (F := Ideal)) W (Proc.devRef .tc main_v8) = val_main_v8 (F := Ideal) a2 := by
  host_read
  rw [h2]
  rfl

set_option maxRecDepth 16384 in
/-- The first stretch at the input stage's result: it reads the features and the input stage's parameters. -/
theorem chunkA_v41 (W : Valuation τ sig (Elt Ideal))
    (a0 : (⟨S50000x96, .f32⟩ : BufTy).Contents (Elt Ideal)) (a5 : (⟨S96x96, .f32⟩ : BufTy).Contents (Elt Ideal))
    (a6 : (⟨S96, .f32⟩ : BufTy).Contents (Elt Ideal)) (a7 : (⟨S96x96, .f32⟩ : BufTy).Contents (Elt Ideal))
    (a8 : (⟨S96, .f32⟩ : BufTy).Contents (Elt Ideal)) (a9 : (⟨S96, .f32⟩ : BufTy).Contents (Elt Ideal))
    (a10 : (⟨S96, .f32⟩ : BufTy).Contents (Elt Ideal))
    (h0 : W (Proc.devRef .tc main_arg0) = a0) (h5 : W (Proc.devRef .tc main_arg5) = a5)
    (h6 : W (Proc.devRef .tc main_arg6) = a6) (h7 : W (Proc.devRef .tc main_arg7) = a7)
    (h8 : W (Proc.devRef .tc main_arg8) = a8) (h9 : W (Proc.devRef .tc main_arg9) = a9)
    (h10 : W (Proc.devRef .tc main_arg10) = a10) :
    after (cA (F := Ideal)) W (Proc.devRef .tc main_v41) = val_main_v41 (F := Ideal) a0 a5 a6 a7 a8 a9 a10 := by
  host_read
  rw [h0, h5, h6, h7, h8, h9, h10]
  rfl

set_option maxRecDepth 16384 in
/-- The second stretch (two rounds of gathering, weighting and scattering, then the joining of the three feature blocks) at the joined features of layer 1. -/
theorem chunkB (W : Valuation τ sig (Elt Ideal))
    (a0 : (⟨S50000x96, .f32⟩ : BufTy).Contents (Elt Ideal)) (a1 : (⟨S800000, .i32⟩ : BufTy).Contents (Elt Ideal))
    (a2 : (⟨S800000, .i32⟩ : BufTy).Contents (Elt Ideal)) (a3 : (⟨S800000, .f32⟩ : BufTy).Contents (Elt Ideal))
    (a5 : (⟨S96x96, .f32⟩ : BufTy).Contents (Elt Ideal)) (a6 : (⟨S96, .f32⟩ : BufTy).Contents (Elt Ideal))
    (a7 : (⟨S96x96, .f32⟩ : BufTy).Contents (Elt Ideal)) (a8 : (⟨S96, .f32⟩ : BufTy).Contents (Elt Ideal))
    (a9 : (⟨S96, .f32⟩ : BufTy).Contents (Elt Ideal)) (a10 : (⟨S96, .f32⟩ : BufTy).Contents (Elt Ideal))
    (h8 : W (Proc.devRef .tc main_v8) = val_main_v8 (F := Ideal) a2)
    (h41 : W (Proc.devRef .tc main_v41) = val_main_v41 (F := Ideal) a0 a5 a6 a7 a8 a9 a10)
    (h1 : W (Proc.devRef .tc main_arg1) = a1) (h2 : W (Proc.devRef .tc main_arg2) = a2)
    (h3 : W (Proc.devRef .tc main_arg3) = a3) :
    after (cB (F := Ideal)) W (Proc.devRef .tc main_v76) = val_main_v76 (F := Ideal) a0 a1 a2 a3 a5 a6 a7 a8 a9 a10 := by
  rw [after_append, after_cons, after_nil]
  refine (nary3_result_fn (x := main_v41) (a := main_v58) (b := main_v75) (y := main_v76) (cat3 (F := Ideal)) _ _ (after cB0 W)).trans ?_
  host_read
  rw [h8, h41, h1, h2, h3]
  rfl

set_option maxRecDepth 16384 in
/-- The third stretch (layer 1's affine map, layer normalisation and rectifier) at layer 1's result. -/
theorem chunkC (W : Valuation τ sig (Elt Ideal))
    (a0 : (⟨S50000x96, .f32⟩ : BufTy).Contents (Elt Ideal)) (a1 : (⟨S800000, .i32⟩ : BufTy).Contents (Elt Ideal))
    (a2 : (⟨S800000, .i32⟩ : BufTy).Contents (Elt Ideal)) (a3 : (⟨S800000, .f32⟩ : BufTy).Contents (Elt Ideal))
    (a5 : (⟨S96x96, .f32⟩ : BufTy).Contents (Elt Ideal)) (a6 : (⟨S96, .f32⟩ : BufTy).Contents (Elt Ideal))
    (a7 : (⟨S96x96, .f32⟩ : BufTy).Contents (Elt Ideal)) (a8 : (⟨S96, .f32⟩ : BufTy).Contents (Elt Ideal))
    (a9 : (⟨S96, .f32⟩ : BufTy).Contents (Elt Ideal)) (a10 : (⟨S96, .f32⟩ : BufTy).Contents (Elt Ideal))
    (a11 : (⟨S288x96, .f32⟩ : BufTy).Contents (Elt Ideal)) (a12 : (⟨S96, .f32⟩ : BufTy).Contents (Elt Ideal))
    (a13 : (⟨S96, .f32⟩ : BufTy).Contents (Elt Ideal)) (a14 : (⟨S96, .f32⟩ : BufTy).Contents (Elt Ideal))
    (h76 : W (Proc.devRef .tc main_v76) = val_main_v76 (F := Ideal) a0 a1 a2 a3 a5 a6 a7 a8 a9 a10)
    (h11 : W (Proc.devRef .tc main_arg11) = a11) (h12 : W (Proc.devRef .tc main_arg12) = a12)
    (h13 : W (Proc.devRef .tc main_arg13) = a13) (h14 : W (Proc.devRef .tc main_arg14) = a14) :
    after (cC (F := Ideal)) W (Proc.devRef .tc main_v105) = val_main_v105 (F := Ideal) a0 a1 a2 a3 a5 a6 a7 a8 a9 a10 a11 a12 a13 a14 := by
  host_read
  rw [h76, h11, h12, h13, h14]
  rfl

set_option maxRecDepth 16384 in
/-- The fourth stretch at the joined features of layer 2. -/
theorem chunkD (W : Valuation τ sig (Elt Ideal))
    (a0 : (⟨S50000x96, .f32⟩ : BufTy).Contents (Elt Ideal)) (a1 : (⟨S800000, .i32⟩ : BufTy).Contents (Elt Ideal))
    (a2 : (⟨S800000, .i32⟩ : BufTy).Contents (Elt Ideal)) (a3 : (⟨S800000, .f32⟩ : BufTy).Contents (Elt Ideal))
    (a5 : (⟨S96x96, .f32⟩ : BufTy).Contents (Elt Ideal)) (a6 : (⟨S96, .f32⟩ : BufTy).Contents (Elt Ideal))
    (a7 : (⟨S96x96, .f32⟩ : BufTy).Contents (Elt Ideal)) (a8 : (⟨S96, .f32⟩ : BufTy).Contents (Elt Ideal))
    (a9 : (⟨S96, .f32⟩ : BufTy).Contents (Elt Ideal)) (a10 : (⟨S96, .f32⟩ : BufTy).Contents (Elt Ideal))
    (a11 : (⟨S288x96, .f32⟩ : BufTy).Contents (Elt Ideal)) (a12 : (⟨S96, .f32⟩ : BufTy).Contents (Elt Ideal))
    (a13 : (⟨S96, .f32⟩ : BufTy).Contents (Elt Ideal)) (a14 : (⟨S96, .f32⟩ : BufTy).Contents (Elt Ideal))
    (h8 : W (Proc.devRef .tc main_v8) = val_main_v8 (F := Ideal) a2)
    (h105 : W (Proc.devRef .tc main_v105) = val_main_v105 (F := Ideal) a0 a1 a2 a3 a5 a6 a7 a8 a9 a10 a11 a12 a13 a14)
    (h1 : W (Proc.devRef .tc main_arg1) = a1) (h2 : W (Proc.devRef .tc main_arg2) = a2)
    (h3 : W (Proc.devRef .tc main_arg3) = a3) :
    after (cD (F := Ideal)) W (Proc.devRef .tc main_v140) = val_main_v140 (F := Ideal) a0 a1 a2 a3 a5 a6 a7 a8 a9 a10 a11 a12 a13 a14 := by
  rw [after_append, after_cons, after_nil]
  refine (nary3_result_fn (x := main_v105) (a := main_v122) (b := main_v139) (y := main_v140) (cat3 (F := Ideal)) _ _ (after cD0 W)).trans ?_
  host_read
  rw [h8, h105, h1, h2, h3]
  rfl

set_option maxRecDepth 16384 in
/-- The fifth stretch (layer 2's affine map, layer normalisation and rectifier) at layer 2's result. -/
theorem chunkE (W : Valuation τ sig (Elt Ideal))
    (a0 : (⟨S50000x96, .f32⟩ : BufTy).Contents (Elt Ideal)) (a1 : (⟨S800000, .i32⟩ : BufTy).Contents (Elt Ideal))
    (a2 : (⟨S800000, .i32⟩ : BufTy).Contents (Elt Ideal)) (a3 : (⟨S800000, .f32⟩ : BufTy).Contents (Elt Ideal))
    (a5 : (⟨S96x96, .f32⟩ : BufTy).Contents (Elt Ideal)) (a6 : (⟨S96, .f32⟩ : BufTy).Contents (Elt Ideal))
    (a7 : (⟨S96x96, .f32⟩ : BufTy).Contents (Elt Ideal)) (a8 : (⟨S96, .f32⟩ : BufTy).Contents (Elt Ideal))
    (a9 : (⟨S96, .f32⟩ : BufTy).Contents (Elt Ideal)) (a10 : (⟨S96, .f32⟩ : BufTy).Contents (Elt Ideal))
    (a11 : (⟨S288x96, .f32⟩ : BufTy).Contents (Elt Ideal)) (a12 : (⟨S96, .f32⟩ : BufTy).Contents (Elt Ideal))
    (a13 : (⟨S96, .f32⟩ : BufTy).Contents (Elt Ideal)) (a14 : (⟨S96, .f32⟩ : BufTy).Contents (Elt Ideal))
    (a15 : (⟨S288x96, .f32⟩ : BufTy).Contents (Elt Ideal)) (a16 : (⟨S96, .f32⟩ : BufTy).Contents (Elt Ideal))
    (a17 : (⟨S96, .f32⟩ : BufTy).Contents (Elt Ideal)) (a18 : (⟨S96, .f32⟩ : BufTy).Contents (Elt Ideal))
    (h140 : W (Proc.devRef .tc main_v140) = val_main_v140 (F := Ideal) a0 a1 a2 a3 a5 a6 a7 a8 a9 a10 a11 a12 a13 a14)
    (h15 : W (Proc.devRef .tc main_arg15) = a15) (h16 : W (Proc.devRef .tc main_arg16) = a16)
    (h17 : W (Proc.devRef .tc main_arg17) = a17) (h18 : W (Proc.devRef .tc main_arg18) = a18) :
    after (cE (F := Ideal)) W (Proc.devRef .tc main_v169) = val_main_v169 (F := Ideal) a0 a1 a2 a3 a5 a6 a7 a8 a9 a10 a11 a12 a13 a14 a15 a16 a17 a18 := by
  host_read
  rw [h140, h15, h16, h17, h18]
  rfl

set_option maxRecDepth 16384 in
/-- The sixth stretch at the joined features of layer 3. -/
theorem chunkF (W : Valuation τ sig (Elt Ideal))
    (a0 : (⟨S50000x96, .f32⟩ : BufTy).Contents (Elt Ideal)) (a1 : (⟨S800000, .i32⟩ : BufTy).Contents (Elt Ideal))
    (a2 : (⟨S800000, .i32⟩ : BufTy).Contents (Elt Ideal)) (a3 : (⟨S800000, .f32⟩ : BufTy).Contents (Elt Ideal))
    (a5 : (⟨S96x96, .f32⟩ : BufTy).Contents (Elt Ideal)) (a6 : (⟨S96, .f32⟩ : BufTy).Contents (Elt Ideal))
    (a7 : (⟨S96x96, .f32⟩ : BufTy).Contents (Elt Ideal)) (a8 : (⟨S96, .f32⟩ : BufTy).Contents (Elt Ideal))
    (a9 : (⟨S96, .f32⟩ : BufTy).Contents (Elt Ideal)) (a10 : (⟨S96, .f32⟩ : BufTy).Contents (Elt Ideal))
    (a11 : (⟨S288x96, .f32⟩ : BufTy).Contents (Elt Ideal)) (a12 : (⟨S96, .f32⟩ : BufTy).Contents (Elt Ideal))
    (a13 : (⟨S96, .f32⟩ : BufTy).Contents (Elt Ideal)) (a14 : (⟨S96, .f32⟩ : BufTy).Contents (Elt Ideal))
    (a15 : (⟨S288x96, .f32⟩ : BufTy).Contents (Elt Ideal)) (a16 : (⟨S96, .f32⟩ : BufTy).Contents (Elt Ideal))
    (a17 : (⟨S96, .f32⟩ : BufTy).Contents (Elt Ideal)) (a18 : (⟨S96, .f32⟩ : BufTy).Contents (Elt Ideal))
    (h8 : W (Proc.devRef .tc main_v8) = val_main_v8 (F := Ideal) a2)
    (h169 : W (Proc.devRef .tc main_v169) = val_main_v169 (F := Ideal) a0 a1 a2 a3 a5 a6 a7 a8 a9 a10 a11 a12 a13 a14 a15 a16 a17 a18)
    (h1 : W (Proc.devRef .tc main_arg1) = a1) (h2 : W (Proc.devRef .tc main_arg2) = a2)
    (h3 : W (Proc.devRef .tc main_arg3) = a3) :
    after (cF (F := Ideal)) W (Proc.devRef .tc main_v204) = val_main_v204 (F := Ideal) a0 a1 a2 a3 a5 a6 a7 a8 a9 a10 a11 a12 a13 a14 a15 a16 a17 a18 := by
  rw [after_append, after_cons, after_nil]
  refine (nary3_result_fn (x := main_v169) (a := main_v186) (b := main_v203) (y := main_v204) (cat3 (F := Ideal)) _ _ (after cF0 W)).trans ?_
  host_read
  rw [h8, h169, h1, h2, h3]
  rfl

set_option maxRecDepth 16384 in
/-- The seventh stretch (layer 3's affine map and layer normalisation) at layer 3's result. -/
theorem chunkG (W : Valuation τ sig (Elt Ideal))
    (a0 : (⟨S50000x96, .f32⟩ : BufTy).Contents (Elt Ideal)) (a1 : (⟨S800000, .i32⟩ : BufTy).Contents (Elt Ideal))
    (a2 : (⟨S800000, .i32⟩ : BufTy).Contents (Elt Ideal)) (a3 : (⟨S800000, .f32⟩ : BufTy).Contents (Elt Ideal))
    (a5 : (⟨S96x96, .f32⟩ : BufTy).Contents (Elt Ideal)) (a6 : (⟨S96, .f32⟩ : BufTy).Contents (Elt Ideal))
    (a7 : (⟨S96x96, .f32⟩ : BufTy).Contents (Elt Ideal)) (a8 : (⟨S96, .f32⟩ : BufTy).Contents (Elt Ideal))
    (a9 : (⟨S96, .f32⟩ : BufTy).Contents (Elt Ideal)) (a10 : (⟨S96, .f32⟩ : BufTy).Contents (Elt Ideal))
    (a11 : (⟨S288x96, .f32⟩ : BufTy).Contents (Elt Ideal)) (a12 : (⟨S96, .f32⟩ : BufTy).Contents (Elt Ideal))
    (a13 : (⟨S96, .f32⟩ : BufTy).Contents (Elt Ideal)) (a14 : (⟨S96, .f32⟩ : BufTy).Contents (Elt Ideal))
    (a15 : (⟨S288x96, .f32⟩ : BufTy).Contents (Elt Ideal)) (a16 : (⟨S96, .f32⟩ : BufTy).Contents (Elt Ideal))
    (a17 : (⟨S96, .f32⟩ : BufTy).Contents (Elt Ideal)) (a18 : (⟨S96, .f32⟩ : BufTy).Contents (Elt Ideal))
    (a19 : (⟨S288x32, .f32⟩ : BufTy).Contents (Elt Ideal)) (a20 : (⟨S32, .f32⟩ : BufTy).Contents (Elt Ideal))
    (a21 : (⟨S32, .f32⟩ : BufTy).Contents (Elt Ideal)) (a22 : (⟨S32, .f32⟩ : BufTy).Contents (Elt Ideal))
    (h204 : W (Proc.devRef .tc main_v204) = val_main_v204 (F := Ideal) a0 a1 a2 a3 a5 a6 a7 a8 a9 a10 a11 a12 a13 a14 a15 a16 a17 a18)
    (h19 : W (Proc.devRef .tc main_arg19) = a19) (h20 : W (Proc.devRef .tc main_arg20) = a20)
    (h21 : W (Proc.devRef .tc main_arg21) = a21) (h22 : W (Proc.devRef .tc main_arg22) = a22) :
    after (cG (F := Ideal)) W (Proc.devRef .tc main_v232) = val_main_v232 (F := Ideal) a0 a1 a2 a3 a5 a6 a7 a8 a9 a10 a11 a12 a13 a14 a15 a16 a17 a18 a19 a20 a21 a22 := by
  host_read
  rw [h204, h19, h20, h21, h22]
  rfl

set_option maxRecDepth 16384 in
/-- The last stretch (the gathering of the requested rows and the logarithm of the softmax) at the program's result. -/
theorem chunkH (W : Valuation τ sig (Elt Ideal))
    (a0 : (⟨S50000x96, .f32⟩ : BufTy).Contents (Elt Ideal)) (a1 : (⟨S800000, .i32⟩ : BufTy).Contents (Elt Ideal))
    (a2 : (⟨S800000, .i32⟩ : BufTy).Contents (Elt Ideal)) (a3 : (⟨S800000, .f32⟩ : BufTy).Contents (Elt Ideal))
    (a4 : (⟨S10000, .i32⟩ : BufTy).Contents (Elt Ideal)) (a5 : (⟨S96x96, .f32⟩ : BufTy).Contents (Elt Ideal))
    (a6 : (⟨S96, .f32⟩ : BufTy).Contents (Elt Ideal)) (a7 : (⟨S96x96, .f32⟩ : BufTy).Contents (Elt Ideal))
    (a8 : (⟨S96, .f32⟩ : BufTy).Contents (Elt Ideal)) (a9 : (⟨S96, .f32⟩ : BufTy).Contents (Elt Ideal))
    (a10 : (⟨S96, .f32⟩ : BufTy).Contents (Elt Ideal)) (a11 : (⟨S288x96, .f32⟩ : BufTy).Contents (Elt Ideal))
    (a12 : (⟨S96, .f32⟩ : BufTy).Contents (Elt Ideal)) (a13 : (⟨S96, .f32⟩ : BufTy).Contents (Elt Ideal))
    (a14 : (⟨S96, .f32⟩ : BufTy).Contents (Elt Ideal)) (a15 : (⟨S288x96, .f32⟩ : BufTy).Contents (Elt Ideal))
    (a16 : (⟨S96, .f32⟩ : BufTy).Contents (Elt Ideal)) (a17 : (⟨S96, .f32⟩ : BufTy).Contents (Elt Ideal))
    (a18 : (⟨S96, .f32⟩ : BufTy).Contents (Elt Ideal)) (a19 : (⟨S288x32, .f32⟩ : BufTy).Contents (Elt Ideal))
    (a20 : (⟨S32, .f32⟩ : BufTy).Contents (Elt Ideal)) (a21 : (⟨S32, .f32⟩ : BufTy).Contents (Elt Ideal))
    (a22 : (⟨S32, .f32⟩ : BufTy).Contents (Elt Ideal))
    (h232 : W (Proc.devRef .tc main_v232) = val_main_v232 (F := Ideal) a0 a1 a2 a3 a5 a6 a7 a8 a9 a10 a11 a12 a13 a14 a15 a16 a17 a18 a19 a20 a21 a22)
    (h4 : W (Proc.devRef .tc main_arg4) = a4) :
    after (cH (F := Ideal)) W (Proc.devRef .tc main_v240) = val_main_v240 (F := Ideal) a0 a1 a2 a3 a4 a5 a6 a7 a8 a9 a10 a11 a12 a13 a14 a15 a16 a17 a18 a19 a20 a21 a22 := by
  host_read
  rw [h232, h4]
  simp only [TRef.toBuf, TRef.ofBuf, cast_cast, cast_eq]
  rfl

/-! ## The stretches in a row -/

section Chain
variable (W : Valuation τ sig (Elt Ideal))

/-- The contents after the first stretch. -/
abbrev V1 : Valuation τ sig (Elt Ideal) := after cA W
/-- The contents after the second stretch. -/
abbrev V2 : Valuation τ sig (Elt Ideal) := after cB (V1 W)
/-- The contents after the third stretch. -/
abbrev V3 : Valuation τ sig (Elt Ideal) := after cC (V2 W)
/-- The contents after the fourth stretch. -/
abbrev V4 : Valuation τ sig (Elt Ideal) := after cD (V3 W)
/-- The contents after the fifth stretch. -/
abbrev V5 : Valuation τ sig (Elt Ideal) := after cE (V4 W)
/-- The contents after the sixth stretch. -/
abbrev V6 : Valuation τ sig (Elt Ideal) := after cF (V5 W)
/-- The contents after the seventh stretch. -/
abbrev V7 : Valuation τ sig (Elt Ideal) := after cG (V6 W)

/-- The buffers the first `k` stretches write. -/
abbrev P1_W : List (Ref sig .tc) := cA_W
abbrev P2_W : List (Ref sig .tc) := P1_W ++ cB_W
abbrev P3_W : List (Ref sig .tc) := P2_W ++ cC_W
abbrev P4_W : List (Ref sig .tc) := P3_W ++ cD_W
abbrev P5_W : List (Ref sig .tc) := P4_W ++ cE_W
abbrev P6_W : List (Ref sig .tc) := P5_W ++ cF_W
abbrev P7_W : List (Ref sig .tc) := P6_W ++ cG_W
abbrev P8_W : List (Ref sig .tc) := P7_W ++ cH_W

/-- A buffer none of the first stretches writes still holds the launch contents. -/
theorem keep1 {r : Ref sig .tc} (h : r ∉ P1_W) : V1 W (Proc.devRef .tc r) = W (Proc.devRef .tc r) := keepA W h
theorem keep2 {r : Ref sig .tc} (h : r ∉ P2_W) : V2 W (Proc.devRef .tc r) = W (Proc.devRef .tc r) :=
  (keepB (V1 W) fun m => h (List.mem_append_right _ m)).trans (keep1 W fun m => h (List.mem_append_left _ m))
theorem keep3 {r : Ref sig .tc} (h : r ∉ P3_W) : V3 W (Proc.devRef .tc r) = W (Proc.devRef .tc r) :=
  (keepC (V2 W) fun m => h (List.mem_append_right _ m)).trans (keep2 W fun m => h (List.mem_append_left _ m))
theorem keep4 {r : Ref sig .tc} (h : r ∉ P4_W) : V4 W (Proc.devRef .tc r) = W (Proc.devRef .tc r) :=
  (keepD (V3 W) fun m => h (List.mem_append_right _ m)).trans (keep3 W fun m => h (List.mem_append_left _ m))
theorem keep5 {r : Ref sig .tc} (h : r ∉ P5_W) : V5 W (Proc.devRef .tc r) = W (Proc.devRef .tc r) :=
  (keepE (V4 W) fun m => h (List.mem_append_right _ m)).trans (keep4 W fun m => h (List.mem_append_left _ m))
theorem keep6 {r : Ref sig .tc} (h : r ∉ P6_W) : V6 W (Proc.devRef .tc r) = W (Proc.devRef .tc r) :=
  (keepF (V5 W) fun m => h (List.mem_append_right _ m)).trans (keep5 W fun m => h (List.mem_append_left _ m))
theorem keep7 {r : Ref sig .tc} (h : r ∉ P7_W) : V7 W (Proc.devRef .tc r) = W (Proc.devRef .tc r) :=
  (keepG (V6 W) fun m => h (List.mem_append_right _ m)).trans (keep6 W fun m => h (List.mem_append_left _ m))

/-- The degree scale after the first stretch. -/
theorem at8_1 : V1 W (Proc.devRef .tc main_v8) = val_main_v8 (F := Ideal) (W (Proc.devRef .tc main_arg2)) :=
  chunkA_v8 W _ rfl

/-- The input stage's result after the first stretch. -/
theorem at41 : V1 W (Proc.devRef .tc main_v41)
    = val_main_v41 (F := Ideal) (W (Proc.devRef .tc main_arg0)) (W (Proc.devRef .tc main_arg5)) (W (Proc.devRef .tc
      main_arg6)) (W (Proc.devRef .tc main_arg7)) (W (Proc.devRef .tc main_arg8)) (W (Proc.devRef .tc main_arg9)) (W
      (Proc.devRef .tc main_arg10)) :=
  chunkA_v41 W _ _ _ _ _ _ _ rfl rfl rfl rfl rfl rfl rfl

/-- The joined features of layer 1 after the second stretch. -/
theorem at76 : V2 W (Proc.devRef .tc main_v76)
    = val_main_v76 (F := Ideal) (W (Proc.devRef .tc main_arg0)) (W (Proc.devRef .tc main_arg1)) (W (Proc.devRef .tc
      main_arg2)) (W (Proc.devRef .tc main_arg3)) (W (Proc.devRef .tc main_arg5)) (W (Proc.devRef .tc main_arg6)) (W
      (Proc.devRef .tc main_arg7)) (W (Proc.devRef .tc main_arg8)) (W (Proc.devRef .tc main_arg9)) (W (Proc.devRef .tc
      main_arg10)) :=
  chunkB (V1 W) _ _ _ _ _ _ _ _ _ _ (at8_1 W) (at41 W) (keep1 W (by decide)) (keep1 W (by decide)) (keep1 W (by decide))

/-- Layer 1's result after the third stretch. -/
theorem at105 : V3 W (Proc.devRef .tc main_v105)
    = val_main_v105 (F := Ideal) (W (Proc.devRef .tc main_arg0)) (W (Proc.devRef .tc main_arg1)) (W (Proc.devRef .tc
      main_arg2)) (W (Proc.devRef .tc main_arg3)) (W (Proc.devRef .tc main_arg5)) (W (Proc.devRef .tc main_arg6)) (W
      (Proc.devRef .tc main_arg7)) (W (Proc.devRef .tc main_arg8)) (W (Proc.devRef .tc main_arg9)) (W (Proc.devRef .tc
      main_arg10)) (W (Proc.devRef .tc main_arg11)) (W (Proc.devRef .tc main_arg12)) (W (Proc.devRef .tc main_arg13)) (W
      (Proc.devRef .tc main_arg14)) :=
  chunkC (V2 W) _ _ _ _ _ _ _ _ _ _ _ _ _ _ (at76 W) (keep2 W (by decide)) (keep2 W (by decide)) (keep2 W (by decide)) (keep2 W (by decide))

/-- The degree scale is still there after the third stretch. -/
theorem at8_3 : V3 W (Proc.devRef .tc main_v8) = val_main_v8 (F := Ideal) (W (Proc.devRef .tc main_arg2)) :=
  (keepC (V2 W) (by decide)).trans ((keepB (V1 W) (by decide)).trans (at8_1 W))

/-- The joined features of layer 2 after the fourth stretch. -/
theorem at140 : V4 W (Proc.devRef .tc main_v140)
    = val_main_v140 (F := Ideal) (W (Proc.devRef .tc main_arg0)) (W (Proc.devRef .tc main_arg1)) (W (Proc.devRef .tc
      main_arg2)) (W (Proc.devRef .tc main_arg3)) (W (Proc.devRef .tc main_arg5)) (W (Proc.devRef .tc main_arg6)) (W
      (Proc.devRef .tc main_arg7)) (W (Proc.devRef .tc main_arg8)) (W (Proc.devRef .tc main_arg9)) (W (Proc.devRef .tc
      main_arg10)) (W (Proc.devRef .tc main_arg11)) (W (Proc.devRef .tc main_arg12)) (W (Proc.devRef .tc main_arg13)) (W
      (Proc.devRef .tc main_arg14)) :=
  chunkD (V3 W) _ _ _ _ _ _ _ _ _ _ _ _ _ _ (at8_3 W) (at105 W) (keep3 W (by decide)) (keep3 W (by decide)) (keep3 W (by decide))

/-- Layer 2's result after the fifth stretch. -/
theorem at169 : V5 W (Proc.devRef .tc main_v169)
    = val_main_v169 (F := Ideal) (W (Proc.devRef .tc main_arg0)) (W (Proc.devRef .tc main_arg1)) (W (Proc.devRef .tc
      main_arg2)) (W (Proc.devRef .tc main_arg3)) (W (Proc.devRef .tc main_arg5)) (W (Proc.devRef .tc main_arg6)) (W
      (Proc.devRef .tc main_arg7)) (W (Proc.devRef .tc main_arg8)) (W (Proc.devRef .tc main_arg9)) (W (Proc.devRef .tc
      main_arg10)) (W (Proc.devRef .tc main_arg11)) (W (Proc.devRef .tc main_arg12)) (W (Proc.devRef .tc main_arg13)) (W
      (Proc.devRef .tc main_arg14)) (W (Proc.devRef .tc main_arg15)) (W (Proc.devRef .tc main_arg16)) (W (Proc.devRef .tc
      main_arg17)) (W (Proc.devRef .tc main_arg18)) :=
  chunkE (V4 W) _ _ _ _ _ _ _ _ _ _ _ _ _ _ _ _ _ _ (at140 W) (keep4 W (by decide)) (keep4 W (by decide)) (keep4 W (by decide)) (keep4 W (by decide))

/-- The degree scale is still there after the fifth stretch. -/
theorem at8_5 : V5 W (Proc.devRef .tc main_v8) = val_main_v8 (F := Ideal) (W (Proc.devRef .tc main_arg2)) :=
  (keepE (V4 W) (by decide)).trans ((keepD (V3 W) (by decide)).trans (at8_3 W))

/-- The joined features of layer 3 after the sixth stretch. -/
theorem at204 : V6 W (Proc.devRef .tc main_v204)
    = val_main_v204 (F := Ideal) (W (Proc.devRef .tc main_arg0)) (W (Proc.devRef .tc main_arg1)) (W (Proc.devRef .tc
      main_arg2)) (W (Proc.devRef .tc main_arg3)) (W (Proc.devRef .tc main_arg5)) (W (Proc.devRef .tc main_arg6)) (W
      (Proc.devRef .tc main_arg7)) (W (Proc.devRef .tc main_arg8)) (W (Proc.devRef .tc main_arg9)) (W (Proc.devRef .tc
      main_arg10)) (W (Proc.devRef .tc main_arg11)) (W (Proc.devRef .tc main_arg12)) (W (Proc.devRef .tc main_arg13)) (W
      (Proc.devRef .tc main_arg14)) (W (Proc.devRef .tc main_arg15)) (W (Proc.devRef .tc main_arg16)) (W (Proc.devRef .tc
      main_arg17)) (W (Proc.devRef .tc main_arg18)) :=
  chunkF (V5 W) _ _ _ _ _ _ _ _ _ _ _ _ _ _ _ _ _ _ (at8_5 W) (at169 W) (keep5 W (by decide)) (keep5 W (by decide)) (keep5 W (by decide))

/-- Layer 3's result after the seventh stretch. -/
theorem at232 : V7 W (Proc.devRef .tc main_v232)
    = val_main_v232 (F := Ideal) (W (Proc.devRef .tc main_arg0)) (W (Proc.devRef .tc main_arg1)) (W (Proc.devRef .tc
      main_arg2)) (W (Proc.devRef .tc main_arg3)) (W (Proc.devRef .tc main_arg5)) (W (Proc.devRef .tc main_arg6)) (W
      (Proc.devRef .tc main_arg7)) (W (Proc.devRef .tc main_arg8)) (W (Proc.devRef .tc main_arg9)) (W (Proc.devRef .tc
      main_arg10)) (W (Proc.devRef .tc main_arg11)) (W (Proc.devRef .tc main_arg12)) (W (Proc.devRef .tc main_arg13)) (W
      (Proc.devRef .tc main_arg14)) (W (Proc.devRef .tc main_arg15)) (W (Proc.devRef .tc main_arg16)) (W (Proc.devRef .tc
      main_arg17)) (W (Proc.devRef .tc main_arg18)) (W (Proc.devRef .tc main_arg19)) (W (Proc.devRef .tc main_arg20)) (W
      (Proc.devRef .tc main_arg21)) (W (Proc.devRef .tc main_arg22)) :=
  chunkG (V6 W) _ _ _ _ _ _ _ _ _ _ _ _ _ _ _ _ _ _ _ _ _ _ (at204 W) (keep6 W (by decide)) (keep6 W (by decide)) (keep6 W (by decide)) (keep6 W (by decide))

/-- The program's result after the last stretch. -/
theorem at240 : after cH (V7 W) (Proc.devRef .tc main_v240)
    = val_main_v240 (F := Ideal) (W (Proc.devRef .tc main_arg0)) (W (Proc.devRef .tc main_arg1)) (W (Proc.devRef .tc
      main_arg2)) (W (Proc.devRef .tc main_arg3)) (W (Proc.devRef .tc main_arg4)) (W (Proc.devRef .tc main_arg5)) (W
      (Proc.devRef .tc main_arg6)) (W (Proc.devRef .tc main_arg7)) (W (Proc.devRef .tc main_arg8)) (W (Proc.devRef .tc
      main_arg9)) (W (Proc.devRef .tc main_arg10)) (W (Proc.devRef .tc main_arg11)) (W (Proc.devRef .tc main_arg12)) (W
      (Proc.devRef .tc main_arg13)) (W (Proc.devRef .tc main_arg14)) (W (Proc.devRef .tc main_arg15)) (W (Proc.devRef .tc
      main_arg16)) (W (Proc.devRef .tc main_arg17)) (W (Proc.devRef .tc main_arg18)) (W (Proc.devRef .tc main_arg19)) (W
      (Proc.devRef .tc main_arg20)) (W (Proc.devRef .tc main_arg21)) (W (Proc.devRef .tc main_arg22)) :=
  chunkH (V7 W) _ _ _ _ _ _ _ _ _ _ _ _ _ _ _ _ _ _ _ _ _ _ _ (at232 W) (keep7 W (by decide))

end Chain

/-- The reference's run, read at its result buffer: the fold of its 305 operations over the launch contents holds, at the
    result, the composed value of the entry function's arguments. -/
theorem ref_value (W : Valuation τ sig (Elt Ideal)) :
    after (Ops.ops (F := Ideal)) W (Proc.devRef .tc main_v240)
      = val_main_v240 (F := Ideal) (W (Proc.devRef .tc main_arg0)) (W (Proc.devRef .tc main_arg1)) (W (Proc.devRef .tc
        main_arg2)) (W (Proc.devRef .tc main_arg3)) (W (Proc.devRef .tc main_arg4)) (W (Proc.devRef .tc main_arg5)) (W
        (Proc.devRef .tc main_arg6)) (W (Proc.devRef .tc main_arg7)) (W (Proc.devRef .tc main_arg8)) (W (Proc.devRef .tc
        main_arg9)) (W (Proc.devRef .tc main_arg10)) (W (Proc.devRef .tc main_arg11)) (W (Proc.devRef .tc main_arg12)) (W
        (Proc.devRef .tc main_arg13)) (W (Proc.devRef .tc main_arg14)) (W (Proc.devRef .tc main_arg15)) (W (Proc.devRef .tc
        main_arg16)) (W (Proc.devRef .tc main_arg17)) (W (Proc.devRef .tc main_arg18)) (W (Proc.devRef .tc main_arg19)) (W
        (Proc.devRef .tc main_arg20)) (W (Proc.devRef .tc main_arg21)) (W (Proc.devRef .tc main_arg22)) := by
  rw [after_ops]
  exact at240 W

end Cert.RefChain

end
-- ==== Proof.lean ====
/-
  The certificate's five claims.

  The kernel is a graph network: an input perceptron with layer normalisation, then three graph-convolution layers, each
  concatenating a node's features with two hops of degree-normalised, edge-weighted neighbourhood sums and sending the
  result through a dense stage with layer normalisation (and a rectifier in the first two), and at the end a gather of
  the requested nodes and a log-softmax. The reference computes the same network by host operations alone; the kernel
  computes the four dense stages in four kernel regions, ten blocks of 5000 rows each, and everything else by the very
  host operations of the reference. On the extended reals a dense stage acts on each row separately, a matrix product
  into a zero accumulator is the plain sum the host's product is, and a change of float format is the identity; so each
  region leaves the array the reference's stage computes, and the host operations between the regions, being the
  reference's own, carry that equality to the result.

  The three frames: every execution of each program terminates without a fault and writes no argument. The
  idealization rewrote no operation, so that claim is trivial.
-/
import proofs.«105666_j32899449488058_1_alg».proof.Defs
import proofs.«105666_j32899449488058_1_alg».proof.Proof.Gen.Kernel
import proofs.«105666_j32899449488058_1_alg».proof.Proof.Gen.KernelIdeal
import proofs.«105666_j32899449488058_1_alg».proof.Proof.Gen.ReferenceIdeal
import proofs.«105666_j32899449488058_1_alg».proof.Proof.Gen.Pre_finite_inputs
import proofs.«105666_j32899449488058_1_alg».proof.Proof.KernelRun
import proofs.«105666_j32899449488058_1_alg».proof.Proof.KernelIdealRun
import proofs.«105666_j32899449488058_1_alg».proof.Proof.Bridge
import proofs.«105666_j32899449488058_1_alg».proof.Proof.RefOps
import proofs.«105666_j32899449488058_1_alg».proof.Proof.RefRead2
import proofs.«105666_j32899449488058_1_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs to the end and writes no argument. -/
theorem frame_k : Cert.frame_Kernel := fun m ρ _ => Cert.Kernel.Gen.frame_all m ρ

/-- So does its idealization. -/
theorem frame_ki : Cert.frame_KernelIdeal := fun m ρ _ => Cert.KernelIdeal.Gen.frame_all m ρ

/-- The reference is host operations only: it runs to the end, and none of its operations writes an argument. -/
theorem frame_ri : Cert.frame_ReferenceIdeal := fun m ρ _ =>
  (θ_run Cert.ReferenceIdeal.defs _ _).mono (fun r h c =>
    ⟨(h c Cert.ReferenceIdeal.main_arg0).trans (Cert.RefChain.ops_keeps _ (r := Cert.ReferenceIdeal.main_arg0) (by decide)),
     (h c Cert.ReferenceIdeal.main_arg1).trans (Cert.RefChain.ops_keeps _ (r := Cert.ReferenceIdeal.main_arg1) (by decide)),
     (h c Cert.ReferenceIdeal.main_arg2).trans (Cert.RefChain.ops_keeps _ (r := Cert.ReferenceIdeal.main_arg2) (by decide)),
     (h c Cert.ReferenceIdeal.main_arg3).trans (Cert.RefChain.ops_keeps _ (r := Cert.ReferenceIdeal.main_arg3) (by decide)),
     (h c Cert.ReferenceIdeal.main_arg4).trans (Cert.RefChain.ops_keeps _ (r := Cert.ReferenceIdeal.main_arg4) (by decide)),
     (h c Cert.ReferenceIdeal.main_arg5).trans (Cert.RefChain.ops_keeps _ (r := Cert.ReferenceIdeal.main_arg5) (by decide)),
     (h c Cert.ReferenceIdeal.main_arg6).trans (Cert.RefChain.ops_keeps _ (r := Cert.ReferenceIdeal.main_arg6) (by decide)),
     (h c Cert.ReferenceIdeal.main_arg7).trans (Cert.RefChain.ops_keeps _ (r := Cert.ReferenceIdeal.main_arg7) (by decide)),
     (h c Cert.ReferenceIdeal.main_arg8).trans (Cert.RefChain.ops_keeps _ (r := Cert.ReferenceIdeal.main_arg8) (by decide)),
     (h c Cert.ReferenceIdeal.main_arg9).trans (Cert.RefChain.ops_keeps _ (r := Cert.ReferenceIdeal.main_arg9) (by decide)),
     (h c Cert.ReferenceIdeal.main_arg10).trans (Cert.RefChain.ops_keeps _ (r := Cert.ReferenceIdeal.main_arg10) (by decide)),
     (h c Cert.ReferenceIdeal.main_arg11).trans (Cert.RefChain.ops_keeps _ (r := Cert.ReferenceIdeal.main_arg11) (by decide)),
     (h c Cert.ReferenceIdeal.main_arg12).trans (Cert.RefChain.ops_keeps _ (r := Cert.ReferenceIdeal.main_arg12) (by decide)),
     (h c Cert.ReferenceIdeal.main_arg13).trans (Cert.RefChain.ops_keeps _ (r := Cert.ReferenceIdeal.main_arg13) (by decide)),
     (h c Cert.ReferenceIdeal.main_arg14).trans (Cert.RefChain.ops_keeps _ (r := Cert.ReferenceIdeal.main_arg14) (by decide)),
     (h c Cert.ReferenceIdeal.main_arg15).trans (Cert.RefChain.ops_keeps _ (r := Cert.ReferenceIdeal.main_arg15) (by decide)),
     (h c Cert.ReferenceIdeal.main_arg16).trans (Cert.RefChain.ops_keeps _ (r := Cert.ReferenceIdeal.main_arg16) (by decide)),
     (h c Cert.ReferenceIdeal.main_arg17).trans (Cert.RefChain.ops_keeps _ (r := Cert.ReferenceIdeal.main_arg17) (by decide)),
     (h c Cert.ReferenceIdeal.main_arg18).trans (Cert.RefChain.ops_keeps _ (r := Cert.ReferenceIdeal.main_arg18) (by decide)),
     (h c Cert.ReferenceIdeal.main_arg19).trans (Cert.RefChain.ops_keeps _ (r := Cert.ReferenceIdeal.main_arg19) (by decide)),
     (h c Cert.ReferenceIdeal.main_arg20).trans (Cert.RefChain.ops_keeps _ (r := Cert.ReferenceIdeal.main_arg20) (by decide)),
     (h c Cert.ReferenceIdeal.main_arg21).trans (Cert.RefChain.ops_keeps _ (r := Cert.ReferenceIdeal.main_arg21) (by decide)),
     (h c Cert.ReferenceIdeal.main_arg22).trans (Cert.RefChain.ops_keeps _ (r := Cert.ReferenceIdeal.main_arg22) (by decide))⟩)
    (Cert.ReferenceIdeal.Ops.run_fold (F := Ideal) m ρ)

/-- The idealization rewrote no operation. -/
theorem preserves : Cert.preserves_Kernel_KernelIdeal := trivial

/-- On the extended reals, from memories that agree on the arguments, both programs end with the same result: the
    reference's function of the arguments (`Bridge.kernel_value` for the kernel, the reference's own run read stage by
    stage for the reference). -/
theorem algebraic : Cert.algebraic_KernelIdeal_ReferenceIdeal := by
  intro m ρ m' ρ' _ hagree
  refine ⟨fun c => Cert.ReferenceIdeal.Read.val_main_v240 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono (fun r h c =>
      ⟨(h c _ (Cert.KernelIdeal.Gen.mem_uc Cert.KernelIdeal.main_v138 (by decide))).trans (Cert.KernelIdeal.Gen.kernel_value m ρ c),
       (h c _ (Cert.KernelIdeal.Gen.mem_uc Cert.KernelIdeal.main_arg0 (by decide))).trans (Cert.KernelIdeal.Gen.B10_main_arg0 m ρ c),
       (h c _ (Cert.KernelIdeal.Gen.mem_uc Cert.KernelIdeal.main_arg1 (by decide))).trans (Cert.KernelIdeal.Gen.B10_main_arg1 m ρ c),
       (h c _ (Cert.KernelIdeal.Gen.mem_uc Cert.KernelIdeal.main_arg2 (by decide))).trans (Cert.KernelIdeal.Gen.B10_main_arg2 m ρ c),
       (h c _ (Cert.KernelIdeal.Gen.mem_uc Cert.KernelIdeal.main_arg3 (by decide))).trans (Cert.KernelIdeal.Gen.B10_main_arg3 m ρ c),
       (h c _ (Cert.KernelIdeal.Gen.mem_uc Cert.KernelIdeal.main_arg4 (by decide))).trans (Cert.KernelIdeal.Gen.B10_main_arg4 m ρ c),
       (h c _ (Cert.KernelIdeal.Gen.mem_uc Cert.KernelIdeal.main_arg5 (by decide))).trans (Cert.KernelIdeal.Gen.B10_main_arg5 m ρ c),
       (h c _ (Cert.KernelIdeal.Gen.mem_uc Cert.KernelIdeal.main_arg6 (by decide))).trans (Cert.KernelIdeal.Gen.B10_main_arg6 m ρ c),
       (h c _ (Cert.KernelIdeal.Gen.mem_uc Cert.KernelIdeal.main_arg7 (by decide))).trans (Cert.KernelIdeal.Gen.B10_main_arg7 m ρ c),
       (h c _ (Cert.KernelIdeal.Gen.mem_uc Cert.KernelIdeal.main_arg8 (by decide))).trans (Cert.KernelIdeal.Gen.B10_main_arg8 m ρ c),
       (h c _ (Cert.KernelIdeal.Gen.mem_uc Cert.KernelIdeal.main_arg9 (by decide))).trans (Cert.KernelIdeal.Gen.B10_main_arg9 m ρ c),
       (h c _ (Cert.KernelIdeal.Gen.mem_uc Cert.KernelIdeal.main_arg10 (by decide))).trans (Cert.KernelIdeal.Gen.B10_main_arg10 m ρ c),
       (h c _ (Cert.KernelIdeal.Gen.mem_uc Cert.KernelIdeal.main_arg11 (by decide))).trans (Cert.KernelIdeal.Gen.B10_main_arg11 m ρ c),
       (h c _ (Cert.KernelIdeal.Gen.mem_uc Cert.KernelIdeal.main_arg12 (by decide))).trans (Cert.KernelIdeal.Gen.B10_main_arg12 m ρ c),
       (h c _ (Cert.KernelIdeal.Gen.mem_uc Cert.KernelIdeal.main_arg13 (by decide))).trans (Cert.KernelIdeal.Gen.B10_main_arg13 m ρ c),
       (h c _ (Cert.KernelIdeal.Gen.mem_uc Cert.KernelIdeal.main_arg14 (by decide))).trans (Cert.KernelIdeal.Gen.B10_main_arg14 m ρ c),
       (h c _ (Cert.KernelIdeal.Gen.mem_uc Cert.KernelIdeal.main_arg15 (by decide))).trans (Cert.KernelIdeal.Gen.B10_main_arg15 m ρ c),
       (h c _ (Cert.KernelIdeal.Gen.mem_uc Cert.KernelIdeal.main_arg16 (by decide))).trans (Cert.KernelIdeal.Gen.B10_main_arg16 m ρ c),
       (h c _ (Cert.KernelIdeal.Gen.mem_uc Cert.KernelIdeal.main_arg17 (by decide))).trans (Cert.KernelIdeal.Gen.B10_main_arg17 m ρ c),
       (h c _ (Cert.KernelIdeal.Gen.mem_uc Cert.KernelIdeal.main_arg18 (by decide))).trans (Cert.KernelIdeal.Gen.B10_main_arg18 m ρ c),
       (h c _ (Cert.KernelIdeal.Gen.mem_uc Cert.KernelIdeal.main_arg19 (by decide))).trans (Cert.KernelIdeal.Gen.B10_main_arg19 m ρ c),
       (h c _ (Cert.KernelIdeal.Gen.mem_uc Cert.KernelIdeal.main_arg20 (by decide))).trans (Cert.KernelIdeal.Gen.B10_main_arg20 m ρ c),
       (h c _ (Cert.KernelIdeal.Gen.mem_uc Cert.KernelIdeal.main_arg21 (by decide))).trans (Cert.KernelIdeal.Gen.B10_main_arg21 m ρ c),
       (h c _ (Cert.KernelIdeal.Gen.mem_uc Cert.KernelIdeal.main_arg22 (by decide))).trans (Cert.KernelIdeal.Gen.B10_main_arg22 m ρ c)⟩)
      (Cert.KernelIdeal.Gen.run_all m ρ)
  · refine (θ_run Cert.ReferenceIdeal.defs _ _).mono (fun r h c => ?_) (Cert.ReferenceIdeal.Ops.run_fold (F := Ideal) m' ρ')
    obtain ⟨g0, g1, g2, g3, g4, g5, g6, g7, g8, g9, g10, g11, g12, g13, g14, g15, g16, g17, g18, g19, g20, g21, g22⟩ := hagree c
    have hv : Cert.ReferenceIdeal.Read.val_main_v240 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22))
        = Cert.ReferenceIdeal.Read.val_main_v240 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
      rw [g0, g1, g2, g3, g4, g5, g6, g7, g8, g9, g10, g11, g12, g13, g14, g15, g16, g17, g18, g19, g20, g21, g22]
    exact ⟨((h c Cert.ReferenceIdeal.main_v240).trans (Cert.RefChain.ref_value (StableHlo.launchContents m' c))).trans hv,
       (h c Cert.ReferenceIdeal.main_arg0).trans (Cert.RefChain.ops_keeps _ (r := Cert.ReferenceIdeal.main_arg0) (by decide)),
       (h c Cert.ReferenceIdeal.main_arg1).trans (Cert.RefChain.ops_keeps _ (r := Cert.ReferenceIdeal.main_arg1) (by decide)),
       (h c Cert.ReferenceIdeal.main_arg2).trans (Cert.RefChain.ops_keeps _ (r := Cert.ReferenceIdeal.main_arg2) (by decide)),
       (h c Cert.ReferenceIdeal.main_arg3).trans (Cert.RefChain.ops_keeps _ (r := Cert.ReferenceIdeal.main_arg3) (by decide)),
       (h c Cert.ReferenceIdeal.main_arg4).trans (Cert.RefChain.ops_keeps _ (r := Cert.ReferenceIdeal.main_arg4) (by decide)),
       (h c Cert.ReferenceIdeal.main_arg5).trans (Cert.RefChain.ops_keeps _ (r := Cert.ReferenceIdeal.main_arg5) (by decide)),
       (h c Cert.ReferenceIdeal.main_arg6).trans (Cert.RefChain.ops_keeps _ (r := Cert.ReferenceIdeal.main_arg6) (by decide)),
       (h c Cert.ReferenceIdeal.main_arg7).trans (Cert.RefChain.ops_keeps _ (r := Cert.ReferenceIdeal.main_arg7) (by decide)),
       (h c Cert.ReferenceIdeal.main_arg8).trans (Cert.RefChain.ops_keeps _ (r := Cert.ReferenceIdeal.main_arg8) (by decide)),
       (h c Cert.ReferenceIdeal.main_arg9).trans (Cert.RefChain.ops_keeps _ (r := Cert.ReferenceIdeal.main_arg9) (by decide)),
       (h c Cert.ReferenceIdeal.main_arg10).trans (Cert.RefChain.ops_keeps _ (r := Cert.ReferenceIdeal.main_arg10) (by decide)),
       (h c Cert.ReferenceIdeal.main_arg11).trans (Cert.RefChain.ops_keeps _ (r := Cert.ReferenceIdeal.main_arg11) (by decide)),
       (h c Cert.ReferenceIdeal.main_arg12).trans (Cert.RefChain.ops_keeps _ (r := Cert.ReferenceIdeal.main_arg12) (by decide)),
       (h c Cert.ReferenceIdeal.main_arg13).trans (Cert.RefChain.ops_keeps _ (r := Cert.ReferenceIdeal.main_arg13) (by decide)),
       (h c Cert.ReferenceIdeal.main_arg14).trans (Cert.RefChain.ops_keeps _ (r := Cert.ReferenceIdeal.main_arg14) (by decide)),
       (h c Cert.ReferenceIdeal.main_arg15).trans (Cert.RefChain.ops_keeps _ (r := Cert.ReferenceIdeal.main_arg15) (by decide)),
       (h c Cert.ReferenceIdeal.main_arg16).trans (Cert.RefChain.ops_keeps _ (r := Cert.ReferenceIdeal.main_arg16) (by decide)),
       (h c Cert.ReferenceIdeal.main_arg17).trans (Cert.RefChain.ops_keeps _ (r := Cert.ReferenceIdeal.main_arg17) (by decide)),
       (h c Cert.ReferenceIdeal.main_arg18).trans (Cert.RefChain.ops_keeps _ (r := Cert.ReferenceIdeal.main_arg18) (by decide)),
       (h c Cert.ReferenceIdeal.main_arg19).trans (Cert.RefChain.ops_keeps _ (r := Cert.ReferenceIdeal.main_arg19) (by decide)),
       (h c Cert.ReferenceIdeal.main_arg20).trans (Cert.RefChain.ops_keeps _ (r := Cert.ReferenceIdeal.main_arg20) (by decide)),
       (h c Cert.ReferenceIdeal.main_arg21).trans (Cert.RefChain.ops_keeps _ (r := Cert.ReferenceIdeal.main_arg21) (by decide)),
       (h c Cert.ReferenceIdeal.main_arg22).trans (Cert.RefChain.ops_keeps _ (r := Cert.ReferenceIdeal.main_arg22) (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
